-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3 : Shape := ⟨2, ![65536, 3]⟩
abbrev S65536x1 : Shape := ⟨2, ![65536, 1]⟩
abbrev S65536x4 : Shape := ⟨2, ![65536, 4]⟩
abbrev S20 : Shape := ⟨1, ![20]⟩
abbrev S128x20 : Shape := ⟨2, ![128, 20]⟩
abbrev S128 : Shape := ⟨1, ![128]⟩
abbrev S128x128 : Shape := ⟨2, ![128, 128]⟩
abbrev S384x128 : Shape := ⟨2, ![384, 128]⟩
abbrev S384 : Shape := ⟨1, ![384]⟩
abbrev S64x128 : Shape := ⟨2, ![64, 128]⟩
abbrev S64 : Shape := ⟨1, ![64]⟩
abbrev S1x64 : Shape := ⟨2, ![1, 64]⟩
abbrev S1 : Shape := ⟨1, ![1]⟩
abbrev S3x64 : Shape := ⟨2, ![3, 64]⟩
abbrev S3 : Shape := ⟨1, ![3]⟩
abbrev S2x65536x128 : Shape := ⟨3, ![2, 65536, 128]⟩
abbrev S_ : Shape := ⟨0, ![]⟩

class Facts : Prop where
  bcast_S_S65536x3 : S_.BroadcastsInDim S65536x3 (![] : Fin 0 → Fin S65536x3.rank)
  reducesTo_S65536x3_S_d0_1 : S65536x3.ReducesTo [0, 1] S_
  h_S_ : 0 < S_.numel
  bcast_S_S65536x1 : S_.BroadcastsInDim S65536x1 (![] : Fin 0 → Fin S65536x1.rank)
  reducesTo_S65536x1_S_d0_1 : S65536x1.ReducesTo [0, 1] S_
  bcast_S_S65536x4 : S_.BroadcastsInDim S65536x4 (![] : Fin 0 → Fin S65536x4.rank)
  reducesTo_S65536x4_S_d0_1 : S65536x4.ReducesTo [0, 1] S_
  bcast_S_S20 : S_.BroadcastsInDim S20 (![] : Fin 0 → Fin S20.rank)
  reducesTo_S20_S_d0 : S20.ReducesTo [0] S_
  bcast_S_S128x20 : S_.BroadcastsInDim S128x20 (![] : Fin 0 → Fin S128x20.rank)
  reducesTo_S128x20_S_d0_1 : S128x20.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_
  bcast_S_S2x65536x128 : S_.BroadcastsInDim S2x65536x128 (![] : Fin 0 → Fin S2x65536x128.rank)
  reducesTo_S2x65536x128_S_d0_1_2 : S2x65536x128.ReducesTo [0, 1, 2] S_

variable [Facts]

def fn_part8 {F : FTy → Type} [FloatOps F] (main_arg28 : FVec F S3 .f32) (main_arg29 : FVec F S2x65536x128 .f32) (main_v133 : IVec S_ 1) (main_v136 : IVec S3x64 1) : IVec S_ 1 :=
  let main_c_53 : IVec S_ 1 := constantI S_ 1 1#1
  let main_v137 : IVec S_ 1 := (fun x v => Host.reduce IntOp.andi x v reducesTo_S3x64_S_d0_1 h_S_) main_v136 main_c_53
  let main_v138 : IVec S_ 1 := andi main_v133 main_v137
  let main_v139 : FVec F S3 .f32 := Host.absf main_arg28
  let main_cst_54 : FVec F S_ .f32 := constant S_ .f32 0x7F800000#32
  let main_v140 : FVec F S3 .f32 := broadcastInDim S3 ![] bcast_S_S3 main_cst_54
  let main_v141 : IVec S3 1 := cmpf .olt main_v139 main_v140
  let main_c_55 : IVec S_ 1 := constantI S_ 1 1#1
  let main_v142 : IVec S_ 1 := (fun x v => Host.reduce IntOp.andi x v reducesTo_S3_S_d0 h_S_) main_v141 main_c_55
  let main_v143 : IVec S_ 1 := andi main_v138 main_v142
  let main_v144 : FVec F S2x65536x128 .f32 := Host.absf main_arg29
  let main_cst_56 : FVec F S_ .f32 := constant S_ .f32 0x7F800000#32
  let main_v145 : FVec F S2x65536x128 .f32 := broadcastInDim S2x65536x128 ![] bcast_S_S2x65536x128 main_cst_56
  let main_v146 : IVec S2x65536x128 1 := cmpf .olt main_v144 main_v145
  let main_c_57 : IVec S_ 1 := constantI S_ 1 1#1
  let main_v147 : IVec S_ 1 := (fun x v => Host.reduce IntOp.andi x v reducesTo_S2x65536x128_S_d0_1_2 h_S_) main_v146 main_c_57
  let main_v148 : IVec S_ 1 := andi main_v143 main_v147
  main_v148

def fn_part7 {F : FTy → Type} [FloatOps F] (main_arg25 : FVec F S64x128 .f32) (main_arg26 : FVec F S64 .f32) (main_arg27 : FVec F S3x64 .f32) (main_arg28 : FVec F S3 .f32) (main_arg29 : FVec F S2x65536x128 .f32) (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  let main_v124 : FVec F S64x128 .f32 := Host.absf main_arg25
  let main_cst_48 : FVec F S_ .f32 := constant S_ .f32 0x7F800000#32
  let main_v125 : FVec F S64x128 .f32 := broadcastInDim S64x128 ![] bcast_S_S64x128 main_cst_48
  let main_v126 : IVec S64x128 1 := cmpf .olt main_v124 main_v125
  let main_c_49 : IVec S_ 1 := constantI S_ 1 1#1
  let main_v127 : IVec S_ 1 := (fun x v => Host.reduce IntOp.andi x v reducesTo_S64x128_S_d0_1 h_S_) main_v126 main_c_49
  let main_v128 : IVec S_ 1 := andi main_v123 main_v127
  let main_v129 : FVec F S64 .f32 := Host.absf main_arg26
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S3x64 .f32 := Host.absf main_arg27
  let main_cst_52 : FVec F S_ .f32 := constant S_ .f32 0x7F800000#32
  let main_v135 : FVec F S3x64 .f32 := broadcastInDim S3x64 ![] bcast_S_S3x64 main_cst_52
  let main_v136 : IVec S3x64 1 := cmpf .olt main_v134 main_v135
  fn_part8 (F := F) main_arg28 main_arg29 main_v133 main_v136

def fn_part6 {F : FTy → Type} [FloatOps F] (main_arg21 : FVec F S64x128 .f32) (main_arg22 : FVec F S64 .f32) (main_arg23 : FVec F S1x64 .f32) (main_arg24 : FVec F S1 .f32) (main_arg25 : FVec F S64x128 .f32) (main_arg26 : FVec F S64 .f32) (main_arg27 : FVec F S3x64 .f32) (main_arg28 : FVec F S3 .f32) (main_arg29 : FVec F S2x65536x128 .f32) (main_v98 : IVec S_ 1) (main_v101 : IVec S384 1) (main_c_39 : IVec S_ 1) : IVec S_ 1 :=
  let main_v102 : IVec S_ 1 := (fun x v => Host.reduce IntOp.andi x v reducesTo_S384_S_d0 h_S_) main_v101 main_c_39
  let main_v103 : IVec S_ 1 := andi main_v98 main_v102
  let main_v104 : FVec F S64x128 .f32 := Host.absf main_arg21
  let main_cst_40 : FVec F S_ .f32 := constant S_ .f32 0x7F800000#32
  let main_v105 : FVec F S64x128 .f32 := broadcastInDim S64x128 ![] bcast_S_S64x128 main_cst_40
  let main_v106 : IVec S64x128 1 := cmpf .olt main_v104 main_v105
  let main_c_41 : IVec S_ 1 := constantI S_ 1 1#1
  let main_v107 : IVec S_ 1 := (fun x v => Host.reduce IntOp.andi x v reducesTo_S64x128_S_d0_1 h_S_) main_v106 main_c_41
  let main_v108 : IVec S_ 1 := andi main_v103 main_v107
  let main_v109 : FVec F S64 .f32 := Host.absf main_arg22
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S1x64 .f32 := Host.absf main_arg23
  let main_cst_44 : FVec F S_ .f32 := constant S_ .f32 0x7F800000#32
  let main_v115 : FVec F S1x64 .f32 := broadcastInDim S1x64 ![] bcast_S_S1x64 main_cst_44
  let main_v116 : IVec S1x64 1 := cmpf .olt main_v114 main_v115
  let main_c_45 : IVec S_ 1 := constantI S_ 1 1#1
  let main_v117 : IVec S_ 1 := (fun x v => Host.reduce IntOp.andi x v reducesTo_S1x64_S_d0_1 h_S_) main_v116 main_c_45
  let main_v118 : IVec S_ 1 := andi main_v113 main_v117
  let main_v119 : FVec F S1 .f32 := Host.absf main_arg24
  fn_part7 (F := F) main_arg25 main_arg26 main_arg27 main_arg28 main_arg29 main_v118 main_v119

def fn_part5 {F : FTy → Type} [FloatOps F] (main_arg18 : FVec F S384x128 .f32) (main_arg19 : FVec F S384 .f32) (main_arg20 : FVec F S384 .f32) (main_arg21 : FVec F S64x128 .f32) (main_arg22 : FVec F S64 .f32) (main_arg23 : FVec F S1x64 .f32) (main_arg24 : FVec F S1 .f32) (main_arg25 : FVec F S64x128 .f32) (main_arg26 : FVec F S64 .f32) (main_arg27 : FVec F S3x64 .f32) (main_arg28 : FVec F S3 .f32) (main_arg29 : FVec F S2x65536x128 .f32) (main_v83 : IVec S_ 1) (main_v84 : FVec F S384x128 .f32) (main_cst_32 : FVec F S_ .f32) : IVec S_ 1 :=
  let main_v85 : FVec F S384x128 .f32 := broadcastInDim S384x128 ![] bcast_S_S384x128 main_cst_32
  let main_v86 : IVec S384x128 1 := cmpf .olt main_v84 main_v85
  let main_c_33 : IVec S_ 1 := constantI S_ 1 1#1
  let main_v87 : IVec S_ 1 := (fun x v => Host.reduce IntOp.andi x v reducesTo_S384x128_S_d0_1 h_S_) main_v86 main_c_33
  let main_v88 : IVec S_ 1 := andi main_v83 main_v87
  let main_v89 : FVec F S384x128 .f32 := Host.absf main_arg18
  let main_cst_34 : FVec F S_ .f32 := constant S_ .f32 0x7F800000#32
  let main_v90 : FVec F S384x128 .f32 := broadcastInDim S384x128 ![] bcast_S_S384x128 main_cst_34
  let main_v91 : IVec S384x128 1 := cmpf .olt main_v89 main_v90
  let main_c_35 : IVec S_ 1 := constantI S_ 1 1#1
  let main_v92 : IVec S_ 1 := (fun x v => Host.reduce IntOp.andi x v reducesTo_S384x128_S_d0_1 h_S_) main_v91 main_c_35
  let main_v93 : IVec S_ 1 := andi main_v88 main_v92
  let main_v94 : FVec F S384 .f32 := Host.absf main_arg19
  let main_cst_36 : FVec F S_ .f32 := constant S_ .f32 0x7F800000#32
  let main_v95 : FVec F S384 .f32 := broadcastInDim S384 ![] bcast_S_S384 main_cst_36
  let main_v96 : IVec S384 1 := cmpf .olt main_v94 main_v95
  let main_c_37 : IVec S_ 1 := constantI S_ 1 1#1
  let main_v97 : IVec S_ 1 := (fun x v => Host.reduce IntOp.andi x v reducesTo_S384_S_d0 h_S_) main_v96 main_c_37
  let main_v98 : IVec S_ 1 := andi main_v93 main_v97
  let main_v99 : FVec F S384 .f32 := Host.absf main_arg20
  let main_cst_38 : FVec F S_ .f32 := constant S_ .f32 0x7F800000#32
  let main_v100 : FVec F S384 .f32 := broadcastInDim S384 ![] bcast_S_S384 main_cst_38
  let main_v101 : IVec S384 1 := cmpf .olt main_v99 main_v100
  let main_c_39 : IVec S_ 1 := constantI S_ 1 1#1
  fn_part6 (F := F) main_arg21 main_arg22 main_arg23 main_arg24 main_arg25 main_arg26 main_arg27 main_arg28 main_arg29 main_v98 main_v101 main_c_39

def fn_part4 {F : FTy → Type} [FloatOps F] (main_arg14 : FVec F S384x128 .f32) (main_arg15 : FVec F S384 .f32) (main_arg16 : FVec F S384 .f32) (main_arg17 : FVec F S384x128 .f32) (main_arg18 : FVec F S384x128 .f32) (main_arg19 : FVec F S384 .f32) (main_arg20 : FVec F S384 .f32) (main_arg21 : FVec F S64x128 .f32) (main_arg22 : FVec F S64 .f32) (main_arg23 : FVec F S1x64 .f32) (main_arg24 : FVec F S1 .f32) (main_arg25 : FVec F S64x128 .f32) (main_arg26 : FVec F S64 .f32) (main_arg27 : FVec F S3x64 .f32) (main_arg28 : FVec F S3 .f32) (main_arg29 : FVec F S2x65536x128 .f32) (main_v63 : IVec S_ 1) (main_v67 : IVec S_ 1) : IVec S_ 1 :=
  let main_v68 : IVec S_ 1 := andi main_v63 main_v67
  let main_v69 : FVec F S384x128 .f32 := Host.absf main_arg14
  let main_cst_26 : FVec F S_ .f32 := constant S_ .f32 0x7F800000#32
  let main_v70 : FVec F S384x128 .f32 := broadcastInDim S384x128 ![] bcast_S_S384x128 main_cst_26
  let main_v71 : IVec S384x128 1 := cmpf .olt main_v69 main_v70
  let main_c_27 : IVec S_ 1 := constantI S_ 1 1#1
  let main_v72 : IVec S_ 1 := (fun x v => Host.reduce IntOp.andi x v reducesTo_S384x128_S_d0_1 h_S_) main_v71 main_c_27
  let main_v73 : IVec S_ 1 := andi main_v68 main_v72
  let main_v74 : FVec F S384 .f32 := Host.absf main_arg15
  let main_cst_28 : FVec F S_ .f32 := constant S_ .f32 0x7F800000#32
  let main_v75 : FVec F S384 .f32 := broadcastInDim S384 ![] bcast_S_S384 main_cst_28
  let main_v76 : IVec S384 1 := cmpf .olt main_v74 main_v75
  let main_c_29 : IVec S_ 1 := constantI S_ 1 1#1
  let main_v77 : IVec S_ 1 := (fun x v => Host.reduce IntOp.andi x v reducesTo_S384_S_d0 h_S_) main_v76 main_c_29
  let main_v78 : IVec S_ 1 := andi main_v73 main_v77
  let main_v79 : FVec F S384 .f32 := Host.absf main_arg16
  let main_cst_30 : FVec F S_ .f32 := constant S_ .f32 0x7F800000#32
  let main_v80 : FVec F S384 .f32 := broadcastInDim S384 ![] bcast_S_S384 main_cst_30
  let main_v81 : IVec S384 1 := cmpf .olt main_v79 main_v80
  let main_c_31 : IVec S_ 1 := constantI S_ 1 1#1
  let main_v82 : IVec S_ 1 := (fun x v => Host.reduce IntOp.andi x v reducesTo_S384_S_d0 h_S_) main_v81 main_c_31
  let main_v83 : IVec S_ 1 := andi main_v78 main_v82
  let main_v84 : FVec F S384x128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_v83 main_v84 main_cst_32

def fn_part3 {F : FTy → Type} [FloatOps F] (main_arg11 : FVec F S128x128 .f32) (main_arg12 : FVec F S128 .f32) (main_arg13 : FVec F S384x128 .f32) (main_arg14 : FVec F S384x128 .f32) (main_arg15 : FVec F S384 .f32) (main_arg16 : FVec F S384 .f32) (main_arg17 : FVec F S384x128 .f32) (main_arg18 : FVec F S384x128 .f32) (main_arg19 : FVec F S384 .f32) (main_arg20 : FVec F S384 .f32) (main_arg21 : FVec F S64x128 .f32) (main_arg22 : FVec F S64 .f32) (main_arg23 : FVec F S1x64 .f32) (main_arg24 : FVec F S1 .f32) (main_arg25 : FVec F S64x128 .f32) (main_arg26 : FVec F S64 .f32) (main_arg27 : FVec F S3x64 .f32) (main_arg28 : FVec F S3 .f32) (main_arg29 : FVec F S2x65536x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S384x128 .f32 := Host.absf main_arg13
  let main_cst_24 : FVec F S_ .f32 := constant S_ .f32 0x7F800000#32
  let main_v65 : FVec F S384x128 .f32 := broadcastInDim S384x128 ![] bcast_S_S384x128 main_cst_24
  let main_v66 : IVec S384x128 1 := cmpf .olt main_v64 main_v65
  let main_c_25 : IVec S_ 1 := constantI S_ 1 1#1
  let main_v67 : IVec S_ 1 := (fun x v => Host.reduce IntOp.andi x v reducesTo_S384x128_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg7 : FVec F S20 .f32) (main_arg8 : FVec F S20 .f32) (main_arg9 : FVec F S128x20 .f32) (main_arg10 : FVec F S128 .f32) (main_arg11 : FVec F S128x128 .f32) (main_arg12 : FVec F S128 .f32) (main_arg13 : FVec F S384x128 .f32) (main_arg14 : FVec F S384x128 .f32) (main_arg15 : FVec F S384 .f32) (main_arg16 : FVec F S384 .f32) (main_arg17 : FVec F S384x128 .f32) (main_arg18 : FVec F S384x128 .f32) (main_arg19 : FVec F S384 .f32) (main_arg20 : FVec F S384 .f32) (main_arg21 : FVec F S64x128 .f32) (main_arg22 : FVec F S64 .f32) (main_arg23 : FVec F S1x64 .f32) (main_arg24 : FVec F S1 .f32) (main_arg25 : FVec F S64x128 .f32) (main_arg26 : FVec F S64 .f32) (main_arg27 : FVec F S3x64 .f32) (main_arg28 : FVec F S3 .f32) (main_arg29 : FVec F S2x65536x128 .f32) (main_v33 : IVec S_ 1) : IVec S_ 1 :=
  let main_v34 : FVec F S20 .f32 := Host.absf main_arg7
  let main_cst_12 : FVec F S_ .f32 := constant S_ .f32 0x7F800000#32
  let main_v35 : FVec F S20 .f32 := broadcastInDim S20 ![] bcast_S_S20 main_cst_12
  let main_v36 : IVec S20 1 := cmpf .olt main_v34 main_v35
  let main_c_13 : IVec S_ 1 := constantI S_ 1 1#1
  let main_v37 : IVec S_ 1 := (fun x v => Host.reduce IntOp.andi x v reducesTo_S20_S_d0 h_S_) main_v36 main_c_13
  let main_v38 : IVec S_ 1 := andi main_v33 main_v37
  let main_v39 : FVec F S20 .f32 := Host.absf main_arg8
  let main_cst_14 : FVec F S_ .f32 := constant S_ .f32 0x7F800000#32
  let main_v40 : FVec F S20 .f32 := broadcastInDim S20 ![] bcast_S_S20 main_cst_14
  let main_v41 : IVec S20 1 := cmpf .olt main_v39 main_v40
  let main_c_15 : IVec S_ 1 := constantI S_ 1 1#1
  let main_v42 : IVec S_ 1 := (fun x v => Host.reduce IntOp.andi x v reducesTo_S20_S_d0 h_S_) main_v41 main_c_15
  let main_v43 : IVec S_ 1 := andi main_v38 main_v42
  let main_v44 : FVec F S128x20 .f32 := Host.absf main_arg9
  let main_cst_16 : FVec F S_ .f32 := constant S_ .f32 0x7F800000#32
  let main_v45 : FVec F S128x20 .f32 := broadcastInDim S128x20 ![] bcast_S_S128x20 main_cst_16
  let main_v46 : IVec S128x20 1 := cmpf .olt main_v44 main_v45
  let main_c_17 : IVec S_ 1 := constantI S_ 1 1#1
  let main_v47 : IVec S_ 1 := (fun x v => Host.reduce IntOp.andi x v reducesTo_S128x20_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg4 : FVec F S65536x3 .f32) (main_arg5 : FVec F S65536x3 .f32) (main_arg6 : FVec F S65536x4 .f32) (main_arg7 : FVec F S20 .f32) (main_arg8 : FVec F S20 .f32) (main_arg9 : FVec F S128x20 .f32) (main_arg10 : FVec F S128 .f32) (main_arg11 : FVec F S128x128 .f32) (main_arg12 : FVec F S128 .f32) (main_arg13 : FVec F S384x128 .f32) (main_arg14 : FVec F S384x128 .f32) (main_arg15 : FVec F S384 .f32) (main_arg16 : FVec F S384 .f32) (main_arg17 : FVec F S384x128 .f32) (main_arg18 : FVec F S384x128 .f32) (main_arg19 : FVec F S384 .f32) (main_arg20 : FVec F S384 .f32) (main_arg21 : FVec F S64x128 .f32) (main_arg22 : FVec F S64 .f32) (main_arg23 : FVec F S1x64 .f32) (main_arg24 : FVec F S1 .f32) (main_arg25 : FVec F S64x128 .f32) (main_arg26 : FVec F S64 .f32) (main_arg27 : FVec F S3x64 .f32) (main_arg28 : FVec F S3 .f32) (main_arg29 : FVec F S2x65536x128 .f32) (main_v13 : IVec S_ 1) (main_v16 : IVec S65536x3 1) : IVec S_ 1 :=
  let main_c_5 : IVec S_ 1 := constantI S_ 1 1#1
  let main_v17 : IVec S_ 1 := (fun x v => Host.reduce IntOp.andi x v reducesTo_S65536x3_S_d0_1 h_S_) main_v16 main_c_5
  let main_v18 : IVec S_ 1 := andi main_v13 main_v17
  let main_v19 : FVec F S65536x3 .f32 := Host.absf main_arg4
  let main_cst_6 : FVec F S_ .f32 := constant S_ .f32 0x7F800000#32
  let main_v20 : FVec F S65536x3 .f32 := broadcastInDim S65536x3 ![] bcast_S_S65536x3 main_cst_6
  let main_v21 : IVec S65536x3 1 := cmpf .olt main_v19 main_v20
  let main_c_7 : IVec S_ 1 := constantI S_ 1 1#1
  let main_v22 : IVec S_ 1 := (fun x v => Host.reduce IntOp.andi x v reducesTo_S65536x3_S_d0_1 h_S_) main_v21 main_c_7
  let main_v23 : IVec S_ 1 := andi main_v18 main_v22
  let main_v24 : FVec F S65536x3 .f32 := Host.absf main_arg5
  let main_cst_8 : FVec F S_ .f32 := constant S_ .f32 0x7F800000#32
  let main_v25 : FVec F S65536x3 .f32 := broadcastInDim S65536x3 ![] bcast_S_S65536x3 main_cst_8
  let main_v26 : IVec S65536x3 1 := cmpf .olt main_v24 main_v25
  let main_c_9 : IVec S_ 1 := constantI S_ 1 1#1
  let main_v27 : IVec S_ 1 := (fun x v => Host.reduce IntOp.andi x v reducesTo_S65536x3_S_d0_1 h_S_) main_v26 main_c_9
  let main_v28 : IVec S_ 1 := andi main_v23 main_v27
  let main_v29 : FVec F S65536x4 .f32 := Host.absf main_arg6
  let main_cst_10 : FVec F S_ .f32 := constant S_ .f32 0x7F800000#32
  let main_v30 : FVec F S65536x4 .f32 := broadcastInDim S65536x4 ![] bcast_S_S65536x4 main_cst_10
  let main_v31 : IVec S65536x4 1 := cmpf .olt main_v29 main_v30
  let main_c_11 : IVec S_ 1 := constantI S_ 1 1#1
  let main_v32 : IVec S_ 1 := (fun x v => Host.reduce IntOp.andi x v reducesTo_S65536x4_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S65536x3 .f32) (main_arg1 : FVec F S65536x3 .f32) (main_arg2 : FVec F S65536x1 .f32) (main_arg3 : FVec F S65536x3 .f32) (main_arg4 : FVec F S65536x3 .f32) (main_arg5 : FVec F S65536x3 .f32) (main_arg6 : FVec F S65536x4 .f32) (main_arg7 : FVec F S20 .f32) (main_arg8 : FVec F S20 .f32) (main_arg9 : FVec F S128x20 .f32) (main_arg10 : FVec F S128 .f32) (main_arg11 : FVec F S128x128 .f32) (main_arg12 : FVec F S128 .f32) (main_arg13 : FVec F S384x128 .f32) (main_arg14 : FVec F S384x128 .f32) (main_arg15 : FVec F S384 .f32) (main_arg16 : FVec F S384 .f32) (main_arg17 : FVec F S384x128 .f32) (main_arg18 : FVec F S384x128 .f32) (main_arg19 : FVec F S384 .f32) (main_arg20 : FVec F S384 .f32) (main_arg21 : FVec F S64x128 .f32) (main_arg22 : FVec F S64 .f32) (main_arg23 : FVec F S1x64 .f32) (main_arg24 : FVec F S1 .f32) (main_arg25 : FVec F S64x128 .f32) (main_arg26 : FVec F S64 .f32) (main_arg27 : FVec F S3x64 .f32) (main_arg28 : FVec F S3 .f32) (main_arg29 : FVec F S2x65536x128 .f32) : IVec S_ 1 :=
  let main_v0 : FVec F S65536x3 .f32 := Host.absf main_arg0
  let main_cst : FVec F S_ .f32 := constant S_ .f32 0x7F800000#32
  let main_v1 : FVec F S65536x3 .f32 := broadcastInDim S65536x3 ![] bcast_S_S65536x3 main_cst
  let main_v2 : IVec S65536x3 1 := cmpf .olt main_v0 main_v1
  let main_c : IVec S_ 1 := constantI S_ 1 1#1
  let main_v3 : IVec S_ 1 := (fun x v => Host.reduce IntOp.andi x v reducesTo_S65536x3_S_d0_1 h_S_) main_v2 main_c
  let main_v4 : FVec F S65536x3 .f32 := Host.absf main_arg1
  let main_cst_0 : FVec F S_ .f32 := constant S_ .f32 0x7F800000#32
  let main_v5 : FVec F S65536x3 .f32 := broadcastInDim S65536x3 ![] bcast_S_S65536x3 main_cst_0
  let main_v6 : IVec S65536x3 1 := cmpf .olt main_v4 main_v5
  let main_c_1 : IVec S_ 1 := constantI S_ 1 1#1
  let main_v7 : IVec S_ 1 := (fun x v => Host.reduce IntOp.andi x v reducesTo_S65536x3_S_d0_1 h_S_) main_v6 main_c_1
  let main_v8 : IVec S_ 1 := andi main_v3 main_v7
  let main_v9 : FVec F S65536x1 .f32 := Host.absf main_arg2
  let main_cst_2 : FVec F S_ .f32 := constant S_ .f32 0x7F800000#32
  let main_v10 : FVec F S65536x1 .f32 := broadcastInDim S65536x1 ![] bcast_S_S65536x1 main_cst_2
  let main_v11 : IVec S65536x1 1 := cmpf .olt main_v9 main_v10
  let main_c_3 : IVec S_ 1 := constantI S_ 1 1#1
  let main_v12 : IVec S_ 1 := (fun x v => Host.reduce IntOp.andi x v reducesTo_S65536x1_S_d0_1 h_S_) main_v11 main_c_3
  let main_v13 : IVec S_ 1 := andi main_v8 main_v12
  let main_v14 : FVec F S65536x3 .f32 := Host.absf main_arg3
  let main_cst_4 : FVec F S_ .f32 := constant S_ .f32 0x7F800000#32
  let main_v15 : FVec F S65536x3 .f32 := broadcastInDim S65536x3 ![] bcast_S_S65536x3 main_cst_4
  let main_v16 : IVec S65536x3 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S65536x3 : Shape := ⟨2, ![65536, 3]⟩
abbrev S65536x1 : Shape := ⟨2, ![65536, 1]⟩
abbrev S65536x4 : Shape := ⟨2, ![65536, 4]⟩
abbrev S20 : Shape := ⟨1, ![20]⟩
abbrev S128x20 : Shape := ⟨2, ![128, 20]⟩
abbrev S128 : Shape := ⟨1, ![128]⟩
abbrev S128x128 : Shape := ⟨2, ![128, 128]⟩
abbrev S384x128 : Shape := ⟨2, ![384, 128]⟩
abbrev S384 : Shape := ⟨1, ![384]⟩
abbrev S64x128 : Shape := ⟨2, ![64, 128]⟩
abbrev S64 : Shape := ⟨1, ![64]⟩
abbrev S1x64 : Shape := ⟨2, ![1, 64]⟩
abbrev S1 : Shape := ⟨1, ![1]⟩
abbrev S3x64 : Shape := ⟨2, ![3, 64]⟩
abbrev S3 : Shape := ⟨1, ![3]⟩
abbrev S2x65536x128 : Shape := ⟨3, ![2, 65536, 128]⟩
abbrev S1x65536x128 : Shape := ⟨3, ![1, 65536, 128]⟩
abbrev S65536x128 : Shape := ⟨2, ![65536, 128]⟩
abbrev S512x3 : Shape := ⟨2, ![512, 3]⟩
abbrev S512x1 : Shape := ⟨2, ![512, 1]⟩
abbrev S512x4 : Shape := ⟨2, ![512, 4]⟩
abbrev S512x128 : Shape := ⟨2, ![512, 128]⟩
abbrev S512x20 : Shape := ⟨2, ![512, 20]⟩
abbrev S512 : Shape := ⟨1, ![512]⟩
abbrev S1x20 : Shape := ⟨2, ![1, 20]⟩
abbrev S1x128 : Shape := ⟨2, ![1, 128]⟩
abbrev S512x384 : Shape := ⟨2, ![512, 384]⟩
abbrev S1x384 : Shape := ⟨2, ![1, 384]⟩
abbrev S512x64 : Shape := ⟨2, ![512, 64]⟩

abbrev nBuf : Space → Nat
  | .hbm => 35
  | .vmem => 42
  | .smem => 0
  | _ => 0

abbrev bufTy : (tb : Table) → Fin (tcTables nBuf tb) → BufTy
  | .hbm, ⟨0, _⟩ => ⟨S65536x3, .f32⟩
  | .hbm, ⟨1, _⟩ => ⟨S65536x3, .f32⟩
  | .hbm, ⟨2, _⟩ => ⟨S65536x1, .f32⟩
  | .hbm, ⟨3, _⟩ => ⟨S65536x3, .f32⟩
  | .hbm, ⟨4, _⟩ => ⟨S65536x3, .f32⟩
  | .hbm, ⟨5, _⟩ => ⟨S65536x3, .f32⟩
  | .hbm, ⟨6, _⟩ => ⟨S65536x4, .f32⟩
  | .hbm, ⟨7, _⟩ => ⟨S20, .f32⟩
  | .hbm, ⟨8, _⟩ => ⟨S20, .f32⟩
  | .hbm, ⟨9, _⟩ => ⟨S128x20, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S384x128, .f32⟩
  | .hbm, ⟨14, _⟩ => ⟨S384x128, .f32⟩
  | .hbm, ⟨15, _⟩ => ⟨S384, .f32⟩
  | .hbm, ⟨16, _⟩ => ⟨S384, .f32⟩
  | .hbm, ⟨17, _⟩ => ⟨S384x128, .f32⟩
  | .hbm, ⟨18, _⟩ => ⟨S384x128, .f32⟩
  | .hbm, ⟨19, _⟩ => ⟨S384, .f32⟩
  | .hbm, ⟨20, _⟩ => ⟨S384, .f32⟩
  | .hbm, ⟨21, _⟩ => ⟨S64x128, .f32⟩
  | .hbm, ⟨22, _⟩ => ⟨S64, .f32⟩
  | .hbm, ⟨23, _⟩ => ⟨S1x64, .f32⟩
  | .hbm, ⟨24, _⟩ => ⟨S1, .f32⟩
  | .hbm, ⟨25, _⟩ => ⟨S64x128, .f32⟩
  | .hbm, ⟨26, _⟩ => ⟨S64, .f32⟩
  | .hbm, ⟨27, _⟩ => ⟨S3x64, .f32⟩
  | .hbm, ⟨28, _⟩ => ⟨S3, .f32⟩
  | .hbm, ⟨29, _⟩ => ⟨S2x65536x128, .f32⟩
  | .hbm, ⟨30, _⟩ => ⟨S1x65536x128, .f32⟩
  | .hbm, ⟨31, _⟩ => ⟨S65536x128, .f32⟩
  | .hbm, ⟨32, _⟩ => ⟨S1x65536x128, .f32⟩
  | .hbm, ⟨33, _⟩ => ⟨S65536x128, .f32⟩
  | .hbm, ⟨34, _⟩ => ⟨S65536x4, .f32⟩
  | .local _ .vmem, ⟨0, _⟩ => ⟨S512x3, .f32⟩
  | .local _ .vmem, ⟨1, _⟩ => ⟨S512x3, .f32⟩
  | .local _ .vmem, ⟨2, _⟩ => ⟨S512x3, .f32⟩
  | .local _ .vmem, ⟨3, _⟩ => ⟨S512x3, .f32⟩
  | .local _ .vmem, ⟨4, _⟩ => ⟨S512x1, .f32⟩
  | .local _ .vmem, ⟨5, _⟩ => ⟨S512x1, .f32⟩
  | .local _ .vmem, ⟨6, _⟩ => ⟨S512x3, .f32⟩
  | .local _ .vmem, ⟨7, _⟩ => ⟨S512x3, .f32⟩
  | .local _ .vmem, ⟨8, _⟩ => ⟨S512x3, .f32⟩
  | .local _ .vmem, ⟨9, _⟩ => ⟨S512x3, .f32⟩
  | .local _ .vmem, ⟨10, _⟩ => ⟨S512x3, .f32⟩
  | .local _ .vmem, ⟨11, _⟩ => ⟨S512x3, .f32⟩
  | .local _ .vmem, ⟨12, _⟩ => ⟨S512x4, .f32⟩
  | .local _ .vmem, ⟨13, _⟩ => ⟨S512x4, .f32⟩
  | .local _ .vmem, ⟨14, _⟩ => ⟨S20, .f32⟩
  | .local _ .vmem, ⟨15, _⟩ => ⟨S20, .f32⟩
  | .local _ .vmem, ⟨16, _⟩ => ⟨S128x20, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S384x128, .f32⟩
  | .local _ .vmem, ⟨21, _⟩ => ⟨S384x128, .f32⟩
  | .local _ .vmem, ⟨22, _⟩ => ⟨S384, .f32⟩
  | .local _ .vmem, ⟨23, _⟩ => ⟨S384, .f32⟩
  | .local _ .vmem, ⟨24, _⟩ => ⟨S384x128, .f32⟩
  | .local _ .vmem, ⟨25, _⟩ => ⟨S384x128, .f32⟩
  | .local _ .vmem, ⟨26, _⟩ => ⟨S384, .f32⟩
  | .local _ .vmem, ⟨27, _⟩ => ⟨S384, .f32⟩
  | .local _ .vmem, ⟨28, _⟩ => ⟨S64x128, .f32⟩
  | .local _ .vmem, ⟨29, _⟩ => ⟨S64, .f32⟩
  | .local _ .vmem, ⟨30, _⟩ => ⟨S1x64, .f32⟩
  | .local _ .vmem, ⟨31, _⟩ => ⟨S1, .f32⟩
  | .local _ .vmem, ⟨32, _⟩ => ⟨S64x128, .f32⟩
  | .local _ .vmem, ⟨33, _⟩ => ⟨S64, .f32⟩
  | .local _ .vmem, ⟨34, _⟩ => ⟨S3x64, .f32⟩
  | .local _ .vmem, ⟨35, _⟩ => ⟨S3, .f32⟩
  | .local _ .vmem, ⟨36, _⟩ => ⟨S512x128, .f32⟩
  | .local _ .vmem, ⟨37, _⟩ => ⟨S512x128, .f32⟩
  | .local _ .vmem, ⟨38, _⟩ => ⟨S512x128, .f32⟩
  | .local _ .vmem, ⟨39, _⟩ => ⟨S512x128, .f32⟩
  | .local _ .vmem, ⟨40, _⟩ => ⟨S512x4, .f32⟩
  | .local _ .vmem, ⟨41, _⟩ => ⟨S512x4, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg21_0 : Ref sig .tc := ⟨.vmem, 28, rfl⟩
abbrev cc0_stg22_0 : Ref sig .tc := ⟨.vmem, 29, rfl⟩
abbrev cc0_stg23_0 : Ref sig .tc := ⟨.vmem, 30, rfl⟩
abbrev cc0_stg24_0 : Ref sig .tc := ⟨.vmem, 31, rfl⟩
abbrev cc0_stg25_0 : Ref sig .tc := ⟨.vmem, 32, rfl⟩
abbrev cc0_stg26_0 : Ref sig .tc := ⟨.vmem, 33, rfl⟩
abbrev cc0_stg27_0 : Ref sig .tc := ⟨.vmem, 34, rfl⟩
abbrev cc0_stg28_0 : Ref sig .tc := ⟨.vmem, 35, rfl⟩
abbrev cc0_stg29_0 : Ref sig .tc := ⟨.vmem, 36, rfl⟩
abbrev cc0_stg29_1 : Ref sig .tc := ⟨.vmem, 37, rfl⟩
abbrev cc0_stg30_0 : Ref sig .tc := ⟨.vmem, 38, rfl⟩
abbrev cc0_stg30_1 : Ref sig .tc := ⟨.vmem, 39, rfl⟩
abbrev cc0_stg31_0 : Ref sig .tc := ⟨.vmem, 40, rfl⟩
abbrev cc0_stg31_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27
abbrev cc0_sem21_0 : DmaSem sig := 28
abbrev cc0_sem22_0 : DmaSem sig := 29
abbrev cc0_sem23_0 : DmaSem sig := 30
abbrev cc0_sem24_0 : DmaSem sig := 31
abbrev cc0_sem25_0 : DmaSem sig := 32
abbrev cc0_sem26_0 : DmaSem sig := 33
abbrev cc0_sem27_0 : DmaSem sig := 34
abbrev cc0_sem28_0 : DmaSem sig := 35
abbrev cc0_sem29_0 : DmaSem sig := 36
abbrev cc0_sem29_1 : DmaSem sig := 37
abbrev cc0_sem30_0 : DmaSem sig := 38
abbrev cc0_sem30_1 : DmaSem sig := 39
abbrev cc0_sem31_0 : DmaSem sig := 40
abbrev cc0_sem31_1 : DmaSem sig := 41

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S384x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S384x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S384x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S384x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S384 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S384 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S64x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S64x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S3x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S3 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S512x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S512x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S512x4 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

class Facts₀ : Prop where
  slices_S2x65536x128_S1x65536x128_0_0_0 : S2x65536x128.Slices ![0, 0, 0] S1x65536x128
  shapeCasts_S1x65536x128_S65536x128 : S1x65536x128.ShapeCasts S65536x128
  slices_S2x65536x128_S1x65536x128_1_0_0 : S2x65536x128.Slices ![1, 0, 0] S1x65536x128
  inb_S512x3_S512x3_0_0 : ∀ a, (![0, 0] : Fin 2 → Nat) a + S512x3.size a ≤ S512x3.size a
  h_S512x3 : 0 < S512x3.numel
  inb_S512x1_S512x1_0_0 : ∀ a, (![0, 0] : Fin 2 → Nat) a + S512x1.size a ≤ S512x1.size a
  h_S512x1 : 0 < S512x1.numel
  inb_S512x4_S512x4_0_0 : ∀ a, (![0, 0] : Fin 2 → Nat) a + S512x4.size a ≤ S512x4.size a
  h_S512x4 : 0 < S512x4.numel
  concatenates_S512x3_S512x3_S512x1_S512x3_S512x3_S512x3_S512x4_S512x20_d1 : Shape.Concatenates [S512x3, S512x3, S512x1, S512x3, S512x3, S512x3, S512x4] S512x20 1
  reduces_S512x20_S512 : S512x20.Reduces [1] S512
  shapeCasts_S512_S512x1 : S512.ShapeCasts S512x1
  broadcasts_S512x1_S512x20 : S512x1.Broadcasts S512x20
  inb_S20_S20_0 : ∀ a, (![0] : Fin 1 → Nat) a + S20.size a ≤ S20.size a
  h_S20 : 0 < S20.numel
  shapeCasts_S20_S1x20 : S20.ShapeCasts S1x20
  broadcasts_S1x20_S512x20 : S1x20.Broadcasts S512x20
  bitsLt_bf16_f32 : FTy.bits .bf16 < FTy.bits .f32
  inb_S128x20_S128x20_0_0 : ∀ a, (![0, 0] : Fin 2 → Nat) a + S128x20.size a ≤ S128x20.size a
  h_S128x20 : 0 < S128x20.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S128x128_S128x128_0_0 : ∀ a, (![0, 0] : Fin 2 → Nat) a + S128x128.size a ≤ S128x128.size a
  h_S128x128 : 0 < S128x128.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S384x128_S384x128_0_0 : ∀ a, (![0, 0] : Fin 2 → Nat) a + S384x128.size a ≤ S384x128.size a
  h_S384x128 : 0 < S384x128.numel
  inb_S384_S384_0 : ∀ a, (![0] : Fin 1 → Nat) a + S384.size a ≤ S384.size a
  h_S384 : 0 < S384.numel
  shapeCasts_S384_S1x384 : S384.ShapeCasts S1x384
  broadcasts_S1x384_S512x384 : S1x384.Broadcasts S512x384
  slices_S512x384_o0_0_S512x128 : S512x384.Slices ![0, 0] S512x128
  slices_S512x384_o0_128_S512x128 : S512x384.Slices ![0, 128] S512x128
  slices_S512x384_o0_256_S512x128 : S512x384.Slices ![0, 256] S512x128
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S1x64_S1x64_0_0 : ∀ a, (![0, 0] : Fin 2 → Nat) a + S1x64.size a ≤ S1x64.size a
  h_S1x64 : 0 < S1x64.numel
  inb_S1_S1_0 : ∀ a, (![0] : Fin 1 → Nat) a + S1.size a ≤ S1.size a
  h_S1 : 0 < S1.numel
  shapeCasts_S1x64_S64 : S1x64.ShapeCasts S64
  inpos_S1_p0 : ∀ a, (![0] : Fin 1 → Nat) a < S1.size a
  reduces_S512x64_S512 : S512x64.Reduces [1] S512
  inb_S3x64_S3x64_0_0 : ∀ a, (![0, 0] : Fin 2 → Nat) a + S3x64.size a ≤ S3x64.size a
  h_S3x64 : 0 < S3x64.numel
  inb_S3_S3_0 : ∀ a, (![0] : Fin 1 → Nat) a + S3.size a ≤ S3.size a
  h_S3 : 0 < S3.numel
  slices_S3x64_o0_0_S1x64 : S3x64.Slices ![0, 0] S1x64
  slices_S3_o0_S1 : S3.Slices ![0] S1
  slices_S3x64_o1_0_S1x64 : S3x64.Slices ![1, 0] S1x64
  slices_S3_o1_S1 : S3.Slices ![1] S1
  slices_S3x64_o2_0_S1x64 : S3x64.Slices ![2, 0] S1x64
  slices_S3_o2_S1 : S3.Slices ![2] S1
  concatenates_S512x1_S512x1_S512x1_S512x3_d1 : Shape.Concatenates [S512x1, S512x1, S512x1] S512x3 1
  concatenates_S512x1_S512x3_S512x4_d1 : Shape.Concatenates [S512x1, S512x3] S512x4 1
  dot_S512x20_S128x20_S512x128_1_1_0_0_n_n_wf : DotDims.WF S512x20 S128x20 S512x128 [1] [1] [0] [0] [] []
  dot_S512x128_S128x128_S512x128_1_1_0_0_n_n_wf : DotDims.WF S512x128 S128x128 S512x128 [1] [1] [0] [0] [] []
  dot_S512x128_S384x128_S512x384_1_1_0_0_n_n_wf : DotDims.WF S512x128 S384x128 S512x384 [1] [1] [0] [0] [] []
  dot_S512x128_S64x128_S512x64_1_1_0_0_n_n_wf : DotDims.WF S512x128 S64x128 S512x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S65536x3.size a
  hwx0_0 : ∀ i : grid0.Coords, EltTy.bits .f32 = 32 ∨ (Rect.block (s := S65536x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3.size a ≤ S65536x3.size a
  hwx0_1 : ∀ i : grid0.Coords, EltTy.bits .f32 = 32 ∨ (Rect.block (s := S65536x3) S512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S65536x1.size a
  hwx0_2 : ∀ i : grid0.Coords, EltTy.bits .f32 = 32 ∨ (Rect.block (s := S65536x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3.size a ≤ S65536x3.size a
  hwx0_3 : ∀ i : grid0.Coords, EltTy.bits .f32 = 32 ∨ (Rect.block (s := S65536x3) S512x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x3.size a ≤ S65536x3.size a
  hwx0_4 : ∀ i : grid0.Coords, EltTy.bits .f32 = 32 ∨ (Rect.block (s := S65536x3) S512x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x3.size a ≤ S65536x3.size a
  hwx0_5 : ∀ i : grid0.Coords, EltTy.bits .f32 = 32 ∨ (Rect.block (s := S65536x3) S512x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x4.size a ≤ S65536x4.size a
  hwx0_6 : ∀ i : grid0.Coords, EltTy.bits .f32 = 32 ∨ (Rect.block (s := S65536x4) S512x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S20.size a ≤ S20.size a
  hwx0_7 : ∀ i : grid0.Coords, EltTy.bits .f32 = 32 ∨ (Rect.block (s := S20) S20.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S20.size a ≤ S20.size a
  hwx0_8 : ∀ i : grid0.Coords, EltTy.bits .f32 = 32 ∨ (Rect.block (s := S20) S20.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x20.size a ≤ S128x20.size a
  hwx0_9 : ∀ i : grid0.Coords, EltTy.bits .f32 = 32 ∨ (Rect.block (s := S128x20) S128x20.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S384x128.size a ≤ S384x128.size a
  hwx0_13 : ∀ i : grid0.Coords, EltTy.bits .f32 = 32 ∨ (Rect.block (s := S384x128) S384x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S384x128.size a ≤ S384x128.size a
  hwx0_14 : ∀ i : grid0.Coords, EltTy.bits .f32 = 32 ∨ (Rect.block (s := S384x128) S384x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S384.size a ≤ S384.size a
  hwx0_15 : ∀ i : grid0.Coords, EltTy.bits .f32 = 32 ∨ (Rect.block (s := S384) S384.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S384.size a ≤ S384.size a
  hwx0_16 : ∀ i : grid0.Coords, EltTy.bits .f32 = 32 ∨ (Rect.block (s := S384) S384.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S384x128.size a ≤ S384x128.size a
  hwx0_17 : ∀ i : grid0.Coords, EltTy.bits .f32 = 32 ∨ (Rect.block (s := S384x128) S384x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S384x128.size a ≤ S384x128.size a
  hwx0_18 : ∀ i : grid0.Coords, EltTy.bits .f32 = 32 ∨ (Rect.block (s := S384x128) S384x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S384.size a ≤ S384.size a
  hwx0_19 : ∀ i : grid0.Coords, EltTy.bits .f32 = 32 ∨ (Rect.block (s := S384) S384.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S384.size a ≤ S384.size a
  hwx0_20 : ∀ i : grid0.Coords, EltTy.bits .f32 = 32 ∨ (Rect.block (s := S384) S384.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S64x128.size a ≤ S64x128.size a
  hwx0_21 : ∀ i : grid0.Coords, EltTy.bits .f32 = 32 ∨ (Rect.block (s := S64x128) S64x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S64.size a ≤ S64.size a
  hwx0_22 : ∀ i : grid0.Coords, EltTy.bits .f32 = 32 ∨ (Rect.block (s := S64) S64.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x64.size a ≤ S1x64.size a
  hwx0_23 : ∀ i : grid0.Coords, EltTy.bits .f32 = 32 ∨ (Rect.block (s := S1x64) S1x64.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1.size a ≤ S1.size a
  hwx0_24 : ∀ i : grid0.Coords, EltTy.bits .f32 = 32 ∨ (Rect.block (s := S1) S1.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S64x128.size a ≤ S64x128.size a
  hwx0_25 : ∀ i : grid0.Coords, EltTy.bits .f32 = 32 ∨ (Rect.block (s := S64x128) S64x128.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S64.size a ≤ S64.size a
  hwx0_26 : ∀ i : grid0.Coords, EltTy.bits .f32 = 32 ∨ (Rect.block (s := S64) S64.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S3x64.size a ≤ S3x64.size a
  hwx0_27 : ∀ i : grid0.Coords, EltTy.bits .f32 = 32 ∨ (Rect.block (s := S3x64) S3x64.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S3.size a ≤ S3.size a
  hwx0_28 : ∀ i : grid0.Coords, EltTy.bits .f32 = 32 ∨ (Rect.block (s := S3) S3.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S512x128.size a ≤ S65536x128.size a
  hwx0_29 : ∀ i : grid0.Coords, EltTy.bits .f32 = 32 ∨ (Rect.block (s := S65536x128) S512x128.size (cc0_transform_29 i) (hinb0_29 i)).WholeWords (EltTy.packing .f32)
  hstage0_30 : ∀ j, (stage0_30 j).IsWhole
  nbuf0_30 : grid0.bufCount reads0_30 false = 2
  hreads0_30 : ∀ i i' : grid0.Coords, (∀ a, reads0_30 a = true → i a = i' a) → cc0_transform_30 i = cc0_transform_30 i'
  hinb0_30 : ∀ (i : grid0.Coords) a, (cc0_transform_30 i a + 1) * S512x128.size a ≤ S65536x128.size a
  hwx0_30 : ∀ i : grid0.Coords, EltTy.bits .f32 = 32 ∨ (Rect.block (s := S65536x128) S512x128.size (cc0_transform_30 i) (hinb0_30 i)).WholeWords (EltTy.packing .f32)
  hstage0_31 : ∀ j, (stage0_31 j).IsWhole
  nbuf0_31 : grid0.bufCount reads0_31 false = 2
  hreads0_31 : ∀ i i' : grid0.Coords, (∀ a, reads0_31 a = true → i a = i' a) → cc0_transform_31 i = cc0_transform_31 i'
  hinb0_31 : ∀ (i : grid0.Coords) a, (cc0_transform_31 i a + 1) * S512x4.size a ≤ S65536x4.size a
  hwx0_31 : ∀ i : grid0.Coords, EltTy.bits .f32 = 32 ∨ (Rect.block (s := S65536x4) S512x4.size (cc0_transform_31 i) (hinb0_31 i)).WholeWords (EltTy.packing .f32)

variable [Facts₀]

def dot_S512x20_S128x20_S512x128_1_1_0_0_n_n : DotDims S512x20 S128x20 S512x128 where
  lhsContracting := [1]
  rhsContracting := [1]
  lhsNonContracting := [0]
  rhsNonContracting := [0]
  lhsBatch := []
  rhsBatch := []
  wf := dot_S512x20_S128x20_S512x128_1_1_0_0_n_n_wf
def dot_S512x128_S128x128_S512x128_1_1_0_0_n_n : DotDims S512x128 S128x128 S512x128 where
  lhsContracting := [1]
  rhsContracting := [1]
  lhsNonContracting := [0]
  rhsNonContracting := [0]
  lhsBatch := []
  rhsBatch := []
  wf := dot_S512x128_S128x128_S512x128_1_1_0_0_n_n_wf
def dot_S512x128_S384x128_S512x384_1_1_0_0_n_n : DotDims S512x128 S384x128 S512x384 where
  lhsContracting := [1]
  rhsContracting := [1]
  lhsNonContracting := [0]
  rhsNonContracting := [0]
  lhsBatch := []
  rhsBatch := []
  wf := dot_S512x128_S384x128_S512x384_1_1_0_0_n_n_wf
def dot_S512x128_S64x128_S512x64_1_1_0_0_n_n : DotDims S512x128 S64x128 S512x64 where
  lhsContracting := [1]
  rhsContracting := [1]
  lhsNonContracting := [0]
  rhsNonContracting := [0]
  lhsBatch := []
  rhsBatch := []
  wf := dot_S512x128_S64x128_S512x64_1_1_0_0_n_n_wf

abbrev win0_0 : Pipeline.Window sig grid0 :=
  Pipeline.Window.ofSpec (Memref.whole main_arg0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x3.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x4.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S20.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S20.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x20.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S384x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S384x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S384.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S384.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S384x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S384x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S384.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S384.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S64x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S64.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S1x64.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S1.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S64x128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg26) S64.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg27) S3x64.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_arg28) S3.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v1) S512x128.size cc0_transform_29 reads0_29 false false 2 stage0_29 sem0_29
    hrank0 hreads0_29 hinb0_29 nbuf0_29 (Memref.isWhole_whole _) hwx0_29 hstage0_29

abbrev win0_30 : Pipeline.Window sig grid0 :=
  Pipeline.Window.ofSpec (Memref.whole main_v3) S512x128.size cc0_transform_30 reads0_30 false false 2 stage0_30 sem0_30
    hrank0 hreads0_30 hinb0_30 nbuf0_30 (Memref.isWhole_whole _) hwx0_30 hstage0_30

abbrev win0_31 : Pipeline.Window sig grid0 :=
  Pipeline.Window.ofSpec (Memref.whole main_v4) S512x4.size cc0_transform_31 reads0_31 true false 2 stage0_31 sem0_31
    hrank0 hreads0_31 hinb0_31 nbuf0_31 (Memref.isWhole_whole _) hwx0_31 hstage0_31

abbrev win0 : Fin 32 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | ⟨_ + 32, h⟩ => absurd h (Nat.not_lt.2 (Nat.le_add_left _ _))
abbrev spec0 : Fin 32 → Pipeline.WinSpec sig grid0.rank := fun w => (win0 w).toWinSpec

class Facts : Prop extends Facts₀ where

variable [Facts]
-- ==== ReferenceIdeal.lean ====
abbrev S65536x3 : Shape := ⟨2, ![65536, 3]⟩
abbrev S65536x1 : Shape := ⟨2, ![65536, 1]⟩
abbrev S65536x4 : Shape := ⟨2, ![65536, 4]⟩
abbrev S20 : Shape := ⟨1, ![20]⟩
abbrev S128x20 : Shape := ⟨2, ![128, 20]⟩
abbrev S128 : Shape := ⟨1, ![128]⟩
abbrev S128x128 : Shape := ⟨2, ![128, 128]⟩
abbrev S384x128 : Shape := ⟨2, ![384, 128]⟩
abbrev S384 : Shape := ⟨1, ![384]⟩
abbrev S64x128 : Shape := ⟨2, ![64, 128]⟩
abbrev S64 : Shape := ⟨1, ![64]⟩
abbrev S1x64 : Shape := ⟨2, ![1, 64]⟩
abbrev S1 : Shape := ⟨1, ![1]⟩
abbrev S3x64 : Shape := ⟨2, ![3, 64]⟩
abbrev S3 : Shape := ⟨1, ![3]⟩
abbrev S2x65536x128 : Shape := ⟨3, ![2, 65536, 128]⟩
abbrev S65536x20 : Shape := ⟨2, ![65536, 20]⟩
abbrev S_ : Shape := ⟨0, ![]⟩
abbrev S65536 : Shape := ⟨1, ![65536]⟩
abbrev S1x20 : Shape := ⟨2, ![1, 20]⟩
abbrev S20x128 : Shape := ⟨2, ![20, 128]⟩
abbrev S65536x128 : Shape := ⟨2, ![65536, 128]⟩
abbrev S1x128 : Shape := ⟨2, ![1, 128]⟩
abbrev S1x65536x128 : Shape := ⟨3, ![1, 65536, 128]⟩
abbrev S128x384 : Shape := ⟨2, ![128, 384]⟩
abbrev S65536x384 : Shape := ⟨2, ![65536, 384]⟩
abbrev S1x384 : Shape := ⟨2, ![1, 384]⟩
abbrev S128x64 : Shape := ⟨2, ![128, 64]⟩
abbrev S65536x64 : Shape := ⟨2, ![65536, 64]⟩
abbrev S64x1 : Shape := ⟨2, ![64, 1]⟩
abbrev S1x1 : Shape := ⟨2, ![1, 1]⟩
abbrev S64x3 : Shape := ⟨2, ![64, 3]⟩
abbrev S1x3 : Shape := ⟨2, ![1, 3]⟩

abbrev nBuf : Space → Nat
  | .hbm => 240
  | .vmem => 0
  | .smem => 0
  | _ => 0

abbrev hbmTy0_0 (i : Nat) : BufTy := match i % 128 with
  | 0 => ⟨S65536x3, .f32⟩
  | 1 => ⟨S65536x3, .f32⟩
  | 2 => ⟨S65536x1, .f32⟩
  | 3 => ⟨S65536x3, .f32⟩
  | 4 => ⟨S65536x3, .f32⟩
  | 5 => ⟨S65536x3, .f32⟩
  | 6 => ⟨S65536x4, .f32⟩
  | 7 => ⟨S20, .f32⟩
  | 8 => ⟨S20, .f32⟩
  | 9 => ⟨S128x20, .f32⟩
  | 10 => ⟨S128, .f32⟩
  | 11 => ⟨S128x128, .f32⟩
  | 12 => ⟨S128, .f32⟩
  | 13 => ⟨S384x128, .f32⟩
  | 14 => ⟨S384x128, .f32⟩
  | 15 => ⟨S384, .f32⟩
  | 16 => ⟨S384, .f32⟩
  | 17 => ⟨S384x128, .f32⟩
  | 18 => ⟨S384x128, .f32⟩
  | 19 => ⟨S384, .f32⟩
  | 20 => ⟨S384, .f32⟩
  | 21 => ⟨S64x128, .f32⟩
  | 22 => ⟨S64, .f32⟩
  | 23 => ⟨S1x64, .f32⟩
  | 24 => ⟨S1, .f32⟩
  | 25 => ⟨S64x128, .f32⟩
  | 26 => ⟨S64, .f32⟩
  | 27 => ⟨S3x64, .f32⟩
  | 28 => ⟨S3, .f32⟩
  | 29 => ⟨S2x65536x128, .f32⟩
  | 30 => ⟨S65536x20, .f32⟩
  | 31 => ⟨S_, .f32⟩
  | 32 => ⟨S65536, .f32⟩
  | 33 => ⟨S65536x1, .f32⟩
  | 34 => ⟨S_, .f32⟩
  | 35 => ⟨S65536x1, .f32⟩
  | 36 => ⟨S65536x1, .f32⟩
  | 37 => ⟨S65536x20, .f32⟩
  | 38 => ⟨S65536x20, .f32⟩
  | 39 => ⟨S65536x20, .f32⟩
  | 40 => ⟨S_, .f32⟩
  | 41 => ⟨S65536, .f32⟩
  | 42 => ⟨S65536x1, .f32⟩
  | 43 => ⟨S_, .f32⟩
  | 44 => ⟨S65536x1, .f32⟩
  | 45 => ⟨S65536x1, .f32⟩
  | 46 => ⟨S65536x20, .f32⟩
  | 47 => ⟨S65536x20, .f32⟩
  | 48 => ⟨S_, .f32⟩
  | 49 => ⟨S65536x1, .f32⟩
  | 50 => ⟨S65536x1, .f32⟩
  | 51 => ⟨S65536x1, .f32⟩
  | 52 => ⟨S65536x20, .f32⟩
  | 53 => ⟨S65536x20, .f32⟩
  | 54 => ⟨S1x20, .f32⟩
  | 55 => ⟨S65536x20, .f32⟩
  | 56 => ⟨S65536x20, .f32⟩
  | 57 => ⟨S1x20, .f32⟩
  | 58 => ⟨S65536x20, .f32⟩
  | 59 => ⟨S65536x20, .f32⟩
  | 60 => ⟨S20x128, .f32⟩
  | 61 => ⟨S65536x128, .f32⟩
  | 62 => ⟨S1x128, .f32⟩
  | 63 => ⟨S65536x128, .f32⟩
  | 64 => ⟨S65536x128, .f32⟩
  | 65 => ⟨S_, .f32⟩
  | 66 => ⟨S65536x128, .f32⟩
  | 67 => ⟨S65536x128, .i1⟩
  | 68 => ⟨S_, .f32⟩
  | 69 => ⟨S65536x128, .f32⟩
  | 70 => ⟨S65536x128, .i1⟩
  | 71 => ⟨S_, .f32⟩
  | 72 => ⟨S_, .f32⟩
  | 73 => ⟨S65536x128, .f32⟩
  | 74 => ⟨S65536x128, .f32⟩
  | 75 => ⟨S65536x128, .f32⟩
  | 76 => ⟨S_, .f32⟩
  | 77 => ⟨S65536x128, .f32⟩
  | 78 => ⟨S65536x128, .f32⟩
  | 79 => ⟨S65536x128, .f32⟩
  | 80 => ⟨S128x128, .f32⟩
  | 81 => ⟨S65536x128, .f32⟩
  | 82 => ⟨S1x128, .f32⟩
  | 83 => ⟨S65536x128, .f32⟩
  | 84 => ⟨S65536x128, .f32⟩
  | 85 => ⟨S1x65536x128, .f32⟩
  | 86 => ⟨S65536x128, .f32⟩
  | 87 => ⟨S128x384, .f32⟩
  | 88 => ⟨S65536x384, .f32⟩
  | 89 => ⟨S1x384, .f32⟩
  | 90 => ⟨S65536x384, .f32⟩
  | 91 => ⟨S65536x384, .f32⟩
  | 92 => ⟨S128x384, .f32⟩
  | 93 => ⟨S65536x384, .f32⟩
  | 94 => ⟨S1x384, .f32⟩
  | 95 => ⟨S65536x384, .f32⟩
  | 96 => ⟨S65536x384, .f32⟩
  | 97 => ⟨S65536x128, .f32⟩
  | 98 => ⟨S65536x128, .f32⟩
  | 99 => ⟨S65536x128, .f32⟩
  | 100 => ⟨S65536x128, .f32⟩
  | 101 => ⟨S65536x128, .f32⟩
  | 102 => ⟨S65536x128, .f32⟩
  | 103 => ⟨S65536x128, .f32⟩
  | 104 => ⟨S65536x128, .f32⟩
  | 105 => ⟨S65536x128, .f32⟩
  | 106 => ⟨S_, .f32⟩
  | 107 => ⟨S65536x128, .f32⟩
  | 108 => ⟨S65536x128, .f32⟩
  | 109 => ⟨S_, .f32⟩
  | 110 => ⟨S65536x128, .f32⟩
  | 111 => ⟨S65536x128, .f32⟩
  | 112 => ⟨S65536x128, .f32⟩
  | 113 => ⟨S65536x128, .f32⟩
  | 114 => ⟨S65536x128, .f32⟩
  | 115 => ⟨S_, .f32⟩
  | 116 => ⟨S65536x128, .f32⟩
  | 117 => ⟨S65536x128, .f32⟩
  | 118 => ⟨S_, .f32⟩
  | 119 => ⟨S65536x128, .f32⟩
  | 120 => ⟨S65536x128, .f32⟩
  | 121 => ⟨S65536x128, .f32⟩
  | 122 => ⟨S65536x128, .f32⟩
  | 123 => ⟨S65536x128, .f32⟩
  | 124 => ⟨S_, .f32⟩
  | 125 => ⟨S65536x128, .f32⟩
  | 126 => ⟨S65536x128, .f32⟩
  | 127 => ⟨S65536x128, .f32⟩
  | _ => ⟨S65536x3, .f32⟩

abbrev hbmTy0_1 (i : Nat) : BufTy := match i % 128 with
  | 0 => ⟨S65536x128, .f32⟩
  | 1 => ⟨S65536x128, .f32⟩
  | 2 => ⟨S1x65536x128, .f32⟩
  | 3 => ⟨S65536x128, .f32⟩
  | 4 => ⟨S128x384, .f32⟩
  | 5 => ⟨S65536x384, .f32⟩
  | 6 => ⟨S1x384, .f32⟩
  | 7 => ⟨S65536x384, .f32⟩
  | 8 => ⟨S65536x384, .f32⟩
  | 9 => ⟨S128x384, .f32⟩
  | 10 => ⟨S65536x384, .f32⟩
  | 11 => ⟨S1x384, .f32⟩
  | 12 => ⟨S65536x384, .f32⟩
  | 13 => ⟨S65536x384, .f32⟩
  | 14 => ⟨S65536x128, .f32⟩
  | 15 => ⟨S65536x128, .f32⟩
  | 16 => ⟨S65536x128, .f32⟩
  | 17 => ⟨S65536x128, .f32⟩
  | 18 => ⟨S65536x128, .f32⟩
  | 19 => ⟨S65536x128, .f32⟩
  | 20 => ⟨S65536x128, .f32⟩
  | 21 => ⟨S65536x128, .f32⟩
  | 22 => ⟨S65536x128, .f32⟩
  | 23 => ⟨S_, .f32⟩
  | 24 => ⟨S65536x128, .f32⟩
  | 25 => ⟨S65536x128, .f32⟩
  | 26 => ⟨S_, .f32⟩
  | 27 => ⟨S65536x128, .f32⟩
  | 28 => ⟨S65536x128, .f32⟩
  | 29 => ⟨S65536x128, .f32⟩
  | 30 => ⟨S65536x128, .f32⟩
  | 31 => ⟨S65536x128, .f32⟩
  | 32 => ⟨S_, .f32⟩
  | 33 => ⟨S65536x128, .f32⟩
  | 34 => ⟨S65536x128, .f32⟩
  | 35 => ⟨S_, .f32⟩
  | 36 => ⟨S65536x128, .f32⟩
  | 37 => ⟨S65536x128, .f32⟩
  | 38 => ⟨S65536x128, .f32⟩
  | 39 => ⟨S65536x128, .f32⟩
  | 40 => ⟨S65536x128, .f32⟩
  | 41 => ⟨S_, .f32⟩
  | 42 => ⟨S65536x128, .f32⟩
  | 43 => ⟨S65536x128, .f32⟩
  | 44 => ⟨S65536x128, .f32⟩
  | 45 => ⟨S65536x128, .f32⟩
  | 46 => ⟨S65536x128, .f32⟩
  | 47 => ⟨S128x64, .f32⟩
  | 48 => ⟨S65536x64, .f32⟩
  | 49 => ⟨S1x64, .f32⟩
  | 50 => ⟨S65536x64, .f32⟩
  | 51 => ⟨S65536x64, .f32⟩
  | 52 => ⟨S_, .f32⟩
  | 53 => ⟨S65536x64, .f32⟩
  | 54 => ⟨S65536x64, .i1⟩
  | 55 => ⟨S_, .f32⟩
  | 56 => ⟨S65536x64, .f32⟩
  | 57 => ⟨S65536x64, .i1⟩
  | 58 => ⟨S_, .f32⟩
  | 59 => ⟨S_, .f32⟩
  | 60 => ⟨S65536x64, .f32⟩
  | 61 => ⟨S65536x64, .f32⟩
  | 62 => ⟨S65536x64, .f32⟩
  | 63 => ⟨S_, .f32⟩
  | 64 => ⟨S65536x64, .f32⟩
  | 65 => ⟨S65536x64, .f32⟩
  | 66 => ⟨S65536x64, .f32⟩
  | 67 => ⟨S64x1, .f32⟩
  | 68 => ⟨S65536x1, .f32⟩
  | 69 => ⟨S1x1, .f32⟩
  | 70 => ⟨S65536x1, .f32⟩
  | 71 => ⟨S65536x1, .f32⟩
  | 72 => ⟨S_, .f32⟩
  | 73 => ⟨S65536x1, .f32⟩
  | 74 => ⟨S65536x1, .f32⟩
  | 75 => ⟨S65536x1, .f32⟩
  | 76 => ⟨S65536x1, .f32⟩
  | 77 => ⟨S65536x1, .i1⟩
  | 78 => ⟨S65536x1, .f32⟩
  | 79 => ⟨S65536x1, .f32⟩
  | 80 => ⟨S65536x1, .f32⟩
  | 81 => ⟨S65536x1, .f32⟩
  | 82 => ⟨S65536x1, .f32⟩
  | 83 => ⟨S65536x1, .f32⟩
  | 84 => ⟨S65536x1, .f32⟩
  | 85 => ⟨S65536x1, .f32⟩
  | 86 => ⟨S128x64, .f32⟩
  | 87 => ⟨S65536x64, .f32⟩
  | 88 => ⟨S1x64, .f32⟩
  | 89 => ⟨S65536x64, .f32⟩
  | 90 => ⟨S65536x64, .f32⟩
  | 91 => ⟨S_, .f32⟩
  | 92 => ⟨S65536x64, .f32⟩
  | 93 => ⟨S65536x64, .i1⟩
  | 94 => ⟨S_, .f32⟩
  | 95 => ⟨S65536x64, .f32⟩
  | 96 => ⟨S65536x64, .i1⟩
  | 97 => ⟨S_, .f32⟩
  | 98 => ⟨S_, .f32⟩
  | 99 => ⟨S65536x64, .f32⟩
  | 100 => ⟨S65536x64, .f32⟩
  | 101 => ⟨S65536x64, .f32⟩
  | 102 => ⟨S_, .f32⟩
  | 103 => ⟨S65536x64, .f32⟩
  | 104 => ⟨S65536x64, .f32⟩
  | 105 => ⟨S65536x64, .f32⟩
  | 106 => ⟨S64x3, .f32⟩
  | 107 => ⟨S65536x3, .f32⟩
  | 108 => ⟨S1x3, .f32⟩
  | 109 => ⟨S65536x3, .f32⟩
  | 110 => ⟨S65536x3, .f32⟩
  | 111 => ⟨S65536x4, .f32⟩
  | _ => ⟨S65536x3, .f32⟩

abbrev hbmTy (i : Nat) : BufTy := match i / 128 with
  | 0 => hbmTy0_0 i
  | 1 => hbmTy0_1 i
  | _ => ⟨S65536x3, .f32⟩

abbrev bufTy : (tb : Table) → Fin (tcTables nBuf tb) → BufTy
  | .hbm, ⟨i, _⟩ => hbmTy i
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_v2 : Ref sig .tc := ⟨.hbm, 33, rfl⟩
abbrev main_cst_0 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_cst_1 : Ref sig .tc := ⟨.hbm, 40, rfl⟩
abbrev main_v8 : Ref sig .tc := ⟨.hbm, 41, rfl⟩
abbrev main_v9 : Ref sig .tc := ⟨.hbm, 42, rfl⟩
abbrev main_cst_2 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_3 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_call0_cst : Ref sig .tc := ⟨.hbm, 65, rfl⟩
abbrev main_call0_v0 : Ref sig .tc := ⟨.hbm, 66, rfl⟩
abbrev main_call0_v1 : Ref sig .tc := ⟨.hbm, 67, rfl⟩
abbrev main_call0_cst_0 : Ref sig .tc := ⟨.hbm, 68, rfl⟩
abbrev main_call0_v2 : Ref sig .tc := ⟨.hbm, 69, rfl⟩
abbrev main_call0_v3 : Ref sig .tc := ⟨.hbm, 70, rfl⟩
abbrev main_call0_cst_1 : Ref sig .tc := ⟨.hbm, 71, rfl⟩
abbrev main_call0_call0_v0 : Ref sig .tc := ⟨.hbm, 72, rfl⟩
abbrev main_call0_call0_v1 : Ref sig .tc := ⟨.hbm, 73, rfl⟩
abbrev main_call0_v4 : Ref sig .tc := ⟨.hbm, 74, rfl⟩
abbrev main_call0_v5 : Ref sig .tc := ⟨.hbm, 75, rfl⟩
abbrev main_call0_cst_2 : Ref sig .tc := ⟨.hbm, 76, rfl⟩
abbrev main_call0_v6 : Ref sig .tc := ⟨.hbm, 77, rfl⟩
abbrev main_call0_v7 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_cst_4 : Ref sig .tc := ⟨.hbm, 106, rfl⟩
abbrev main_v57 : Ref sig .tc := ⟨.hbm, 107, rfl⟩
abbrev main_v58 : Ref sig .tc := ⟨.hbm, 108, rfl⟩
abbrev main_cst_5 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_cst_6 : Ref sig .tc := ⟨.hbm, 115, rfl⟩
abbrev main_v64 : Ref sig .tc := ⟨.hbm, 116, rfl⟩
abbrev main_v65 : Ref sig .tc := ⟨.hbm, 117, rfl⟩
abbrev main_cst_7 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_cst_8 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_cst_9 : Ref sig .tc := ⟨.hbm, 151, rfl⟩
abbrev main_v97 : Ref sig .tc := ⟨.hbm, 152, rfl⟩
abbrev main_v98 : Ref sig .tc := ⟨.hbm, 153, rfl⟩
abbrev main_cst_10 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_cst_11 : Ref sig .tc := ⟨.hbm, 160, rfl⟩
abbrev main_v104 : Ref sig .tc := ⟨.hbm, 161, rfl⟩
abbrev main_v105 : Ref sig .tc := ⟨.hbm, 162, rfl⟩
abbrev main_cst_12 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_cst_13 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_call1_cst : Ref sig .tc := ⟨.hbm, 180, rfl⟩
abbrev main_call1_v0 : Ref sig .tc := ⟨.hbm, 181, rfl⟩
abbrev main_call1_v1 : Ref sig .tc := ⟨.hbm, 182, rfl⟩
abbrev main_call1_cst_0 : Ref sig .tc := ⟨.hbm, 183, rfl⟩
abbrev main_call1_v2 : Ref sig .tc := ⟨.hbm, 184, rfl⟩
abbrev main_call1_v3 : Ref sig .tc := ⟨.hbm, 185, rfl⟩
abbrev main_call1_cst_1 : Ref sig .tc := ⟨.hbm, 186, rfl⟩
abbrev main_call1_call0_v0 : Ref sig .tc := ⟨.hbm, 187, rfl⟩
abbrev main_call1_call0_v1 : Ref sig .tc := ⟨.hbm, 188, rfl⟩
abbrev main_call1_v4 : Ref sig .tc := ⟨.hbm, 189, rfl⟩
abbrev main_call1_v5 : Ref sig .tc := ⟨.hbm, 190, rfl⟩
abbrev main_call1_cst_2 : Ref sig .tc := ⟨.hbm, 191, rfl⟩
abbrev main_call1_v6 : Ref sig .tc := ⟨.hbm, 192, rfl⟩
abbrev main_call1_v7 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_call2_cst : Ref sig .tc := ⟨.hbm, 200, rfl⟩
abbrev main_call2_v0 : Ref sig .tc := ⟨.hbm, 201, rfl⟩
abbrev main_call2_v1 : Ref sig .tc := ⟨.hbm, 202, rfl⟩
abbrev main_call2_v2 : Ref sig .tc := ⟨.hbm, 203, rfl⟩
abbrev main_call2_v3 : Ref sig .tc := ⟨.hbm, 204, rfl⟩
abbrev main_call2_v4 : Ref sig .tc := ⟨.hbm, 205, rfl⟩
abbrev main_call2_v5 : Ref sig .tc := ⟨.hbm, 206, rfl⟩
abbrev main_call2_v6 : Ref sig .tc := ⟨.hbm, 207, rfl⟩
abbrev main_call2_v7 : Ref sig .tc := ⟨.hbm, 208, rfl⟩
abbrev main_call2_v8 : Ref sig .tc := ⟨.hbm, 209, rfl⟩
abbrev main_call2_v9 : Ref sig .tc := ⟨.hbm, 210, rfl⟩
abbrev main_call2_v10 : Ref sig .tc := ⟨.hbm, 211, rfl⟩
abbrev main_call2_v11 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_call3_cst : Ref sig .tc := ⟨.hbm, 219, rfl⟩
abbrev main_call3_v0 : Ref sig .tc := ⟨.hbm, 220, rfl⟩
abbrev main_call3_v1 : Ref sig .tc := ⟨.hbm, 221, rfl⟩
abbrev main_call3_cst_0 : Ref sig .tc := ⟨.hbm, 222, rfl⟩
abbrev main_call3_v2 : Ref sig .tc := ⟨.hbm, 223, rfl⟩
abbrev main_call3_v3 : Ref sig .tc := ⟨.hbm, 224, rfl⟩
abbrev main_call3_cst_1 : Ref sig .tc := ⟨.hbm, 225, rfl⟩
abbrev main_call3_call0_v0 : Ref sig .tc := ⟨.hbm, 226, rfl⟩
abbrev main_call3_call0_v1 : Ref sig .tc := ⟨.hbm, 227, rfl⟩
abbrev main_call3_v4 : Ref sig .tc := ⟨.hbm, 228, rfl⟩
abbrev main_call3_v5 : Ref sig .tc := ⟨.hbm, 229, rfl⟩
abbrev main_call3_cst_2 : Ref sig .tc := ⟨.hbm, 230, rfl⟩
abbrev main_call3_v6 : Ref sig .tc := ⟨.hbm, 231, rfl⟩
abbrev main_call3_v7 : Ref sig .tc := ⟨.hbm, 232, rfl⟩
abbrev main_v133 : Ref sig .tc := ⟨.hbm, 233, rfl⟩
abbrev main_v134 : Ref sig .tc := ⟨.hbm, 234, rfl⟩
abbrev main_v135 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩

abbrev nD : Nat := 1
abbrev τ : Topo := Topo.v7x

variable {F : FTy → Type} [FloatOps F]

class Facts₀ : Prop where
  concatenates_S65536x3_S65536x3_S65536x1_S65536x3_S65536x3_S65536x3_S65536x4_S65536x20_d1 : Shape.Concatenates [S65536x3, S65536x3, S65536x1, S65536x3, S65536x3, S65536x3, S65536x4] S65536x20 1
  reducesTo_S65536x20_S65536_d1 : S65536x20.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x20_0_1 : S65536x1.BroadcastsInDim S65536x20 (![0, 1] : Fin 2 → Fin S65536x20.rank)
  bcast_S20_S1x20_1 : S20.BroadcastsInDim S1x20 (![1] : Fin 1 → Fin S1x20.rank)
  bcast_S1x20_S65536x20_0_1 : S1x20.BroadcastsInDim S65536x20 (![0, 1] : Fin 2 → Fin S65536x20.rank)
  transposes_S128x20_S20x128_1_0 : S128x20.Transposes [1, 0] S20x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  transposes_S128x128_S128x128_1_0 : S128x128.Transposes [1, 0] S128x128
  slices_S2x65536x128_S1x65536x128_0_0_0 : S2x65536x128.Slices ![0, 0, 0] S1x65536x128
  shapeCasts_S1x65536x128_S65536x128 : S1x65536x128.ShapeCasts S65536x128
  transposes_S384x128_S128x384_1_0 : S384x128.Transposes [1, 0] S128x384
  bcast_S384_S1x384_1 : S384.BroadcastsInDim S1x384 (![1] : Fin 1 → Fin S1x384.rank)
  bcast_S1x384_S65536x384_0_1 : S1x384.BroadcastsInDim S65536x384 (![0, 1] : Fin 2 → Fin S65536x384.rank)
  slices_S65536x384_S65536x128_0_0 : S65536x384.Slices ![0, 0] S65536x128
  slices_S65536x384_S65536x128_0_128 : S65536x384.Slices ![0, 128] S65536x128
  slices_S65536x384_S65536x128_0_256 : S65536x384.Slices ![0, 256] S65536x128
  slices_S2x65536x128_S1x65536x128_1_0_0 : S2x65536x128.Slices ![1, 0, 0] S1x65536x128
  transposes_S64x128_S128x64_1_0 : S64x128.Transposes [1, 0] S128x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  transposes_S1x64_S64x1_1_0 : S1x64.Transposes [1, 0] S64x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  transposes_S3x64_S64x3_1_0 : S3x64.Transposes [1, 0] S64x3
  bcast_S3_S1x3_1 : S3.BroadcastsInDim S1x3 (![1] : Fin 1 → Fin S1x3.rank)
  bcast_S1x3_S65536x3_0_1 : S1x3.BroadcastsInDim S65536x3 (![0, 1] : Fin 2 → Fin S65536x3.rank)
  concatenates_S65536x1_S65536x3_S65536x4_d1 : Shape.Concatenates [S65536x1, S65536x3] S65536x4 1
  dot_S65536x20_S20x128_S65536x128_1_0_0_1_n_n_wf : DotDims.WF S65536x20 S20x128 S65536x128 [1] [0] [0] [1] [] []
  dot_S65536x128_S128x128_S65536x128_1_0_0_1_n_n_wf : DotDims.WF S65536x128 S128x128 S65536x128 [1] [0] [0] [1] [] []
  dot_S65536x128_S128x384_S65536x384_1_0_0_1_n_n_wf : DotDims.WF S65536x128 S128x384 S65536x384 [1] [0] [0] [1] [] []
  dot_S65536x128_S128x64_S65536x64_1_0_0_1_n_n_wf : DotDims.WF S65536x128 S128x64 S65536x64 [1] [0] [0] [1] [] []
  dot_S65536x64_S64x1_S65536x1_1_0_0_1_n_n_wf : DotDims.WF S65536x64 S64x1 S65536x1 [1] [0] [0] [1] [] []
  dot_S65536x64_S64x3_S65536x3_1_0_0_1_n_n_wf : DotDims.WF S65536x64 S64x3 S65536x3 [1] [0] [0] [1] [] []

variable [Facts₀]

def dot_S65536x20_S20x128_S65536x128_1_0_0_1_n_n : DotDims S65536x20 S20x128 S65536x128 where
  lhsContracting := [1]
  rhsContracting := [0]
  lhsNonContracting := [0]
  rhsNonContracting := [1]
  lhsBatch := []
  rhsBatch := []
  wf := dot_S65536x20_S20x128_S65536x128_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S65536x128_S128x384_S65536x384_1_0_0_1_n_n : DotDims S65536x128 S128x384 S65536x384 where
  lhsContracting := [1]
  rhsContracting := [0]
  lhsNonContracting := [0]
  rhsNonContracting := [1]
  lhsBatch := []
  rhsBatch := []
  wf := dot_S65536x128_S128x384_S65536x384_1_0_0_1_n_n_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x1_S65536x1_1_0_0_1_n_n : DotDims S65536x64 S64x1 S65536x1 where
  lhsContracting := [1]
  rhsContracting := [0]
  lhsNonContracting := [0]
  rhsNonContracting := [1]
  lhsBatch := []
  rhsBatch := []
  wf := dot_S65536x64_S64x1_S65536x1_1_0_0_1_n_n_wf
def dot_S65536x64_S64x3_S65536x3_1_0_0_1_n_n : DotDims S65536x64 S64x3 S65536x3 where
  lhsContracting := [1]
  rhsContracting := [0]
  lhsNonContracting := [0]
  rhsNonContracting := [1]
  lhsBatch := []
  rhsBatch := []
  wf := dot_S65536x64_S64x3_S65536x3_1_0_0_1_n_n_wf

class Facts : Prop extends Facts₀ where

variable [Facts]
-- ==== Proof.KernelBlocks.lean ====
/-
  How each of the kernel's 32 windows cuts its array into blocks, read at a grid point t of the 128: the seven
  observation arrays, the two initial hidden arrays and the result move by 512 rows per point (block t is rows
  512 t … 512 t + 511, all columns); every weight array is one block, the same at every point. The index maps are
  decided over the grid once; a block's coordinate is always index × block size + 1 × the coordinate inside the block.
-/
import proofs.«107767_j18107582120224_2_alg».proof.Proof.FrameKernelIdeal
import Idealize.ShloMosaic.Lib.ValueIdx

set_option maxRecDepth 16384

noncomputable section

namespace Cert.KernelIdeal.Blocks

open Cert.KernelIdeal Cert.KernelIdeal.Gen Cert.KernelIdeal.GenP Idealize.ShloMosaic Idealize.ShloMosaic.TcCoe Idealize.SL.Sem
open Idealize.ShloMosaic.ValueIdx

variable (m : (ℓ : Loc nD τ sig) → Buf (Elt Ideal) ℓ)

/-- Row p of the block at point t, as a row of the whole array. -/
def rowOf (t : Fin cfg0.N) (p : Fin 512) : Fin 65536 :=
  ⟨512 * t.val + p.val, by have := t.isLt; have := p.isLt; change t.val < 128 at *; omega⟩

theorem rowOf_val (t : Fin cfg0.N) (p : Fin 512) : (rowOf t p).val = 512 * t.val + p.val := rfl

/-! ## The index maps, decided over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx29 : ∀ t : Fin cfg0.N, win0_29.index t (0 : Fin 2) = t.val ∧ win0_29.index t (1 : Fin 2) = 0 :=
  (by decide +kernel : ∀ t : Fin grid0.N, _)
theorem idx30 : ∀ t : Fin cfg0.N, win0_30.index t (0 : Fin 2) = t.val ∧ win0_30.index t (1 : Fin 2) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 1) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 1) = 0 :=
  (by decide +kernel : ∀ t : Fin grid0.N, _)
theorem idx16 : ∀ t : Fin cfg0.N, win0_16.index t (0 : Fin 1) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 2) = 0 ∧ win0_18.index t (1 : Fin 2) = 0 :=
  (by decide +kernel : ∀ t : Fin grid0.N, _)
theorem idx19 : ∀ t : Fin cfg0.N, win0_19.index t (0 : Fin 1) = 0 :=
  (by decide +kernel : ∀ t : Fin grid0.N, _)
theorem idx20 : ∀ t : Fin cfg0.N, win0_20.index t (0 : Fin 1) = 0 :=
  (by decide +kernel : ∀ t : Fin grid0.N, _)
theorem idx21 : ∀ t : Fin cfg0.N, win0_21.index t (0 : Fin 2) = 0 ∧ win0_21.index t (1 : Fin 2) = 0 :=
  (by decide +kernel : ∀ t : Fin grid0.N, _)
theorem idx22 : ∀ t : Fin cfg0.N, win0_22.index t (0 : Fin 1) = 0 :=
  (by decide +kernel : ∀ t : Fin grid0.N, _)
theorem idx23 : ∀ t : Fin cfg0.N, win0_23.index t (0 : Fin 2) = 0 ∧ win0_23.index t (1 : Fin 2) = 0 :=
  (by decide +kernel : ∀ t : Fin grid0.N, _)
theorem idx24 : ∀ t : Fin cfg0.N, win0_24.index t (0 : Fin 1) = 0 :=
  (by decide +kernel : ∀ t : Fin grid0.N, _)
theorem idx25 : ∀ t : Fin cfg0.N, win0_25.index t (0 : Fin 2) = 0 ∧ win0_25.index t (1 : Fin 2) = 0 :=
  (by decide +kernel : ∀ t : Fin grid0.N, _)
theorem idx26 : ∀ t : Fin cfg0.N, win0_26.index t (0 : Fin 1) = 0 :=
  (by decide +kernel : ∀ t : Fin grid0.N, _)
theorem idx27 : ∀ t : Fin cfg0.N, win0_27.index t (0 : Fin 2) = 0 ∧ win0_27.index t (1 : Fin 2) = 0 :=
  (by decide +kernel : ∀ t : Fin grid0.N, _)
theorem idx28 : ∀ t : Fin cfg0.N, win0_28.index t (0 : Fin 1) = 0 :=
  (by decide +kernel : ∀ t : Fin grid0.N, _)
theorem idx31 : ∀ t : Fin cfg0.N, win0_31.index t (0 : Fin 2) = t.val ∧ win0_31.index t (1 : Fin 2) = 0 :=
  (by decide +kernel : ∀ t : Fin grid0.N, _)

/-! ## The weight windows -/

/-- Window 7 holds its whole array at every point. -/
theorem blk7 (c : Dev nD) (t : Fin cfg0.N) : iblk m c 7 t = V m c main_arg7 := by
  have e0 := idx7 t
  funext j
  show V m c main_arg7 (((cfg0.win 7).blk t).view.emb j) = V m c main_arg7 j
  congr 1
  funext a; apply Fin.ext
  match a with
    | ⟨0, _⟩ => show win0_7.index t (0 : Fin 1) * 20 + 1 * (j 0).val = (j 0).val; omega

/-- Window 8 holds its whole array at every point. -/
theorem blk8 (c : Dev nD) (t : Fin cfg0.N) : iblk m c 8 t = V m c main_arg8 := by
  have e0 := idx8 t
  funext j
  show V m c main_arg8 (((cfg0.win 8).blk t).view.emb j) = V m c main_arg8 j
  congr 1
  funext a; apply Fin.ext
  match a with
    | ⟨0, _⟩ => show win0_8.index t (0 : Fin 1) * 20 + 1 * (j 0).val = (j 0).val; omega

/-- Window 9 holds its whole array at every point. -/
theorem blk9 (c : Dev nD) (t : Fin cfg0.N) : iblk m c 9 t = V m c main_arg9 := by
  obtain ⟨e0, e1⟩ := idx9 t
  funext j
  show V m c main_arg9 (((cfg0.win 9).blk t).view.emb j) = V m c main_arg9 j
  congr 1
  funext a; apply Fin.ext
  match a with
    | ⟨0, _⟩ => show win0_9.index t (0 : Fin 2) * 128 + 1 * (j 0).val = (j 0).val; omega
    | ⟨1, _⟩ => show win0_9.index t (1 : Fin 2) * 20 + 1 * (j 1).val = (j 1).val; omega

/-- Window 10 holds its whole array at every point. -/
theorem blk10 (c : Dev nD) (t : Fin cfg0.N) : iblk m c 10 t = V m c main_arg10 := by
  have e0 := idx10 t
  funext j
  show V m c main_arg10 (((cfg0.win 10).blk t).view.emb j) = V m c main_arg10 j
  congr 1
  funext a; apply Fin.ext
  match a with
    | ⟨0, _⟩ => show win0_10.index t (0 : Fin 1) * 128 + 1 * (j 0).val = (j 0).val; omega

/-- Window 11 holds its whole array at every point. -/
theorem blk11 (c : Dev nD) (t : Fin cfg0.N) : iblk m c 11 t = V m c main_arg11 := by
  obtain ⟨e0, e1⟩ := idx11 t
  funext j
  show V m c main_arg11 (((cfg0.win 11).blk t).view.emb j) = V m c main_arg11 j
  congr 1
  funext a; apply Fin.ext
  match a with
    | ⟨0, _⟩ => show win0_11.index t (0 : Fin 2) * 128 + 1 * (j 0).val = (j 0).val; omega
    | ⟨1, _⟩ => show win0_11.index t (1 : Fin 2) * 128 + 1 * (j 1).val = (j 1).val; omega

/-- Window 12 holds its whole array at every point. -/
theorem blk12 (c : Dev nD) (t : Fin cfg0.N) : iblk m c 12 t = V m c main_arg12 := by
  have e0 := idx12 t
  funext j
  show V m c main_arg12 (((cfg0.win 12).blk t).view.emb j) = V m c main_arg12 j
  congr 1
  funext a; apply Fin.ext
  match a with
    | ⟨0, _⟩ => show win0_12.index t (0 : Fin 1) * 128 + 1 * (j 0).val = (j 0).val; omega

/-- Window 13 holds its whole array at every point. -/
theorem blk13 (c : Dev nD) (t : Fin cfg0.N) : iblk m c 13 t = V m c main_arg13 := by
  obtain ⟨e0, e1⟩ := idx13 t
  funext j
  show V m c main_arg13 (((cfg0.win 13).blk t).view.emb j) = V m c main_arg13 j
  congr 1
  funext a; apply Fin.ext
  match a with
    | ⟨0, _⟩ => show win0_13.index t (0 : Fin 2) * 384 + 1 * (j 0).val = (j 0).val; omega
    | ⟨1, _⟩ => show win0_13.index t (1 : Fin 2) * 128 + 1 * (j 1).val = (j 1).val; omega

/-- Window 14 holds its whole array at every point. -/
theorem blk14 (c : Dev nD) (t : Fin cfg0.N) : iblk m c 14 t = V m c main_arg14 := by
  obtain ⟨e0, e1⟩ := idx14 t
  funext j
  show V m c main_arg14 (((cfg0.win 14).blk t).view.emb j) = V m c main_arg14 j
  congr 1
  funext a; apply Fin.ext
  match a with
    | ⟨0, _⟩ => show win0_14.index t (0 : Fin 2) * 384 + 1 * (j 0).val = (j 0).val; omega
    | ⟨1, _⟩ => show win0_14.index t (1 : Fin 2) * 128 + 1 * (j 1).val = (j 1).val; omega

/-- Window 15 holds its whole array at every point. -/
theorem blk15 (c : Dev nD) (t : Fin cfg0.N) : iblk m c 15 t = V m c main_arg15 := by
  have e0 := idx15 t
  funext j
  show V m c main_arg15 (((cfg0.win 15).blk t).view.emb j) = V m c main_arg15 j
  congr 1
  funext a; apply Fin.ext
  match a with
    | ⟨0, _⟩ => show win0_15.index t (0 : Fin 1) * 384 + 1 * (j 0).val = (j 0).val; omega

/-- Window 16 holds its whole array at every point. -/
theorem blk16 (c : Dev nD) (t : Fin cfg0.N) : iblk m c 16 t = V m c main_arg16 := by
  have e0 := idx16 t
  funext j
  show V m c main_arg16 (((cfg0.win 16).blk t).view.emb j) = V m c main_arg16 j
  congr 1
  funext a; apply Fin.ext
  match a with
    | ⟨0, _⟩ => show win0_16.index t (0 : Fin 1) * 384 + 1 * (j 0).val = (j 0).val; omega

/-- Window 17 holds its whole array at every point. -/
theorem blk17 (c : Dev nD) (t : Fin cfg0.N) : iblk m c 17 t = V m c main_arg17 := by
  obtain ⟨e0, e1⟩ := idx17 t
  funext j
  show V m c main_arg17 (((cfg0.win 17).blk t).view.emb j) = V m c main_arg17 j
  congr 1
  funext a; apply Fin.ext
  match a with
    | ⟨0, _⟩ => show win0_17.index t (0 : Fin 2) * 384 + 1 * (j 0).val = (j 0).val; omega
    | ⟨1, _⟩ => show win0_17.index t (1 : Fin 2) * 128 + 1 * (j 1).val = (j 1).val; omega

/-- Window 18 holds its whole array at every point. -/
theorem blk18 (c : Dev nD) (t : Fin cfg0.N) : iblk m c 18 t = V m c main_arg18 := by
  obtain ⟨e0, e1⟩ := idx18 t
  funext j
  show V m c main_arg18 (((cfg0.win 18).blk t).view.emb j) = V m c main_arg18 j
  congr 1
  funext a; apply Fin.ext
  match a with
    | ⟨0, _⟩ => show win0_18.index t (0 : Fin 2) * 384 + 1 * (j 0).val = (j 0).val; omega
    | ⟨1, _⟩ => show win0_18.index t (1 : Fin 2) * 128 + 1 * (j 1).val = (j 1).val; omega

/-- Window 19 holds its whole array at every point. -/
theorem blk19 (c : Dev nD) (t : Fin cfg0.N) : iblk m c 19 t = V m c main_arg19 := by
  have e0 := idx19 t
  funext j
  show V m c main_arg19 (((cfg0.win 19).blk t).view.emb j) = V m c main_arg19 j
  congr 1
  funext a; apply Fin.ext
  match a with
    | ⟨0, _⟩ => show win0_19.index t (0 : Fin 1) * 384 + 1 * (j 0).val = (j 0).val; omega

/-- Window 20 holds its whole array at every point. -/
theorem blk20 (c : Dev nD) (t : Fin cfg0.N) : iblk m c 20 t = V m c main_arg20 := by
  have e0 := idx20 t
  funext j
  show V m c main_arg20 (((cfg0.win 20).blk t).view.emb j) = V m c main_arg20 j
  congr 1
  funext a; apply Fin.ext
  match a with
    | ⟨0, _⟩ => show win0_20.index t (0 : Fin 1) * 384 + 1 * (j 0).val = (j 0).val; omega

/-- Window 21 holds its whole array at every point. -/
theorem blk21 (c : Dev nD) (t : Fin cfg0.N) : iblk m c 21 t = V m c main_arg21 := by
  obtain ⟨e0, e1⟩ := idx21 t
  funext j
  show V m c main_arg21 (((cfg0.win 21).blk t).view.emb j) = V m c main_arg21 j
  congr 1
  funext a; apply Fin.ext
  match a with
    | ⟨0, _⟩ => show win0_21.index t (0 : Fin 2) * 64 + 1 * (j 0).val = (j 0).val; omega
    | ⟨1, _⟩ => show win0_21.index t (1 : Fin 2) * 128 + 1 * (j 1).val = (j 1).val; omega

/-- Window 22 holds its whole array at every point. -/
theorem blk22 (c : Dev nD) (t : Fin cfg0.N) : iblk m c 22 t = V m c main_arg22 := by
  have e0 := idx22 t
  funext j
  show V m c main_arg22 (((cfg0.win 22).blk t).view.emb j) = V m c main_arg22 j
  congr 1
  funext a; apply Fin.ext
  match a with
    | ⟨0, _⟩ => show win0_22.index t (0 : Fin 1) * 64 + 1 * (j 0).val = (j 0).val; omega

/-- Window 23 holds its whole array at every point. -/
theorem blk23 (c : Dev nD) (t : Fin cfg0.N) : iblk m c 23 t = V m c main_arg23 := by
  obtain ⟨e0, e1⟩ := idx23 t
  funext j
  show V m c main_arg23 (((cfg0.win 23).blk t).view.emb j) = V m c main_arg23 j
  congr 1
  funext a; apply Fin.ext
  match a with
    | ⟨0, _⟩ => show win0_23.index t (0 : Fin 2) * 1 + 1 * (j 0).val = (j 0).val; omega
    | ⟨1, _⟩ => show win0_23.index t (1 : Fin 2) * 64 + 1 * (j 1).val = (j 1).val; omega

/-- Window 24 holds its whole array at every point. -/
theorem blk24 (c : Dev nD) (t : Fin cfg0.N) : iblk m c 24 t = V m c main_arg24 := by
  have e0 := idx24 t
  funext j
  show V m c main_arg24 (((cfg0.win 24).blk t).view.emb j) = V m c main_arg24 j
  congr 1
  funext a; apply Fin.ext
  match a with
    | ⟨0, _⟩ => show win0_24.index t (0 : Fin 1) * 1 + 1 * (j 0).val = (j 0).val; omega

/-- Window 25 holds its whole array at every point. -/
theorem blk25 (c : Dev nD) (t : Fin cfg0.N) : iblk m c 25 t = V m c main_arg25 := by
  obtain ⟨e0, e1⟩ := idx25 t
  funext j
  show V m c main_arg25 (((cfg0.win 25).blk t).view.emb j) = V m c main_arg25 j
  congr 1
  funext a; apply Fin.ext
  match a with
    | ⟨0, _⟩ => show win0_25.index t (0 : Fin 2) * 64 + 1 * (j 0).val = (j 0).val; omega
    | ⟨1, _⟩ => show win0_25.index t (1 : Fin 2) * 128 + 1 * (j 1).val = (j 1).val; omega

/-- Window 26 holds its whole array at every point. -/
theorem blk26 (c : Dev nD) (t : Fin cfg0.N) : iblk m c 26 t = V m c main_arg26 := by
  have e0 := idx26 t
  funext j
  show V m c main_arg26 (((cfg0.win 26).blk t).view.emb j) = V m c main_arg26 j
  congr 1
  funext a; apply Fin.ext
  match a with
    | ⟨0, _⟩ => show win0_26.index t (0 : Fin 1) * 64 + 1 * (j 0).val = (j 0).val; omega

/-- Window 27 holds its whole array at every point. -/
theorem blk27 (c : Dev nD) (t : Fin cfg0.N) : iblk m c 27 t = V m c main_arg27 := by
  obtain ⟨e0, e1⟩ := idx27 t
  funext j
  show V m c main_arg27 (((cfg0.win 27).blk t).view.emb j) = V m c main_arg27 j
  congr 1
  funext a; apply Fin.ext
  match a with
    | ⟨0, _⟩ => show win0_27.index t (0 : Fin 2) * 3 + 1 * (j 0).val = (j 0).val; omega
    | ⟨1, _⟩ => show win0_27.index t (1 : Fin 2) * 64 + 1 * (j 1).val = (j 1).val; omega

/-- Window 28 holds its whole array at every point. -/
theorem blk28 (c : Dev nD) (t : Fin cfg0.N) : iblk m c 28 t = V m c main_arg28 := by
  have e0 := idx28 t
  funext j
  show V m c main_arg28 (((cfg0.win 28).blk t).view.emb j) = V m c main_arg28 j
  congr 1
  funext a; apply Fin.ext
  match a with
    | ⟨0, _⟩ => show win0_28.index t (0 : Fin 1) * 3 + 1 * (j 0).val = (j 0).val; omega

/-! ## The row windows -/

/-- Row p of window 0's block at point t is row 512 t + p of its array. -/
theorem row0 (c : Dev nD) (t : Fin cfg0.N) (p : Fin 512) :
    (fun k : Fin 3 => iblk m c 0 t (ix2 p k)) = fun k => V m c main_arg0 (ix2 (rowOf t p) k) := by
  obtain ⟨e0, e1⟩ := idx0 t
  funext k
  show V m c main_arg0 (((cfg0.win 0).blk t).view.emb (ix2 p k)) = V m c main_arg0 (ix2 (rowOf t p) k)
  congr 1
  funext a; apply Fin.ext
  match a with
    | ⟨0, _⟩ => show win0_0.index t (0 : Fin 2) * 512 + 1 * p.val = 512 * t.val + p.val; omega
    | ⟨1, _⟩ => show win0_0.index t (1 : Fin 2) * 3 + 1 * k.val = k.val; omega

/-- Row p of window 1's block at point t is row 512 t + p of its array. -/
theorem row1 (c : Dev nD) (t : Fin cfg0.N) (p : Fin 512) :
    (fun k : Fin 3 => iblk m c 1 t (ix2 p k)) = fun k => V m c main_arg1 (ix2 (rowOf t p) k) := by
  obtain ⟨e0, e1⟩ := idx1 t
  funext k
  show V m c main_arg1 (((cfg0.win 1).blk t).view.emb (ix2 p k)) = V m c main_arg1 (ix2 (rowOf t p) k)
  congr 1
  funext a; apply Fin.ext
  match a with
    | ⟨0, _⟩ => show win0_1.index t (0 : Fin 2) * 512 + 1 * p.val = 512 * t.val + p.val; omega
    | ⟨1, _⟩ => show win0_1.index t (1 : Fin 2) * 3 + 1 * k.val = k.val; omega

/-- Row p of window 2's block at point t is row 512 t + p of its array. -/
theorem row2 (c : Dev nD) (t : Fin cfg0.N) (p : Fin 512) :
    (fun k : Fin 1 => iblk m c 2 t (ix2 p k)) = fun k => V m c main_arg2 (ix2 (rowOf t p) k) := by
  obtain ⟨e0, e1⟩ := idx2 t
  funext k
  show V m c main_arg2 (((cfg0.win 2).blk t).view.emb (ix2 p k)) = V m c main_arg2 (ix2 (rowOf t p) k)
  congr 1
  funext a; apply Fin.ext
  match a with
    | ⟨0, _⟩ => show win0_2.index t (0 : Fin 2) * 512 + 1 * p.val = 512 * t.val + p.val; omega
    | ⟨1, _⟩ => show win0_2.index t (1 : Fin 2) * 1 + 1 * k.val = k.val; omega

/-- Row p of window 3's block at point t is row 512 t + p of its array. -/
theorem row3 (c : Dev nD) (t : Fin cfg0.N) (p : Fin 512) :
    (fun k : Fin 3 => iblk m c 3 t (ix2 p k)) = fun k => V m c main_arg3 (ix2 (rowOf t p) k) := by
  obtain ⟨e0, e1⟩ := idx3 t
  funext k
  show V m c main_arg3 (((cfg0.win 3).blk t).view.emb (ix2 p k)) = V m c main_arg3 (ix2 (rowOf t p) k)
  congr 1
  funext a; apply Fin.ext
  match a with
    | ⟨0, _⟩ => show win0_3.index t (0 : Fin 2) * 512 + 1 * p.val = 512 * t.val + p.val; omega
    | ⟨1, _⟩ => show win0_3.index t (1 : Fin 2) * 3 + 1 * k.val = k.val; omega

/-- Row p of window 4's block at point t is row 512 t + p of its array. -/
theorem row4 (c : Dev nD) (t : Fin cfg0.N) (p : Fin 512) :
    (fun k : Fin 3 => iblk m c 4 t (ix2 p k)) = fun k => V m c main_arg4 (ix2 (rowOf t p) k) := by
  obtain ⟨e0, e1⟩ := idx4 t
  funext k
  show V m c main_arg4 (((cfg0.win 4).blk t).view.emb (ix2 p k)) = V m c main_arg4 (ix2 (rowOf t p) k)
  congr 1
  funext a; apply Fin.ext
  match a with
    | ⟨0, _⟩ => show win0_4.index t (0 : Fin 2) * 512 + 1 * p.val = 512 * t.val + p.val; omega
    | ⟨1, _⟩ => show win0_4.index t (1 : Fin 2) * 3 + 1 * k.val = k.val; omega

/-- Row p of window 5's block at point t is row 512 t + p of its array. -/
theorem row5 (c : Dev nD) (t : Fin cfg0.N) (p : Fin 512) :
    (fun k : Fin 3 => iblk m c 5 t (ix2 p k)) = fun k => V m c main_arg5 (ix2 (rowOf t p) k) := by
  obtain ⟨e0, e1⟩ := idx5 t
  funext k
  show V m c main_arg5 (((cfg0.win 5).blk t).view.emb (ix2 p k)) = V m c main_arg5 (ix2 (rowOf t p) k)
  congr 1
  funext a; apply Fin.ext
  match a with
    | ⟨0, _⟩ => show win0_5.index t (0 : Fin 2) * 512 + 1 * p.val = 512 * t.val + p.val; omega
    | ⟨1, _⟩ => show win0_5.index t (1 : Fin 2) * 3 + 1 * k.val = k.val; omega

/-- Row p of window 6's block at point t is row 512 t + p of its array. -/
theorem row6 (c : Dev nD) (t : Fin cfg0.N) (p : Fin 512) :
    (fun k : Fin 4 => iblk m c 6 t (ix2 p k)) = fun k => V m c main_arg6 (ix2 (rowOf t p) k) := by
  obtain ⟨e0, e1⟩ := idx6 t
  funext k
  show V m c main_arg6 (((cfg0.win 6).blk t).view.emb (ix2 p k)) = V m c main_arg6 (ix2 (rowOf t p) k)
  congr 1
  funext a; apply Fin.ext
  match a with
    | ⟨0, _⟩ => show win0_6.index t (0 : Fin 2) * 512 + 1 * p.val = 512 * t.val + p.val; omega
    | ⟨1, _⟩ => show win0_6.index t (1 : Fin 2) * 4 + 1 * k.val = k.val; omega

/-- Row p of window 29's block at point t is row 512 t + p of its array. -/
theorem row29 (c : Dev nD) (t : Fin cfg0.N) (p : Fin 512) :
    (fun k : Fin 128 => iblk m c 29 t (ix2 p k)) = fun k => V m c main_v1 (ix2 (rowOf t p) k) := by
  obtain ⟨e0, e1⟩ := idx29 t
  funext k
  show V m c main_v1 (((cfg0.win 29).blk t).view.emb (ix2 p k)) = V m c main_v1 (ix2 (rowOf t p) k)
  congr 1
  funext a; apply Fin.ext
  match a with
    | ⟨0, _⟩ => show win0_29.index t (0 : Fin 2) * 512 + 1 * p.val = 512 * t.val + p.val; omega
    | ⟨1, _⟩ => show win0_29.index t (1 : Fin 2) * 128 + 1 * k.val = k.val; omega

/-- Row p of window 30's block at point t is row 512 t + p of its array. -/
theorem row30 (c : Dev nD) (t : Fin cfg0.N) (p : Fin 512) :
    (fun k : Fin 128 => iblk m c 30 t (ix2 p k)) = fun k => V m c main_v3 (ix2 (rowOf t p) k) := by
  obtain ⟨e0, e1⟩ := idx30 t
  funext k
  show V m c main_v3 (((cfg0.win 30).blk t).view.emb (ix2 p k)) = V m c main_v3 (ix2 (rowOf t p) k)
  congr 1
  funext a; apply Fin.ext
  match a with
    | ⟨0, _⟩ => show win0_30.index t (0 : Fin 2) * 512 + 1 * p.val = 512 * t.val + p.val; omega
    | ⟨1, _⟩ => show win0_30.index t (1 : Fin 2) * 128 + 1 * k.val = k.val; omega

/-! ## The result's block -/

/-- Entry (p, q) of the result's block at point t sits in row 512 t + p … -/
theorem out_row (t : Fin cfg0.N) (p : Fin 512) (q : Fin 4) :
    (⟨(((cfg0.win 31).blk t).view.emb (ix2 p q) 0).val, idx2_lt0 _⟩ : Fin 65536) = rowOf t p := by
  obtain ⟨e0, e1⟩ := idx31 t
  apply Fin.ext
  show win0_31.index t (0 : Fin 2) * 512 + 1 * p.val = 512 * t.val + p.val
  omega

/-- … and column q of the result array. -/
theorem out_col (t : Fin cfg0.N) (p : Fin 512) (q : Fin 4) :
    (⟨(((cfg0.win 31).blk t).view.emb (ix2 p q) 1).val, idx2_lt1 _⟩ : Fin 4) = q := by
  obtain ⟨e0, e1⟩ := idx31 t
  apply Fin.ext
  show win0_31.index t (1 : Fin 2) * 4 + 1 * q.val = q.val
  omega

end Cert.KernelIdeal.Blocks

end
-- ==== Proof.NetSpec.lean ====
/-
  What one output row is, as a function of that row's twenty observations, its two hidden-state rows and the
  weights: layer normalisation, two affine layers with an exponential linear unit between them, two gated
  recurrent cells, and two small heads (a softplus scale and a three-entry correction). Both programs compute
  this function row by row; the kernel on blocks of 512 rows, the reference on all 65536 at once.
  Every sum here is a finite sum over a contracted axis; the two programs differ only in how they spell the
  exponential linear unit, the logistic function and the softplus, and those spellings are joined below.
-/
import Idealize.ShloMosaic.PureOps.Ideal
import Idealize.ShloMosaic.Lib.ValueIdx

noncomputable section

open scoped BigOperators

namespace Cert.Net

open Idealize.ShloMosaic Idealize.ShloMosaic.ValueIdx

/-! ## The float constants

Four words occur, the same four in both programs. Zero and one meet the literal 0 and 1 of the interpreted
functions (expm1 is exp - 1, the logistic function is 1 / (1 + exp (-x))), so they are read as numbers; twenty and
the layer norm's small constant only ever meet themselves and stay words. -/

/-- The word of 20.0, the length of an observation row. -/
abbrev w20 : EReal := Ideal.ofBits .f32 0x41A00000#32
/-- The word of the layer norm's added constant. -/
abbrev wEps : EReal := Ideal.ofBits .f32 0x3727C5AC#32

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

/-! ## The pieces -/

/-- The mean of a row of twenty. -/
def mean20 (x : Fin 20 → EReal) : EReal := Ideal.div (∑ k, x k) w20

/-- Layer normalisation of a row of twenty: centre, scale by the reciprocal root of the variance plus the small
    constant, then the learnt gain and offset. -/
def layerNorm (x g b : Fin 20 → EReal) (j : Fin 20) : EReal :=
  (x j - mean20 x) * Ideal.rsqrt (Ideal.div (∑ k, (x k - mean20 x) * (x k - mean20 x)) w20 + wEps) * g j + b j

/-- An affine layer: entry i is the inner product of the input with row i of the weights, plus the bias. -/
def affine {n k : Nat} (W : Fin n → Fin k → EReal) (b : Fin n → EReal) (x : Fin k → EReal) (i : Fin n) : EReal :=
  (∑ j, x j * W i j) + b i

/-- The exponential linear unit. -/
def elu (x : EReal) : EReal := if 0 < x then x else Ideal.exp x - 1

/-- The softplus log (1 + exp x), in the overflow-safe form max x 0 + log1p (exp (-|x|)). -/
def softplus (x : EReal) : EReal := max x 0 + Ideal.log1p (Ideal.exp (-(max x (-x))))

/-- One gated recurrent cell at hidden entry j: the 384 rows of each weight matrix are the reset, update and
    candidate gates, 128 rows each. -/
def gru (Wih Whh : Fin 384 → Fin 128 → EReal) (bih bhh : Fin 384 → EReal) (x h : Fin 128 → EReal) (j : Fin 128) : EReal :=
  let gi := affine Wih bih x
  let gh := affine Whh bhh h
  let r := Ideal.logistic (gi ⟨j.val, by omega⟩ + gh ⟨j.val, by omega⟩)
  let z := Ideal.logistic (gi ⟨128 + j.val, by omega⟩ + gh ⟨128 + j.val, by omega⟩)
  let n := Ideal.tanh (gi ⟨256 + j.val, by omega⟩ + r * gh ⟨256 + j.val, by omega⟩)
  (1 - z) * n + z * h j

/-- A row of twenty observations from its seven pieces, of widths 3, 3, 1, 3, 3, 3, 4. -/
def obsRow (r0 r1 : Fin 3 → EReal) (r2 : Fin 1 → EReal) (r3 r4 r5 : Fin 3 → EReal) (r6 : Fin 4 → EReal)
    (k : Fin 20) : EReal :=
  if h0 : k.val < 3 then r0 ⟨k.val, h0⟩
  else if h1 : k.val < 6 then r1 ⟨k.val - 3, by omega⟩
  else if h2 : k.val < 7 then r2 ⟨k.val - 6, by omega⟩
  else if h3 : k.val < 10 then r3 ⟨k.val - 7, by omega⟩
  else if h4 : k.val < 13 then r4 ⟨k.val - 10, by omega⟩
  else if h5 : k.val < 16 then r5 ⟨k.val - 13, by omega⟩
  else r6 ⟨k.val - 16, by omega⟩

/-- The weights, each as a function of its coordinates. -/
structure Params where
  g : Fin 20 → EReal
  b : Fin 20 → EReal
  W1 : Fin 128 → Fin 20 → EReal
  b1 : Fin 128 → EReal
  W2 : Fin 128 → Fin 128 → EReal
  b2 : Fin 128 → EReal
  Wih0 : Fin 384 → Fin 128 → EReal
  Whh0 : Fin 384 → Fin 128 → EReal
  bih0 : Fin 384 → EReal
  bhh0 : Fin 384 → EReal
  Wih1 : Fin 384 → Fin 128 → EReal
  Whh1 : Fin 384 → Fin 128 → EReal
  bih1 : Fin 384 → EReal
  bhh1 : Fin 384 → EReal
  Ws1 : Fin 64 → Fin 128 → EReal
  bs1 : Fin 64 → EReal
  Ws2 : Fin 1 → Fin 64 → EReal
  bs2 : Fin 1 → EReal
  Wc1 : Fin 64 → Fin 128 → EReal
  bc1 : Fin 64 → EReal
  Wc2 : Fin 3 → Fin 64 → EReal
  bc2 : Fin 3 → EReal

/-- The weights read off the twenty-two weight arrays, in the order the programs take them (arguments 7 to 28). -/
def paramsOf
    (a7 a8 : (⟨1, ![20]⟩ : Shape).Idx → EReal)
    (a9 : (⟨2, ![128, 20]⟩ : Shape).Idx → EReal) (a10 : (⟨1, ![128]⟩ : Shape).Idx → EReal)
    (a11 : (⟨2, ![128, 128]⟩ : Shape).Idx → EReal) (a12 : (⟨1, ![128]⟩ : Shape).Idx → EReal)
    (a13 a14 : (⟨2, ![384, 128]⟩ : Shape).Idx → EReal) (a15 a16 : (⟨1, ![384]⟩ : Shape).Idx → EReal)
    (a17 a18 : (⟨2, ![384, 128]⟩ : Shape).Idx → EReal) (a19 a20 : (⟨1, ![384]⟩ : Shape).Idx → EReal)
    (a21 : (⟨2, ![64, 128]⟩ : Shape).Idx → EReal) (a22 : (⟨1, ![64]⟩ : Shape).Idx → EReal)
    (a23 : (⟨2, ![1, 64]⟩ : Shape).Idx → EReal) (a24 : (⟨1, ![1]⟩ : Shape).Idx → EReal)
    (a25 : (⟨2, ![64, 128]⟩ : Shape).Idx → EReal) (a26 : (⟨1, ![64]⟩ : Shape).Idx → EReal)
    (a27 : (⟨2, ![3, 64]⟩ : Shape).Idx → EReal) (a28 : (⟨1, ![3]⟩ : Shape).Idx → EReal) : Params where
  g := fun k => a7 (ix1 k)
  b := fun k => a8 (ix1 k)
  W1 := fun i k => a9 (ix2 i k)
  b1 := fun i => a10 (ix1 i)
  W2 := fun i k => a11 (ix2 i k)
  b2 := fun i => a12 (ix1 i)
  Wih0 := fun i k => a13 (ix2 i k)
  Whh0 := fun i k => a14 (ix2 i k)
  bih0 := fun i => a15 (ix1 i)
  bhh0 := fun i => a16 (ix1 i)
  Wih1 := fun i k => a17 (ix2 i k)
  Whh1 := fun i k => a18 (ix2 i k)
  bih1 := fun i => a19 (ix1 i)
  bhh1 := fun i => a20 (ix1 i)
  Ws1 := fun i k => a21 (ix2 i k)
  bs1 := fun i => a22 (ix1 i)
  Ws2 := fun i k => a23 (ix2 i k)
  bs2 := fun i => a24 (ix1 i)
  Wc1 := fun i k => a25 (ix2 i k)
  bc1 := fun i => a26 (ix1 i)
  Wc2 := fun i k => a27 (ix2 i k)
  bc2 := fun i => a28 (ix1 i)

/-! ## The row function -/

/-- The hidden row the two recurrent cells leave, from the observations and the two initial hidden rows. -/
def hidden (P : Params) (obs : Fin 20 → EReal) (h0 h1 : Fin 128 → EReal) : Fin 128 → EReal :=
  gru P.Wih1 P.Whh1 P.bih1 P.bhh1
    (gru P.Wih0 P.Whh0 P.bih0 P.bhh0
      (affine P.W2 P.b2 (fun i => elu (affine P.W1 P.b1 (layerNorm obs P.g P.b) i))) h0) h1

/-- The scale head: an affine layer of 64 with the exponential linear unit, one more inner product, softplus. -/
def scaleHead (P : Params) (h : Fin 128 → EReal) : EReal :=
  softplus (affine P.Ws2 P.bs2 (fun i => elu (affine P.Ws1 P.bs1 h i)) 0)

/-- The correction head: the same shape, three outputs, no softplus. -/
def corrHead (P : Params) (h : Fin 128 → EReal) (j : Fin 3) : EReal :=
  affine P.Wc2 P.bc2 (fun i => elu (affine P.Wc1 P.bc1 h i)) j

/-- The four outputs of a row: the scale, then the three corrections. -/
def rowNet (P : Params) (obs : Fin 20 → EReal) (h0 h1 : Fin 128 → EReal) (j : Fin 4) : EReal :=
  if hj : j.val < 1 then scaleHead P (hidden P obs h0 h1)
  else corrHead P (hidden P obs h0 h1) ⟨j.val - 1, by omega⟩

/-! ## The two programs' spellings, joined -/

/-- The kernel's exponential linear unit: one select on x > 0 between x and exp x - 1. -/
theorem elu_select (x : EReal) :
    Scalar.select (Ideal.cmp .ogt x 0) x (Ideal.exp x - 1) = elu x := by
  unfold elu Scalar.select Ideal.cmp
  by_cases h : (0 : EReal) < x <;> simp [h]

/-- The reference's: the argument is first replaced by 0 where it is positive, so that expm1 is taken of a
    non-positive number, and the result multiplied by one; where x is not positive that changes nothing. -/
theorem elu_guarded (x : EReal) :
    Scalar.select (Ideal.cmp .ogt x 0) x (1 * (Ideal.exp (Scalar.select (Ideal.cmp .ogt x 0) 0 x) - 1)) = elu x := by
  unfold elu Scalar.select Ideal.cmp
  by_cases h : (0 : EReal) < x <;> simp [h]

/-- The logistic function as the reference expands it. -/
theorem logistic_expanded (x : EReal) : Ideal.div 1 (1 + Ideal.exp (-x)) = Ideal.logistic x := rfl

/-- A number is never different from itself, so the guard both programs put on the softplus (it would catch a
    not-a-number, which the extended reals do not have) always takes the second branch. -/
theorem select_ne_self {α : Type} (p : CmpFPredicate) (hp : p = .one ∨ p = .une) (x : EReal) (a b : α) :
    Scalar.select (Ideal.cmp p x x) a b = b := by
  rcases hp with rfl | rfl <;> simp [Scalar.select, Ideal.cmp]

/-- The softplus as both programs spell it, up to how the negation is written. -/
theorem softplus_sub (x : EReal) :
    max x 0 + Ideal.log1p (Ideal.exp (0 - max (x - 0) (-(x - 0)))) = softplus x := by
  unfold softplus
  rw [sub_zero, zero_sub]

theorem softplus_neg (x : EReal) :
    max x 0 + Ideal.log1p (Ideal.exp (-(max (x - 0) (-(x - 0))))) = softplus x := by
  unfold softplus
  rw [sub_zero]

end Cert.Net

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«107767_j18107582120224_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.LibKernelOps.lean ====
/-
  An affine layer as the kernel spells it, read at an index at the ideal (extended real) values and generic in the extents.

  * matmulNT_bias_apply — an [M, K] array against an [N, K] array contracted over their second axes into the zero
                          accumulator, plus an [N] bias viewed as the one row [1, N] and broadcast over the M rows:
                          entry (e, o) is the sum over r of x (e, r) * y (o, r), plus b o;
  * rowBroadcast_apply  — an [N] array viewed as [1, N] and broadcast to [M, N] reads, at (e, o), the array at o.
-/
import Idealize.ShloMosaic.PureOps.Ideal.Laws
import Idealize.ShloMosaic.Lib.Pipeline.Value
import Idealize.ShloMosaic.Lib.ValueIdx
import Idealize.ShloMosaic.Lib.ValueLayout
import proofs.«107767_j18107582120224_2_alg».proof.Proof.LibRowReduceProducts

noncomputable section

open scoped BigOperators

namespace Cert.LibKernelOps

open Idealize.ShloMosaic Idealize.ShloMosaic.ValueIdx

/-- An [N] array viewed as the one row [1, N] and broadcast over M rows reads, at (e, o), the array at o. -/
theorem rowBroadcast_apply {α : Type} {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (e : Fin M) (o : Fin N) :
    broadcastTo ⟨2, ![M, N]⟩ (shapeCast ⟨2, ![1, N]⟩ b h1) h2 (ix2 e o) = b (ix1 o) :=
  (broadcastTo_1b_ab_apply (shapeCast ⟨2, ![1, N]⟩ b h1) h2 e o).trans (shapeCast_a_1a_apply b h1 0 o)

/-- The product with the transpose of the right operand into the zero accumulator, plus a bias row broadcast over
    the rows: entry (e, o) is the inner product of row e of the left operand with row o of the right one, plus b o. -/
theorem matmulNT_bias_apply {M K N : ℕ} {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (e : Fin M) (o : Fin N) :
    addf (FloatOps.matmul D prec x y (constant ⟨2, ![M, N]⟩ .f32 0x00000000#32))
        (broadcastTo ⟨2, ![M, N]⟩ (shapeCast ⟨2, ![1, N]⟩ b h1) h2) (ix2 e o)
      = (∑ r : Fin K, x (ix2 e r) * y (ix2 o r)) + b (ix1 o) := by
  refine (addf_apply _ _ _).trans ?_
  refine (congrArg (· + _) (Cert.LibRowReduceProducts.matmulNT D hlc hrc hln hrn hlb hrb prec x y e o)).trans ?_
  exact congrArg (_ + ·) (rowBroadcast_apply b h1 h2 e o)

end Cert.LibKernelOps

end
-- ==== Proof.KernelRowA1.lean ====
/-
  The kernel's hidden products at an index: the two identity casts of the initial hidden blocks, and each recurrent
  cell's product of its hidden row with the transpose of the hidden weights plus the bias (width 384), with its first
  third.
-/
import proofs.«107767_j18107582120224_2_alg».proof.Proof.Gen.KernelIdeal.Skeleton
import proofs.«107767_j18107582120224_2_alg».proof.Proof.NetSpec
import proofs.«107767_j18107582120224_2_alg».proof.Proof.LibKernelOps
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelRow

open Cert.KernelIdeal Cert.KernelIdeal.Gen Idealize.ShloMosaic Idealize.ShloMosaic.ValueIdx

/-- The identity cast of the first initial hidden block. -/
theorem pay2_eq (v56 : Vec Ideal S512x128 .f32) : k0_pay2 v56 = v56 := by
  unfold k0_pay2
  exact shapeCast_self v56 _

/-- The identity cast of the second initial hidden block. -/
theorem pay9_eq (v92 : Vec Ideal S512x128 .f32) : k0_pay9 v92 = v92 := by
  unfold k0_pay9
  exact shapeCast_self v92 _

theorem pay2_apply (v56 : Vec Ideal S512x128 .f32) (r : Fin 512) (q : Fin 128) :
    k0_pay2 v56 (ix2 r q) = v56 (ix2 r q) := congrFun (pay2_eq v56) _

theorem pay9_apply (v92 : Vec Ideal S512x128 .f32) (r : Fin 512) (q : Fin 128) :
    k0_pay9 v92 (ix2 r q) = v92 (ix2 r q) := congrFun (pay9_eq v92) _

/-- A hidden block of 512 rows against the 384 rows of the hidden weights, plus the bias: entry (r, q) is the affine
    layer of row r at q. -/
theorem hiddenProduct_apply (h : FVec Ideal S512x128 .f32) (W : FVec Ideal S384x128 .f32) (b : FVec Ideal S384 .f32)
    (r : Fin 512) (q : Fin 384) :
    addf (FloatOps.matmul dot_S512x128_S384x128_S512x384_1_1_0_0_n_n none
          (truncf .bf16 h bitsLt_bf16_f32 : FVec Ideal S512x128 .bf16)
          (truncf .bf16 W bitsLt_bf16_f32 : FVec Ideal S384x128 .bf16)
          (constant S512x384 .f32 0x00000000#32))
        (broadcastTo S512x384 (shapeCast S1x384 b shapeCasts_S384_S1x384) broadcasts_S1x384_S512x384) (ix2 r q)
      = Net.affine (fun i k => W (ix2 i k)) (fun i => b (ix1 i)) (fun k => h (ix2 r k)) q :=
  Cert.LibKernelOps.matmulNT_bias_apply (M := 512) (K := 128) (N := 384)
    dot_S512x128_S384x128_S512x384_1_1_0_0_n_n rfl rfl rfl rfl rfl rfl none _ _ b _ _ r q

/-- The first cell's hidden product gh0. -/
theorem pay4_apply (v56 : Vec Ideal S512x128 .f32) (v67 : Vec Ideal S384x128 .f32) (v70 : Vec Ideal S384 .f32)
    (r : Fin 512) (q : Fin 384) :
    k0_pay4 v56 v67 v70 (ix2 r q)
      = Net.affine (fun i k => v67 (ix2 i k)) (fun i => v70 (ix1 i)) (fun k => v56 (ix2 r k)) q := by
  unfold k0_pay4
  rw [pay2_eq]
  exact hiddenProduct_apply v56 v67 v70 r q

/-- Its reset third. -/
theorem pay8_apply (v56 : Vec Ideal S512x128 .f32) (v67 : Vec Ideal S384x128 .f32) (v70 : Vec Ideal S384 .f32)
    (r : Fin 512) (q : Fin 128) :
    k0_pay8 v56 v67 v70 (ix2 r q)
      = Net.affine (fun i k => v67 (ix2 i k)) (fun i => v70 (ix1 i)) (fun k => v56 (ix2 r k)) ⟨q.val, by omega⟩ := by
  unfold k0_pay8
  refine (slice2_axis1_apply 0 (k0_pay4 v56 v67 v70) slices_S512x384_o0_0_S512x128 r q
    (⟨q.val, by omega⟩ : Fin 384) (Nat.zero_add _).symm).trans ?_
  exact pay4_apply v56 v67 v70 r _

/-- The second cell's hidden product gh1. -/
theorem pay11_apply (v92 : Vec Ideal S512x128 .f32) (v103 : Vec Ideal S384x128 .f32) (v106 : Vec Ideal S384 .f32)
    (r : Fin 512) (q : Fin 384) :
    k0_pay11 v92 v103 v106 (ix2 r q)
      = Net.affine (fun i k => v103 (ix2 i k)) (fun i => v106 (ix1 i)) (fun k => v92 (ix2 r k)) q := by
  unfold k0_pay11
  rw [pay9_eq]
  exact hiddenProduct_apply v92 v103 v106 r q

end Cert.KernelRow

end
-- ==== Proof.LibKeepdimsCols.lean ====
/-
  Column vectors read at an index.

  A row reduction with `keepdims` leaves an `[a]` array that is then viewed as the column `[a, 1]` and broadcast along
  the rows of an `[a, b]` array. Read at an index:

  * an `[a]` array cast to `[a, 1]` reads, at `(p, u)`, the operand at `p` (`shapeCast_a_a1_apply`);
  * an `[a, 1]` column broadcast to `[a, b]` reads, at `(p, c)`, the column at `(p, 0)` (`broadcastTo_a1_ab_apply`).

  Both are generic in the extents and in the element type.
-/
import Idealize.ShloMosaic.Lib.Pipeline.Value
import Idealize.ShloMosaic.Lib.ValueIdx

namespace Cert.LibKeepdimsCols

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCols
-- ==== Proof.KernelRowA2.lean ====
/-
  The kernel's layer norm at an index. The seven observation blocks are laid side by side into a block of twenty
  columns; each row's mean is its sum over twenty, its variance the mean of the squared deviations; the row is
  centred, scaled by the reciprocal root of the variance plus the small constant, and given the learnt gain and offset.
-/
import proofs.«107767_j18107582120224_2_alg».proof.Proof.Gen.KernelIdeal.Skeleton
import proofs.«107767_j18107582120224_2_alg».proof.Proof.NetSpec
import proofs.«107767_j18107582120224_2_alg».proof.Proof.LibKernelOps
import proofs.«107767_j18107582120224_2_alg».proof.Proof.LibKeepdimsCols
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelRow

open Cert.KernelIdeal Cert.KernelIdeal.Gen Idealize.ShloMosaic Idealize.ShloMosaic.ValueIdx

/-! ## The row of twenty -/

/-- The seven blocks laid side by side read, at (r, k), the piece that holds column k: the row of twenty. -/
theorem obsBlock_apply (x0 x1 : Vec Ideal S512x3 .f32) (x2 : Vec Ideal S512x1 .f32) (x3 x4 x5 : Vec Ideal S512x3 .f32)
    (x6 : Vec Ideal S512x4 .f32) (r : Fin 512) (k : Fin 20) :
    concatenate S512x20 1 [⟨S512x3, x0⟩, ⟨S512x3, x1⟩, ⟨S512x1, x2⟩, ⟨S512x3, x3⟩, ⟨S512x3, x4⟩, ⟨S512x3, x5⟩, ⟨S512x4, x6⟩]
        concatenates_S512x3_S512x3_S512x1_S512x3_S512x3_S512x3_S512x4_S512x20_d1 (ix2 r k)
      = Net.obsRow (fun k => x0 (ix2 r k)) (fun k => x1 (ix2 r k)) (fun k => x2 (ix2 r k)) (fun k => x3 (ix2 r k))
          (fun k => x4 (ix2 r k)) (fun k => x5 (ix2 r k)) (fun k => x6 (ix2 r k)) k := by
  unfold Net.obsRow
  by_cases h0 : k.val < 3
  · rw [dif_pos h0]
    exact concatenate_apply_piece 1 _ _ (ix2 r k) 0 (by show (0 : ℕ) < 7; omega) S512x3 x0 rfl rfl 0 rfl (ix2 r ⟨k.val, h0⟩)
      (fun b hb => by match b with | ⟨0, _⟩ => rfl | ⟨1, _⟩ => exact absurd rfl hb) (Nat.zero_add _)
  rw [dif_neg h0]
  by_cases h1 : k.val < 6
  · rw [dif_pos h1]
    exact concatenate_apply_piece 1 _ _ (ix2 r k) 1 (by show (1 : ℕ) < 7; omega) S512x3 x1 rfl rfl 3 rfl (ix2 r ⟨k.val - 3, by omega⟩)
      (fun b hb => by match b with | ⟨0, _⟩ => rfl | ⟨1, _⟩ => exact absurd rfl hb)
      (by show 3 + (k.val - 3) = k.val; omega)
  rw [dif_neg h1]
  by_cases h2 : k.val < 7
  · rw [dif_pos h2]
    exact concatenate_apply_piece 1 _ _ (ix2 r k) 2 (by show (2 : ℕ) < 7; omega) S512x1 x2 rfl rfl 6 rfl (ix2 r ⟨k.val - 6, by omega⟩)
      (fun b hb => by match b with | ⟨0, _⟩ => rfl | ⟨1, _⟩ => exact absurd rfl hb)
      (by show 6 + (k.val - 6) = k.val; omega)
  rw [dif_neg h2]
  by_cases h3 : k.val < 10
  · rw [dif_pos h3]
    exact concatenate_apply_piece 1 _ _ (ix2 r k) 3 (by show (3 : ℕ) < 7; omega) S512x3 x3 rfl rfl 7 rfl (ix2 r ⟨k.val - 7, by omega⟩)
      (fun b hb => by match b with | ⟨0, _⟩ => rfl | ⟨1, _⟩ => exact absurd rfl hb)
      (by show 7 + (k.val - 7) = k.val; omega)
  rw [dif_neg h3]
  by_cases h4 : k.val < 13
  · rw [dif_pos h4]
    exact concatenate_apply_piece 1 _ _ (ix2 r k) 4 (by show (4 : ℕ) < 7; omega) S512x3 x4 rfl rfl 10 rfl (ix2 r ⟨k.val - 10, by omega⟩)
      (fun b hb => by match b with | ⟨0, _⟩ => rfl | ⟨1, _⟩ => exact absurd rfl hb)
      (by show 10 + (k.val - 10) = k.val; omega)
  rw [dif_neg h4]
  by_cases h5 : k.val < 16
  · rw [dif_pos h5]
    exact concatenate_apply_piece 1 _ _ (ix2 r k) 5 (by show (5 : ℕ) < 7; omega) S512x3 x5 rfl rfl 13 rfl (ix2 r ⟨k.val - 13, by omega⟩)
      (fun b hb => by match b with | ⟨0, _⟩ => rfl | ⟨1, _⟩ => exact absurd rfl hb)
      (by show 13 + (k.val - 13) = k.val; omega)
  rw [dif_neg h5]
  exact concatenate_apply_piece 1 _ _ (ix2 r k) 6 (by show (6 : ℕ) < 7; omega) S512x4 x6 rfl rfl 16 rfl
    (ix2 r ⟨k.val - 16, by have := k.isLt; omega⟩)
    (fun b hb => by match b with | ⟨0, _⟩ => rfl | ⟨1, _⟩ => exact absurd rfl hb)
    (by show 16 + (k.val - 16) = k.val; omega)

/-! ## Mean, centring, and the normalised block -/

/-- The column of row means of a block of twenty columns: each row's sum, divided by twenty. -/
def meanCol (v : FVec Ideal S512x20 .f32) : FVec Ideal S512x1 .f32 :=
  divf (shapeCast S512x1
      (multiReduction .add [1] S512 v 0x00000000#32 reduces_S512x20_S512 (.inl rfl) rfl : FVec Ideal S512 .f32)
      shapeCasts_S512_S512x1)
    (broadcast S512x1 (Scalar.ofBits .f32 0x41A00000#32 : Ideal .f32))

theorem meanCol_apply (v : FVec Ideal S512x20 .f32) (r : Fin 512) (u : Fin 1) :
    meanCol v (ix2 r u) = Net.mean20 (fun k => v (ix2 r k)) := by
  unfold meanCol Net.mean20
  refine (divf_apply _ _ _).trans ?_
  refine congrArg₂ Ideal.div ?_ rfl
  refine (Cert.LibKeepdimsCols.shapeCast_a_a1_apply _ shapeCasts_S512_S512x1 r u).trans ?_
  exact Cert.LibRowReduceProducts.rowSum_apply (a := 512) (b := 20) v reduces_S512x20_S512 (.inl rfl) rfl r

/-- A block less its column of row means, broadcast back over the twenty columns. -/
def centred (v : FVec Ideal S512x20 .f32) : FVec Ideal S512x20 .f32 :=
  subf v (broadcastTo S512x20 (meanCol v) broadcasts_S512x1_S512x20)

theorem centred_apply (v : FVec Ideal S512x20 .f32) (r : Fin 512) (k : Fin 20) :
    centred v (ix2 r k) = v (ix2 r k) - Net.mean20 (fun k => v (ix2 r k)) := by
  unfold centred
  refine (subf_apply _ _ _).trans ?_
  refine congrArg (v (ix2 r k) - ·) ?_
  exact (Cert.LibKeepdimsCols.broadcastTo_a1_ab_apply (meanCol v) broadcasts_S512x1_S512x20 r k).trans
    (meanCol_apply v r 0)

/-- The normalised block: centred, times the reciprocal root of the mean squared deviation plus the small constant,
    times the gain row, plus the offset row. -/
def normBlock (v : FVec Ideal S512x20 .f32) (g b : FVec Ideal S20 .f32) : FVec Ideal S512x20 .bf16 :=
  truncf .bf16
    (addf
      (mulf
        (mulf (centred v)
          (broadcastTo S512x20
            (rsqrt (addf (meanCol (mulf (centred v) (centred v)))
              (broadcast S512x1 (Scalar.ofBits .f32 0x3727C5AC#32 : Ideal .f32))))
            broadcasts_S512x1_S512x20))
        (broadcastTo S512x20 (shapeCast S1x20 g shapeCasts_S20_S1x20) broadcasts_S1x20_S512x20))
      (broadcastTo S512x20 (shapeCast S1x20 b shapeCasts_S20_S1x20) broadcasts_S1x20_S512x20))
    bitsLt_bf16_f32

theorem normBlock_apply (v : FVec Ideal S512x20 .f32) (g b : FVec Ideal S20 .f32) (r : Fin 512) (k : Fin 20) :
    normBlock v g b (ix2 r k)
      = Net.layerNorm (fun k => v (ix2 r k)) (fun k => g (ix1 k)) (fun k => b (ix1 k)) k := by
  unfold normBlock Net.layerNorm
  refine (truncf_apply (ψ := .bf16) _ bitsLt_bf16_f32 (ix2 r k)).trans ?_
  refine (addf_apply _ _ _).trans ?_
  refine congrArg₂ (· + ·) ?_ (Cert.LibKernelOps.rowBroadcast_apply b shapeCasts_S20_S1x20 broadcasts_S1x20_S512x20 r k)
  refine (mulf_apply _ _ _).trans ?_
  refine congrArg₂ (· * ·) ?_ (Cert.LibKernelOps.rowBroadcast_apply g shapeCasts_S20_S1x20 broadcasts_S1x20_S512x20 r k)
  refine (mulf_apply _ _ _).trans ?_
  refine congrArg₂ (· * ·) (centred_apply v r k) ?_
  refine (Cert.LibKeepdimsCols.broadcastTo_a1_ab_apply _ broadcasts_S512x1_S512x20 r k).trans ?_
  show Ideal.rsqrt (meanCol (mulf (centred v) (centred v)) (ix2 r (0 : Fin 1)) + Net.wEps) = _
  refine congrArg (fun z => Ideal.rsqrt (z + Net.wEps)) ?_
  refine (meanCol_apply _ r 0).trans ?_
  unfold Net.mean20
  refine congrArg (fun z => Ideal.div z Net.w20) ?_
  refine Finset.sum_congr rfl fun j _ => ?_
  refine (mulf_apply _ _ _).trans ?_
  exact congrArg₂ (· * ·) (centred_apply v r j) (centred_apply v r j)

/-- The kernel's first payload is the normalised block of the seven blocks laid side by side. -/
theorem pay1_eq (x0 x1 : Vec Ideal S512x3 .f32) (x2 : Vec Ideal S512x1 .f32) (x3 x4 x5 : Vec Ideal S512x3 .f32)
    (x6 : Vec Ideal S512x4 .f32) (x7 x8 : Vec Ideal S20 .f32) :
    k0_pay1 x0 x1 x2 x3 x4 x5 x6 x7 x8
      = normBlock (concatenate S512x20 1
          [⟨S512x3, x0⟩, ⟨S512x3, x1⟩, ⟨S512x1, x2⟩, ⟨S512x3, x3⟩, ⟨S512x3, x4⟩, ⟨S512x3, x5⟩, ⟨S512x4, x6⟩]
          concatenates_S512x3_S512x3_S512x1_S512x3_S512x3_S512x3_S512x4_S512x20_d1) x7 x8 := rfl

/-- layer norm of the concatenated row -/
theorem pay1_apply (x0 x1 : Vec Ideal S512x3 .f32) (x2 : Vec Ideal S512x1 .f32) (x3 x4 x5 : Vec Ideal S512x3 .f32)
    (x6 : Vec Ideal S512x4 .f32) (x7 x8 : Vec Ideal S20 .f32) (r : Fin 512) (k : Fin 20) :
    k0_pay1 x0 x1 x2 x3 x4 x5 x6 x7 x8 (ix2 r k)
      = Net.layerNorm (Net.obsRow (fun k => x0 (ix2 r k)) (fun k => x1 (ix2 r k)) (fun k => x2 (ix2 r k))
          (fun k => x3 (ix2 r k)) (fun k => x4 (ix2 r k)) (fun k => x5 (ix2 r k)) (fun k => x6 (ix2 r k)))
          (fun k => x7 (ix1 k)) (fun k => x8 (ix1 k)) k := by
  rw [pay1_eq]
  refine (normBlock_apply _ x7 x8 r k).trans ?_
  refine congrArg (fun x => Net.layerNorm x (fun k => x7 (ix1 k)) (fun k => x8 (ix1 k)) k) ?_
  exact funext fun j => obsBlock_apply x0 x1 x2 x3 x4 x5 x6 r j

end Cert.KernelRow

end
-- ==== Proof.KernelRowA3.lean ====
/-
  The first cell's input product at an index: from the normalised block, an affine layer of 128 with the exponential
  linear unit, a second affine layer of 128, then the product with the transpose of the cell's input weights plus the
  bias (width 384), and its three thirds of 128 columns.
-/
import proofs.«107767_j18107582120224_2_alg».proof.Proof.Gen.KernelIdeal.Skeleton
import proofs.«107767_j18107582120224_2_alg».proof.Proof.NetSpec
import proofs.«107767_j18107582120224_2_alg».proof.Proof.LibKernelOps
import proofs.«107767_j18107582120224_2_alg».proof.Proof.KernelRowA1
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelRow

open Cert.KernelIdeal Cert.KernelIdeal.Gen Idealize.ShloMosaic Idealize.ShloMosaic.ValueIdx

/-- The normalised block of twenty columns against the 128 rows of the first weights, plus the bias. -/
theorem firstLayer_apply (x : FVec Ideal S512x20 .bf16) (W : FVec Ideal S128x20 .f32) (b : FVec Ideal S128 .f32)
    (r : Fin 512) (i : Fin 128) :
    addf (FloatOps.matmul dot_S512x20_S128x20_S512x128_1_1_0_0_n_n none x
          (truncf .bf16 W bitsLt_bf16_f32 : FVec Ideal S128x20 .bf16)
          (constant S512x128 .f32 0x00000000#32))
        (broadcastTo S512x128 (shapeCast S1x128 b shapeCasts_S128_S1x128) broadcasts_S1x128_S512x128) (ix2 r i)
      = Net.affine (fun i k => W (ix2 i k)) (fun i => b (ix1 i)) (fun k => x (ix2 r k)) i :=
  Cert.LibKernelOps.matmulNT_bias_apply (M := 512) (K := 20) (N := 128)
    dot_S512x20_S128x20_S512x128_1_1_0_0_n_n rfl rfl rfl rfl rfl rfl none _ _ b _ _ r i

/-- A block of 128 columns against the 128 rows of the second weights, plus the bias. -/
theorem secondLayer_apply (h : FVec Ideal S512x128 .f32) (W : FVec Ideal S128x128 .f32) (b : FVec Ideal S128 .f32)
    (r : Fin 512) (i : Fin 128) :
    addf (FloatOps.matmul dot_S512x128_S128x128_S512x128_1_1_0_0_n_n none
          (truncf .bf16 h bitsLt_bf16_f32 : FVec Ideal S512x128 .bf16)
          (truncf .bf16 W bitsLt_bf16_f32 : FVec Ideal S128x128 .bf16)
          (constant S512x128 .f32 0x00000000#32))
        (broadcastTo S512x128 (shapeCast S1x128 b shapeCasts_S128_S1x128) broadcasts_S1x128_S512x128) (ix2 r i)
      = Net.affine (fun i k => W (ix2 i k)) (fun i => b (ix1 i)) (fun k => h (ix2 r k)) i :=
  Cert.LibKernelOps.matmulNT_bias_apply (M := 512) (K := 128) (N := 128)
    dot_S512x128_S128x128_S512x128_1_1_0_0_n_n rfl rfl rfl rfl rfl rfl none _ _ b _ _ r i

/-- The exponential linear unit as the kernel spells it on a block: one select on x > 0 between x and exp x - 1. -/
theorem eluBlock_apply (v : FVec Ideal S512x128 .f32) (j : S512x128.Idx) :
    select (cmpf .ogt v (broadcast S512x128 (Scalar.ofBits .f32 0x00000000#32 : Ideal .f32))) v
        (subf (exp v) (broadcast S512x128 (Scalar.ofBits .f32 0x3F800000#32 : Ideal .f32))) j
      = Net.elu (v j) := by
  show Scalar.select (Ideal.cmp .ogt (v j) (Ideal.ofBits .f32 0x00000000#32)) (v j)
      (Ideal.exp (v j) - Ideal.ofBits .f32 0x3F800000#32) = _
  rw [Net.ofBits_zero, Net.ofBits_one]
  exact Net.elu_select (v j)

/-- the first cell's input product gi0 (width 384) from the normalised row: two affine layers with the elu between,
    then W_ih0 -/
theorem pay3_apply (v34 : FVec Ideal S512x20 .bf16) (x9 : Vec Ideal S128x20 .f32) (x10 : Vec Ideal S128 .f32)
    (x11 : Vec Ideal S128x128 .f32) (x12 : Vec Ideal S128 .f32) (x13 : Vec Ideal S384x128 .f32)
    (x15 : Vec Ideal S384 .f32) (r : Fin 512) (q : Fin 384) :
    k0_pay3 v34 x9 x10 x11 x12 x13 x15 (ix2 r q)
      = Net.affine (fun i k => x13 (ix2 i k)) (fun i => x15 (ix1 i))
          (Net.affine (fun i k => x11 (ix2 i k)) (fun i => x12 (ix1 i))
            (fun i => Net.elu (Net.affine (fun i k => x9 (ix2 i k)) (fun i => x10 (ix1 i))
              (fun k => v34 (ix2 r k)) i))) q := by
  unfold k0_pay3
  refine (hiddenProduct_apply _ x13 x15 r q).trans ?_
  refine congrArg (fun x => Net.affine (fun i k => x13 (ix2 i k)) (fun i => x15 (ix1 i)) x q) (funext fun j => ?_)
  refine (secondLayer_apply _ x11 x12 r j).trans ?_
  refine congrArg (fun x => Net.affine (fun i k => x11 (ix2 i k)) (fun i => x12 (ix1 i)) x j) (funext fun i => ?_)
  refine (eluBlock_apply _ (ix2 r i)).trans ?_
  exact congrArg Net.elu (firstLayer_apply v34 x9 x10 r i)

/-- its reset third, -/
theorem pay5_apply (v34 : FVec Ideal S512x20 .bf16) (x9 : Vec Ideal S128x20 .f32) (x10 : Vec Ideal S128 .f32)
    (x11 : Vec Ideal S128x128 .f32) (x12 : Vec Ideal S128 .f32) (x13 : Vec Ideal S384x128 .f32)
    (x15 : Vec Ideal S384 .f32) (r : Fin 512) (q : Fin 128) :
    k0_pay5 v34 x9 x10 x11 x12 x13 x15 (ix2 r q)
      = Net.affine (fun i k => x13 (ix2 i k)) (fun i => x15 (ix1 i))
          (Net.affine (fun i k => x11 (ix2 i k)) (fun i => x12 (ix1 i))
            (fun i => Net.elu (Net.affine (fun i k => x9 (ix2 i k)) (fun i => x10 (ix1 i))
              (fun k => v34 (ix2 r k)) i))) ⟨q.val, by omega⟩ := by
  unfold k0_pay5
  refine (slice2_axis1_apply 0 (k0_pay3 v34 x9 x10 x11 x12 x13 x15) slices_S512x384_o0_0_S512x128 r q
    (⟨q.val, by omega⟩ : Fin 384) (Nat.zero_add _).symm).trans ?_
  exact pay3_apply v34 x9 x10 x11 x12 x13 x15 r _

/-- its update third, -/
theorem pay6_apply (v34 : FVec Ideal S512x20 .bf16) (x9 : Vec Ideal S128x20 .f32) (x10 : Vec Ideal S128 .f32)
    (x11 : Vec Ideal S128x128 .f32) (x12 : Vec Ideal S128 .f32) (x13 : Vec Ideal S384x128 .f32)
    (x15 : Vec Ideal S384 .f32) (r : Fin 512) (q : Fin 128) :
    k0_pay6 v34 x9 x10 x11 x12 x13 x15 (ix2 r q)
      = Net.affine (fun i k => x13 (ix2 i k)) (fun i => x15 (ix1 i))
          (Net.affine (fun i k => x11 (ix2 i k)) (fun i => x12 (ix1 i))
            (fun i => Net.elu (Net.affine (fun i k => x9 (ix2 i k)) (fun i => x10 (ix1 i))
              (fun k => v34 (ix2 r k)) i))) ⟨128 + q.val, by omega⟩ := by
  unfold k0_pay6
  refine (slice2_axis1_apply 128 (k0_pay3 v34 x9 x10 x11 x12 x13 x15) slices_S512x384_o0_128_S512x128 r q
    (⟨128 + q.val, by omega⟩ : Fin 384) rfl).trans ?_
  exact pay3_apply v34 x9 x10 x11 x12 x13 x15 r _

/-- and its candidate third. -/
theorem pay7_apply (v34 : FVec Ideal S512x20 .bf16) (x9 : Vec Ideal S128x20 .f32) (x10 : Vec Ideal S128 .f32)
    (x11 : Vec Ideal S128x128 .f32) (x12 : Vec Ideal S128 .f32) (x13 : Vec Ideal S384x128 .f32)
    (x15 : Vec Ideal S384 .f32) (r : Fin 512) (q : Fin 128) :
    k0_pay7 v34 x9 x10 x11 x12 x13 x15 (ix2 r q)
      = Net.affine (fun i k => x13 (ix2 i k)) (fun i => x15 (ix1 i))
          (Net.affine (fun i k => x11 (ix2 i k)) (fun i => x12 (ix1 i))
            (fun i => Net.elu (Net.affine (fun i k => x9 (ix2 i k)) (fun i => x10 (ix1 i))
              (fun k => v34 (ix2 r k)) i))) ⟨256 + q.val, by omega⟩ := by
  unfold k0_pay7
  refine (slice2_axis1_apply 256 (k0_pay3 v34 x9 x10 x11 x12 x13 x15) slices_S512x384_o0_256_S512x128 r q
    (⟨256 + q.val, by omega⟩ : Fin 384) rfl).trans ?_
  exact pay3_apply v34 x9 x10 x11 x12 x13 x15 r _

end Cert.KernelRow

end
-- ==== Proof.KernelRowA.lean ====
/-
  The first half of the kernel's row arithmetic read at an index, gathered: the layer norm of the concatenated row,
  the first cell's input product and its thirds, the two identity casts, and the two cells' hidden products.
-/
import proofs.«107767_j18107582120224_2_alg».proof.Proof.KernelRowA1
import proofs.«107767_j18107582120224_2_alg».proof.Proof.KernelRowA2
import proofs.«107767_j18107582120224_2_alg».proof.Proof.KernelRowA3
-- ==== Proof.KernelRowB1.lean ====
/-
  The second gated recurrent cell of the kernel's block, read at an entry of one row.

  The block computes, for each of its 512 rows, the second cell's input product from the first cell's output, the
  second cell's update gate, and (1 - gate) times its candidate; the hidden row is their combination with the old
  hidden row. Each lemma here reads one of those values at row r, given what the values it is built from are on
  that row (hypotheses over the row's entries), so that nothing here depends on how the earlier values were obtained.
-/
import proofs.«107767_j18107582120224_2_alg».proof.Proof.Gen.KernelIdeal.Skeleton
import proofs.«107767_j18107582120224_2_alg».proof.Proof.NetSpec
import proofs.«107767_j18107582120224_2_alg».proof.Proof.LibRowReduceProducts
import proofs.«107767_j18107582120224_2_alg».proof.Proof.LibKeepdimsCols
import proofs.«107767_j18107582120224_2_alg».proof.Proof.LibPayOps
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelRow

open Cert.KernelIdeal Cert.KernelIdeal.Gen Idealize.ShloMosaic Idealize.ShloMosaic.ValueIdx

/-- The second cell's output at one entry: (1 - z) * n, plus z times the old hidden entry. -/
theorem pay14_apply (v93 v119 v125 : FVec Ideal S512x128 .f32) (r : Fin 512) (k : Fin 128) :
    k0_pay14 v93 v119 v125 (ix2 r k) = v125 (ix2 r k) + v119 (ix2 r k) * v93 (ix2 r k) := rfl

/-- One gated recurrent cell at hidden entry j, from its two products (width 384: reset, update, candidate thirds)
    and the old hidden row. -/
def cell (gi gh : Fin 384 → EReal) (h : Fin 128 → EReal) (j : Fin 128) : EReal :=
  (1 - Ideal.logistic (gi ⟨128 + j.val, by omega⟩ + gh ⟨128 + j.val, by omega⟩))
      * Ideal.tanh (gi ⟨256 + j.val, by omega⟩
          + Ideal.logistic (gi ⟨j.val, by omega⟩ + gh ⟨j.val, by omega⟩) * gh ⟨256 + j.val, by omega⟩)
    + Ideal.logistic (gi ⟨128 + j.val, by omega⟩ + gh ⟨128 + j.val, by omega⟩) * h j

/-- The specification's cell is that function of its two affine products. -/
theorem gru_eq_cell (Wih Whh : Fin 384 → Fin 128 → EReal) (bih bhh : Fin 384 → EReal) (x h : Fin 128 → EReal) (j : Fin 128) :
    Net.gru Wih Whh bih bhh x h j = cell (Net.affine Wih bih x) (Net.affine Whh bhh h) h j := rfl

/-- A bias row of width n viewed as [1, n] and broadcast down the 512 rows reads the bias at the column. -/
theorem biasRow_apply {n : ℕ} (b : Vec Ideal ⟨1, ![n]⟩ .f32) (hc : (⟨1, ![n]⟩ : Shape).ShapeCasts ⟨2, ![1, n]⟩)
    (hb : (⟨2, ![1, n]⟩ : Shape).Broadcasts ⟨2, ![512, n]⟩) (r : Fin 512) (q : Fin n) :
    broadcastTo ⟨2, ![512, n]⟩ (shapeCast ⟨2, ![1, n]⟩ b hc) hb (ix2 r q) = b (ix1 q) :=
  (broadcastTo_1b_ab_apply _ hb r q).trans (shapeCast_a_1a_apply b hc 0 q)

/-- The second cell's input product: the first cell's output row (computed from the first cell's two products, given
    as their thirds) against the rows of the second cell's input weights, plus the bias. -/
theorem pay10_apply (v57 : FVec Ideal S512x128 .f32) (v73 : FVec Ideal S512x384 .f32) (v74 v75 v76 v77 : FVec Ideal S512x128 .f32)
    (v95 : Vec Ideal S384x128 .f32) (v98 : Vec Ideal S384 .f32) (r : Fin 512)
    (gi gh : Fin 384 → EReal) (h : Fin 128 → EReal)
    (h57 : ∀ k : Fin 128, v57 (ix2 r k) = h k)
    (h73 : ∀ q : Fin 384, v73 (ix2 r q) = gh q)
    (h74 : ∀ k : Fin 128, v74 (ix2 r k) = gi ⟨k.val, by omega⟩)
    (h75 : ∀ k : Fin 128, v75 (ix2 r k) = gi ⟨128 + k.val, by omega⟩)
    (h76 : ∀ k : Fin 128, v76 (ix2 r k) = gi ⟨256 + k.val, by omega⟩)
    (h77 : ∀ k : Fin 128, v77 (ix2 r k) = gh ⟨k.val, by omega⟩)
    (q : Fin 384) :
    k0_pay10 v57 v73 v74 v75 v76 v77 v95 v98 (ix2 r q)
      = Net.affine (fun i k => v95 (ix2 i k)) (fun i => v98 (ix1 i)) (cell gi gh h) q := by
  have e78 : ∀ k : Fin 128, extractStridedSlice S512x128 ![0, 128] v73 slices_S512x384_o0_128_S512x128 (ix2 r k)
      = gh ⟨128 + k.val, by omega⟩ := fun k =>
    (slice2_axis1_apply 128 v73 slices_S512x384_o0_128_S512x128 r k ⟨128 + k.val, by omega⟩ rfl).trans (h73 _)
  have e79 : ∀ k : Fin 128, extractStridedSlice S512x128 ![0, 256] v73 slices_S512x384_o0_256_S512x128 (ix2 r k)
      = gh ⟨256 + k.val, by omega⟩ := fun k =>
    (slice2_axis1_apply 256 v73 slices_S512x384_o0_256_S512x128 r k ⟨256 + k.val, by omega⟩ rfl).trans (h73 _)
  unfold k0_pay10 Net.affine
  refine (addf_apply _ _ (ix2 r q)).trans ?_
  refine congrArg₂ (· + ·) ?_ (biasRow_apply v98 _ _ r q)
  refine (Cert.LibRowReduceProducts.matmulNT dot_S512x128_S384x128_S512x384_1_1_0_0_n_n rfl rfl rfl rfl rfl rfl none _ _ r q).trans ?_
  refine Finset.sum_congr rfl fun k _ => ?_
  refine congrArg₂ (· * ·) ?_ rfl
  show (Ideal.ofBits .f32 0x3F800000#32
        - Ideal.logistic (v75 (ix2 r k) + extractStridedSlice S512x128 ![0, 128] v73 slices_S512x384_o0_128_S512x128 (ix2 r k)))
      * Ideal.tanh (v76 (ix2 r k) + Ideal.logistic (v74 (ix2 r k) + v77 (ix2 r k))
          * extractStridedSlice S512x128 ![0, 256] v73 slices_S512x384_o0_256_S512x128 (ix2 r k))
      + Ideal.logistic (v75 (ix2 r k) + extractStridedSlice S512x128 ![0, 128] v73 slices_S512x384_o0_128_S512x128 (ix2 r k))
        * v57 (ix2 r k) = cell gi gh h k
  rw [e78 k, e79 k, h74 k, h75 k, h76 k, h77 k, h57 k, Net.ofBits_one]
  rfl

/-- A third of a width-384 block (columns o .. o + 127), read at an entry of a row whose entries are known. -/
theorem third_apply (o : ℕ) (X : FVec Ideal S512x384 .f32) (hs : S512x384.Slices ![0, o] S512x128) (r : Fin 512)
    (g : Fin 384 → EReal) (hX : ∀ q : Fin 384, X (ix2 r q) = g q) (k : Fin 128) (c : Fin 384) (hc : c.val = o + k.val) :
    extractStridedSlice S512x128 ![0, o] X hs (ix2 r k) = g c :=
  (slice2_axis1_apply o X hs r k c hc).trans (hX c)

/-- The second cell's update gate. -/
theorem pay12_apply (v57 : FVec Ideal S512x128 .f32) (v73 : FVec Ideal S512x384 .f32) (v74 v75 v76 v77 : FVec Ideal S512x128 .f32)
    (v92 : Vec Ideal S512x128 .f32) (v95 : Vec Ideal S384x128 .f32) (v98 : Vec Ideal S384 .f32)
    (v103 : Vec Ideal S384x128 .f32) (v106 : Vec Ideal S384 .f32) (r : Fin 512)
    (gi gh : Fin 384 → EReal)
    (h10 : ∀ q : Fin 384, k0_pay10 v57 v73 v74 v75 v76 v77 v95 v98 (ix2 r q) = gi q)
    (h11 : ∀ q : Fin 384, k0_pay11 v92 v103 v106 (ix2 r q) = gh q) (k : Fin 128) :
    k0_pay12 v57 v73 v74 v75 v76 v77 v92 v95 v98 v103 v106 (ix2 r k)
      = Ideal.logistic (gi ⟨128 + k.val, by omega⟩ + gh ⟨128 + k.val, by omega⟩) := by
  unfold k0_pay12
  show Ideal.logistic
      (extractStridedSlice S512x128 ![0, 128] (k0_pay10 v57 v73 v74 v75 v76 v77 v95 v98) slices_S512x384_o0_128_S512x128 (ix2 r k)
        + extractStridedSlice S512x128 ![0, 128] (k0_pay11 v92 v103 v106) slices_S512x384_o0_128_S512x128 (ix2 r k)) = _
  rw [third_apply 128 _ _ r gi h10 k ⟨128 + k.val, by omega⟩ rfl, third_apply 128 _ _ r gh h11 k ⟨128 + k.val, by omega⟩ rfl]

/-- (1 - update gate) times the candidate of the second cell. -/
theorem pay13_apply (v57 : FVec Ideal S512x128 .f32) (v73 : FVec Ideal S512x384 .f32) (v74 v75 v76 v77 : FVec Ideal S512x128 .f32)
    (v92 : Vec Ideal S512x128 .f32) (v95 : Vec Ideal S384x128 .f32) (v98 : Vec Ideal S384 .f32)
    (v103 : Vec Ideal S384x128 .f32) (v106 : Vec Ideal S384 .f32) (r : Fin 512)
    (gi gh : Fin 384 → EReal)
    (h10 : ∀ q : Fin 384, k0_pay10 v57 v73 v74 v75 v76 v77 v95 v98 (ix2 r q) = gi q)
    (h11 : ∀ q : Fin 384, k0_pay11 v92 v103 v106 (ix2 r q) = gh q) (k : Fin 128) :
    k0_pay13 v57 v73 v74 v75 v76 v77 v92 v95 v98 v103 v106 (ix2 r k)
      = (1 - Ideal.logistic (gi ⟨128 + k.val, by omega⟩ + gh ⟨128 + k.val, by omega⟩))
        * Ideal.tanh (gi ⟨256 + k.val, by omega⟩
            + Ideal.logistic (gi ⟨k.val, by omega⟩ + gh ⟨k.val, by omega⟩) * gh ⟨256 + k.val, by omega⟩) := by
  unfold k0_pay13
  show (Ideal.ofBits .f32 0x3F800000#32 - k0_pay12 v57 v73 v74 v75 v76 v77 v92 v95 v98 v103 v106 (ix2 r k))
      * Ideal.tanh
        (extractStridedSlice S512x128 ![0, 256] (k0_pay10 v57 v73 v74 v75 v76 v77 v95 v98) slices_S512x384_o0_256_S512x128 (ix2 r k)
          + Ideal.logistic
              (extractStridedSlice S512x128 ![0, 0] (k0_pay10 v57 v73 v74 v75 v76 v77 v95 v98) slices_S512x384_o0_0_S512x128 (ix2 r k)
                + extractStridedSlice S512x128 ![0, 0] (k0_pay11 v92 v103 v106) slices_S512x384_o0_0_S512x128 (ix2 r k))
            * extractStridedSlice S512x128 ![0, 256] (k0_pay11 v92 v103 v106) slices_S512x384_o0_256_S512x128 (ix2 r k)) = _
  rw [pay12_apply v57 v73 v74 v75 v76 v77 v92 v95 v98 v103 v106 r gi gh h10 h11 k,
    third_apply 256 _ _ r gi h10 k ⟨256 + k.val, by omega⟩ rfl, third_apply 256 _ _ r gh h11 k ⟨256 + k.val, by omega⟩ rfl,
    third_apply 0 _ _ r gi h10 k ⟨k.val, by omega⟩ (Nat.zero_add _).symm,
    third_apply 0 _ _ r gh h11 k ⟨k.val, by omega⟩ (Nat.zero_add _).symm, Net.ofBits_one]

/-- The hidden row the second cell leaves. -/
theorem cell2_apply (v57 : FVec Ideal S512x128 .f32) (v73 : FVec Ideal S512x384 .f32) (v74 v75 v76 v77 : FVec Ideal S512x128 .f32)
    (v92 : Vec Ideal S512x128 .f32) (v95 : Vec Ideal S384x128 .f32) (v98 : Vec Ideal S384 .f32)
    (v103 : Vec Ideal S384x128 .f32) (v106 : Vec Ideal S384 .f32) (r : Fin 512)
    (gi gh : Fin 384 → EReal) (h : Fin 128 → EReal)
    (h9 : ∀ k : Fin 128, k0_pay9 v92 (ix2 r k) = h k)
    (h10 : ∀ q : Fin 384, k0_pay10 v57 v73 v74 v75 v76 v77 v95 v98 (ix2 r q) = gi q)
    (h11 : ∀ q : Fin 384, k0_pay11 v92 v103 v106 (ix2 r q) = gh q) (k : Fin 128) :
    k0_pay14 (k0_pay9 v92) (k0_pay12 v57 v73 v74 v75 v76 v77 v92 v95 v98 v103 v106)
        (k0_pay13 v57 v73 v74 v75 v76 v77 v92 v95 v98 v103 v106) (ix2 r k) = cell gi gh h k := by
  rw [pay14_apply, pay13_apply v57 v73 v74 v75 v76 v77 v92 v95 v98 v103 v106 r gi gh h10 h11 k,
    pay12_apply v57 v73 v74 v75 v76 v77 v92 v95 v98 v103 v106 r gi gh h10 h11 k, h9 k]
  rfl

end Cert.KernelRow

end
-- ==== Proof.KernelRowB0.lean ====
/-
  The recurring pieces of the kernel's block, read at an entry of one row: the bias row repeated down the rows, an
  affine layer (a product with the transpose of the weights into a zero accumulator, plus the bias row), the
  exponential linear unit and the softplus in the block's spelling, and one output of a small head computed as a sum
  along the lanes.
-/
import proofs.«107767_j18107582120224_2_alg».proof.Proof.Gen.KernelIdeal.Skeleton
import proofs.«107767_j18107582120224_2_alg».proof.Proof.NetSpec
import proofs.«107767_j18107582120224_2_alg».proof.Proof.LibRowReduceProducts
import proofs.«107767_j18107582120224_2_alg».proof.Proof.LibKeepdimsCols
import proofs.«107767_j18107582120224_2_alg».proof.Proof.LibPayOps
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelRow

open Cert.KernelIdeal Cert.KernelIdeal.Gen Idealize.ShloMosaic Idealize.ShloMosaic.ValueIdx

/-- A bias of width n viewed as one row [1, n] and repeated down 512 rows reads, anywhere in column q, the bias at q. -/
theorem rowBias_apply {n : ℕ} (b : Vec Ideal ⟨1, ![n]⟩ .f32) (hc : (⟨1, ![n]⟩ : Shape).ShapeCasts ⟨2, ![1, n]⟩)
    (hb : (⟨2, ![1, n]⟩ : Shape).Broadcasts ⟨2, ![512, n]⟩) (r : Fin 512) (q : Fin n) :
    broadcastTo ⟨2, ![512, n]⟩ (shapeCast ⟨2, ![1, n]⟩ b hc) hb (ix2 r q) = b (ix1 q) :=
  (broadcastTo_1b_ab_apply _ hb r q).trans (shapeCast_a_1a_apply b hc 0 q)

/-- An affine layer on a block of 512 rows: the block against the rows of the weights (both narrowed, which changes
    nothing here), contracted over the second axis of both into a zero accumulator, plus the bias row. At row r and
    output i it is the affine layer of the specification applied to row r. -/
theorem linear_apply {K N : ℕ} (D : DotDims ⟨2, ![512, K]⟩ ⟨2, ![N, K]⟩ ⟨2, ![512, N]⟩)
    (hlc : D.lhsContracting = [1]) (hrc : D.rhsContracting = [1]) (hln : D.lhsNonContracting = [0])
    (hrn : D.rhsNonContracting = [0]) (hlb : D.lhsBatch = []) (hrb : D.rhsBatch = [])
    (x : FVec Ideal ⟨2, ![512, K]⟩ .f32) (W : Vec Ideal ⟨2, ![N, K]⟩ .f32) (b : Vec Ideal ⟨1, ![N]⟩ .f32)
    (h1 : FTy.bits .bf16 < FTy.bits .f32) (h2 : FTy.bits .bf16 < FTy.bits .f32)
    (hc : (⟨1, ![N]⟩ : Shape).ShapeCasts ⟨2, ![1, N]⟩) (hb : (⟨2, ![1, N]⟩ : Shape).Broadcasts ⟨2, ![512, N]⟩)
    (r : Fin 512) (row : Fin K → EReal) (hx : ∀ k : Fin K, x (ix2 r k) = row k) (i : Fin N) :
    addf (matmul D none (truncf .bf16 x h1) (truncf .bf16 W h2) (constant (F := Ideal) ⟨2, ![512, N]⟩ .f32 0x00000000#32))
        (broadcastTo ⟨2, ![512, N]⟩ (shapeCast ⟨2, ![1, N]⟩ b hc) hb) (ix2 r i)
      = Net.affine (fun i k => W (ix2 i k)) (fun i => b (ix1 i)) row i := by
  unfold Net.affine
  refine (addf_apply _ _ (ix2 r i)).trans ?_
  refine congrArg₂ (· + ·) ?_ (rowBias_apply b hc hb r i)
  refine (Cert.LibRowReduceProducts.matmulNT D hlc hrc hln hrn hlb hrb none _ _ r i).trans ?_
  exact Finset.sum_congr rfl fun k _ => congrArg₂ (· * ·) (hx k) rfl

/-- The exponential linear unit as the block spells it: a selection on x > 0 between x and exp x - 1. -/
theorem eluVec_apply {s : Shape} (a : FVec Ideal s .f32) (i : s.Idx) :
    select (cmpf .ogt a (broadcast s (Scalar.ofBits (F := Ideal) .f32 0x00000000#32))) a
        (subf (exp a) (broadcast s (Scalar.ofBits (F := Ideal) .f32 0x3F800000#32))) i = Net.elu (a i) := by
  show Scalar.select (Ideal.cmp .ogt (a i) (Ideal.ofBits .f32 0x00000000#32)) (a i)
      (Ideal.exp (a i) - Ideal.ofBits .f32 0x3F800000#32) = _
  rw [Net.ofBits_zero, Net.ofBits_one]
  exact Net.elu_select (a i)

/-- One output of a small head computed on the lanes: the block times a weight row (a [64] vector viewed as [1, 64] and
    repeated down the rows), summed along each row, viewed as a column, plus a scalar bias. -/
theorem headSum_apply (e : FVec Ideal S512x64 .f32) (w : FVec Ideal S64 .f32) (b : EReal)
    (hc : S64.ShapeCasts S1x64) (hb : S1x64.Broadcasts S512x64) (hr : S512x64.Reduces [1] S512)
    (hφ : FKind.Formats .f32) (hacc : (0x00000000#32 : BitVec 32) = FKind.add.neutral .f32 hφ)
    (hc' : S512.ShapeCasts S512x1) (r : Fin 512) (u : Fin 1) :
    addf (shapeCast S512x1 (multiReduction .add [1] S512 (mulf e (broadcastTo S512x64 (shapeCast S1x64 w hc) hb))
        0x00000000#32 hr hφ hacc) hc') (broadcast S512x1 b) (ix2 r u)
      = (∑ i : Fin 64, e (ix2 r i) * w (ix1 i)) + b := by
  refine (addf_apply _ _ (ix2 r u)).trans ?_
  refine congrArg₂ (· + ·) ?_ rfl
  refine (Cert.LibKeepdimsCols.shapeCast_a_a1_apply _ hc' r u).trans ?_
  refine (Cert.LibRowReduceProducts.rowSum_apply _ hr hφ hacc r).trans ?_
  refine Finset.sum_congr rfl fun i _ => ?_
  refine (mulf_apply _ _ (ix2 r i)).trans ?_
  exact congrArg₂ (· * ·) rfl (rowBias_apply w hc hb r i)

/-- The softplus as the block spells it: max x 0 + log1p (exp (0 - |x - 0|)), behind a guard x - 0 ≠ x - 0 that never
    holds. -/
theorem softplusVec_apply {s : Shape} (x : FVec Ideal s .f32) (i : s.Idx) :
    select (cmpf .one (subf x (broadcast s (Scalar.ofBits (F := Ideal) .f32 0x00000000#32)))
          (subf x (broadcast s (Scalar.ofBits (F := Ideal) .f32 0x00000000#32))))
        (addf x (broadcast s (Scalar.ofBits (F := Ideal) .f32 0x00000000#32)))
        (addf (maximumf x (broadcast s (Scalar.ofBits (F := Ideal) .f32 0x00000000#32)))
          (log1p (exp (subf (broadcast s (Scalar.ofBits (F := Ideal) .f32 0x00000000#32))
            (absf (subf x (broadcast s (Scalar.ofBits (F := Ideal) .f32 0x00000000#32)))))))) i
      = Net.softplus (x i) := by
  show Scalar.select (Ideal.cmp .one (x i - Ideal.ofBits .f32 0x00000000#32) (x i - Ideal.ofBits .f32 0x00000000#32))
      (x i + Ideal.ofBits .f32 0x00000000#32)
      (max (x i) (Ideal.ofBits .f32 0x00000000#32)
        + Ideal.log1p (Ideal.exp (Ideal.ofBits .f32 0x00000000#32
            - max (x i - Ideal.ofBits .f32 0x00000000#32) (-(x i - Ideal.ofBits .f32 0x00000000#32))))) = _
  rw [Net.ofBits_zero, Net.select_ne_self .one (Or.inl rfl)]
  exact Net.softplus_sub (x i)

end Cert.KernelRow

end
-- ==== Proof.KernelRowB2.lean ====
/-
  The scale head of the kernel's block, and the correction head's first product, read at an entry of one row whose
  hidden entries are known.
-/
import proofs.«107767_j18107582120224_2_alg».proof.Proof.Gen.KernelIdeal.Skeleton
import proofs.«107767_j18107582120224_2_alg».proof.Proof.NetSpec
import proofs.«107767_j18107582120224_2_alg».proof.Proof.LibRowReduceProducts
import proofs.«107767_j18107582120224_2_alg».proof.Proof.LibKeepdimsCols
import proofs.«107767_j18107582120224_2_alg».proof.Proof.LibPayOps
import proofs.«107767_j18107582120224_2_alg».proof.Proof.KernelRowB0
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelRow

open Cert.KernelIdeal Cert.KernelIdeal.Gen Idealize.ShloMosaic Idealize.ShloMosaic.ValueIdx

/-- The correction head's first product (no bias yet): the hidden row against the rows of its first weights. -/
theorem pay16_apply (v93 v119 v125 : FVec Ideal S512x128 .f32) (v168 : Vec Ideal S64x128 .f32) (r : Fin 512)
    (hid : Fin 128 → EReal) (hh : ∀ k : Fin 128, k0_pay14 v93 v119 v125 (ix2 r k) = hid k) (i : Fin 64) :
    k0_pay16 v93 v119 v125 v168 (ix2 r i) = ∑ k : Fin 128, hid k * v168 (ix2 i k) := by
  unfold k0_pay16
  refine (Cert.LibRowReduceProducts.matmulNT dot_S512x128_S64x128_S512x64_1_1_0_0_n_n rfl rfl rfl rfl rfl rfl none _ _ r i).trans ?_
  exact Finset.sum_congr rfl fun k _ => congrArg₂ (· * ·) (hh k) rfl

/-- A position-0 extraction from a one-entry vector is its entry. -/
theorem extractAt_S1 (v : S1.Idx → EReal) (h : ∀ a, (![0] : Fin 1 → Nat) a < S1.size a) :
    extractAt ![0] v h = v (ix1 (0 : Fin 1)) :=
  congrArg v (funext fun a => by match a with | ⟨0, _⟩ => rfl)

/-- The scale head: an affine layer of 64 with the exponential linear unit, one inner product with a bias, softplus. -/
theorem pay15_apply (v93 v119 v125 : FVec Ideal S512x128 .f32) (v129 : Vec Ideal S64x128 .f32) (v132 : Vec Ideal S64 .f32)
    (v142 : Vec Ideal S1x64 .f32) (v143 : Vec Ideal S1 .f32) (r : Fin 512)
    (hid : Fin 128 → EReal) (hh : ∀ k : Fin 128, k0_pay14 v93 v119 v125 (ix2 r k) = hid k) (u : Fin 1) :
    k0_pay15 v93 v119 v125 v129 v132 v142 v143 (ix2 r u)
      = Net.softplus (Net.affine (fun i k => v142 (ix2 i k)) (fun i => v143 (ix1 i))
          (fun i => Net.elu (Net.affine (fun i k => v129 (ix2 i k)) (fun i => v132 (ix1 i)) hid i)) 0) := by
  unfold k0_pay15
  refine (softplusVec_apply _ (ix2 r u)).trans (congrArg Net.softplus ?_)
  refine (headSum_apply _ _ _ _ _ _ _ _ _ r u).trans ?_
  unfold Net.affine
  refine congrArg₂ (· + ·) (Finset.sum_congr rfl fun i _ => congrArg₂ (· * ·) ?_ ?_) (extractAt_S1 v143 _)
  · refine (eluVec_apply _ (ix2 r i)).trans (congrArg Net.elu ?_)
    exact linear_apply dot_S512x128_S64x128_S512x64_1_1_0_0_n_n rfl rfl rfl rfl rfl rfl _ v129 v132 _ _ _ _ r hid hh i
  · exact shapeCast_1a_a_apply v142 _ i

end Cert.KernelRow

end
-- ==== Proof.KernelRowB3.lean ====
/-
  The block the kernel stores, read at an entry of one row: the scale column followed by the three correction
  columns, each correction column an inner product along the lanes of the exponential linear unit of the correction
  head's first layer with one row of the [3, 64] weights, plus that row's bias.
-/
import proofs.«107767_j18107582120224_2_alg».proof.Proof.Gen.KernelIdeal.Skeleton
import proofs.«107767_j18107582120224_2_alg».proof.Proof.NetSpec
import proofs.«107767_j18107582120224_2_alg».proof.Proof.LibRowReduceProducts
import proofs.«107767_j18107582120224_2_alg».proof.Proof.LibKeepdimsCols
import proofs.«107767_j18107582120224_2_alg».proof.Proof.LibPayOps
import proofs.«107767_j18107582120224_2_alg».proof.Proof.KernelRowB0
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelRow

open Cert.KernelIdeal Cert.KernelIdeal.Gen Idealize.ShloMosaic Idealize.ShloMosaic.ValueIdx

/-- A position-0 extraction from a one-entry vector is its entry. -/
theorem extractAt_one (v : S1.Idx → EReal) (h : ∀ a, (![0] : Fin 1 → Nat) a < S1.size a) :
    extractAt ![0] v h = v (ix1 (0 : Fin 1)) :=
  congrArg v (funext fun a => by match a with | ⟨0, _⟩ => rfl)

/-- One correction output on the lanes: the block against row m of the [3, 64] weights (cut out, flattened, viewed as a
    row again and repeated down the rows), summed along each row, plus entry m of the bias. -/
theorem corrCol_apply (e : FVec Ideal S512x64 .f32) (W : Vec Ideal S3x64 .f32) (b : Vec Ideal S3 .f32) (m : ℕ)
    (hs : S3x64.Slices ![m, 0] S1x64) (hs1 : S3.Slices ![m] S1) (hc1 : S1x64.ShapeCasts S64)
    (hp : ∀ a, (![0] : Fin 1 → Nat) a < S1.size a)
    (hc : S64.ShapeCasts S1x64) (hb : S1x64.Broadcasts S512x64) (hr : S512x64.Reduces [1] S512)
    (hφ : FKind.Formats .f32) (hacc : (0x00000000#32 : BitVec 32) = FKind.add.neutral .f32 hφ)
    (hc' : S512.ShapeCasts S512x1) (r : Fin 512) (u : Fin 1) (mm : Fin 3) (hm : mm.val = m) :
    addf (shapeCast S512x1 (multiReduction .add [1] S512
          (mulf e (broadcastTo S512x64 (shapeCast S1x64 (shapeCast S64 (extractStridedSlice S1x64 ![m, 0] W hs) hc1) hc) hb))
          0x00000000#32 hr hφ hacc) hc')
        (broadcast S512x1 (extractAt ![0] (extractStridedSlice S1 ![m] b hs1) hp)) (ix2 r u)
      = (∑ i : Fin 64, e (ix2 r i) * W (ix2 mm i)) + b (ix1 mm) := by
  refine (headSum_apply e _ _ hc hb hr hφ hacc hc' r u).trans ?_
  refine congrArg₂ (· + ·) (Finset.sum_congr rfl fun i _ => congrArg₂ (· * ·) rfl ?_) ?_
  · refine (shapeCast_1a_a_apply _ hc1 i).trans ?_
    exact slice2_axis0_apply m W hs (0 : Fin 1) i mm (by rw [hm]; rfl)
  · refine (extractAt_one _ hp).trans ?_
    exact extractStridedSlice_apply _ b hs1 (ix1 (0 : Fin 1)) (ix1 mm) (fun a => by
      match a with
      | ⟨0, _⟩ => show mm.val = m + 0; omega)

/-- Three columns side by side, read at row r: column m is the m-th piece's entry of that row. -/
theorem concat3cols_apply (a b c : FVec Ideal S512x1 .f32) (h : Shape.Concatenates [S512x1, S512x1, S512x1] S512x3 1)
    (r : Fin 512) (m : Fin 3) :
    concatenate S512x3 1 [⟨S512x1, a⟩, ⟨S512x1, b⟩, ⟨S512x1, c⟩] h (ix2 r m)
      = if m.val = 0 then a (ix2 r (0 : Fin 1)) else if m.val = 1 then b (ix2 r (0 : Fin 1)) else c (ix2 r (0 : Fin 1)) := by
  have hm : m.val = 0 ∨ m.val = 1 ∨ m.val = 2 := by omega
  rcases hm with h0 | h1 | h2
  · rw [if_pos h0]
    exact concatenate_apply_piece (t := S512x3) (1 : Fin 2)
      ([⟨S512x1, a⟩, ⟨S512x1, b⟩, ⟨S512x1, c⟩] : List ((s : Shape) × (s.Idx → EReal))) h (ix2 r m) 0 (by show (0 : ℕ) < 3; omega) S512x1 a rfl rfl 0 rfl
      (ix2 r (0 : Fin 1)) (fun b hb => by
        match b with
        | ⟨0, _⟩ => rfl
        | ⟨1, _⟩ => exact absurd rfl hb) (by show 0 + 0 = m.val; omega)
  · rw [if_neg (by omega), if_pos h1]
    exact concatenate_apply_piece (t := S512x3) (1 : Fin 2)
      ([⟨S512x1, a⟩, ⟨S512x1, b⟩, ⟨S512x1, c⟩] : List ((s : Shape) × (s.Idx → EReal))) h (ix2 r m) 1 (by show (1 : ℕ) < 3; omega) S512x1 b rfl rfl 1 rfl
      (ix2 r (0 : Fin 1)) (fun b hb => by
        match b with
        | ⟨0, _⟩ => rfl
        | ⟨1, _⟩ => exact absurd rfl hb) (by show 1 + 0 = m.val; omega)
  · rw [if_neg (by omega), if_neg (by omega)]
    exact concatenate_apply_piece (t := S512x3) (1 : Fin 2)
      ([⟨S512x1, a⟩, ⟨S512x1, b⟩, ⟨S512x1, c⟩] : List ((s : Shape) × (s.Idx → EReal))) h (ix2 r m) 2 (by show (2 : ℕ) < 3; omega) S512x1 c rfl rfl 2 rfl
      (ix2 r (0 : Fin 1)) (fun b hb => by
        match b with
        | ⟨0, _⟩ => rfl
        | ⟨1, _⟩ => exact absurd rfl hb) (by show 2 + 0 = m.val; omega)

/-- The stored block: the scale in column 0, then the three correction outputs (bias, exponential linear unit, and the
    three inner products with their biases) in columns 1 to 3. -/
theorem pay17_apply (v166 : FVec Ideal S512x1 .f32) (v170 : FVec Ideal S512x64 .f32) (v171 : Vec Ideal S64 .f32)
    (v181 : Vec Ideal S3x64 .f32) (v182 : Vec Ideal S3 .f32) (r : Fin 512) (j : Fin 4) :
    k0_pay17 v166 v170 v171 v181 v182 (ix2 r j)
      = if hj : j.val < 1 then v166 (ix2 r (0 : Fin 1))
        else Net.affine (fun i k => v181 (ix2 i k)) (fun i => v182 (ix1 i))
          (fun i => Net.elu (v170 (ix2 r i) + v171 (ix1 i))) ⟨j.val - 1, by omega⟩ := by
  have he : ∀ i : Fin 64,
      select (cmpf .ogt (addf v170 (broadcastTo S512x64 (shapeCast S1x64 v171 shapeCasts_S64_S1x64) broadcasts_S1x64_S512x64))
            (broadcast S512x64 (Scalar.ofBits (F := Ideal) .f32 0x00000000#32)))
          (addf v170 (broadcastTo S512x64 (shapeCast S1x64 v171 shapeCasts_S64_S1x64) broadcasts_S1x64_S512x64))
          (subf (exp (addf v170 (broadcastTo S512x64 (shapeCast S1x64 v171 shapeCasts_S64_S1x64) broadcasts_S1x64_S512x64)))
            (broadcast S512x64 (Scalar.ofBits (F := Ideal) .f32 0x3F800000#32))) (ix2 r i)
        = Net.elu (v170 (ix2 r i) + v171 (ix1 i)) := fun i =>
    (eluVec_apply _ (ix2 r i)).trans (congrArg Net.elu
      ((addf_apply _ _ (ix2 r i)).trans (congrArg₂ (· + ·) rfl (rowBias_apply v171 _ _ r i))))
  unfold k0_pay17
  by_cases hj : j.val < 1
  · rw [dif_pos hj]
    refine concatenate_pair_apply_left (t := S512x4) (s₁ := S512x1) (s₂ := S512x3) (1 : Fin 2) v166 _ concatenates_S512x1_S512x3_S512x4_d1 (ix2 r j) rfl
      (ix2 r (0 : Fin 1)) (fun b => by
        match b with
        | ⟨0, _⟩ => rfl
        | ⟨1, _⟩ => show 0 = j.val; omega)
  · rw [dif_neg hj]
    refine (concatenate_pair_apply_right (t := S512x4) (s₁ := S512x1) (s₂ := S512x3) (1 : Fin 2) v166 _ concatenates_S512x1_S512x3_S512x4_d1 (ix2 r j) rfl rfl
      (ix2 r (⟨j.val - 1, by omega⟩ : Fin 3)) (fun b hb => by
        match b with
        | ⟨0, _⟩ => rfl
        | ⟨1, _⟩ => exact absurd rfl hb) (by show (j.val - 1) + 1 = j.val; omega)).trans ?_
    unfold Net.affine
    refine (concat3cols_apply _ _ _ concatenates_S512x1_S512x1_S512x1_S512x3_d1 r ⟨j.val - 1, by omega⟩).trans ?_
    have hj3 : j.val - 1 = 0 ∨ j.val - 1 = 1 ∨ j.val - 1 = 2 := by omega
    rcases hj3 with h0 | h1 | h2
    · rw [if_pos h0]
      refine (corrCol_apply _ v181 v182 0 _ _ _ _ _ _ _ _ _ _ r 0 ⟨j.val - 1, by omega⟩ h0).trans ?_
      exact congrArg₂ (· + ·) (Finset.sum_congr rfl fun i _ => congrArg₂ (· * ·) (he i) rfl) rfl
    · rw [if_neg (by show ¬ (j.val - 1 = 0); omega), if_pos h1]
      refine (corrCol_apply _ v181 v182 1 _ _ _ _ _ _ _ _ _ _ r 0 ⟨j.val - 1, by omega⟩ h1).trans ?_
      exact congrArg₂ (· + ·) (Finset.sum_congr rfl fun i _ => congrArg₂ (· * ·) (he i) rfl) rfl
    · rw [if_neg (by show ¬ (j.val - 1 = 0); omega), if_neg (by show ¬ (j.val - 1 = 1); omega)]
      refine (corrCol_apply _ v181 v182 2 _ _ _ _ _ _ _ _ _ _ r 0 ⟨j.val - 1, by omega⟩ h2).trans ?_
      exact congrArg₂ (· + ·) (Finset.sum_congr rfl fun i _ => congrArg₂ (· * ·) (he i) rfl) rfl

end Cert.KernelRow

end
-- ==== Proof.KernelRow.lean ====
/-
  The value the kernel's block stores, read at row r and column j: the specification's row function of that row's
  twenty observations, its two hidden rows and the weights. The hidden row of the block is the two gated recurrent
  cells applied to the block's normalised row; the stored block is the scale head of that hidden row in column 0 and
  the correction head in columns 1 to 3; the normalised row is the layer norm of the concatenated observations.
-/
import proofs.«107767_j18107582120224_2_alg».proof.Proof.Gen.KernelIdeal.Skeleton
import proofs.«107767_j18107582120224_2_alg».proof.Proof.NetSpec
import proofs.«107767_j18107582120224_2_alg».proof.Proof.KernelRowA
import proofs.«107767_j18107582120224_2_alg».proof.Proof.KernelRowB1
import proofs.«107767_j18107582120224_2_alg».proof.Proof.KernelRowB2
import proofs.«107767_j18107582120224_2_alg».proof.Proof.KernelRowB3
import Idealize.ShloMosaic.Lib.ValueIdx

noncomputable section

open scoped BigOperators

namespace Cert.KernelRow

open Cert.KernelIdeal Cert.KernelIdeal.Gen Idealize.ShloMosaic Idealize.ShloMosaic.ValueIdx

/-- The hidden row the two cells leave, as a function of the normalised observation row. -/
def hiddenOfNorm (P : Net.Params) (xn : Fin 20 → EReal) (h0 h1 : Fin 128 → EReal) : Fin 128 → EReal :=
  Net.gru P.Wih1 P.Whh1 P.bih1 P.bhh1
    (Net.gru P.Wih0 P.Whh0 P.bih0 P.bhh0
      (Net.affine P.W2 P.b2 (fun i => Net.elu (Net.affine P.W1 P.b1 xn i))) h0) h1

/-- The four outputs of a row, as a function of the normalised observation row. -/
def rowOfNorm (P : Net.Params) (xn : Fin 20 → EReal) (h0 h1 : Fin 128 → EReal) (j : Fin 4) : EReal :=
  if hj : j.val < 1 then Net.scaleHead P (hiddenOfNorm P xn h0 h1)
  else Net.corrHead P (hiddenOfNorm P xn h0 h1) ⟨j.val - 1, by omega⟩

/-- The specification's row function is that function of the layer norm of the observations. -/
theorem rowNet_eq (P : Net.Params) (obs : Fin 20 → EReal) (h0 h1 : Fin 128 → EReal) (j : Fin 4) :
    Net.rowNet P obs h0 h1 j = rowOfNorm P (Net.layerNorm obs P.g P.b) h0 h1 j := rfl

/-- The hidden row of the block at row r: the two cells applied to the block's normalised row. -/
theorem hidden_core (v34 : FVec Ideal S512x20 .bf16) (x7 x8 : Vec Ideal S20 .f32) (x9 : Vec Ideal S128x20 .f32) (x10 : Vec Ideal S128 .f32) (x11 : Vec Ideal S128x128 .f32) (x12 : Vec Ideal S128 .f32)
    (x13 x14 : Vec Ideal S384x128 .f32) (x15 x16 : Vec Ideal S384 .f32) (x17 x18 : Vec Ideal S384x128 .f32) (x19 x20 : Vec Ideal S384 .f32)
    (x21 : Vec Ideal S64x128 .f32) (x22 : Vec Ideal S64 .f32) (x23 : Vec Ideal S1x64 .f32) (x24 : Vec Ideal S1 .f32)
    (x25 : Vec Ideal S64x128 .f32) (x26 : Vec Ideal S64 .f32) (x27 : Vec Ideal S3x64 .f32) (x28 : Vec Ideal S3 .f32)
    (x29 x30 : Vec Ideal S512x128 .f32) (r : Fin 512) (k : Fin 128) :
    k0_pay14 (k0_pay9 x30) (k0_pay12 (k0_pay2 x29) (k0_pay4 x29 x14 x16) (k0_pay5 v34 x9 x10 x11 x12 x13 x15) (k0_pay6 v34 x9 x10 x11 x12 x13 x15) (k0_pay7 v34 x9 x10 x11 x12 x13 x15) (k0_pay8 x29 x14 x16) x30 x17 x19 x18 x20) (k0_pay13 (k0_pay2 x29) (k0_pay4 x29 x14 x16) (k0_pay5 v34 x9 x10 x11 x12 x13 x15) (k0_pay6 v34 x9 x10 x11 x12 x13 x15) (k0_pay7 v34 x9 x10 x11 x12 x13 x15) (k0_pay8 x29 x14 x16) x30 x17 x19 x18 x20) (ix2 r k)
      = hiddenOfNorm (Net.paramsOf x7 x8 x9 x10 x11 x12 x13 x14 x15 x16 x17 x18 x19 x20 x21 x22 x23 x24 x25 x26 x27 x28) (fun k => v34 (ix2 r k)) (fun k => x29 (ix2 r k)) (fun k => x30 (ix2 r k)) k := by
  have h10 := pay10_apply (k0_pay2 x29) (k0_pay4 x29 x14 x16) (k0_pay5 v34 x9 x10 x11 x12 x13 x15) (k0_pay6 v34 x9 x10 x11 x12 x13 x15) (k0_pay7 v34 x9 x10 x11 x12 x13 x15) (k0_pay8 x29 x14 x16) x17 x19 r
    (Net.affine (fun i k => x13 (ix2 i k)) (fun i => x15 (ix1 i))
      (Net.affine (fun i k => x11 (ix2 i k)) (fun i => x12 (ix1 i))
        (fun i => Net.elu (Net.affine (fun i k => x9 (ix2 i k)) (fun i => x10 (ix1 i)) (fun k => v34 (ix2 r k)) i))))
    (Net.affine (fun i k => x14 (ix2 i k)) (fun i => x16 (ix1 i)) (fun k => x29 (ix2 r k)))
    (fun k => x29 (ix2 r k))
    (pay2_apply x29 r) (pay4_apply x29 x14 x16 r) (pay5_apply v34 x9 x10 x11 x12 x13 x15 r)
    (pay6_apply v34 x9 x10 x11 x12 x13 x15 r) (pay7_apply v34 x9 x10 x11 x12 x13 x15 r) (pay8_apply x29 x14 x16 r)
  refine (cell2_apply (k0_pay2 x29) (k0_pay4 x29 x14 x16) (k0_pay5 v34 x9 x10 x11 x12 x13 x15) (k0_pay6 v34 x9 x10 x11 x12 x13 x15) (k0_pay7 v34 x9 x10 x11 x12 x13 x15) (k0_pay8 x29 x14 x16) x30 x17 x19 x18 x20 r _ _ (fun k => x30 (ix2 r k))
    (pay9_apply x30 r) h10 (pay11_apply x30 x18 x20 r) k).trans ?_
  rfl

/-- The stored block at row r and column j, as a function of the block's normalised row. -/
theorem payload_core (v34 : FVec Ideal S512x20 .bf16) (x7 x8 : Vec Ideal S20 .f32) (x9 : Vec Ideal S128x20 .f32) (x10 : Vec Ideal S128 .f32) (x11 : Vec Ideal S128x128 .f32) (x12 : Vec Ideal S128 .f32)
    (x13 x14 : Vec Ideal S384x128 .f32) (x15 x16 : Vec Ideal S384 .f32) (x17 x18 : Vec Ideal S384x128 .f32) (x19 x20 : Vec Ideal S384 .f32)
    (x21 : Vec Ideal S64x128 .f32) (x22 : Vec Ideal S64 .f32) (x23 : Vec Ideal S1x64 .f32) (x24 : Vec Ideal S1 .f32)
    (x25 : Vec Ideal S64x128 .f32) (x26 : Vec Ideal S64 .f32) (x27 : Vec Ideal S3x64 .f32) (x28 : Vec Ideal S3 .f32)
    (x29 x30 : Vec Ideal S512x128 .f32) (r : Fin 512) (j : Fin 4) :
    (k0_pay17 (k0_pay15 (k0_pay9 x30) (k0_pay12 (k0_pay2 x29) (k0_pay4 x29 x14 x16) (k0_pay5 v34 x9 x10 x11 x12 x13 x15) (k0_pay6 v34 x9 x10 x11 x12 x13 x15) (k0_pay7 v34 x9 x10 x11 x12 x13 x15) (k0_pay8 x29 x14 x16) x30 x17 x19 x18 x20) (k0_pay13 (k0_pay2 x29) (k0_pay4 x29 x14 x16) (k0_pay5 v34 x9 x10 x11 x12 x13 x15) (k0_pay6 v34 x9 x10 x11 x12 x13 x15) (k0_pay7 v34 x9 x10 x11 x12 x13 x15) (k0_pay8 x29 x14 x16) x30 x17 x19 x18 x20) x21 x22 x23 x24) (k0_pay16 (k0_pay9 x30) (k0_pay12 (k0_pay2 x29) (k0_pay4 x29 x14 x16) (k0_pay5 v34 x9 x10 x11 x12 x13 x15) (k0_pay6 v34 x9 x10 x11 x12 x13 x15) (k0_pay7 v34 x9 x10 x11 x12 x13 x15) (k0_pay8 x29 x14 x16) x30 x17 x19 x18 x20) (k0_pay13 (k0_pay2 x29) (k0_pay4 x29 x14 x16) (k0_pay5 v34 x9 x10 x11 x12 x13 x15) (k0_pay6 v34 x9 x10 x11 x12 x13 x15) (k0_pay7 v34 x9 x10 x11 x12 x13 x15) (k0_pay8 x29 x14 x16) x30 x17 x19 x18 x20) x25) x26 x27 x28) (ix2 r j)
      = rowOfNorm (Net.paramsOf x7 x8 x9 x10 x11 x12 x13 x14 x15 x16 x17 x18 x19 x20 x21 x22 x23 x24 x25 x26 x27 x28) (fun k => v34 (ix2 r k)) (fun k => x29 (ix2 r k)) (fun k => x30 (ix2 r k)) j := by
  have hh := hidden_core v34 x7 x8 x9 x10 x11 x12 x13 x14 x15 x16 x17 x18 x19 x20 x21 x22 x23 x24 x25 x26 x27 x28 x29 x30 r
  refine (pay17_apply _ _ x26 x27 x28 r j).trans ?_
  unfold rowOfNorm
  by_cases hj : j.val < 1
  · rw [dif_pos hj, dif_pos hj]
    exact pay15_apply _ _ _ x21 x22 x23 x24 r _ hh 0
  · rw [dif_neg hj, dif_neg hj]
    exact congrArg (fun f : Fin 64 → EReal => Net.affine (fun i k => x27 (ix2 i k)) (fun i => x28 (ix1 i)) f ⟨j.val - 1, by omega⟩)
      (funext fun i => congrArg Net.elu (congrArg (· + x26 (ix1 i)) (pay16_apply _ _ _ x25 r _ hh i)))

/-- The value the block stores, at row r and column j, is the specification's row function of that row's observations,
    its two hidden rows and the weights. -/
theorem payload_apply
    (x0 x1 : Vec Ideal S512x3 .f32) (x2 : Vec Ideal S512x1 .f32) (x3 x4 x5 : Vec Ideal S512x3 .f32) (x6 : Vec Ideal S512x4 .f32)
    (x7 x8 : Vec Ideal S20 .f32) (x9 : Vec Ideal S128x20 .f32) (x10 : Vec Ideal S128 .f32) (x11 : Vec Ideal S128x128 .f32) (x12 : Vec Ideal S128 .f32)
    (x13 x14 : Vec Ideal S384x128 .f32) (x15 x16 : Vec Ideal S384 .f32) (x17 x18 : Vec Ideal S384x128 .f32) (x19 x20 : Vec Ideal S384 .f32)
    (x21 : Vec Ideal S64x128 .f32) (x22 : Vec Ideal S64 .f32) (x23 : Vec Ideal S1x64 .f32) (x24 : Vec Ideal S1 .f32)
    (x25 : Vec Ideal S64x128 .f32) (x26 : Vec Ideal S64 .f32) (x27 : Vec Ideal S3x64 .f32) (x28 : Vec Ideal S3 .f32)
    (x29 x30 : Vec Ideal S512x128 .f32) (r : Fin 512) (j : Fin 4) :
    (k0_pay17 (k0_pay15 (k0_pay9 x30) (k0_pay12 (k0_pay2 x29) (k0_pay4 x29 x14 x16) (k0_pay5 (k0_pay1 x0 x1 x2 x3 x4 x5 x6 x7 x8) x9 x10 x11 x12 x13 x15) (k0_pay6 (k0_pay1 x0 x1 x2 x3 x4 x5 x6 x7 x8) x9 x10 x11 x12 x13 x15) (k0_pay7 (k0_pay1 x0 x1 x2 x3 x4 x5 x6 x7 x8) x9 x10 x11 x12 x13 x15) (k0_pay8 x29 x14 x16) x30 x17 x19 x18 x20) (k0_pay13 (k0_pay2 x29) (k0_pay4 x29 x14 x16) (k0_pay5 (k0_pay1 x0 x1 x2 x3 x4 x5 x6 x7 x8) x9 x10 x11 x12 x13 x15) (k0_pay6 (k0_pay1 x0 x1 x2 x3 x4 x5 x6 x7 x8) x9 x10 x11 x12 x13 x15) (k0_pay7 (k0_pay1 x0 x1 x2 x3 x4 x5 x6 x7 x8) x9 x10 x11 x12 x13 x15) (k0_pay8 x29 x14 x16) x30 x17 x19 x18 x20) x21 x22 x23 x24) (k0_pay16 (k0_pay9 x30) (k0_pay12 (k0_pay2 x29) (k0_pay4 x29 x14 x16) (k0_pay5 (k0_pay1 x0 x1 x2 x3 x4 x5 x6 x7 x8) x9 x10 x11 x12 x13 x15) (k0_pay6 (k0_pay1 x0 x1 x2 x3 x4 x5 x6 x7 x8) x9 x10 x11 x12 x13 x15) (k0_pay7 (k0_pay1 x0 x1 x2 x3 x4 x5 x6 x7 x8) x9 x10 x11 x12 x13 x15) (k0_pay8 x29 x14 x16) x30 x17 x19 x18 x20) (k0_pay13 (k0_pay2 x29) (k0_pay4 x29 x14 x16) (k0_pay5 (k0_pay1 x0 x1 x2 x3 x4 x5 x6 x7 x8) x9 x10 x11 x12 x13 x15) (k0_pay6 (k0_pay1 x0 x1 x2 x3 x4 x5 x6 x7 x8) x9 x10 x11 x12 x13 x15) (k0_pay7 (k0_pay1 x0 x1 x2 x3 x4 x5 x6 x7 x8) x9 x10 x11 x12 x13 x15) (k0_pay8 x29 x14 x16) x30 x17 x19 x18 x20) x25) x26 x27 x28) (ix2 r j)
      = Net.rowNet (Net.paramsOf x7 x8 x9 x10 x11 x12 x13 x14 x15 x16 x17 x18 x19 x20 x21 x22 x23 x24 x25 x26 x27 x28)
          (Net.obsRow (fun k => x0 (ix2 r k)) (fun k => x1 (ix2 r k)) (fun k => x2 (ix2 r k)) (fun k => x3 (ix2 r k)) (fun k => x4 (ix2 r k)) (fun k => x5 (ix2 r k)) (fun k => x6 (ix2 r k)))
          (fun k => x29 (ix2 r k)) (fun k => x30 (ix2 r k)) j := by
  refine (payload_core (k0_pay1 x0 x1 x2 x3 x4 x5 x6 x7 x8) x7 x8 x9 x10 x11 x12 x13 x14 x15 x16 x17 x18 x19 x20 x21 x22 x23 x24 x25 x26 x27 x28 x29 x30 r j).trans ?_
  refine Eq.trans ?_ (rowNet_eq _ _ _ _ j).symm
  exact congrArg (fun xn : Fin 20 → EReal => rowOfNorm (Net.paramsOf x7 x8 x9 x10 x11 x12 x13 x14 x15 x16 x17 x18 x19 x20 x21 x22 x23 x24 x25 x26 x27 x28) xn (fun k => x29 (ix2 r k)) (fun k => x30 (ix2 r k)) j)
    (funext (pay1_apply x0 x1 x2 x3 x4 x5 x6 x7 x8 r))

end Cert.KernelRow

end
-- ==== Proof.KernelArray.lean ====
/-
  The kernel's result array as one function of the argument arrays.

  The body at grid point t stores, at entry (p, q) of its 512 × 4 block, the row function of row p of the point's
  blocks (Proof/KernelRow.lean). Row p of an observation or hidden block at point t is row 512 t + p of its array and
  a weight block is its whole array (Proof/KernelBlocks.lean), so point t writes back block t of one whole-array
  function G. The 128 blocks of 512 rows tile the 65536 rows — row r lies in the block of point r / 512 — so after the
  run the result array is G everywhere. The region finds every argument as launched, and its two hidden arrays are
  the host's two slabs of the stacked initial hidden states with the unit axis dropped; hence G is a function of the
  thirty arguments as launched.
-/
import proofs.«107767_j18107582120224_2_alg».proof.Proof.KernelBlocks
import proofs.«107767_j18107582120224_2_alg».proof.Proof.KernelRow
import proofs.«107767_j18107582120224_2_alg».proof.Proof.NetSpec
import Idealize.ShloMosaic.Lib.Pipeline.Value
import Idealize.ShloMosaic.Lib.StableHlo.Run
import Idealize.ShloMosaic.Lib.ValueIdx

set_option maxRecDepth 16384

noncomputable section

namespace Cert.KernelIdeal.ArrayValue

open Cert.KernelIdeal Cert.KernelIdeal.Gen Cert.KernelIdeal.GenP Cert.KernelIdeal.Blocks Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The result array as one function of the arrays the region finds: row i of the seven observation arrays and of
    the two initial hidden arrays, and the weights, through the row function. -/
def G (c : Dev nD) : S65536x4.Idx → EReal := fun i =>
  Net.rowNet (Net.paramsOf (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25) (V m c main_arg26) (V m c main_arg27) (V m c main_arg28))
    (Net.obsRow (fun k => V m c main_arg0 (ix2 (⟨(i 0).val, idx2_lt0 i⟩ : Fin 65536) k)) (fun k => V m c main_arg1 (ix2 (⟨(i 0).val, idx2_lt0 i⟩ : Fin 65536) k)) (fun k => V m c main_arg2 (ix2 (⟨(i 0).val, idx2_lt0 i⟩ : Fin 65536) k)) (fun k => V m c main_arg3 (ix2 (⟨(i 0).val, idx2_lt0 i⟩ : Fin 65536) k)) (fun k => V m c main_arg4 (ix2 (⟨(i 0).val, idx2_lt0 i⟩ : Fin 65536) k)) (fun k => V m c main_arg5 (ix2 (⟨(i 0).val, idx2_lt0 i⟩ : Fin 65536) k)) (fun k => V m c main_arg6 (ix2 (⟨(i 0).val, idx2_lt0 i⟩ : Fin 65536) k)))
    (fun k => V m c main_v1 (ix2 (⟨(i 0).val, idx2_lt0 i⟩ : Fin 65536) k)) (fun k => V m c main_v3 (ix2 (⟨(i 0).val, idx2_lt0 i⟩ : Fin 65536) k))
    (⟨(i 1).val, idx2_lt1 i⟩ : Fin 4)

/-- The same function over the argument arrays as launched: the region finds every argument unchanged, and the two
    initial hidden arrays are the two slices of the stacked argument. -/
def GM (c : Dev nD) : S65536x4.Idx → EReal := fun i =>
  Net.rowNet (Net.paramsOf (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)))
    (Net.obsRow (fun k => (m ((c : Thread nD τ).loc main_arg0)) (ix2 (⟨(i 0).val, idx2_lt0 i⟩ : Fin 65536) k)) (fun k => (m ((c : Thread nD τ).loc main_arg1)) (ix2 (⟨(i 0).val, idx2_lt0 i⟩ : Fin 65536) k)) (fun k => (m ((c : Thread nD τ).loc main_arg2)) (ix2 (⟨(i 0).val, idx2_lt0 i⟩ : Fin 65536) k)) (fun k => (m ((c : Thread nD τ).loc main_arg3)) (ix2 (⟨(i 0).val, idx2_lt0 i⟩ : Fin 65536) k)) (fun k => (m ((c : Thread nD τ).loc main_arg4)) (ix2 (⟨(i 0).val, idx2_lt0 i⟩ : Fin 65536) k)) (fun k => (m ((c : Thread nD τ).loc main_arg5)) (ix2 (⟨(i 0).val, idx2_lt0 i⟩ : Fin 65536) k)) (fun k => (m ((c : Thread nD τ).loc main_arg6)) (ix2 (⟨(i 0).val, idx2_lt0 i⟩ : Fin 65536) k)))
    (fun k => (m ((c : Thread nD τ).loc main_arg29)) (ix3 (0 : Fin 2) (⟨(i 0).val, idx2_lt0 i⟩ : Fin 65536) k))
    (fun k => (m ((c : Thread nD τ).loc main_arg29)) (ix3 (1 : Fin 2) (⟨(i 0).val, idx2_lt0 i⟩ : Fin 65536) k))
    (⟨(i 1).val, idx2_lt1 i⟩ : Fin 4)

/-- The row function respects equality of each of its arguments (stated over variables, so that it is applied by
    naming the thirty-one equations rather than by rewriting inside a large term). -/
theorem rowNet_congr
    {a7 b7 : (⟨1, ![20]⟩ : Shape).Idx → EReal} {a8 b8 : (⟨1, ![20]⟩ : Shape).Idx → EReal} {a9 b9 : (⟨2, ![128, 20]⟩ : Shape).Idx → EReal} {a10 b10 : (⟨1, ![128]⟩ : Shape).Idx → EReal} {a11 b11 : (⟨2, ![128, 128]⟩ : Shape).Idx → EReal} {a12 b12 : (⟨1, ![128]⟩ : Shape).Idx → EReal} {a13 b13 : (⟨2, ![384, 128]⟩ : Shape).Idx → EReal} {a14 b14 : (⟨2, ![384, 128]⟩ : Shape).Idx → EReal} {a15 b15 : (⟨1, ![384]⟩ : Shape).Idx → EReal} {a16 b16 : (⟨1, ![384]⟩ : Shape).Idx → EReal} {a17 b17 : (⟨2, ![384, 128]⟩ : Shape).Idx → EReal} {a18 b18 : (⟨2, ![384, 128]⟩ : Shape).Idx → EReal} {a19 b19 : (⟨1, ![384]⟩ : Shape).Idx → EReal} {a20 b20 : (⟨1, ![384]⟩ : Shape).Idx → EReal} {a21 b21 : (⟨2, ![64, 128]⟩ : Shape).Idx → EReal} {a22 b22 : (⟨1, ![64]⟩ : Shape).Idx → EReal} {a23 b23 : (⟨2, ![1, 64]⟩ : Shape).Idx → EReal} {a24 b24 : (⟨1, ![1]⟩ : Shape).Idx → EReal} {a25 b25 : (⟨2, ![64, 128]⟩ : Shape).Idx → EReal} {a26 b26 : (⟨1, ![64]⟩ : Shape).Idx → EReal} {a27 b27 : (⟨2, ![3, 64]⟩ : Shape).Idx → EReal} {a28 b28 : (⟨1, ![3]⟩ : Shape).Idx → EReal}
    {r0 s0 : Fin 3 → EReal} {r1 s1 : Fin 3 → EReal} {r2 s2 : Fin 1 → EReal} {r3 s3 : Fin 3 → EReal} {r4 s4 : Fin 3 → EReal} {r5 s5 : Fin 3 → EReal} {r6 s6 : Fin 4 → EReal} {g0 g1 k0 k1 : Fin 128 → EReal}
    (e7 : a7 = b7) (e8 : a8 = b8) (e9 : a9 = b9) (e10 : a10 = b10) (e11 : a11 = b11) (e12 : a12 = b12) (e13 : a13 = b13) (e14 : a14 = b14) (e15 : a15 = b15) (e16 : a16 = b16) (e17 : a17 = b17) (e18 : a18 = b18) (e19 : a19 = b19) (e20 : a20 = b20) (e21 : a21 = b21) (e22 : a22 = b22) (e23 : a23 = b23) (e24 : a24 = b24) (e25 : a25 = b25) (e26 : a26 = b26) (e27 : a27 = b27) (e28 : a28 = b28)
    (f0 : r0 = s0) (f1 : r1 = s1) (f2 : r2 = s2) (f3 : r3 = s3) (f4 : r4 = s4) (f5 : r5 = s5) (f6 : r6 = s6) (fg0 : g0 = k0) (fg1 : g1 = k1) (q : Fin 4) :
    Net.rowNet (Net.paramsOf a7 a8 a9 a10 a11 a12 a13 a14 a15 a16 a17 a18 a19 a20 a21 a22 a23 a24 a25 a26 a27 a28) (Net.obsRow r0 r1 r2 r3 r4 r5 r6) g0 g1 q
      = Net.rowNet (Net.paramsOf b7 b8 b9 b10 b11 b12 b13 b14 b15 b16 b17 b18 b19 b20 b21 b22 b23 b24 b25 b26 b27 b28) (Net.obsRow s0 s1 s2 s3 s4 s5 s6) k0 k1 q := by
  subst_vars; rfl

/-! ## The two initial hidden arrays are the two slices of the stacked argument -/

/-- Before the region the host cuts slab 0 out of the stacked initial hidden states and drops its unit axis. -/
theorem V_hidden0 (c : Dev nD) (i : Fin 65536) (k : Fin 128) :
    V m c main_v1 (ix2 i k) = m ((c : Thread nD τ).loc main_arg29) (ix3 (0 : Fin 2) i k) := by
  have e : (V m c main_v1 : S65536x128.Idx → EReal)
      = shapeCast S65536x128 (extractStridedSlice S1x65536x128 ![0, 0, 0] (m ((c : Thread nD τ).loc main_arg29))
          slices_S2x65536x128_S1x65536x128_0_0_0) shapeCasts_S1x65536x128_S65536x128 := by
    dsimp only [V, hostOps0]; after_results; rfl
  rw [e, shapeCast_dropUnit_apply]
  refine extractStridedSlice_apply _ _ _ _ (ix3 (0 : Fin 2) i k) ?_
  intro a
  match a with
  | ⟨0, _⟩ => rfl
  | ⟨1, _⟩ => show i.val = 0 + i.val; omega
  | ⟨2, _⟩ => show k.val = 0 + k.val; omega

/-- And slab 1 for the second cell. -/
theorem V_hidden1 (c : Dev nD) (i : Fin 65536) (k : Fin 128) :
    V m c main_v3 (ix2 i k) = m ((c : Thread nD τ).loc main_arg29) (ix3 (1 : Fin 2) i k) := by
  have e : (V m c main_v3 : S65536x128.Idx → EReal)
      = shapeCast S65536x128 (extractStridedSlice S1x65536x128 ![1, 0, 0] (m ((c : Thread nD τ).loc main_arg29))
          slices_S2x65536x128_S1x65536x128_1_0_0) shapeCasts_S1x65536x128_S65536x128 := by
    dsimp only [V, hostOps0]; after_results; rfl
  rw [e, shapeCast_dropUnit_apply]
  refine extractStridedSlice_apply _ _ _ _ (ix3 (1 : Fin 2) i k) ?_
  intro a
  match a with
  | ⟨0, _⟩ => rfl
  | ⟨1, _⟩ => show i.val = 0 + i.val; omega
  | ⟨2, _⟩ => show k.val = 0 + k.val; omega

/-- So the function of the arrays the region finds is the function of the arguments as launched. -/
theorem G_eq_GM (c : Dev nD) : G m c = GM m c := by
  funext i
  exact rowNet_congr (V_main_arg7 m c) (V_main_arg8 m c) (V_main_arg9 m c) (V_main_arg10 m c) (V_main_arg11 m c) (V_main_arg12 m c) (V_main_arg13 m c) (V_main_arg14 m c) (V_main_arg15 m c) (V_main_arg16 m c) (V_main_arg17 m c) (V_main_arg18 m c) (V_main_arg19 m c) (V_main_arg20 m c) (V_main_arg21 m c) (V_main_arg22 m c) (V_main_arg23 m c) (V_main_arg24 m c) (V_main_arg25 m c) (V_main_arg26 m c) (V_main_arg27 m c) (V_main_arg28 m c)
    (funext fun k => congrFun (V_main_arg0 m c) (ix2 (⟨(i 0).val, idx2_lt0 i⟩ : Fin 65536) k))
    (funext fun k => congrFun (V_main_arg1 m c) (ix2 (⟨(i 0).val, idx2_lt0 i⟩ : Fin 65536) k))
    (funext fun k => congrFun (V_main_arg2 m c) (ix2 (⟨(i 0).val, idx2_lt0 i⟩ : Fin 65536) k))
    (funext fun k => congrFun (V_main_arg3 m c) (ix2 (⟨(i 0).val, idx2_lt0 i⟩ : Fin 65536) k))
    (funext fun k => congrFun (V_main_arg4 m c) (ix2 (⟨(i 0).val, idx2_lt0 i⟩ : Fin 65536) k))
    (funext fun k => congrFun (V_main_arg5 m c) (ix2 (⟨(i 0).val, idx2_lt0 i⟩ : Fin 65536) k))
    (funext fun k => congrFun (V_main_arg6 m c) (ix2 (⟨(i 0).val, idx2_lt0 i⟩ : Fin 65536) k))
    (funext fun k => V_hidden0 m c (⟨(i 0).val, idx2_lt0 i⟩ : Fin 65536) k) (funext fun k => V_hidden1 m c (⟨(i 0).val, idx2_lt0 i⟩ : Fin 65536) k) _

/-! ## What a point writes back, the cover, the array -/

set_option maxHeartbeats 1600000 in
/-- Point t writes back block t of G: the body's stored value at (p, q) is the row function of row p of the
    point's blocks, and those are rows 512 t + p of the arrays. -/
theorem flushed_eq (c : Dev nD) (t : Fin cfg0.N) :
    (dats m 0 c).flushed 31 t = ((cfg0.win 31).blk t).view.read (Elt Ideal) (G m c) := by
  show (cfg0.win 31).cut (grid0.coords t) ((dats m 0 c).after 31 t) = _
  rw [after0_31]
  unfold out0_31
  rw [View.canon_unit_zero hz2]
  simp only [View.ld_unit_zero (S := S512x3) hz2, View.ld_unit_zero (S := S512x1) hz2, View.ld_unit_zero (S := S512x4) hz2,
    View.ld_unit_zero (S := S512x128) hz2, View.ld_unit_zero (S := S128x20) hz2, View.ld_unit_zero (S := S128x128) hz2,
    View.ld_unit_zero (S := S384x128) hz2, View.ld_unit_zero (S := S64x128) hz2, View.ld_unit_zero (S := S1x64) hz2,
    View.ld_unit_zero (S := S3x64) hz2, View.ld_unit_zero (S := S20) hz1, View.ld_unit_zero (S := S128) hz1,
    View.ld_unit_zero (S := S384) hz1, View.ld_unit_zero (S := S64) hz1, View.ld_unit_zero (S := S1) hz1, View.ld_unit_zero (S := S3) hz1]
  funext (y : S512x4.Idx)
  obtain ⟨p, q, rfl⟩ : ∃ (p : Fin 512) (q : Fin 4), y = ix2 p q := ⟨y 0, y 1, eq_ix2 y⟩
  show (k0_pay17 (k0_pay15 (k0_pay9 (iblk m c 30 t)) (k0_pay12 (k0_pay2 (iblk m c 29 t)) (k0_pay4 (iblk m c 29 t) (iblk m c 14 t) (iblk m c 16 t)) (k0_pay5 (k0_pay1 (iblk m c 0 t) (iblk m c 1 t) (iblk m c 2 t) (iblk m c 3 t) (iblk m c 4 t) (iblk m c 5 t) (iblk m c 6 t) (iblk m c 7 t) (iblk m c 8 t)) (iblk m c 9 t) (iblk m c 10 t) (iblk m c 11 t) (iblk m c 12 t) (iblk m c 13 t) (iblk m c 15 t)) (k0_pay6 (k0_pay1 (iblk m c 0 t) (iblk m c 1 t) (iblk m c 2 t) (iblk m c 3 t) (iblk m c 4 t) (iblk m c 5 t) (iblk m c 6 t) (iblk m c 7 t) (iblk m c 8 t)) (iblk m c 9 t) (iblk m c 10 t) (iblk m c 11 t) (iblk m c 12 t) (iblk m c 13 t) (iblk m c 15 t)) (k0_pay7 (k0_pay1 (iblk m c 0 t) (iblk m c 1 t) (iblk m c 2 t) (iblk m c 3 t) (iblk m c 4 t) (iblk m c 5 t) (iblk m c 6 t) (iblk m c 7 t) (iblk m c 8 t)) (iblk m c 9 t) (iblk m c 10 t) (iblk m c 11 t) (iblk m c 12 t) (iblk m c 13 t) (iblk m c 15 t)) (k0_pay8 (iblk m c 29 t) (iblk m c 14 t) (iblk m c 16 t)) (iblk m c 30 t) (iblk m c 17 t) (iblk m c 19 t) (iblk m c 18 t) (iblk m c 20 t)) (k0_pay13 (k0_pay2 (iblk m c 29 t)) (k0_pay4 (iblk m c 29 t) (iblk m c 14 t) (iblk m c 16 t)) (k0_pay5 (k0_pay1 (iblk m c 0 t) (iblk m c 1 t) (iblk m c 2 t) (iblk m c 3 t) (iblk m c 4 t) (iblk m c 5 t) (iblk m c 6 t) (iblk m c 7 t) (iblk m c 8 t)) (iblk m c 9 t) (iblk m c 10 t) (iblk m c 11 t) (iblk m c 12 t) (iblk m c 13 t) (iblk m c 15 t)) (k0_pay6 (k0_pay1 (iblk m c 0 t) (iblk m c 1 t) (iblk m c 2 t) (iblk m c 3 t) (iblk m c 4 t) (iblk m c 5 t) (iblk m c 6 t) (iblk m c 7 t) (iblk m c 8 t)) (iblk m c 9 t) (iblk m c 10 t) (iblk m c 11 t) (iblk m c 12 t) (iblk m c 13 t) (iblk m c 15 t)) (k0_pay7 (k0_pay1 (iblk m c 0 t) (iblk m c 1 t) (iblk m c 2 t) (iblk m c 3 t) (iblk m c 4 t) (iblk m c 5 t) (iblk m c 6 t) (iblk m c 7 t) (iblk m c 8 t)) (iblk m c 9 t) (iblk m c 10 t) (iblk m c 11 t) (iblk m c 12 t) (iblk m c 13 t) (iblk m c 15 t)) (k0_pay8 (iblk m c 29 t) (iblk m c 14 t) (iblk m c 16 t)) (iblk m c 30 t) (iblk m c 17 t) (iblk m c 19 t) (iblk m c 18 t) (iblk m c 20 t)) (iblk m c 21 t) (iblk m c 22 t) (iblk m c 23 t) (iblk m c 24 t)) (k0_pay16 (k0_pay9 (iblk m c 30 t)) (k0_pay12 (k0_pay2 (iblk m c 29 t)) (k0_pay4 (iblk m c 29 t) (iblk m c 14 t) (iblk m c 16 t)) (k0_pay5 (k0_pay1 (iblk m c 0 t) (iblk m c 1 t) (iblk m c 2 t) (iblk m c 3 t) (iblk m c 4 t) (iblk m c 5 t) (iblk m c 6 t) (iblk m c 7 t) (iblk m c 8 t)) (iblk m c 9 t) (iblk m c 10 t) (iblk m c 11 t) (iblk m c 12 t) (iblk m c 13 t) (iblk m c 15 t)) (k0_pay6 (k0_pay1 (iblk m c 0 t) (iblk m c 1 t) (iblk m c 2 t) (iblk m c 3 t) (iblk m c 4 t) (iblk m c 5 t) (iblk m c 6 t) (iblk m c 7 t) (iblk m c 8 t)) (iblk m c 9 t) (iblk m c 10 t) (iblk m c 11 t) (iblk m c 12 t) (iblk m c 13 t) (iblk m c 15 t)) (k0_pay7 (k0_pay1 (iblk m c 0 t) (iblk m c 1 t) (iblk m c 2 t) (iblk m c 3 t) (iblk m c 4 t) (iblk m c 5 t) (iblk m c 6 t) (iblk m c 7 t) (iblk m c 8 t)) (iblk m c 9 t) (iblk m c 10 t) (iblk m c 11 t) (iblk m c 12 t) (iblk m c 13 t) (iblk m c 15 t)) (k0_pay8 (iblk m c 29 t) (iblk m c 14 t) (iblk m c 16 t)) (iblk m c 30 t) (iblk m c 17 t) (iblk m c 19 t) (iblk m c 18 t) (iblk m c 20 t)) (k0_pay13 (k0_pay2 (iblk m c 29 t)) (k0_pay4 (iblk m c 29 t) (iblk m c 14 t) (iblk m c 16 t)) (k0_pay5 (k0_pay1 (iblk m c 0 t) (iblk m c 1 t) (iblk m c 2 t) (iblk m c 3 t) (iblk m c 4 t) (iblk m c 5 t) (iblk m c 6 t) (iblk m c 7 t) (iblk m c 8 t)) (iblk m c 9 t) (iblk m c 10 t) (iblk m c 11 t) (iblk m c 12 t) (iblk m c 13 t) (iblk m c 15 t)) (k0_pay6 (k0_pay1 (iblk m c 0 t) (iblk m c 1 t) (iblk m c 2 t) (iblk m c 3 t) (iblk m c 4 t) (iblk m c 5 t) (iblk m c 6 t) (iblk m c 7 t) (iblk m c 8 t)) (iblk m c 9 t) (iblk m c 10 t) (iblk m c 11 t) (iblk m c 12 t) (iblk m c 13 t) (iblk m c 15 t)) (k0_pay7 (k0_pay1 (iblk m c 0 t) (iblk m c 1 t) (iblk m c 2 t) (iblk m c 3 t) (iblk m c 4 t) (iblk m c 5 t) (iblk m c 6 t) (iblk m c 7 t) (iblk m c 8 t)) (iblk m c 9 t) (iblk m c 10 t) (iblk m c 11 t) (iblk m c 12 t) (iblk m c 13 t) (iblk m c 15 t)) (k0_pay8 (iblk m c 29 t) (iblk m c 14 t) (iblk m c 16 t)) (iblk m c 30 t) (iblk m c 17 t) (iblk m c 19 t) (iblk m c 18 t) (iblk m c 20 t)) (iblk m c 25 t)) (iblk m c 26 t) (iblk m c 27 t) (iblk m c 28 t)) (ix2 p q) = G m c (((cfg0.win 31).blk t).view.emb (ix2 p q))
  refine (Cert.KernelRow.payload_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) p q).trans ?_
  unfold G
  rw [out_row t p q, out_col t p q]
  exact rowNet_congr (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) (blk24 m c t) (blk25 m c t) (blk26 m c t) (blk27 m c t) (blk28 m c t)
    (row0 m c t p) (row1 m c t p) (row2 m c t p) (row3 m c t p) (row4 m c t p) (row5 m c t p) (row6 m c t p) (row29 m c t p) (row30 m c t p) q

/-- An index of the result array is in point t's block iff each coordinate is in the block's range on its axis. -/
theorem mem_blk (t : Fin cfg0.N) (i : S65536x4.Idx) :
    i ∈ ((cfg0.win 31).blk t).view.set ↔ ∀ a : Fin 2, win0_31.index t a * S512x4.size a ≤ (i a).val ∧ (i a).val < win0_31.index t a * S512x4.size a + S512x4.size a := by
  show i ∈ ((View.whole main_v4).slice (win0_31.rect t)).set ↔ _
  rw [View.set_slice_whole, Rect.mem_set_unit]
  exact Iff.rfl

/-- Row r of the result lies in the block of point r / 512: the 128 blocks of 512 rows tile the 65536 rows. -/
theorem cover (i : S65536x4.Idx) :
    ∃ t : Fin cfg0.N, (cfg0.win 31).flush t = true ∧ i ∈ ((cfg0.win 31).blk t).view.set := by
  have hi0 : (i 0).val < 65536 := idx2_lt0 i
  have hi1 : (i 1).val < 4 := idx2_lt1 i
  refine ⟨⟨(i 0).val / 512, by show (i 0).val / 512 < 128; omega⟩, flush0_31 _, ?_⟩
  rw [mem_blk]
  obtain ⟨e0, e1⟩ := idx31 ⟨(i 0).val / 512, by show (i 0).val / 512 < 128; omega⟩
  intro a
  match a with
  | ⟨0, _⟩ => show win0_31.index _ (0 : Fin 2) * 512 ≤ (i 0).val ∧ (i 0).val < win0_31.index _ (0 : Fin 2) * 512 + 512; rw [e0]; show (i 0).val / 512 * 512 ≤ (i 0).val ∧ (i 0).val < (i 0).val / 512 * 512 + 512; omega
  | ⟨1, _⟩ => show win0_31.index _ (1 : Fin 2) * 4 ≤ (i 1).val ∧ (i 1).val < win0_31.index _ (1 : Fin 2) * 4 + 4; rw [e1]; omega

/-- The result array after the run is the row function of the arguments, row by row. -/
theorem final (c : Dev nD) : (dats m 0 c).arrAt 31 cfg0.N = GM m c :=
  ((dats m 0 c).arrAt_eq_of_cover 31 (G m c) (fun t _ => flushed_eq m c t) cover).trans (G_eq_GM m c)

/-! ## The run, read

An input window's array is never written back, and no window stages the stacked hidden states: the run leaves every
argument array as launched. -/

theorem post_out (r : PUnit × MemSt nD τ sig (Elt Ideal)) (h : Pipeline.FramePost cfgs (dats m) 0 (V m) r) (c : Dev nD) :
    r.2.mem ((c : Thread nD τ).loc main_v4) = (dats m 0 c).arrAt 31 cfg0.N :=
  (h c).1 31
theorem kept_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
theorem kept_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
theorem kept_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))
theorem kept_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))
theorem kept_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))
theorem kept_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))
theorem kept_arg7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))
theorem kept_arg8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))
theorem kept_arg9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))
theorem kept_arg10 (r : PUnit × MemSt nD τ sig (Elt Ideal)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))
theorem kept_arg11 (r : PUnit × MemSt nD τ sig (Elt Ideal)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))
theorem kept_arg12 (r : PUnit × MemSt nD τ sig (Elt Ideal)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))
theorem kept_arg13 (r : PUnit × MemSt nD τ sig (Elt Ideal)) (h : Pipeline.FramePost cfgs (dats m) 0 (V m) r) (c : Dev nD) :
    r.2.mem ((c : Thread nD τ).loc main_arg13) = m ((c : Thread nD τ).loc main_arg13) :=
  ((h c).1 13).trans (((dats m 0 c).arrAt_in 13 rfl _).trans ((A_eq m c 13).trans (V_main_arg13 m c)))
theorem kept_arg14 (r : PUnit × MemSt nD τ sig (Elt Ideal)) (h : Pipeline.FramePost cfgs (dats m) 0 (V m) r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))
theorem kept_arg15 (r : PUnit × MemSt nD τ sig (Elt Ideal)) (h : Pipeline.FramePost cfgs (dats m) 0 (V m) r) (c : Dev nD) :
    r.2.mem ((c : Thread nD τ).loc main_arg15) = m ((c : Thread nD τ).loc main_arg15) :=
  ((h c).1 15).trans (((dats m 0 c).arrAt_in 15 rfl _).trans ((A_eq m c 15).trans (V_main_arg15 m c)))
theorem kept_arg16 (r : PUnit × MemSt nD τ sig (Elt Ideal)) (h : Pipeline.FramePost cfgs (dats m) 0 (V m) r) (c : Dev nD) :
    r.2.mem ((c : Thread nD τ).loc main_arg16) = m ((c : Thread nD τ).loc main_arg16) :=
  ((h c).1 16).trans (((dats m 0 c).arrAt_in 16 rfl _).trans ((A_eq m c 16).trans (V_main_arg16 m c)))
theorem kept_arg17 (r : PUnit × MemSt nD τ sig (Elt Ideal)) (h : Pipeline.FramePost cfgs (dats m) 0 (V m) r) (c : Dev nD) :
    r.2.mem ((c : Thread nD τ).loc main_arg17) = m ((c : Thread nD τ).loc main_arg17) :=
  ((h c).1 17).trans (((dats m 0 c).arrAt_in 17 rfl _).trans ((A_eq m c 17).trans (V_main_arg17 m c)))
theorem kept_arg18 (r : PUnit × MemSt nD τ sig (Elt Ideal)) (h : Pipeline.FramePost cfgs (dats m) 0 (V m) r) (c : Dev nD) :
    r.2.mem ((c : Thread nD τ).loc main_arg18) = m ((c : Thread nD τ).loc main_arg18) :=
  ((h c).1 18).trans (((dats m 0 c).arrAt_in 18 rfl _).trans ((A_eq m c 18).trans (V_main_arg18 m c)))
theorem kept_arg19 (r : PUnit × MemSt nD τ sig (Elt Ideal)) (h : Pipeline.FramePost cfgs (dats m) 0 (V m) r) (c : Dev nD) :
    r.2.mem ((c : Thread nD τ).loc main_arg19) = m ((c : Thread nD τ).loc main_arg19) :=
  ((h c).1 19).trans (((dats m 0 c).arrAt_in 19 rfl _).trans ((A_eq m c 19).trans (V_main_arg19 m c)))
theorem kept_arg20 (r : PUnit × MemSt nD τ sig (Elt Ideal)) (h : Pipeline.FramePost cfgs (dats m) 0 (V m) r) (c : Dev nD) :
    r.2.mem ((c : Thread nD τ).loc main_arg20) = m ((c : Thread nD τ).loc main_arg20) :=
  ((h c).1 20).trans (((dats m 0 c).arrAt_in 20 rfl _).trans ((A_eq m c 20).trans (V_main_arg20 m c)))
theorem kept_arg21 (r : PUnit × MemSt nD τ sig (Elt Ideal)) (h : Pipeline.FramePost cfgs (dats m) 0 (V m) r) (c : Dev nD) :
    r.2.mem ((c : Thread nD τ).loc main_arg21) = m ((c : Thread nD τ).loc main_arg21) :=
  ((h c).1 21).trans (((dats m 0 c).arrAt_in 21 rfl _).trans ((A_eq m c 21).trans (V_main_arg21 m c)))
theorem kept_arg22 (r : PUnit × MemSt nD τ sig (Elt Ideal)) (h : Pipeline.FramePost cfgs (dats m) 0 (V m) r) (c : Dev nD) :
    r.2.mem ((c : Thread nD τ).loc main_arg22) = m ((c : Thread nD τ).loc main_arg22) :=
  ((h c).1 22).trans (((dats m 0 c).arrAt_in 22 rfl _).trans ((A_eq m c 22).trans (V_main_arg22 m c)))
theorem kept_arg23 (r : PUnit × MemSt nD τ sig (Elt Ideal)) (h : Pipeline.FramePost cfgs (dats m) 0 (V m) r) (c : Dev nD) :
    r.2.mem ((c : Thread nD τ).loc main_arg23) = m ((c : Thread nD τ).loc main_arg23) :=
  ((h c).1 23).trans (((dats m 0 c).arrAt_in 23 rfl _).trans ((A_eq m c 23).trans (V_main_arg23 m c)))
theorem kept_arg24 (r : PUnit × MemSt nD τ sig (Elt Ideal)) (h : Pipeline.FramePost cfgs (dats m) 0 (V m) r) (c : Dev nD) :
    r.2.mem ((c : Thread nD τ).loc main_arg24) = m ((c : Thread nD τ).loc main_arg24) :=
  ((h c).1 24).trans (((dats m 0 c).arrAt_in 24 rfl _).trans ((A_eq m c 24).trans (V_main_arg24 m c)))
theorem kept_arg25 (r : PUnit × MemSt nD τ sig (Elt Ideal)) (h : Pipeline.FramePost cfgs (dats m) 0 (V m) r) (c : Dev nD) :
    r.2.mem ((c : Thread nD τ).loc main_arg25) = m ((c : Thread nD τ).loc main_arg25) :=
  ((h c).1 25).trans (((dats m 0 c).arrAt_in 25 rfl _).trans ((A_eq m c 25).trans (V_main_arg25 m c)))
theorem kept_arg26 (r : PUnit × MemSt nD τ sig (Elt Ideal)) (h : Pipeline.FramePost cfgs (dats m) 0 (V m) r) (c : Dev nD) :
    r.2.mem ((c : Thread nD τ).loc main_arg26) = m ((c : Thread nD τ).loc main_arg26) :=
  ((h c).1 26).trans (((dats m 0 c).arrAt_in 26 rfl _).trans ((A_eq m c 26).trans (V_main_arg26 m c)))
theorem kept_arg27 (r : PUnit × MemSt nD τ sig (Elt Ideal)) (h : Pipeline.FramePost cfgs (dats m) 0 (V m) r) (c : Dev nD) :
    r.2.mem ((c : Thread nD τ).loc main_arg27) = m ((c : Thread nD τ).loc main_arg27) :=
  ((h c).1 27).trans (((dats m 0 c).arrAt_in 27 rfl _).trans ((A_eq m c 27).trans (V_main_arg27 m c)))
theorem kept_arg28 (r : PUnit × MemSt nD τ sig (Elt Ideal)) (h : Pipeline.FramePost cfgs (dats m) 0 (V m) r) (c : Dev nD) :
    r.2.mem ((c : Thread nD τ).loc main_arg28) = m ((c : Thread nD τ).loc main_arg28) :=
  ((h c).1 28).trans (((dats m 0 c).arrAt_in 28 rfl _).trans ((A_eq m c 28).trans (V_main_arg28 m c)))
theorem kept_arg29 (r : PUnit × MemSt nD τ sig (Elt Ideal)) (h : Pipeline.FramePost cfgs (dats m) 0 (V m) r) (c : Dev nD) :
    r.2.mem ((c : Thread nD τ).loc main_arg29) = m ((c : Thread nD τ).loc main_arg29) :=
  ((h c).2 main_arg29 (Pipeline.mem_restRefs_of main_arg29 (by decide) (by decide))).trans (V_main_arg29 m c)

set_option maxHeartbeats 1600000 in
/-- The frame run re-posted: the result array at the row function of the arguments, every argument array unchanged. -/
theorem run : θ_run defs (onTc (τ := τ) (main (F := Ideal))) ⟨m, fun _ => 0, ρ⟩ fun r => ∀ c : Dev nD,
      r.2.mem ((c : Thread nD τ).loc main_v4) = GM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29) :=
  (θ_run defs _ _).mono (fun r h c => ⟨(post_out m r h c).trans (final m c),
      kept_arg0 m r h c,
      kept_arg1 m r h c,
      kept_arg2 m r h c,
      kept_arg3 m r h c,
      kept_arg4 m r h c,
      kept_arg5 m r h c,
      kept_arg6 m r h c,
      kept_arg7 m r h c,
      kept_arg8 m r h c,
      kept_arg9 m r h c,
      kept_arg10 m r h c,
      kept_arg11 m r h c,
      kept_arg12 m r h c,
      kept_arg13 m r h c,
      kept_arg14 m r h c,
      kept_arg15 m r h c,
      kept_arg16 m r h c,
      kept_arg17 m r h c,
      kept_arg18 m r h c,
      kept_arg19 m r h c,
      kept_arg20 m r h c,
      kept_arg21 m r h c,
      kept_arg22 m r h c,
      kept_arg23 m r h c,
      kept_arg24 m r h c,
      kept_arg25 m r h c,
      kept_arg26 m r h c,
      kept_arg27 m r h c,
      kept_arg28 m r h c,
      kept_arg29 m r h c⟩)
    (run_main m ρ)

end Cert.KernelIdeal.ArrayValue

end
-- ==== Proof.RefOps.lean ====
/-
  The reference program's operations in program order, as lists. A call of a module-local function is written
  out at the call: the function's operations over the call's argument and the call's record of buffers (and,
  inside it, the operations of the functions it calls in turn, over that call's nested record). The whole
  line is cut into consecutive stage lists, one per stage of the network (a stage that the program's windows cut
  in two is two lists, a then b). Beside each list: the references its operations write (W), that
  every operation touches TensorCore references only, that none allocates, that each writes only references
  of W, and hence that a reference outside W keeps its contents through the list.
-/
import proofs.«107767_j18107582120224_2_alg».proof.ReferenceIdeal
import Idealize.ShloMosaic.Lib.StableHlo.Run

noncomputable section

namespace Cert.RefSide

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- An operation whose one written buffer is a reference of the list W writes inside W. -/
theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- A property of every operation of two lines holds of every operation of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- Running a concatenation is running the first line, then the second from where it ended. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Stage norm: 30 operations (window 0 of @main). -/
def ops_norm : List (HloOp τ sig (Elt F)) :=
  [ StableHlo.nary ![main_arg0, main_arg1, main_arg2, main_arg3, main_arg4, main_arg5, main_arg6] main_v0 (fun u => concatenate S65536x20 1 [⟨S65536x3, u 0⟩, ⟨S65536x3, u 1⟩, ⟨S65536x1, u 2⟩, ⟨S65536x3, u 3⟩, ⟨S65536x3, u 4⟩, ⟨S65536x3, u 5⟩, ⟨S65536x4, u 6⟩] concatenates_S65536x3_S65536x3_S65536x1_S65536x3_S65536x3_S65536x3_S65536x4_S65536x20_d1),
    StableHlo.nullary main_cst (constant S_ .f32 0x00000000#32),
    StableHlo.binary main_v0 main_cst main_v1 ((fun x v => Host.reduceAdd x v reducesTo_S65536x20_S65536_d1 h_S_) : (⟨S65536x20, .f32⟩ : BufTy).Contents (Elt F) → (⟨S_, .f32⟩ : BufTy).Contents (Elt F) → (⟨S65536, .f32⟩ : BufTy).Contents (Elt F)),
    StableHlo.unary main_v1 main_v2 (broadcastInDim S65536x1 ![0] bcast_S65536_S65536x1_0 : (⟨S65536, .f32⟩ : BufTy).Contents (Elt F) → (⟨S65536x1, .f32⟩ : BufTy).Contents (Elt F)),
    StableHlo.nullary main_cst_0 (constant S_ .f32 0x41A00000#32),
    StableHlo.unary main_cst_0 main_v3 (broadcastInDim S65536x1 ![] bcast_S_S65536x1 : (⟨S_, .f32⟩ : BufTy).Contents (Elt F) → (⟨S65536x1, .f32⟩ : BufTy).Contents (Elt F)),
    StableHlo.binary main_v2 main_v3 main_v4 (Host.divf : (⟨S65536x1, .f32⟩ : BufTy).Contents (Elt F) → (⟨S65536x1, .f32⟩ : BufTy).Contents (Elt F) → (⟨S65536x1, .f32⟩ : BufTy).Contents (Elt F)),
    StableHlo.unary main_v4 main_v5 (broadcastInDim S65536x20 ![0, 1] bcast_S65536x1_S65536x20_0_1 : (⟨S65536x1, .f32⟩ : BufTy).Contents (Elt F) → (⟨S65536x20, .f32⟩ : BufTy).Contents (Elt F)),
    StableHlo.binary main_v0 main_v5 main_v6 (subf : (⟨S65536x20, .f32⟩ : BufTy).Contents (Elt F) → (⟨S65536x20, .f32⟩ : BufTy).Contents (Elt F) → (⟨S65536x20, .f32⟩ : BufTy).Contents (Elt F)),
    StableHlo.binary main_v6 main_v6 main_v7 (mulf : (⟨S65536x20, .f32⟩ : BufTy).Contents (Elt F) → (⟨S65536x20, .f32⟩ : BufTy).Contents (Elt F) → (⟨S65536x20, .f32⟩ : BufTy).Contents (Elt F)),
    StableHlo.nullary main_cst_1 (constant S_ .f32 0x00000000#32),
    StableHlo.binary main_v7 main_cst_1 main_v8 ((fun x v => Host.reduceAdd x v reducesTo_S65536x20_S65536_d1 h_S_) : (⟨S65536x20, .f32⟩ : BufTy).Contents (Elt F) → (⟨S_, .f32⟩ : BufTy).Contents (Elt F) → (⟨S65536, .f32⟩ : BufTy).Contents (Elt F)),
    StableHlo.unary main_v8 main_v9 (broadcastInDim S65536x1 ![0] bcast_S65536_S65536x1_0 : (⟨S65536, .f32⟩ : BufTy).Contents (Elt F) → (⟨S65536x1, .f32⟩ : BufTy).Contents (Elt F)),
    StableHlo.nullary main_cst_2 (constant S_ .f32 0x41A00000#32),
    StableHlo.unary main_cst_2 main_v10 (broadcastInDim S65536x1 ![] bcast_S_S65536x1 : (⟨S_, .f32⟩ : BufTy).Contents (Elt F) → (⟨S65536x1, .f32⟩ : BufTy).Contents (Elt F)),
    StableHlo.binary main_v9 main_v10 main_v11 (Host.divf : (⟨S65536x1, .f32⟩ : BufTy).Contents (Elt F) → (⟨S65536x1, .f32⟩ : BufTy).Contents (Elt F) → (⟨S65536x1, .f32⟩ : BufTy).Contents (Elt F)),
    StableHlo.unary main_v4 main_v12 (broadcastInDim S65536x20 ![0, 1] bcast_S65536x1_S65536x20_0_1 : (⟨S65536x1, .f32⟩ : BufTy).Contents (Elt F) → (⟨S65536x20, .f32⟩ : BufTy).Contents (Elt F)),
    StableHlo.binary main_v0 main_v12 main_v13 (subf : (⟨S65536x20, .f32⟩ : BufTy).Contents (Elt F) → (⟨S65536x20, .f32⟩ : BufTy).Contents (Elt F) → (⟨S65536x20, .f32⟩ : BufTy).Contents (Elt F)),
    StableHlo.nullary main_cst_3 (constant S_ .f32 0x3727C5AC#32),
    StableHlo.unary main_cst_3 main_v14 (broadcastInDim S65536x1 ![] bcast_S_S65536x1 : (⟨S_, .f32⟩ : BufTy).Contents (Elt F) → (⟨S65536x1, .f32⟩ : BufTy).Contents (Elt F)),
    StableHlo.binary main_v11 main_v14 main_v15 (addf : (⟨S65536x1, .f32⟩ : BufTy).Contents (Elt F) → (⟨S65536x1, .f32⟩ : BufTy).Contents (Elt F) → (⟨S65536x1, .f32⟩ : BufTy).Contents (Elt F)),
    StableHlo.unary main_v15 main_v16 (Host.rsqrt : (⟨S65536x1, .f32⟩ : BufTy).Contents (Elt F) → (⟨S65536x1, .f32⟩ : BufTy).Contents (Elt F)),
    StableHlo.unary main_v16 main_v17 (broadcastInDim S65536x20 ![0, 1] bcast_S65536x1_S65536x20_0_1 : (⟨S65536x1, .f32⟩ : BufTy).Contents (Elt F) → (⟨S65536x20, .f32⟩ : BufTy).Contents (Elt F)),
    StableHlo.binary main_v13 main_v17 main_v18 (mulf : (⟨S65536x20, .f32⟩ : BufTy).Contents (Elt F) → (⟨S65536x20, .f32⟩ : BufTy).Contents (Elt F) → (⟨S65536x20, .f32⟩ : BufTy).Contents (Elt F)),
    StableHlo.unary main_arg7 main_v19 (broadcastInDim S1x20 ![1] bcast_S20_S1x20_1 : (⟨S20, .f32⟩ : BufTy).Contents (Elt F) → (⟨S1x20, .f32⟩ : BufTy).Contents (Elt F)),
    StableHlo.unary main_v19 main_v20 (broadcastInDim S65536x20 ![0, 1] bcast_S1x20_S65536x20_0_1 : (⟨S1x20, .f32⟩ : BufTy).Contents (Elt F) → (⟨S65536x20, .f32⟩ : BufTy).Contents (Elt F)),
    StableHlo.binary main_v18 main_v20 main_v21 (mulf : (⟨S65536x20, .f32⟩ : BufTy).Contents (Elt F) → (⟨S65536x20, .f32⟩ : BufTy).Contents (Elt F) → (⟨S65536x20, .f32⟩ : BufTy).Contents (Elt F)),
    StableHlo.unary main_arg8 main_v22 (broadcastInDim S1x20 ![1] bcast_S20_S1x20_1 : (⟨S20, .f32⟩ : BufTy).Contents (Elt F) → (⟨S1x20, .f32⟩ : BufTy).Contents (Elt F)),
    StableHlo.unary main_v22 main_v23 (broadcastInDim S65536x20 ![0, 1] bcast_S1x20_S65536x20_0_1 : (⟨S1x20, .f32⟩ : BufTy).Contents (Elt F) → (⟨S65536x20, .f32⟩ : BufTy).Contents (Elt F)),
    StableHlo.binary main_v21 main_v23 main_v24 (addf : (⟨S65536x20, .f32⟩ : BufTy).Contents (Elt F) → (⟨S65536x20, .f32⟩ : BufTy).Contents (Elt F) → (⟨S65536x20, .f32⟩ : BufTy).Contents (Elt F)) ]

/-- The references stage norm writes. -/
def W_norm : List (Ref sig .tc) :=
  [main_v0, main_cst, main_v1, main_v2, main_cst_0, main_v3, main_v4, main_v5, main_v6, main_v7, main_cst_1, main_v8, main_v9, main_cst_2, main_v10, main_v11, main_v12, main_v13, main_cst_3, main_v14, main_v15, main_v16, main_v17, main_v18, main_v19, main_v20, main_v21, main_v22, main_v23, main_v24]

theorem ops_norm_sub : (ops_norm (F := F)).Forall fun op => op.bufs ⊆ tcRefs τ sig :=
  ⟨nary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem ops_norm_fresh : (ops_norm (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_norm_writes : (ops_norm (F := F)).Forall fun op => op.writes ⊆ (W_norm.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A reference stage norm does not write keeps its contents through it. -/
theorem kept_norm {r : Ref sig .tc} (hr : r ∉ W_norm) (V : Valuation τ sig (Elt F)) :
    after ops_norm V (Proc.devRef .tc r) = V (Proc.devRef .tc r) :=
  after_of_writes_sub ops_norm V ops_norm_writes hr

/-- Stage lin1: 5 operations (window 0 of @main). -/
def ops_lin1 : List (HloOp τ sig (Elt F)) :=
  [ StableHlo.unary main_arg9 main_v25 ((transpose S20x128 [1, 0] · transposes_S128x20_S20x128_1_0) : (⟨S128x20, .f32⟩ : BufTy).Contents (Elt F) → (⟨S20x128, .f32⟩ : BufTy).Contents (Elt F)),
    StableHlo.binary main_v24 main_v25 main_v26 ((fun l r => Host.dotGeneral dot_S65536x20_S20x128_S65536x128_1_0_0_1_n_n none l r) : (⟨S65536x20, .f32⟩ : BufTy).Contents (Elt F) → (⟨S20x128, .f32⟩ : BufTy).Contents (Elt F) → (⟨S65536x128, .f32⟩ : BufTy).Contents (Elt F)),
    StableHlo.unary main_arg10 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S65536x128 ![0, 1] bcast_S1x128_S65536x128_0_1 : (⟨S1x128, .f32⟩ : BufTy).Contents (Elt F) → (⟨S65536x128, .f32⟩ : BufTy).Contents (Elt F)),
    StableHlo.binary main_v26 main_v28 main_v29 (addf : (⟨S65536x128, .f32⟩ : BufTy).Contents (Elt F) → (⟨S65536x128, .f32⟩ : BufTy).Contents (Elt F) → (⟨S65536x128, .f32⟩ : BufTy).Contents (Elt F)) ]

/-- The references stage lin1 writes. -/
def W_lin1 : List (Ref sig .tc) :=
  [main_v25, main_v26, main_v27, main_v28, main_v29]

theorem ops_lin1_sub : (ops_lin1 (F := F)).Forall fun op => op.bufs ⊆ tcRefs τ sig :=
  ⟨unary_bufs_sub .., binary_bufs_sub .., unary_bufs_sub .., unary_bufs_sub .., binary_bufs_sub ..⟩

theorem ops_lin1_fresh : (ops_lin1 (F := F)).Forall fun op => op.fresh = ∅ :=
  ⟨rfl, rfl, rfl, rfl, rfl⟩

theorem ops_lin1_writes : (ops_lin1 (F := F)).Forall fun op => op.writes ⊆ (W_lin1.map (Proc.devRef (τ := τ) .tc)).toFinset :=
  ⟨single_sub_of_mem (by decide), single_sub_of_mem (by decide), single_sub_of_mem (by decide), single_sub_of_mem (by decide), single_sub_of_mem (by decide)⟩

/-- A reference stage lin1 does not write keeps its contents through it. -/
theorem kept_lin1 {r : Ref sig .tc} (hr : r ∉ W_lin1) (V : Valuation τ sig (Elt F)) :
    after ops_lin1 V (Proc.devRef .tc r) = V (Proc.devRef .tc r) :=
  after_of_writes_sub ops_lin1 V ops_lin1_writes hr

/-- Stage elu0: 15 operations (window 0 of @main). -/
def ops_elu0 : List (HloOp τ sig (Elt F)) :=
  [ StableHlo.TRef.nullary main_call0.cst (constant S_ .f32 0x00000000#32),
    StableHlo.TRef.unary main_call0.cst main_call0.v0 (broadcastInDim S65536x128 ![] bcast_S_S65536x128),
    StableHlo.TRef.binary (.of main_v29 : StableHlo.TRef sig ⟨S65536x128, .f32⟩) main_call0.v0 main_call0.v1 (cmpf .ogt),
    StableHlo.TRef.nullary main_call0.cst_0 (constant S_ .f32 0x00000000#32),
    StableHlo.TRef.unary main_call0.cst_0 main_call0.v2 (broadcastInDim S65536x128 ![] bcast_S_S65536x128),
    StableHlo.TRef.binary (.of main_v29 : StableHlo.TRef sig ⟨S65536x128, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S65536x128 ![] bcast_S_S65536x128),
    StableHlo.TRef.ternary main_call0.v3 main_call0.call0.v1 (.of main_v29 : StableHlo.TRef sig ⟨S65536x128, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S65536x128 ![] bcast_S_S65536x128),
    StableHlo.TRef.binary main_call0.v6 main_call0.v5 main_call0.v7 mulf,
    StableHlo.TRef.ternary main_call0.v1 (.of main_v29 : StableHlo.TRef sig ⟨S65536x128, .f32⟩) main_call0.v7 main_call0.call1.v0 select ]

/-- The references stage elu0 writes. -/
def W_elu0 : List (Ref sig .tc) :=
  [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v30]

theorem ops_elu0_sub : (ops_elu0 (F := F)).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

theorem ops_elu0_fresh : (ops_elu0 (F := F)).Forall fun op => op.fresh = ∅ :=
  ⟨rfl, rfl, rfl, rfl, rfl, rfl, rfl, rfl, rfl, rfl, rfl, rfl, rfl, rfl, rfl⟩

theorem ops_elu0_writes : (ops_elu0 (F := F)).Forall fun op => op.writes ⊆ (W_elu0.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A reference stage elu0 does not write keeps its contents through it. -/
theorem kept_elu0 {r : Ref sig .tc} (hr : r ∉ W_elu0) (V : Valuation τ sig (Elt F)) :
    after ops_elu0 V (Proc.devRef .tc r) = V (Proc.devRef .tc r) :=
  after_of_writes_sub ops_elu0 V ops_elu0_writes hr

/-- Stage lin2: 5 operations (window 0 of @main). -/
def ops_lin2 : List (HloOp τ sig (Elt F)) :=
  [ StableHlo.unary main_arg11 main_v31 ((transpose S128x128 [1, 0] · transposes_S128x128_S128x128_1_0) : (⟨S128x128, .f32⟩ : BufTy).Contents (Elt F) → (⟨S128x128, .f32⟩ : BufTy).Contents (Elt F)),
    StableHlo.binary main_v30 main_v31 main_v32 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)),
    StableHlo.unary main_arg12 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S65536x128 ![0, 1] bcast_S1x128_S65536x128_0_1 : (⟨S1x128, .f32⟩ : BufTy).Contents (Elt F) → (⟨S65536x128, .f32⟩ : BufTy).Contents (Elt F)),
    StableHlo.binary main_v32 main_v34 main_v35 (addf : (⟨S65536x128, .f32⟩ : BufTy).Contents (Elt F) → (⟨S65536x128, .f32⟩ : BufTy).Contents (Elt F) → (⟨S65536x128, .f32⟩ : BufTy).Contents (Elt F)) ]

/-- The references stage lin2 writes. -/
def W_lin2 : List (Ref sig .tc) :=
  [main_v31, main_v32, main_v33, main_v34, main_v35]

theorem ops_lin2_sub : (ops_lin2 (F := F)).Forall fun op => op.bufs ⊆ tcRefs τ sig :=
  ⟨unary_bufs_sub .., binary_bufs_sub .., unary_bufs_sub .., unary_bufs_sub .., binary_bufs_sub ..⟩

theorem ops_lin2_fresh : (ops_lin2 (F := F)).Forall fun op => op.fresh = ∅ :=
  ⟨rfl, rfl, rfl, rfl, rfl⟩

theorem ops_lin2_writes : (ops_lin2 (F := F)).Forall fun op => op.writes ⊆ (W_lin2.map (Proc.devRef (τ := τ) .tc)).toFinset :=
  ⟨single_sub_of_mem (by decide), single_sub_of_mem (by decide), single_sub_of_mem (by decide), single_sub_of_mem (by decide), single_sub_of_mem (by decide)⟩

/-- A reference stage lin2 does not write keeps its contents through it. -/
theorem kept_lin2 {r : Ref sig .tc} (hr : r ∉ W_lin2) (V : Valuation τ sig (Elt F)) :
    after ops_lin2 V (Proc.devRef .tc r) = V (Proc.devRef .tc r) :=
  after_of_writes_sub ops_lin2 V ops_lin2_writes hr

/-- Stage gru0a: 19 operations (window 0 of @main). -/
def ops_gru0a : List (HloOp τ sig (Elt F)) :=
  [ StableHlo.unary main_arg29 main_v36 ((extractStridedSlice S1x65536x128 ![0, 0, 0] · slices_S2x65536x128_S1x65536x128_0_0_0) : (⟨S2x65536x128, .f32⟩ : BufTy).Contents (Elt F) → (⟨S1x65536x128, .f32⟩ : BufTy).Contents (Elt F)),
    StableHlo.reshape main_v36 main_v37 rfl shapeCasts_S1x65536x128_S65536x128,
    StableHlo.unary main_arg13 main_v38 ((transpose S128x384 [1, 0] · transposes_S384x128_S128x384_1_0) : (⟨S384x128, .f32⟩ : BufTy).Contents (Elt F) → (⟨S128x384, .f32⟩ : BufTy).Contents (Elt F)),
    StableHlo.binary main_v35 main_v38 main_v39 ((fun l r => Host.dotGeneral dot_S65536x128_S128x384_S65536x384_1_0_0_1_n_n none l r) : (⟨S65536x128, .f32⟩ : BufTy).Contents (Elt F) → (⟨S128x384, .f32⟩ : BufTy).Contents (Elt F) → (⟨S65536x384, .f32⟩ : BufTy).Contents (Elt F)),
    StableHlo.unary main_arg15 main_v40 (broadcastInDim S1x384 ![1] bcast_S384_S1x384_1 : (⟨S384, .f32⟩ : BufTy).Contents (Elt F) → (⟨S1x384, .f32⟩ : BufTy).Contents (Elt F)),
    StableHlo.unary main_v40 main_v41 (broadcastInDim S65536x384 ![0, 1] bcast_S1x384_S65536x384_0_1 : (⟨S1x384, .f32⟩ : BufTy).Contents (Elt F) → (⟨S65536x384, .f32⟩ : BufTy).Contents (Elt F)),
    StableHlo.binary main_v39 main_v41 main_v42 (addf : (⟨S65536x384, .f32⟩ : BufTy).Contents (Elt F) → (⟨S65536x384, .f32⟩ : BufTy).Contents (Elt F) → (⟨S65536x384, .f32⟩ : BufTy).Contents (Elt F)),
    StableHlo.unary main_arg14 main_v43 ((transpose S128x384 [1, 0] · transposes_S384x128_S128x384_1_0) : (⟨S384x128, .f32⟩ : BufTy).Contents (Elt F) → (⟨S128x384, .f32⟩ : BufTy).Contents (Elt F)),
    StableHlo.binary main_v37 main_v43 main_v44 ((fun l r => Host.dotGeneral dot_S65536x128_S128x384_S65536x384_1_0_0_1_n_n none l r) : (⟨S65536x128, .f32⟩ : BufTy).Contents (Elt F) → (⟨S128x384, .f32⟩ : BufTy).Contents (Elt F) → (⟨S65536x384, .f32⟩ : BufTy).Contents (Elt F)),
    StableHlo.unary main_arg16 main_v45 (broadcastInDim S1x384 ![1] bcast_S384_S1x384_1 : (⟨S384, .f32⟩ : BufTy).Contents (Elt F) → (⟨S1x384, .f32⟩ : BufTy).Contents (Elt F)),
    StableHlo.unary main_v45 main_v46 (broadcastInDim S65536x384 ![0, 1] bcast_S1x384_S65536x384_0_1 : (⟨S1x384, .f32⟩ : BufTy).Contents (Elt F) → (⟨S65536x384, .f32⟩ : BufTy).Contents (Elt F)),
    StableHlo.binary main_v44 main_v46 main_v47 (addf : (⟨S65536x384, .f32⟩ : BufTy).Contents (Elt F) → (⟨S65536x384, .f32⟩ : BufTy).Contents (Elt F) → (⟨S65536x384, .f32⟩ : BufTy).Contents (Elt F)),
    StableHlo.unary main_v42 main_v48 ((extractStridedSlice S65536x128 ![0, 0] · slices_S65536x384_S65536x128_0_0) : (⟨S65536x384, .f32⟩ : BufTy).Contents (Elt F) → (⟨S65536x128, .f32⟩ : BufTy).Contents (Elt F)),
    StableHlo.unary main_v42 main_v49 ((extractStridedSlice S65536x128 ![0, 128] · slices_S65536x384_S65536x128_0_128) : (⟨S65536x384, .f32⟩ : BufTy).Contents (Elt F) → (⟨S65536x128, .f32⟩ : BufTy).Contents (Elt F)),
    StableHlo.unary main_v42 main_v50 ((extractStridedSlice S65536x128 ![0, 256] · slices_S65536x384_S65536x128_0_256) : (⟨S65536x384, .f32⟩ : BufTy).Contents (Elt F) → (⟨S65536x128, .f32⟩ : BufTy).Contents (Elt F)),
    StableHlo.unary main_v47 main_v51 ((extractStridedSlice S65536x128 ![0, 0] · slices_S65536x384_S65536x128_0_0) : (⟨S65536x384, .f32⟩ : BufTy).Contents (Elt F) → (⟨S65536x128, .f32⟩ : BufTy).Contents (Elt F)),
    StableHlo.unary main_v47 main_v52 ((extractStridedSlice S65536x128 ![0, 128] · slices_S65536x384_S65536x128_0_128) : (⟨S65536x384, .f32⟩ : BufTy).Contents (Elt F) → (⟨S65536x128, .f32⟩ : BufTy).Contents (Elt F)),
    StableHlo.unary main_v47 main_v53 ((extractStridedSlice S65536x128 ![0, 256] · slices_S65536x384_S65536x128_0_256) : (⟨S65536x384, .f32⟩ : BufTy).Contents (Elt F) → (⟨S65536x128, .f32⟩ : BufTy).Contents (Elt F)),
    StableHlo.binary main_v48 main_v51 main_v54 (addf : (⟨S65536x128, .f32⟩ : BufTy).Contents (Elt F) → (⟨S65536x128, .f32⟩ : BufTy).Contents (Elt F) → (⟨S65536x128, .f32⟩ : BufTy).Contents (Elt F)) ]

/-- The references stage gru0a writes. -/
def W_gru0a : List (Ref sig .tc) :=
  [main_v36, main_v37, main_v38, main_v39, main_v40, main_v41, main_v42, main_v43, main_v44, main_v45, main_v46, main_v47, main_v48, main_v49, main_v50, main_v51, main_v52, main_v53, main_v54]

theorem ops_gru0a_sub : (ops_gru0a (F := F)).Forall fun op => op.bufs ⊆ tcRefs τ sig :=
  ⟨unary_bufs_sub .., reshape_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub ..⟩

theorem ops_gru0a_fresh : (ops_gru0a (F := F)).Forall fun op => op.fresh = ∅ :=
  ⟨rfl, rfl, rfl, rfl, rfl, rfl, rfl, rfl, rfl, rfl, rfl, rfl, rfl, rfl, rfl, rfl, rfl, rfl, rfl⟩

theorem ops_gru0a_writes : (ops_gru0a (F := F)).Forall fun op => op.writes ⊆ (W_gru0a.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A reference stage gru0a does not write keeps its contents through it. -/
theorem kept_gru0a {r : Ref sig .tc} (hr : r ∉ W_gru0a) (V : Valuation τ sig (Elt F)) :
    after ops_gru0a V (Proc.devRef .tc r) = V (Proc.devRef .tc r) :=
  after_of_writes_sub ops_gru0a V ops_gru0a_writes hr

/-- Stage gru0b: 26 operations (window 1 of @main). -/
def ops_gru0b : List (HloOp τ sig (Elt F)) :=
  [ StableHlo.unary main_v54 main_v55 (Host.negf : (⟨S65536x128, .f32⟩ : BufTy).Contents (Elt F) → (⟨S65536x128, .f32⟩ : BufTy).Contents (Elt F)),
    StableHlo.unary main_v55 main_v56 (Host.exp : (⟨S65536x128, .f32⟩ : BufTy).Contents (Elt F) → (⟨S65536x128, .f32⟩ : BufTy).Contents (Elt F)),
    StableHlo.nullary main_cst_4 (constant S_ .f32 0x3F800000#32),
    StableHlo.unary main_cst_4 main_v57 (broadcastInDim S65536x128 ![] bcast_S_S65536x128 : (⟨S_, .f32⟩ : BufTy).Contents (Elt F) → (⟨S65536x128, .f32⟩ : BufTy).Contents (Elt F)),
    StableHlo.binary main_v57 main_v56 main_v58 (addf : (⟨S65536x128, .f32⟩ : BufTy).Contents (Elt F) → (⟨S65536x128, .f32⟩ : BufTy).Contents (Elt F) → (⟨S65536x128, .f32⟩ : BufTy).Contents (Elt F)),
    StableHlo.nullary main_cst_5 (constant S_ .f32 0x3F800000#32),
    StableHlo.unary main_cst_5 main_v59 (broadcastInDim S65536x128 ![] bcast_S_S65536x128 : (⟨S_, .f32⟩ : BufTy).Contents (Elt F) → (⟨S65536x128, .f32⟩ : BufTy).Contents (Elt F)),
    StableHlo.binary main_v59 main_v58 main_v60 (Host.divf : (⟨S65536x128, .f32⟩ : BufTy).Contents (Elt F) → (⟨S65536x128, .f32⟩ : BufTy).Contents (Elt F) → (⟨S65536x128, .f32⟩ : BufTy).Contents (Elt F)),
    StableHlo.binary main_v49 main_v52 main_v61 (addf : (⟨S65536x128, .f32⟩ : BufTy).Contents (Elt F) → (⟨S65536x128, .f32⟩ : BufTy).Contents (Elt F) → (⟨S65536x128, .f32⟩ : BufTy).Contents (Elt F)),
    StableHlo.unary main_v61 main_v62 (Host.negf : (⟨S65536x128, .f32⟩ : BufTy).Contents (Elt F) → (⟨S65536x128, .f32⟩ : BufTy).Contents (Elt F)),
    StableHlo.unary main_v62 main_v63 (Host.exp : (⟨S65536x128, .f32⟩ : BufTy).Contents (Elt F) → (⟨S65536x128, .f32⟩ : BufTy).Contents (Elt F)),
    StableHlo.nullary main_cst_6 (constant S_ .f32 0x3F800000#32),
    StableHlo.unary main_cst_6 main_v64 (broadcastInDim S65536x128 ![] bcast_S_S65536x128 : (⟨S_, .f32⟩ : BufTy).Contents (Elt F) → (⟨S65536x128, .f32⟩ : BufTy).Contents (Elt F)),
    StableHlo.binary main_v64 main_v63 main_v65 (addf : (⟨S65536x128, .f32⟩ : BufTy).Contents (Elt F) → (⟨S65536x128, .f32⟩ : BufTy).Contents (Elt F) → (⟨S65536x128, .f32⟩ : BufTy).Contents (Elt F)),
    StableHlo.nullary main_cst_7 (constant S_ .f32 0x3F800000#32),
    StableHlo.unary main_cst_7 main_v66 (broadcastInDim S65536x128 ![] bcast_S_S65536x128 : (⟨S_, .f32⟩ : BufTy).Contents (Elt F) → (⟨S65536x128, .f32⟩ : BufTy).Contents (Elt F)),
    StableHlo.binary main_v66 main_v65 main_v67 (Host.divf : (⟨S65536x128, .f32⟩ : BufTy).Contents (Elt F) → (⟨S65536x128, .f32⟩ : BufTy).Contents (Elt F) → (⟨S65536x128, .f32⟩ : BufTy).Contents (Elt F)),
    StableHlo.binary main_v60 main_v53 main_v68 (mulf : (⟨S65536x128, .f32⟩ : BufTy).Contents (Elt F) → (⟨S65536x128, .f32⟩ : BufTy).Contents (Elt F) → (⟨S65536x128, .f32⟩ : BufTy).Contents (Elt F)),
    StableHlo.binary main_v50 main_v68 main_v69 (addf : (⟨S65536x128, .f32⟩ : BufTy).Contents (Elt F) → (⟨S65536x128, .f32⟩ : BufTy).Contents (Elt F) → (⟨S65536x128, .f32⟩ : BufTy).Contents (Elt F)),
    StableHlo.unary main_v69 main_v70 (Host.tanh : (⟨S65536x128, .f32⟩ : BufTy).Contents (Elt F) → (⟨S65536x128, .f32⟩ : BufTy).Contents (Elt F)),
    StableHlo.nullary main_cst_8 (constant S_ .f32 0x3F800000#32),
    StableHlo.unary main_cst_8 main_v71 (broadcastInDim S65536x128 ![] bcast_S_S65536x128 : (⟨S_, .f32⟩ : BufTy).Contents (Elt F) → (⟨S65536x128, .f32⟩ : BufTy).Contents (Elt F)),
    StableHlo.binary main_v71 main_v67 main_v72 (subf : (⟨S65536x128, .f32⟩ : BufTy).Contents (Elt F) → (⟨S65536x128, .f32⟩ : BufTy).Contents (Elt F) → (⟨S65536x128, .f32⟩ : BufTy).Contents (Elt F)),
    StableHlo.binary main_v72 main_v70 main_v73 (mulf : (⟨S65536x128, .f32⟩ : BufTy).Contents (Elt F) → (⟨S65536x128, .f32⟩ : BufTy).Contents (Elt F) → (⟨S65536x128, .f32⟩ : BufTy).Contents (Elt F)),
    StableHlo.binary main_v67 main_v37 main_v74 (mulf : (⟨S65536x128, .f32⟩ : BufTy).Contents (Elt F) → (⟨S65536x128, .f32⟩ : BufTy).Contents (Elt F) → (⟨S65536x128, .f32⟩ : BufTy).Contents (Elt F)),
    StableHlo.binary main_v73 main_v74 main_v75 (addf : (⟨S65536x128, .f32⟩ : BufTy).Contents (Elt F) → (⟨S65536x128, .f32⟩ : BufTy).Contents (Elt F) → (⟨S65536x128, .f32⟩ : BufTy).Contents (Elt F)) ]

/-- The references stage gru0b writes. -/
def W_gru0b : List (Ref sig .tc) :=
  [main_v55, main_v56, main_cst_4, main_v57, main_v58, main_cst_5, main_v59, main_v60, main_v61, main_v62, main_v63, main_cst_6, main_v64, main_v65, main_cst_7, main_v66, main_v67, main_v68, main_v69, main_v70, main_cst_8, main_v71, main_v72, main_v73, main_v74, main_v75]

theorem ops_gru0b_sub : (ops_gru0b (F := F)).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩

theorem ops_gru0b_fresh : (ops_gru0b (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

theorem ops_gru0b_writes : (ops_gru0b (F := F)).Forall fun op => op.writes ⊆ (W_gru0b.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A reference stage gru0b does not write keeps its contents through it. -/
theorem kept_gru0b {r : Ref sig .tc} (hr : r ∉ W_gru0b) (V : Valuation τ sig (Elt F)) :
    after ops_gru0b V (Proc.devRef .tc r) = V (Proc.devRef .tc r) :=
  after_of_writes_sub ops_gru0b V ops_gru0b_writes hr

/-- Stage gru1a: 34 operations (window 1 of @main). -/
def ops_gru1a : List (HloOp τ sig (Elt F)) :=
  [ StableHlo.unary main_arg29 main_v76 ((extractStridedSlice S1x65536x128 ![1, 0, 0] · slices_S2x65536x128_S1x65536x128_1_0_0) : (⟨S2x65536x128, .f32⟩ : BufTy).Contents (Elt F) → (⟨S1x65536x128, .f32⟩ : BufTy).Contents (Elt F)),
    StableHlo.reshape main_v76 main_v77 rfl shapeCasts_S1x65536x128_S65536x128,
    StableHlo.unary main_arg17 main_v78 ((transpose S128x384 [1, 0] · transposes_S384x128_S128x384_1_0) : (⟨S384x128, .f32⟩ : BufTy).Contents (Elt F) → (⟨S128x384, .f32⟩ : BufTy).Contents (Elt F)),
    StableHlo.binary main_v75 main_v78 main_v79 ((fun l r => Host.dotGeneral dot_S65536x128_S128x384_S65536x384_1_0_0_1_n_n none l r) : (⟨S65536x128, .f32⟩ : BufTy).Contents (Elt F) → (⟨S128x384, .f32⟩ : BufTy).Contents (Elt F) → (⟨S65536x384, .f32⟩ : BufTy).Contents (Elt F)),
    StableHlo.unary main_arg19 main_v80 (broadcastInDim S1x384 ![1] bcast_S384_S1x384_1 : (⟨S384, .f32⟩ : BufTy).Contents (Elt F) → (⟨S1x384, .f32⟩ : BufTy).Contents (Elt F)),
    StableHlo.unary main_v80 main_v81 (broadcastInDim S65536x384 ![0, 1] bcast_S1x384_S65536x384_0_1 : (⟨S1x384, .f32⟩ : BufTy).Contents (Elt F) → (⟨S65536x384, .f32⟩ : BufTy).Contents (Elt F)),
    StableHlo.binary main_v79 main_v81 main_v82 (addf : (⟨S65536x384, .f32⟩ : BufTy).Contents (Elt F) → (⟨S65536x384, .f32⟩ : BufTy).Contents (Elt F) → (⟨S65536x384, .f32⟩ : BufTy).Contents (Elt F)),
    StableHlo.unary main_arg18 main_v83 ((transpose S128x384 [1, 0] · transposes_S384x128_S128x384_1_0) : (⟨S384x128, .f32⟩ : BufTy).Contents (Elt F) → (⟨S128x384, .f32⟩ : BufTy).Contents (Elt F)),
    StableHlo.binary main_v77 main_v83 main_v84 ((fun l r => Host.dotGeneral dot_S65536x128_S128x384_S65536x384_1_0_0_1_n_n none l r) : (⟨S65536x128, .f32⟩ : BufTy).Contents (Elt F) → (⟨S128x384, .f32⟩ : BufTy).Contents (Elt F) → (⟨S65536x384, .f32⟩ : BufTy).Contents (Elt F)),
    StableHlo.unary main_arg20 main_v85 (broadcastInDim S1x384 ![1] bcast_S384_S1x384_1 : (⟨S384, .f32⟩ : BufTy).Contents (Elt F) → (⟨S1x384, .f32⟩ : BufTy).Contents (Elt F)),
    StableHlo.unary main_v85 main_v86 (broadcastInDim S65536x384 ![0, 1] bcast_S1x384_S65536x384_0_1 : (⟨S1x384, .f32⟩ : BufTy).Contents (Elt F) → (⟨S65536x384, .f32⟩ : BufTy).Contents (Elt F)),
    StableHlo.binary main_v84 main_v86 main_v87 (addf : (⟨S65536x384, .f32⟩ : BufTy).Contents (Elt F) → (⟨S65536x384, .f32⟩ : BufTy).Contents (Elt F) → (⟨S65536x384, .f32⟩ : BufTy).Contents (Elt F)),
    StableHlo.unary main_v82 main_v88 ((extractStridedSlice S65536x128 ![0, 0] · slices_S65536x384_S65536x128_0_0) : (⟨S65536x384, .f32⟩ : BufTy).Contents (Elt F) → (⟨S65536x128, .f32⟩ : BufTy).Contents (Elt F)),
    StableHlo.unary main_v82 main_v89 ((extractStridedSlice S65536x128 ![0, 128] · slices_S65536x384_S65536x128_0_128) : (⟨S65536x384, .f32⟩ : BufTy).Contents (Elt F) → (⟨S65536x128, .f32⟩ : BufTy).Contents (Elt F)),
    StableHlo.unary main_v82 main_v90 ((extractStridedSlice S65536x128 ![0, 256] · slices_S65536x384_S65536x128_0_256) : (⟨S65536x384, .f32⟩ : BufTy).Contents (Elt F) → (⟨S65536x128, .f32⟩ : BufTy).Contents (Elt F)),
    StableHlo.unary main_v87 main_v91 ((extractStridedSlice S65536x128 ![0, 0] · slices_S65536x384_S65536x128_0_0) : (⟨S65536x384, .f32⟩ : BufTy).Contents (Elt F) → (⟨S65536x128, .f32⟩ : BufTy).Contents (Elt F)),
    StableHlo.unary main_v87 main_v92 ((extractStridedSlice S65536x128 ![0, 128] · slices_S65536x384_S65536x128_0_128) : (⟨S65536x384, .f32⟩ : BufTy).Contents (Elt F) → (⟨S65536x128, .f32⟩ : BufTy).Contents (Elt F)),
    StableHlo.unary main_v87 main_v93 ((extractStridedSlice S65536x128 ![0, 256] · slices_S65536x384_S65536x128_0_256) : (⟨S65536x384, .f32⟩ : BufTy).Contents (Elt F) → (⟨S65536x128, .f32⟩ : BufTy).Contents (Elt F)),
    StableHlo.binary main_v88 main_v91 main_v94 (addf : (⟨S65536x128, .f32⟩ : BufTy).Contents (Elt F) → (⟨S65536x128, .f32⟩ : BufTy).Contents (Elt F) → (⟨S65536x128, .f32⟩ : BufTy).Contents (Elt F)),
    StableHlo.unary main_v94 main_v95 (Host.negf : (⟨S65536x128, .f32⟩ : BufTy).Contents (Elt F) → (⟨S65536x128, .f32⟩ : BufTy).Contents (Elt F)),
    StableHlo.unary main_v95 main_v96 (Host.exp : (⟨S65536x128, .f32⟩ : BufTy).Contents (Elt F) → (⟨S65536x128, .f32⟩ : BufTy).Contents (Elt F)),
    StableHlo.nullary main_cst_9 (constant S_ .f32 0x3F800000#32),
    StableHlo.unary main_cst_9 main_v97 (broadcastInDim S65536x128 ![] bcast_S_S65536x128 : (⟨S_, .f32⟩ : BufTy).Contents (Elt F) → (⟨S65536x128, .f32⟩ : BufTy).Contents (Elt F)),
    StableHlo.binary main_v97 main_v96 main_v98 (addf : (⟨S65536x128, .f32⟩ : BufTy).Contents (Elt F) → (⟨S65536x128, .f32⟩ : BufTy).Contents (Elt F) → (⟨S65536x128, .f32⟩ : BufTy).Contents (Elt F)),
    StableHlo.nullary main_cst_10 (constant S_ .f32 0x3F800000#32),
    StableHlo.unary main_cst_10 main_v99 (broadcastInDim S65536x128 ![] bcast_S_S65536x128 : (⟨S_, .f32⟩ : BufTy).Contents (Elt F) → (⟨S65536x128, .f32⟩ : BufTy).Contents (Elt F)),
    StableHlo.binary main_v99 main_v98 main_v100 (Host.divf : (⟨S65536x128, .f32⟩ : BufTy).Contents (Elt F) → (⟨S65536x128, .f32⟩ : BufTy).Contents (Elt F) → (⟨S65536x128, .f32⟩ : BufTy).Contents (Elt F)),
    StableHlo.binary main_v89 main_v92 main_v101 (addf : (⟨S65536x128, .f32⟩ : BufTy).Contents (Elt F) → (⟨S65536x128, .f32⟩ : BufTy).Contents (Elt F) → (⟨S65536x128, .f32⟩ : BufTy).Contents (Elt F)),
    StableHlo.unary main_v101 main_v102 (Host.negf : (⟨S65536x128, .f32⟩ : BufTy).Contents (Elt F) → (⟨S65536x128, .f32⟩ : BufTy).Contents (Elt F)),
    StableHlo.unary main_v102 main_v103 (Host.exp : (⟨S65536x128, .f32⟩ : BufTy).Contents (Elt F) → (⟨S65536x128, .f32⟩ : BufTy).Contents (Elt F)),
    StableHlo.nullary main_cst_11 (constant S_ .f32 0x3F800000#32),
    StableHlo.unary main_cst_11 main_v104 (broadcastInDim S65536x128 ![] bcast_S_S65536x128 : (⟨S_, .f32⟩ : BufTy).Contents (Elt F) → (⟨S65536x128, .f32⟩ : BufTy).Contents (Elt F)),
    StableHlo.binary main_v104 main_v103 main_v105 (addf : (⟨S65536x128, .f32⟩ : BufTy).Contents (Elt F) → (⟨S65536x128, .f32⟩ : BufTy).Contents (Elt F) → (⟨S65536x128, .f32⟩ : BufTy).Contents (Elt F)),
    StableHlo.nullary main_cst_12 (constant S_ .f32 0x3F800000#32) ]

/-- The references stage gru1a writes. -/
def W_gru1a : List (Ref sig .tc) :=
  [main_v76, main_v77, main_v78, main_v79, main_v80, main_v81, main_v82, main_v83, main_v84, main_v85, main_v86, main_v87, main_v88, main_v89, main_v90, main_v91, main_v92, main_v93, main_v94, main_v95, main_v96, main_cst_9, main_v97, main_v98, main_cst_10, main_v99, main_v100, main_v101, main_v102, main_v103, main_cst_11, main_v104, main_v105, main_cst_12]

theorem ops_gru1a_sub : (ops_gru1a (F := F)).Forall fun op => op.bufs ⊆ tcRefs τ sig :=
  ⟨unary_bufs_sub .., reshape_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub ..⟩

theorem ops_gru1a_fresh : (ops_gru1a (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_gru1a_writes : (ops_gru1a (F := F)).Forall fun op => op.writes ⊆ (W_gru1a.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A reference stage gru1a does not write keeps its contents through it. -/
theorem kept_gru1a {r : Ref sig .tc} (hr : r ∉ W_gru1a) (V : Valuation τ sig (Elt F)) :
    after ops_gru1a V (Proc.devRef .tc r) = V (Proc.devRef .tc r) :=
  after_of_writes_sub ops_gru1a V ops_gru1a_writes hr

/-- Stage gru1b: 11 operations (window 2 of @main). -/
def ops_gru1b : List (HloOp τ sig (Elt F)) :=
  [ StableHlo.unary main_cst_12 main_v106 (broadcastInDim S65536x128 ![] bcast_S_S65536x128 : (⟨S_, .f32⟩ : BufTy).Contents (Elt F) → (⟨S65536x128, .f32⟩ : BufTy).Contents (Elt F)),
    StableHlo.binary main_v106 main_v105 main_v107 (Host.divf : (⟨S65536x128, .f32⟩ : BufTy).Contents (Elt F) → (⟨S65536x128, .f32⟩ : BufTy).Contents (Elt F) → (⟨S65536x128, .f32⟩ : BufTy).Contents (Elt F)),
    StableHlo.binary main_v100 main_v93 main_v108 (mulf : (⟨S65536x128, .f32⟩ : BufTy).Contents (Elt F) → (⟨S65536x128, .f32⟩ : BufTy).Contents (Elt F) → (⟨S65536x128, .f32⟩ : BufTy).Contents (Elt F)),
    StableHlo.binary main_v90 main_v108 main_v109 (addf : (⟨S65536x128, .f32⟩ : BufTy).Contents (Elt F) → (⟨S65536x128, .f32⟩ : BufTy).Contents (Elt F) → (⟨S65536x128, .f32⟩ : BufTy).Contents (Elt F)),
    StableHlo.unary main_v109 main_v110 (Host.tanh : (⟨S65536x128, .f32⟩ : BufTy).Contents (Elt F) → (⟨S65536x128, .f32⟩ : BufTy).Contents (Elt F)),
    StableHlo.nullary main_cst_13 (constant S_ .f32 0x3F800000#32),
    StableHlo.unary main_cst_13 main_v111 (broadcastInDim S65536x128 ![] bcast_S_S65536x128 : (⟨S_, .f32⟩ : BufTy).Contents (Elt F) → (⟨S65536x128, .f32⟩ : BufTy).Contents (Elt F)),
    StableHlo.binary main_v111 main_v107 main_v112 (subf : (⟨S65536x128, .f32⟩ : BufTy).Contents (Elt F) → (⟨S65536x128, .f32⟩ : BufTy).Contents (Elt F) → (⟨S65536x128, .f32⟩ : BufTy).Contents (Elt F)),
    StableHlo.binary main_v112 main_v110 main_v113 (mulf : (⟨S65536x128, .f32⟩ : BufTy).Contents (Elt F) → (⟨S65536x128, .f32⟩ : BufTy).Contents (Elt F) → (⟨S65536x128, .f32⟩ : BufTy).Contents (Elt F)),
    StableHlo.binary main_v107 main_v77 main_v114 (mulf : (⟨S65536x128, .f32⟩ : BufTy).Contents (Elt F) → (⟨S65536x128, .f32⟩ : BufTy).Contents (Elt F) → (⟨S65536x128, .f32⟩ : BufTy).Contents (Elt F)),
    StableHlo.binary main_v113 main_v114 main_v115 (addf : (⟨S65536x128, .f32⟩ : BufTy).Contents (Elt F) → (⟨S65536x128, .f32⟩ : BufTy).Contents (Elt F) → (⟨S65536x128, .f32⟩ : BufTy).Contents (Elt F)) ]

/-- The references stage gru1b writes. -/
def W_gru1b : List (Ref sig .tc) :=
  [main_v106, main_v107, main_v108, main_v109, main_v110, main_cst_13, main_v111, main_v112, main_v113, main_v114, main_v115]

theorem ops_gru1b_sub : (ops_gru1b (F := F)).Forall fun op => op.bufs ⊆ tcRefs τ sig :=
  ⟨unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩

theorem ops_gru1b_fresh : (ops_gru1b (F := F)).Forall fun op => op.fresh = ∅ :=
  ⟨rfl, rfl, rfl, rfl, rfl, rfl, rfl, rfl, rfl, rfl, rfl⟩

theorem ops_gru1b_writes : (ops_gru1b (F := F)).Forall fun op => op.writes ⊆ (W_gru1b.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A reference stage gru1b does not write keeps its contents through it. -/
theorem kept_gru1b {r : Ref sig .tc} (hr : r ∉ W_gru1b) (V : Valuation τ sig (Elt F)) :
    after ops_gru1b V (Proc.devRef .tc r) = V (Proc.devRef .tc r) :=
  after_of_writes_sub ops_gru1b V ops_gru1b_writes hr

/-- Stage head_s: 5 operations (window 2 of @main). -/
def ops_head_s : List (HloOp τ sig (Elt F)) :=
  [ StableHlo.unary main_arg21 main_v116 ((transpose S128x64 [1, 0] · transposes_S64x128_S128x64_1_0) : (⟨S64x128, .f32⟩ : BufTy).Contents (Elt F) → (⟨S128x64, .f32⟩ : BufTy).Contents (Elt F)),
    StableHlo.binary main_v115 main_v116 main_v117 ((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F)),
    StableHlo.unary main_arg22 main_v118 (broadcastInDim S1x64 ![1] bcast_S64_S1x64_1 : (⟨S64, .f32⟩ : BufTy).Contents (Elt F) → (⟨S1x64, .f32⟩ : BufTy).Contents (Elt F)),
    StableHlo.unary main_v118 main_v119 (broadcastInDim S65536x64 ![0, 1] bcast_S1x64_S65536x64_0_1 : (⟨S1x64, .f32⟩ : BufTy).Contents (Elt F) → (⟨S65536x64, .f32⟩ : BufTy).Contents (Elt F)),
    StableHlo.binary main_v117 main_v119 main_v120 (addf : (⟨S65536x64, .f32⟩ : BufTy).Contents (Elt F) → (⟨S65536x64, .f32⟩ : BufTy).Contents (Elt F) → (⟨S65536x64, .f32⟩ : BufTy).Contents (Elt F)) ]

/-- The references stage head_s writes. -/
def W_head_s : List (Ref sig .tc) :=
  [main_v116, main_v117, main_v118, main_v119, main_v120]

theorem ops_head_s_sub : (ops_head_s (F := F)).Forall fun op => op.bufs ⊆ tcRefs τ sig :=
  ⟨unary_bufs_sub .., binary_bufs_sub .., unary_bufs_sub .., unary_bufs_sub .., binary_bufs_sub ..⟩

theorem ops_head_s_fresh : (ops_head_s (F := F)).Forall fun op => op.fresh = ∅ :=
  ⟨rfl, rfl, rfl, rfl, rfl⟩

theorem ops_head_s_writes : (ops_head_s (F := F)).Forall fun op => op.writes ⊆ (W_head_s.map (Proc.devRef (τ := τ) .tc)).toFinset :=
  ⟨single_sub_of_mem (by decide), single_sub_of_mem (by decide), single_sub_of_mem (by decide), single_sub_of_mem (by decide), single_sub_of_mem (by decide)⟩

/-- A reference stage head_s does not write keeps its contents through it. -/
theorem kept_head_s {r : Ref sig .tc} (hr : r ∉ W_head_s) (V : Valuation τ sig (Elt F)) :
    after ops_head_s V (Proc.devRef .tc r) = V (Proc.devRef .tc r) :=
  after_of_writes_sub ops_head_s V ops_head_s_writes hr

/-- Stage elu1: 15 operations (window 2 of @main). -/
def ops_elu1 : List (HloOp τ sig (Elt F)) :=
  [ StableHlo.TRef.nullary main_call1.cst (constant S_ .f32 0x00000000#32),
    StableHlo.TRef.unary main_call1.cst main_call1.v0 (broadcastInDim S65536x64 ![] bcast_S_S65536x64),
    StableHlo.TRef.binary (.of main_v120 : StableHlo.TRef sig ⟨S65536x64, .f32⟩) main_call1.v0 main_call1.v1 (cmpf .ogt),
    StableHlo.TRef.nullary main_call1.cst_0 (constant S_ .f32 0x00000000#32),
    StableHlo.TRef.unary main_call1.cst_0 main_call1.v2 (broadcastInDim S65536x64 ![] bcast_S_S65536x64),
    StableHlo.TRef.binary (.of main_v120 : StableHlo.TRef sig ⟨S65536x64, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S65536x64 ![] bcast_S_S65536x64),
    StableHlo.TRef.ternary main_call1.v3 main_call1.call0.v1 (.of main_v120 : StableHlo.TRef sig ⟨S65536x64, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S65536x64 ![] bcast_S_S65536x64),
    StableHlo.TRef.binary main_call1.v6 main_call1.v5 main_call1.v7 mulf,
    StableHlo.TRef.ternary main_call1.v1 (.of main_v120 : StableHlo.TRef sig ⟨S65536x64, .f32⟩) main_call1.v7 main_call1.call1.v0 select ]

/-- The references stage elu1 writes. -/
def W_elu1 : List (Ref sig .tc) :=
  [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v121]

theorem ops_elu1_sub : (ops_elu1 (F := F)).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

theorem ops_elu1_fresh : (ops_elu1 (F := F)).Forall fun op => op.fresh = ∅ :=
  ⟨rfl, rfl, rfl, rfl, rfl, rfl, rfl, rfl, rfl, rfl, rfl, rfl, rfl, rfl, rfl⟩

theorem ops_elu1_writes : (ops_elu1 (F := F)).Forall fun op => op.writes ⊆ (W_elu1.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A reference stage elu1 does not write keeps its contents through it. -/
theorem kept_elu1 {r : Ref sig .tc} (hr : r ∉ W_elu1) (V : Valuation τ sig (Elt F)) :
    after ops_elu1 V (Proc.devRef .tc r) = V (Proc.devRef .tc r) :=
  after_of_writes_sub ops_elu1 V ops_elu1_writes hr

/-- Stage slin: 5 operations (window 2 of @main). -/
def ops_slin : List (HloOp τ sig (Elt F)) :=
  [ StableHlo.unary main_arg23 main_v122 ((transpose S64x1 [1, 0] · transposes_S1x64_S64x1_1_0) : (⟨S1x64, .f32⟩ : BufTy).Contents (Elt F) → (⟨S64x1, .f32⟩ : BufTy).Contents (Elt F)),
    StableHlo.binary main_v121 main_v122 main_v123 ((fun l r => Host.dotGeneral dot_S65536x64_S64x1_S65536x1_1_0_0_1_n_n none l r) : (⟨S65536x64, .f32⟩ : BufTy).Contents (Elt F) → (⟨S64x1, .f32⟩ : BufTy).Contents (Elt F) → (⟨S65536x1, .f32⟩ : BufTy).Contents (Elt F)),
    StableHlo.unary main_arg24 main_v124 (broadcastInDim S1x1 ![1] bcast_S1_S1x1_1 : (⟨S1, .f32⟩ : BufTy).Contents (Elt F) → (⟨S1x1, .f32⟩ : BufTy).Contents (Elt F)),
    StableHlo.unary main_v124 main_v125 (broadcastInDim S65536x1 ![0, 1] bcast_S1x1_S65536x1_0_1 : (⟨S1x1, .f32⟩ : BufTy).Contents (Elt F) → (⟨S65536x1, .f32⟩ : BufTy).Contents (Elt F)),
    StableHlo.binary main_v123 main_v125 main_v126 (addf : (⟨S65536x1, .f32⟩ : BufTy).Contents (Elt F) → (⟨S65536x1, .f32⟩ : BufTy).Contents (Elt F) → (⟨S65536x1, .f32⟩ : BufTy).Contents (Elt F)) ]

/-- The references stage slin writes. -/
def W_slin : List (Ref sig .tc) :=
  [main_v122, main_v123, main_v124, main_v125, main_v126]

theorem ops_slin_sub : (ops_slin (F := F)).Forall fun op => op.bufs ⊆ tcRefs τ sig :=
  ⟨unary_bufs_sub .., binary_bufs_sub .., unary_bufs_sub .., unary_bufs_sub .., binary_bufs_sub ..⟩

theorem ops_slin_fresh : (ops_slin (F := F)).Forall fun op => op.fresh = ∅ :=
  ⟨rfl, rfl, rfl, rfl, rfl⟩

theorem ops_slin_writes : (ops_slin (F := F)).Forall fun op => op.writes ⊆ (W_slin.map (Proc.devRef (τ := τ) .tc)).toFinset :=
  ⟨single_sub_of_mem (by decide), single_sub_of_mem (by decide), single_sub_of_mem (by decide), single_sub_of_mem (by decide), single_sub_of_mem (by decide)⟩

/-- A reference stage slin does not write keeps its contents through it. -/
theorem kept_slin {r : Ref sig .tc} (hr : r ∉ W_slin) (V : Valuation τ sig (Elt F)) :
    after ops_slin V (Proc.devRef .tc r) = V (Proc.devRef .tc r) :=
  after_of_writes_sub ops_slin V ops_slin_writes hr

/-- Stage softplus: 14 operations (window 2 of @main). -/
def ops_softplus : List (HloOp τ sig (Elt F)) :=
  [ StableHlo.TRef.nullary main_call2.cst (constant S_ .f32 0x00000000#32),
    StableHlo.TRef.unary main_call2.cst main_call2.v0 (broadcastInDim S65536x1 ![] bcast_S_S65536x1),
    StableHlo.TRef.binary (.of main_v126 : StableHlo.TRef sig ⟨S65536x1, .f32⟩) main_call2.v0 main_call2.v1 maximumf,
    StableHlo.TRef.unary main_call2.cst main_call2.v2 (broadcastInDim S65536x1 ![] bcast_S_S65536x1),
    StableHlo.TRef.binary (.of main_v126 : StableHlo.TRef sig ⟨S65536x1, .f32⟩) main_call2.v2 main_call2.v3 subf,
    StableHlo.TRef.binary main_call2.v3 main_call2.v3 main_call2.v4 (cmpf .une),
    StableHlo.TRef.unary main_call2.cst main_call2.v5 (broadcastInDim S65536x1 ![] bcast_S_S65536x1),
    StableHlo.TRef.binary (.of main_v126 : StableHlo.TRef sig ⟨S65536x1, .f32⟩) main_call2.v5 main_call2.v6 addf,
    StableHlo.TRef.unary main_call2.v3 main_call2.v7 Host.absf,
    StableHlo.TRef.unary main_call2.v7 main_call2.v8 Host.negf,
    StableHlo.TRef.unary main_call2.v8 main_call2.v9 Host.exp,
    StableHlo.TRef.unary main_call2.v9 main_call2.v10 Host.log1p,
    StableHlo.TRef.binary main_call2.v1 main_call2.v10 main_call2.v11 addf,
    StableHlo.TRef.ternary main_call2.v4 main_call2.v6 main_call2.v11 main_call2.v12 select ]

/-- The references stage softplus writes. -/
def W_softplus : List (Ref sig .tc) :=
  [main_call2_cst, main_call2_v0, main_call2_v1, main_call2_v2, main_call2_v3, main_call2_v4, main_call2_v5, main_call2_v6, main_call2_v7, main_call2_v8, main_call2_v9, main_call2_v10, main_call2_v11, main_v127]

theorem ops_softplus_sub : (ops_softplus (F := F)).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩

theorem ops_softplus_fresh : (ops_softplus (F := F)).Forall fun op => op.fresh = ∅ :=
  ⟨rfl, rfl, rfl, rfl, rfl, rfl, rfl, rfl, rfl, rfl, rfl, rfl, rfl, rfl⟩

theorem ops_softplus_writes : (ops_softplus (F := F)).Forall fun op => op.writes ⊆ (W_softplus.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A reference stage softplus does not write keeps its contents through it. -/
theorem kept_softplus {r : Ref sig .tc} (hr : r ∉ W_softplus) (V : Valuation τ sig (Elt F)) :
    after ops_softplus V (Proc.devRef .tc r) = V (Proc.devRef .tc r) :=
  after_of_writes_sub ops_softplus V ops_softplus_writes hr

/-- Stage head_c: 5 operations (window 2 of @main). -/
def ops_head_c : List (HloOp τ sig (Elt F)) :=
  [ StableHlo.unary main_arg25 main_v128 ((transpose S128x64 [1, 0] · transposes_S64x128_S128x64_1_0) : (⟨S64x128, .f32⟩ : BufTy).Contents (Elt F) → (⟨S128x64, .f32⟩ : BufTy).Contents (Elt F)),
    StableHlo.binary main_v115 main_v128 main_v129 ((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F)),
    StableHlo.unary main_arg26 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S65536x64 ![0, 1] bcast_S1x64_S65536x64_0_1 : (⟨S1x64, .f32⟩ : BufTy).Contents (Elt F) → (⟨S65536x64, .f32⟩ : BufTy).Contents (Elt F)),
    StableHlo.binary main_v129 main_v131 main_v132 (addf : (⟨S65536x64, .f32⟩ : BufTy).Contents (Elt F) → (⟨S65536x64, .f32⟩ : BufTy).Contents (Elt F) → (⟨S65536x64, .f32⟩ : BufTy).Contents (Elt F)) ]

/-- The references stage head_c writes. -/
def W_head_c : List (Ref sig .tc) :=
  [main_v128, main_v129, main_v130, main_v131, main_v132]

theorem ops_head_c_sub : (ops_head_c (F := F)).Forall fun op => op.bufs ⊆ tcRefs τ sig :=
  ⟨unary_bufs_sub .., binary_bufs_sub .., unary_bufs_sub .., unary_bufs_sub .., binary_bufs_sub ..⟩

theorem ops_head_c_fresh : (ops_head_c (F := F)).Forall fun op => op.fresh = ∅ :=
  ⟨rfl, rfl, rfl, rfl, rfl⟩

theorem ops_head_c_writes : (ops_head_c (F := F)).Forall fun op => op.writes ⊆ (W_head_c.map (Proc.devRef (τ := τ) .tc)).toFinset :=
  ⟨single_sub_of_mem (by decide), single_sub_of_mem (by decide), single_sub_of_mem (by decide), single_sub_of_mem (by decide), single_sub_of_mem (by decide)⟩

/-- A reference stage head_c does not write keeps its contents through it. -/
theorem kept_head_c {r : Ref sig .tc} (hr : r ∉ W_head_c) (V : Valuation τ sig (Elt F)) :
    after ops_head_c V (Proc.devRef .tc r) = V (Proc.devRef .tc r) :=
  after_of_writes_sub ops_head_c V ops_head_c_writes hr

/-- Stage elu3: 15 operations (window 2 of @main). -/
def ops_elu3 : List (HloOp τ sig (Elt F)) :=
  [ StableHlo.TRef.nullary main_call3.cst (constant S_ .f32 0x00000000#32),
    StableHlo.TRef.unary main_call3.cst main_call3.v0 (broadcastInDim S65536x64 ![] bcast_S_S65536x64),
    StableHlo.TRef.binary (.of main_v132 : StableHlo.TRef sig ⟨S65536x64, .f32⟩) main_call3.v0 main_call3.v1 (cmpf .ogt),
    StableHlo.TRef.nullary main_call3.cst_0 (constant S_ .f32 0x00000000#32),
    StableHlo.TRef.unary main_call3.cst_0 main_call3.v2 (broadcastInDim S65536x64 ![] bcast_S_S65536x64),
    StableHlo.TRef.binary (.of main_v132 : StableHlo.TRef sig ⟨S65536x64, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S65536x64 ![] bcast_S_S65536x64),
    StableHlo.TRef.ternary main_call3.v3 main_call3.call0.v1 (.of main_v132 : StableHlo.TRef sig ⟨S65536x64, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S65536x64 ![] bcast_S_S65536x64),
    StableHlo.TRef.binary main_call3.v6 main_call3.v5 main_call3.v7 mulf,
    StableHlo.TRef.ternary main_call3.v1 (.of main_v132 : StableHlo.TRef sig ⟨S65536x64, .f32⟩) main_call3.v7 main_call3.call1.v0 select ]

/-- The references stage elu3 writes. -/
def W_elu3 : List (Ref sig .tc) :=
  [main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v133]

theorem ops_elu3_sub : (ops_elu3 (F := F)).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

theorem ops_elu3_fresh : (ops_elu3 (F := F)).Forall fun op => op.fresh = ∅ :=
  ⟨rfl, rfl, rfl, rfl, rfl, rfl, rfl, rfl, rfl, rfl, rfl, rfl, rfl, rfl, rfl⟩

theorem ops_elu3_writes : (ops_elu3 (F := F)).Forall fun op => op.writes ⊆ (W_elu3.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A reference stage elu3 does not write keeps its contents through it. -/
theorem kept_elu3 {r : Ref sig .tc} (hr : r ∉ W_elu3) (V : Valuation τ sig (Elt F)) :
    after ops_elu3 V (Proc.devRef .tc r) = V (Proc.devRef .tc r) :=
  after_of_writes_sub ops_elu3 V ops_elu3_writes hr

/-- Stage clin: 5 operations (window 2 of @main). -/
def ops_clin : List (HloOp τ sig (Elt F)) :=
  [ StableHlo.unary main_arg27 main_v134 ((transpose S64x3 [1, 0] · transposes_S3x64_S64x3_1_0) : (⟨S3x64, .f32⟩ : BufTy).Contents (Elt F) → (⟨S64x3, .f32⟩ : BufTy).Contents (Elt F)),
    StableHlo.binary main_v133 main_v134 main_v135 ((fun l r => Host.dotGeneral dot_S65536x64_S64x3_S65536x3_1_0_0_1_n_n none l r) : (⟨S65536x64, .f32⟩ : BufTy).Contents (Elt F) → (⟨S64x3, .f32⟩ : BufTy).Contents (Elt F) → (⟨S65536x3, .f32⟩ : BufTy).Contents (Elt F)),
    StableHlo.unary main_arg28 main_v136 (broadcastInDim S1x3 ![1] bcast_S3_S1x3_1 : (⟨S3, .f32⟩ : BufTy).Contents (Elt F) → (⟨S1x3, .f32⟩ : BufTy).Contents (Elt F)),
    StableHlo.unary main_v136 main_v137 (broadcastInDim S65536x3 ![0, 1] bcast_S1x3_S65536x3_0_1 : (⟨S1x3, .f32⟩ : BufTy).Contents (Elt F) → (⟨S65536x3, .f32⟩ : BufTy).Contents (Elt F)),
    StableHlo.binary main_v135 main_v137 main_v138 (addf : (⟨S65536x3, .f32⟩ : BufTy).Contents (Elt F) → (⟨S65536x3, .f32⟩ : BufTy).Contents (Elt F) → (⟨S65536x3, .f32⟩ : BufTy).Contents (Elt F)) ]

/-- The references stage clin writes. -/
def W_clin : List (Ref sig .tc) :=
  [main_v134, main_v135, main_v136, main_v137, main_v138]

theorem ops_clin_sub : (ops_clin (F := F)).Forall fun op => op.bufs ⊆ tcRefs τ sig :=
  ⟨unary_bufs_sub .., binary_bufs_sub .., unary_bufs_sub .., unary_bufs_sub .., binary_bufs_sub ..⟩

theorem ops_clin_fresh : (ops_clin (F := F)).Forall fun op => op.fresh = ∅ :=
  ⟨rfl, rfl, rfl, rfl, rfl⟩

theorem ops_clin_writes : (ops_clin (F := F)).Forall fun op => op.writes ⊆ (W_clin.map (Proc.devRef (τ := τ) .tc)).toFinset :=
  ⟨single_sub_of_mem (by decide), single_sub_of_mem (by decide), single_sub_of_mem (by decide), single_sub_of_mem (by decide), single_sub_of_mem (by decide)⟩

/-- A reference stage clin does not write keeps its contents through it. -/
theorem kept_clin {r : Ref sig .tc} (hr : r ∉ W_clin) (V : Valuation τ sig (Elt F)) :
    after ops_clin V (Proc.devRef .tc r) = V (Proc.devRef .tc r) :=
  after_of_writes_sub ops_clin V ops_clin_writes hr

/-- Stage cat: 1 operations (window 2 of @main). -/
def ops_cat : List (HloOp τ sig (Elt F)) :=
  [ StableHlo.binary main_v127 main_v138 main_v139 ((fun a b => concatenate S65536x4 1 [⟨S65536x1, a⟩, ⟨S65536x3, b⟩] concatenates_S65536x1_S65536x3_S65536x4_d1) : (⟨S65536x1, .f32⟩ : BufTy).Contents (Elt F) → (⟨S65536x3, .f32⟩ : BufTy).Contents (Elt F) → (⟨S65536x4, .f32⟩ : BufTy).Contents (Elt F)) ]

/-- The references stage cat writes. -/
def W_cat : List (Ref sig .tc) :=
  [main_v139]

theorem ops_cat_sub : (ops_cat (F := F)).Forall fun op => op.bufs ⊆ tcRefs τ sig :=
  binary_bufs_sub ..

theorem ops_cat_fresh : (ops_cat (F := F)).Forall fun op => op.fresh = ∅ :=
  rfl

theorem ops_cat_writes : (ops_cat (F := F)).Forall fun op => op.writes ⊆ (W_cat.map (Proc.devRef (τ := τ) .tc)).toFinset :=
  single_sub_of_mem (by decide)

/-- A reference stage cat does not write keeps its contents through it. -/
theorem kept_cat {r : Ref sig .tc} (hr : r ∉ W_cat) (V : Valuation τ sig (Elt F)) :
    after ops_cat V (Proc.devRef .tc r) = V (Proc.devRef .tc r) :=
  after_of_writes_sub ops_cat V ops_cat_writes hr

end Cert.RefSide

end
-- ==== Proof.RefMain0.lean ====
/-
  The first window of the reference's @main is the straight line of its operations: the stage lists of the
  normalisation, the first linear layer, the first activation (the called function's operations written at the
  call), the second linear layer and the first part of the first recurrent cell, one after the other. Both
  sides are one chain of single operations once the called functions are unfolded and sequencing is
  reassociated.
-/
import proofs.«107767_j18107582120224_2_alg».proof.Proof.RefOps

noncomputable section

namespace Cert.RefSide

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The operations of @main's first window. -/
def ops_p0 : List (HloOp τ sig (Elt F)) := ops_norm ++ (ops_lin1 ++ (ops_elu0 ++ (ops_lin2 ++ ops_gru0a)))

set_option maxRecDepth 8192 in
set_option maxHeartbeats 1600000 in
theorem main_part0_eq (c : Dev nD) : main_part0 (F := F) c = seq ops_p0 := by
  simp only [main_part0, fn_elu.body, fn_where.body, fn_where_0.body, ops_p0, ops_norm, ops_lin1, ops_elu0, ops_lin2, ops_gru0a,
    List.cons_append, List.nil_append, seq, bind_assoc, pure_bind]
  rfl

end Cert.RefSide

end
-- ==== Proof.RefMain1.lean ====
/-
  The second window of the reference's @main is the straight line of its operations: the rest of the first
  recurrent cell and the first part of the second.
-/
import proofs.«107767_j18107582120224_2_alg».proof.Proof.RefOps

noncomputable section

namespace Cert.RefSide

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The operations of @main's second window. -/
def ops_p1 : List (HloOp τ sig (Elt F)) := ops_gru0b ++ ops_gru1a

set_option maxRecDepth 8192 in
set_option maxHeartbeats 1600000 in
theorem main_part1_eq (c : Dev nD) : main_part1 (F := F) c = seq ops_p1 := by
  simp only [main_part1, ops_p1, ops_gru0b, ops_gru1a, List.cons_append, List.nil_append, seq, bind_assoc, pure_bind]
  rfl

end Cert.RefSide

end
-- ==== Proof.RefMain2.lean ====
/-
  The third window of the reference's @main is the straight line of its operations: the rest of the second
  recurrent cell, then the two heads (each a linear layer, an activation written out at its call, a second
  linear layer; the scale head ends in the soft-plus function written out at its call), and the final
  concatenation.
-/
import proofs.«107767_j18107582120224_2_alg».proof.Proof.RefOps

noncomputable section

namespace Cert.RefSide

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The operations of @main's third window. -/
def ops_p2 : List (HloOp τ sig (Elt F)) :=
  ops_gru1b ++ (ops_head_s ++ (ops_elu1 ++ (ops_slin ++ (ops_softplus ++ (ops_head_c ++ (ops_elu3 ++ (ops_clin ++ ops_cat)))))))

set_option maxRecDepth 8192 in
set_option maxHeartbeats 1600000 in
theorem main_part2_eq (c : Dev nD) : main_part2 (F := F) c = seq ops_p2 := by
  simp only [main_part2, fn_elu_1.body, fn_where_2.body, fn_where_3.body, fn_softplus.body, ops_p2, ops_gru1b, ops_head_s, ops_elu1,
    ops_slin, ops_softplus, ops_head_c, ops_elu3, ops_clin, ops_cat, List.cons_append, List.nil_append, seq, bind_assoc, pure_bind]

end Cert.RefSide

end
-- ==== Proof.RefMain.lean ====
/-
  The reference's @main is the straight line of all its operations: the three windows' lists one after the
  other. With it: every operation touches TensorCore references only and none allocates (what the run of a
  straight line asks of it), by the same facts of the stage lists.
-/
import proofs.«107767_j18107582120224_2_alg».proof.Proof.RefMain0
import proofs.«107767_j18107582120224_2_alg».proof.Proof.RefMain1
import proofs.«107767_j18107582120224_2_alg».proof.Proof.RefMain2

noncomputable section

namespace Cert.RefSide

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- All the operations of the reference's @main, in order. -/
def ops : List (HloOp τ sig (Elt F)) := ops_p0 ++ (ops_p1 ++ ops_p2)

theorem main_eq (c : Dev nD) : main (F := F) c = seq ops := by
  rw [ops, seq_append, seq_append, ← main_part0_eq c, ← main_part1_eq c, ← main_part2_eq c]
  rfl

theorem ops_sub : (ops (F := F)).Forall fun op => op.bufs ⊆ tcRefs τ sig :=
  forall_append (forall_append ops_norm_sub (forall_append ops_lin1_sub (forall_append ops_elu0_sub (forall_append ops_lin2_sub ops_gru0a_sub)))) (forall_append (forall_append ops_gru0b_sub ops_gru1a_sub) (forall_append ops_gru1b_sub (forall_append ops_head_s_sub (forall_append ops_elu1_sub (forall_append ops_slin_sub (forall_append ops_softplus_sub (forall_append ops_head_c_sub (forall_append ops_elu3_sub (forall_append ops_clin_sub ops_cat_sub)))))))))

theorem ops_fresh : (ops (F := F)).Forall fun op => op.fresh = ∅ :=
  forall_append (forall_append ops_norm_fresh (forall_append ops_lin1_fresh (forall_append ops_elu0_fresh (forall_append ops_lin2_fresh ops_gru0a_fresh)))) (forall_append (forall_append ops_gru0b_fresh ops_gru1a_fresh) (forall_append ops_gru1b_fresh (forall_append ops_head_s_fresh (forall_append ops_elu1_fresh (forall_append ops_slin_fresh (forall_append ops_softplus_fresh (forall_append ops_head_c_fresh (forall_append ops_elu3_fresh (forall_append ops_clin_fresh ops_cat_fresh)))))))))

/-- Every reference some operation of @main writes. -/
def W_all : List (Ref sig .tc) :=
  W_norm ++ W_lin1 ++ W_elu0 ++ W_lin2 ++ W_gru0a ++ W_gru0b ++ W_gru1a ++ W_gru1b ++ W_head_s ++ W_elu1 ++ W_slin ++ W_softplus ++ W_head_c ++ W_elu3 ++ W_clin ++ W_cat

/-- A reference no operation of @main writes keeps its launch contents through the whole line. -/
theorem kept_ops {r : Ref sig .tc} (hr : r ∉ W_all) (V : Valuation τ sig (Elt F)) :
    after ops V (Proc.devRef .tc r) = V (Proc.devRef .tc r) := by
  simp only [W_all, List.mem_append, not_or] at hr
  obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := hr
  simp only [ops, ops_p0, ops_p1, ops_p2, after_append]
  rw [kept_cat h15, kept_clin h14, kept_elu3 h13, kept_head_c h12, kept_softplus h11, kept_slin h10, kept_elu1 h9, kept_head_s h8, kept_gru1b h7, kept_gru1a h6, kept_gru0b h5, kept_gru0a h4, kept_lin2 h3, kept_elu0 h2, kept_lin1 h1, kept_norm h0]

theorem scopedRefs_eq : (Finset.univ.filter fun b : Ref sig .tc => b.isScoped) = ∅ := by decide
theorem scopedSems_eq : (Finset.univ.filter fun sm : SemLoc sig => sm.isScoped .tc) = ∅ := by decide

end Cert.RefSide

end
-- ==== Proof.RefStages.lean ====
/-
  The reference program's stages as pure functions of arrays, at the ideal values.

  Each definition composes the printed operations of the reference's `@main` (and of the functions it calls,
  inlined at the call) in the order the program applies them: the last operation outermost, every operand the
  term of the operation that wrote it, a constant its splat word. A value several operations read is bound once
  by `let`. `refHidden` is the hidden array after the second recurrent cell, `refOut` the program's result.
-/
import proofs.«107767_j18107582120224_2_alg».proof.ReferenceIdeal
import Idealize.ShloMosaic.PureOps.Ideal
import Idealize.ShloMosaic.Lib.ValueIdx

noncomputable section

namespace Cert.RefSide

open Cert.ReferenceIdeal Idealize.ShloMosaic Idealize.ShloMosaic.ValueIdx
open Cert.ReferenceIdeal.Facts₀ Cert.ReferenceIdeal.Facts

variable [Facts]

/-- Statements %0 … %24: the seven observation pieces side by side, the row mean (sum over the 20 columns
    divided by the word 20.0), the mean squared deviation, the reciprocal square root of it plus the
    word 1e-5, then gain and offset broadcast along the rows. -/
def stNorm (A0 A1 : FVec Ideal S65536x3 .f32) (A2 : FVec Ideal S65536x1 .f32) (A3 A4 A5 : FVec Ideal S65536x3 .f32)
    (A6 : FVec Ideal S65536x4 .f32) (A7 A8 : FVec Ideal S20 .f32) : FVec Ideal S65536x20 .f32 :=
  let v0 : FVec Ideal S65536x20 .f32 := concatenate S65536x20 1 [⟨S65536x3, A0⟩, ⟨S65536x3, A1⟩, ⟨S65536x1, A2⟩, ⟨S65536x3, A3⟩, ⟨S65536x3, A4⟩, ⟨S65536x3, A5⟩, ⟨S65536x4, A6⟩] concatenates_S65536x3_S65536x3_S65536x1_S65536x3_S65536x3_S65536x3_S65536x4_S65536x20_d1
  let v4 : FVec Ideal S65536x1 .f32 := (Host.divf (F := Ideal) (broadcastInDim S65536x1 ![0] bcast_S65536_S65536x1_0 (Host.reduceAdd (F := Ideal) v0 (constant (F := Ideal) S_ .f32 0x00000000#32) reducesTo_S65536x20_S65536_d1 h_S_)) (broadcastInDim S65536x1 ![] bcast_S_S65536x1 (constant (F := Ideal) S_ .f32 0x41A00000#32)))
  let v11 : FVec Ideal S65536x1 .f32 := (Host.divf (F := Ideal) (broadcastInDim S65536x1 ![0] bcast_S65536_S65536x1_0 (Host.reduceAdd (F := Ideal) (mulf (subf v0 (broadcastInDim S65536x20 ![0, 1] bcast_S65536x1_S65536x20_0_1 v4)) (subf v0 (broadcastInDim S65536x20 ![0, 1] bcast_S65536x1_S65536x20_0_1 v4))) (constant (F := Ideal) S_ .f32 0x00000000#32) reducesTo_S65536x20_S65536_d1 h_S_)) (broadcastInDim S65536x1 ![] bcast_S_S65536x1 (constant (F := Ideal) S_ .f32 0x41A00000#32)))
  addf (mulf (mulf (subf v0 (broadcastInDim S65536x20 ![0, 1] bcast_S65536x1_S65536x20_0_1 v4)) (broadcastInDim S65536x20 ![0, 1] bcast_S65536x1_S65536x20_0_1 (Host.rsqrt (F := Ideal) (addf v11 (broadcastInDim S65536x1 ![] bcast_S_S65536x1 (constant (F := Ideal) S_ .f32 0x3727C5AC#32)))))) (broadcastInDim S65536x20 ![0, 1] bcast_S1x20_S65536x20_0_1 (broadcastInDim S1x20 ![1] bcast_S20_S1x20_1 A7))) (broadcastInDim S65536x20 ![0, 1] bcast_S1x20_S65536x20_0_1 (broadcastInDim S1x20 ![1] bcast_S20_S1x20_1 A8))

/-- Statements %25 … %29: `x · A9ᵀ + A10`. -/
def stLin1 (x : FVec Ideal S65536x20 .f32) (A9 : FVec Ideal S128x20 .f32) (A10 : FVec Ideal S128 .f32) : FVec Ideal S65536x128 .f32 :=
  (addf (Host.dotGeneral (F := Ideal) dot_S65536x20_S20x128_S65536x128_1_0_0_1_n_n none x (transpose S20x128 [1, 0] A9 transposes_S128x20_S20x128_1_0)) (broadcastInDim S65536x128 ![0, 1] bcast_S1x128_S65536x128_0_1 (broadcastInDim S1x128 ![1] bcast_S128_S1x128_1 A10)))

/-- `@elu` of a 128-wide array: where `x > 0` it is `x`, elsewhere `1 * expm1` of (`0` where `x > 0`, else `x`). -/
def stElu128 (x : FVec Ideal S65536x128 .f32) : FVec Ideal S65536x128 .f32 :=
  (select (cmpf .ogt x (broadcastInDim S65536x128 ![] bcast_S_S65536x128 (constant (F := Ideal) S_ .f32 0x00000000#32))) x (mulf (broadcastInDim S65536x128 ![] bcast_S_S65536x128 (constant (F := Ideal) S_ .f32 0x3F800000#32)) (Host.expm1 (F := Ideal) (select (cmpf .ogt x (broadcastInDim S65536x128 ![] bcast_S_S65536x128 (constant (F := Ideal) S_ .f32 0x00000000#32))) (broadcastInDim S65536x128 ![] bcast_S_S65536x128 (id (constant (F := Ideal) S_ .f32 0x00000000#32))) x))))

/-- Statements %31 … %35: `x · A11ᵀ + A12`. -/
def stLin2 (x : FVec Ideal S65536x128 .f32) (A11 : FVec Ideal S128x128 .f32) (A12 : FVec Ideal S128 .f32) : FVec Ideal S65536x128 .f32 :=
  (addf (Host.dotGeneral (F := Ideal) dot_S65536x128_S128x128_S65536x128_1_0_0_1_n_n none x (transpose S128x128 [1, 0] A11 transposes_S128x128_S128x128_1_0)) (broadcastInDim S65536x128 ![0, 1] bcast_S1x128_S65536x128_0_1 (broadcastInDim S1x128 ![1] bcast_S128_S1x128_1 A12)))

/-- Statements %36 … %75: the first recurrent cell, on the first slab of the state array. -/
def stGru0 (x : FVec Ideal S65536x128 .f32) (A29 : FVec Ideal S2x65536x128 .f32) (Wih Whh : FVec Ideal S384x128 .f32)
    (bih bhh : FVec Ideal S384 .f32) : FVec Ideal S65536x128 .f32 :=
  let h : FVec Ideal S65536x128 .f32 := (shapeCast S65536x128 (extractStridedSlice S1x65536x128 ![0, 0, 0] A29 slices_S2x65536x128_S1x65536x128_0_0_0) shapeCasts_S1x65536x128_S65536x128)
  let gi : FVec Ideal S65536x384 .f32 := (addf (Host.dotGeneral (F := Ideal) dot_S65536x128_S128x384_S65536x384_1_0_0_1_n_n none x (transpose S128x384 [1, 0] Wih transposes_S384x128_S128x384_1_0)) (broadcastInDim S65536x384 ![0, 1] bcast_S1x384_S65536x384_0_1 (broadcastInDim S1x384 ![1] bcast_S384_S1x384_1 bih)))
  let gh : FVec Ideal S65536x384 .f32 := (addf (Host.dotGeneral (F := Ideal) dot_S65536x128_S128x384_S65536x384_1_0_0_1_n_n none h (transpose S128x384 [1, 0] Whh transposes_S384x128_S128x384_1_0)) (broadcastInDim S65536x384 ![0, 1] bcast_S1x384_S65536x384_0_1 (broadcastInDim S1x384 ![1] bcast_S384_S1x384_1 bhh)))
  let r : FVec Ideal S65536x128 .f32 := (Host.divf (F := Ideal) (broadcastInDim S65536x128 ![] bcast_S_S65536x128 (constant (F := Ideal) S_ .f32 0x3F800000#32)) (addf (broadcastInDim S65536x128 ![] bcast_S_S65536x128 (constant (F := Ideal) S_ .f32 0x3F800000#32)) (Host.exp (F := Ideal) (Host.negf (F := Ideal) (addf (extractStridedSlice S65536x128 ![0, 0] gi slices_S65536x384_S65536x128_0_0) (extractStridedSlice S65536x128 ![0, 0] gh slices_S65536x384_S65536x128_0_0))))))
  let z : FVec Ideal S65536x128 .f32 := (Host.divf (F := Ideal) (broadcastInDim S65536x128 ![] bcast_S_S65536x128 (constant (F := Ideal) S_ .f32 0x3F800000#32)) (addf (broadcastInDim S65536x128 ![] bcast_S_S65536x128 (constant (F := Ideal) S_ .f32 0x3F800000#32)) (Host.exp (F := Ideal) (Host.negf (F := Ideal) (addf (extractStridedSlice S65536x128 ![0, 128] gi slices_S65536x384_S65536x128_0_128) (extractStridedSlice S65536x128 ![0, 128] gh slices_S65536x384_S65536x128_0_128))))))
  let n : FVec Ideal S65536x128 .f32 := (Host.tanh (F := Ideal) (addf (extractStridedSlice S65536x128 ![0, 256] gi slices_S65536x384_S65536x128_0_256) (mulf r (extractStridedSlice S65536x128 ![0, 256] gh slices_S65536x384_S65536x128_0_256))))
  addf (mulf (subf (broadcastInDim S65536x128 ![] bcast_S_S65536x128 (constant (F := Ideal) S_ .f32 0x3F800000#32)) z) n) (mulf z h)

/-- Statements %76 … %115: the second recurrent cell, on the second slab of the state array. -/
def stGru1 (x : FVec Ideal S65536x128 .f32) (A29 : FVec Ideal S2x65536x128 .f32) (Wih Whh : FVec Ideal S384x128 .f32)
    (bih bhh : FVec Ideal S384 .f32) : FVec Ideal S65536x128 .f32 :=
  let h : FVec Ideal S65536x128 .f32 := (shapeCast S65536x128 (extractStridedSlice S1x65536x128 ![1, 0, 0] A29 slices_S2x65536x128_S1x65536x128_1_0_0) shapeCasts_S1x65536x128_S65536x128)
  let gi : FVec Ideal S65536x384 .f32 := (addf (Host.dotGeneral (F := Ideal) dot_S65536x128_S128x384_S65536x384_1_0_0_1_n_n none x (transpose S128x384 [1, 0] Wih transposes_S384x128_S128x384_1_0)) (broadcastInDim S65536x384 ![0, 1] bcast_S1x384_S65536x384_0_1 (broadcastInDim S1x384 ![1] bcast_S384_S1x384_1 bih)))
  let gh : FVec Ideal S65536x384 .f32 := (addf (Host.dotGeneral (F := Ideal) dot_S65536x128_S128x384_S65536x384_1_0_0_1_n_n none h (transpose S128x384 [1, 0] Whh transposes_S384x128_S128x384_1_0)) (broadcastInDim S65536x384 ![0, 1] bcast_S1x384_S65536x384_0_1 (broadcastInDim S1x384 ![1] bcast_S384_S1x384_1 bhh)))
  let r : FVec Ideal S65536x128 .f32 := (Host.divf (F := Ideal) (broadcastInDim S65536x128 ![] bcast_S_S65536x128 (constant (F := Ideal) S_ .f32 0x3F800000#32)) (addf (broadcastInDim S65536x128 ![] bcast_S_S65536x128 (constant (F := Ideal) S_ .f32 0x3F800000#32)) (Host.exp (F := Ideal) (Host.negf (F := Ideal) (addf (extractStridedSlice S65536x128 ![0, 0] gi slices_S65536x384_S65536x128_0_0) (extractStridedSlice S65536x128 ![0, 0] gh slices_S65536x384_S65536x128_0_0))))))
  let z : FVec Ideal S65536x128 .f32 := (Host.divf (F := Ideal) (broadcastInDim S65536x128 ![] bcast_S_S65536x128 (constant (F := Ideal) S_ .f32 0x3F800000#32)) (addf (broadcastInDim S65536x128 ![] bcast_S_S65536x128 (constant (F := Ideal) S_ .f32 0x3F800000#32)) (Host.exp (F := Ideal) (Host.negf (F := Ideal) (addf (extractStridedSlice S65536x128 ![0, 128] gi slices_S65536x384_S65536x128_0_128) (extractStridedSlice S65536x128 ![0, 128] gh slices_S65536x384_S65536x128_0_128))))))
  let n : FVec Ideal S65536x128 .f32 := (Host.tanh (F := Ideal) (addf (extractStridedSlice S65536x128 ![0, 256] gi slices_S65536x384_S65536x128_0_256) (mulf r (extractStridedSlice S65536x128 ![0, 256] gh slices_S65536x384_S65536x128_0_256))))
  addf (mulf (subf (broadcastInDim S65536x128 ![] bcast_S_S65536x128 (constant (F := Ideal) S_ .f32 0x3F800000#32)) z) n) (mulf z h)

/-- Statements %116 … %120 (and %128 … %132): `x · Wᵀ + b`, 64 wide. -/
def stHead64 (x : FVec Ideal S65536x128 .f32) (W : FVec Ideal S64x128 .f32) (b : FVec Ideal S64 .f32) : FVec Ideal S65536x64 .f32 :=
  (addf (Host.dotGeneral (F := Ideal) dot_S65536x128_S128x64_S65536x64_1_0_0_1_n_n none x (transpose S128x64 [1, 0] W transposes_S64x128_S128x64_1_0)) (broadcastInDim S65536x64 ![0, 1] bcast_S1x64_S65536x64_0_1 (broadcastInDim S1x64 ![1] bcast_S64_S1x64_1 b)))

/-- `@elu_1`: the same function on a 64-wide array. -/
def stElu64 (x : FVec Ideal S65536x64 .f32) : FVec Ideal S65536x64 .f32 :=
  (select (cmpf .ogt x (broadcastInDim S65536x64 ![] bcast_S_S65536x64 (constant (F := Ideal) S_ .f32 0x00000000#32))) x (mulf (broadcastInDim S65536x64 ![] bcast_S_S65536x64 (constant (F := Ideal) S_ .f32 0x3F800000#32)) (Host.expm1 (F := Ideal) (select (cmpf .ogt x (broadcastInDim S65536x64 ![] bcast_S_S65536x64 (constant (F := Ideal) S_ .f32 0x00000000#32))) (broadcastInDim S65536x64 ![] bcast_S_S65536x64 (id (constant (F := Ideal) S_ .f32 0x00000000#32))) x))))

/-- Statements %122 … %126: `x · A23ᵀ + A24`, one column. -/
def stScaleLin (x : FVec Ideal S65536x64 .f32) (A23 : FVec Ideal S1x64 .f32) (A24 : FVec Ideal S1 .f32) : FVec Ideal S65536x1 .f32 :=
  (addf (Host.dotGeneral (F := Ideal) dot_S65536x64_S64x1_S65536x1_1_0_0_1_n_n none x (transpose S64x1 [1, 0] A23 transposes_S1x64_S64x1_1_0)) (broadcastInDim S65536x1 ![0, 1] bcast_S1x1_S65536x1_0_1 (broadcastInDim S1x1 ![1] bcast_S1_S1x1_1 A24)))

/-- `@softplus`: `x + 0` where `x - 0` differs from itself, elsewhere `max x 0 + log1p (exp (-|x - 0|))`. -/
def stSoftplus (x : FVec Ideal S65536x1 .f32) : FVec Ideal S65536x1 .f32 :=
  let z : FVec Ideal S65536x1 .f32 := (broadcastInDim S65536x1 ![] bcast_S_S65536x1 (constant (F := Ideal) S_ .f32 0x00000000#32))
  let d : FVec Ideal S65536x1 .f32 := subf x z
  select (cmpf .une d d) (addf x z) (addf (maximumf x z) (Host.log1p (F := Ideal) (Host.exp (F := Ideal) (Host.negf (F := Ideal) (Host.absf (F := Ideal) d)))))

/-- Statements %134 … %138: `x · A27ᵀ + A28`, three columns. -/
def stCorrLin (x : FVec Ideal S65536x64 .f32) (A27 : FVec Ideal S3x64 .f32) (A28 : FVec Ideal S3 .f32) : FVec Ideal S65536x3 .f32 :=
  (addf (Host.dotGeneral (F := Ideal) dot_S65536x64_S64x3_S65536x3_1_0_0_1_n_n none x (transpose S64x3 [1, 0] A27 transposes_S3x64_S64x3_1_0)) (broadcastInDim S65536x3 ![0, 1] bcast_S1x3_S65536x3_0_1 (broadcastInDim S1x3 ![1] bcast_S3_S1x3_1 A28)))

/-- the hidden array %115 -/
def refHidden (A0 : FVec Ideal S65536x3 .f32) (A1 : FVec Ideal S65536x3 .f32) (A2 : FVec Ideal S65536x1 .f32) (A3 : FVec Ideal S65536x3 .f32) (A4 : FVec Ideal S65536x3 .f32) (A5 : FVec Ideal S65536x3 .f32) (A6 : FVec Ideal S65536x4 .f32) (A7 : FVec Ideal S20 .f32) (A8 : FVec Ideal S20 .f32) (A9 : FVec Ideal S128x20 .f32) (A10 : FVec Ideal S128 .f32) (A11 : FVec Ideal S128x128 .f32) (A12 : FVec Ideal S128 .f32) (A13 : FVec Ideal S384x128 .f32) (A14 : FVec Ideal S384x128 .f32) (A15 : FVec Ideal S384 .f32) (A16 : FVec Ideal S384 .f32) (A17 : FVec Ideal S384x128 .f32) (A18 : FVec Ideal S384x128 .f32) (A19 : FVec Ideal S384 .f32) (A20 : FVec Ideal S384 .f32) (A21 : FVec Ideal S64x128 .f32) (A22 : FVec Ideal S64 .f32) (A23 : FVec Ideal S1x64 .f32) (A24 : FVec Ideal S1 .f32) (A25 : FVec Ideal S64x128 .f32) (A26 : FVec Ideal S64 .f32) (A27 : FVec Ideal S3x64 .f32) (A28 : FVec Ideal S3 .f32) (A29 : FVec Ideal S2x65536x128 .f32) : FVec Ideal S65536x128 .f32 :=
  stGru1 (stGru0 (stLin2 (stElu128 (stLin1 (stNorm A0 A1 A2 A3 A4 A5 A6 A7 A8) A9 A10)) A11 A12) A29 A13 A14 A15 A16) A29 A17 A18 A19 A20

/-- the result %139 -/
def refOut (A0 : FVec Ideal S65536x3 .f32) (A1 : FVec Ideal S65536x3 .f32) (A2 : FVec Ideal S65536x1 .f32) (A3 : FVec Ideal S65536x3 .f32) (A4 : FVec Ideal S65536x3 .f32) (A5 : FVec Ideal S65536x3 .f32) (A6 : FVec Ideal S65536x4 .f32) (A7 : FVec Ideal S20 .f32) (A8 : FVec Ideal S20 .f32) (A9 : FVec Ideal S128x20 .f32) (A10 : FVec Ideal S128 .f32) (A11 : FVec Ideal S128x128 .f32) (A12 : FVec Ideal S128 .f32) (A13 : FVec Ideal S384x128 .f32) (A14 : FVec Ideal S384x128 .f32) (A15 : FVec Ideal S384 .f32) (A16 : FVec Ideal S384 .f32) (A17 : FVec Ideal S384x128 .f32) (A18 : FVec Ideal S384x128 .f32) (A19 : FVec Ideal S384 .f32) (A20 : FVec Ideal S384 .f32) (A21 : FVec Ideal S64x128 .f32) (A22 : FVec Ideal S64 .f32) (A23 : FVec Ideal S1x64 .f32) (A24 : FVec Ideal S1 .f32) (A25 : FVec Ideal S64x128 .f32) (A26 : FVec Ideal S64 .f32) (A27 : FVec Ideal S3x64 .f32) (A28 : FVec Ideal S3 .f32) (A29 : FVec Ideal S2x65536x128 .f32) : FVec Ideal S65536x4 .f32 :=
  concatenate S65536x4 1 [⟨S65536x1, stSoftplus (stScaleLin (stElu64 (stHead64 (refHidden A0 A1 A2 A3 A4 A5 A6 A7 A8 A9 A10 A11 A12 A13 A14 A15 A16 A17 A18 A19 A20 A21 A22 A23 A24 A25 A26 A27 A28 A29) A21 A22)) A23 A24)⟩, ⟨S65536x3, stCorrLin (stElu64 (stHead64 (refHidden A0 A1 A2 A3 A4 A5 A6 A7 A8 A9 A10 A11 A12 A13 A14 A15 A16 A17 A18 A19 A20 A21 A22 A23 A24 A25 A26 A27 A28 A29) A25 A26)) A27 A28⟩] concatenates_S65536x1_S65536x3_S65536x4_d1

end Cert.RefSide

end
-- ==== Proof.RefRunNorm.lean ====
/-
  The normalisation stage of the reference's run: after its thirty operations the buffer of statement %24
  holds the stage function of the launch contents of the seven observation pieces, the gain and the offset.
  The fold over the list is unrolled and each operation's result read at its own buffer; what remains is
  the composed term, which is the stage function by unfolding.
-/
import proofs.«107767_j18107582120224_2_alg».proof.Proof.RefOps
import proofs.«107767_j18107582120224_2_alg».proof.Proof.RefStages

noncomputable section

namespace Cert.RefSide

open Cert.ReferenceIdeal Idealize.ShloMosaic Idealize.ShloMosaic.TcCoe Idealize.SL.Sem Idealize.ShloMosaic.StableHlo
open Cert.ReferenceIdeal.Facts₀ Cert.ReferenceIdeal.Facts

variable [Facts]
set_option maxRecDepth 8192 in
set_option maxHeartbeats 1600000 in
theorem res_norm (V : Valuation τ sig (Elt Ideal)) :
    after ops_norm V (Proc.devRef .tc main_v24)
      = stNorm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  simp only [ops_norm]
  after_results_simp
  rfl

end Cert.RefSide

end
-- ==== Proof.RefRunMlp.lean ====
/-
  The two linear layers and the activation between them in the reference's run: each list's result buffer holds
  the stage function of the stage's input buffer and its weight and bias arguments.
-/
import proofs.«107767_j18107582120224_2_alg».proof.Proof.RefOps
import proofs.«107767_j18107582120224_2_alg».proof.Proof.RefStages

noncomputable section

namespace Cert.RefSide

open Cert.ReferenceIdeal Idealize.ShloMosaic Idealize.ShloMosaic.TcCoe Idealize.SL.Sem Idealize.ShloMosaic.StableHlo
open Cert.ReferenceIdeal.Facts₀ Cert.ReferenceIdeal.Facts

variable [Facts]

theorem res_lin1 (V : Valuation τ sig (Elt Ideal)) :
    after ops_lin1 V (Proc.devRef .tc main_v29)
      = stLin1 (V (Proc.devRef .tc main_v24)) (V (Proc.devRef .tc main_arg9)) (V (Proc.devRef .tc main_arg10)) := by
  simp only [ops_lin1]
  after_results_simp
  rfl

theorem res_elu0 (V : Valuation τ sig (Elt Ideal)) :
    after ops_elu0 V (Proc.devRef .tc main_v30)
      = stElu128 (V (Proc.devRef .tc main_v29)) := by
  simp only [ops_elu0]
  after_results_simp
  rfl

theorem res_lin2 (V : Valuation τ sig (Elt Ideal)) :
    after ops_lin2 V (Proc.devRef .tc main_v35)
      = stLin2 (V (Proc.devRef .tc main_v30)) (V (Proc.devRef .tc main_arg11)) (V (Proc.devRef .tc main_arg12)) := by
  simp only [ops_lin2]
  after_results_simp
  rfl

end Cert.RefSide

end
-- ==== Proof.RefRunGru0.lean ====
/-
  The first recurrent cell of the reference's run (two consecutive lists): the buffer of statement %75 holds the
  stage function of the cell's input, the initial hidden states and the cell's four parameter arrays.
-/
import proofs.«107767_j18107582120224_2_alg».proof.Proof.RefOps
import proofs.«107767_j18107582120224_2_alg».proof.Proof.RefStages

noncomputable section

namespace Cert.RefSide

open Cert.ReferenceIdeal Idealize.ShloMosaic Idealize.ShloMosaic.TcCoe Idealize.SL.Sem Idealize.ShloMosaic.StableHlo
open Cert.ReferenceIdeal.Facts₀ Cert.ReferenceIdeal.Facts

variable [Facts]
set_option maxRecDepth 8192 in
set_option maxHeartbeats 1600000 in
theorem res_gru0 (V : Valuation τ sig (Elt Ideal)) :
    after ops_gru0b (after ops_gru0a V) (Proc.devRef .tc main_v75)
      = stGru0 (V (Proc.devRef .tc main_v35)) (V (Proc.devRef .tc main_arg29)) (V (Proc.devRef .tc main_arg13)) (V (Proc.devRef .tc main_arg14)) (V (Proc.devRef .tc main_arg15)) (V (Proc.devRef .tc main_arg16)) := by
  simp only [ops_gru0a, ops_gru0b]
  after_results_simp
  rfl

end Cert.RefSide

end
-- ==== Proof.RefRunGru1.lean ====
/-
  The second recurrent cell of the reference's run (two consecutive lists): the buffer of statement %115 holds
  the stage function of the cell's input, the initial hidden states and the cell's four parameter arrays.
-/
import proofs.«107767_j18107582120224_2_alg».proof.Proof.RefOps
import proofs.«107767_j18107582120224_2_alg».proof.Proof.RefStages

noncomputable section

namespace Cert.RefSide

open Cert.ReferenceIdeal Idealize.ShloMosaic Idealize.ShloMosaic.TcCoe Idealize.SL.Sem Idealize.ShloMosaic.StableHlo
open Cert.ReferenceIdeal.Facts₀ Cert.ReferenceIdeal.Facts

variable [Facts]
set_option maxRecDepth 8192 in
set_option maxHeartbeats 1600000 in
theorem res_gru1 (V : Valuation τ sig (Elt Ideal)) :
    after ops_gru1b (after ops_gru1a V) (Proc.devRef .tc main_v115)
      = stGru1 (V (Proc.devRef .tc main_v75)) (V (Proc.devRef .tc main_arg29)) (V (Proc.devRef .tc main_arg17)) (V (Proc.devRef .tc main_arg18)) (V (Proc.devRef .tc main_arg19)) (V (Proc.devRef .tc main_arg20)) := by
  simp only [ops_gru1a, ops_gru1b]
  after_results_simp
  rfl

end Cert.RefSide

end
-- ==== Proof.RefRunHeads.lean ====
/-
  The two heads of the reference's run, stage by stage: each list's result buffer holds the stage function of
  the stage's input buffer(s) and its parameters; the last list concatenates the two heads' results.
-/
import proofs.«107767_j18107582120224_2_alg».proof.Proof.RefOps
import proofs.«107767_j18107582120224_2_alg».proof.Proof.RefStages

noncomputable section

namespace Cert.RefSide

open Cert.ReferenceIdeal Idealize.ShloMosaic Idealize.ShloMosaic.TcCoe Idealize.SL.Sem Idealize.ShloMosaic.StableHlo
open Cert.ReferenceIdeal.Facts₀ Cert.ReferenceIdeal.Facts

variable [Facts]

theorem res_head_s (V : Valuation τ sig (Elt Ideal)) :
    after ops_head_s V (Proc.devRef .tc main_v120)
      = stHead64 (V (Proc.devRef .tc main_v115)) (V (Proc.devRef .tc main_arg21)) (V (Proc.devRef .tc main_arg22)) := by
  simp only [ops_head_s]
  after_results_simp
  rfl

theorem res_elu1 (V : Valuation τ sig (Elt Ideal)) :
    after ops_elu1 V (Proc.devRef .tc main_v121)
      = stElu64 (V (Proc.devRef .tc main_v120)) := by
  simp only [ops_elu1]
  after_results_simp
  rfl

theorem res_slin (V : Valuation τ sig (Elt Ideal)) :
    after ops_slin V (Proc.devRef .tc main_v126)
      = stScaleLin (V (Proc.devRef .tc main_v121)) (V (Proc.devRef .tc main_arg23)) (V (Proc.devRef .tc main_arg24)) := by
  simp only [ops_slin]
  after_results_simp
  rfl

theorem res_softplus (V : Valuation τ sig (Elt Ideal)) :
    after ops_softplus V (Proc.devRef .tc main_v127)
      = stSoftplus (V (Proc.devRef .tc main_v126)) := by
  simp only [ops_softplus]
  after_results_simp
  rfl

theorem res_head_c (V : Valuation τ sig (Elt Ideal)) :
    after ops_head_c V (Proc.devRef .tc main_v132)
      = stHead64 (V (Proc.devRef .tc main_v115)) (V (Proc.devRef .tc main_arg25)) (V (Proc.devRef .tc main_arg26)) := by
  simp only [ops_head_c]
  after_results_simp
  rfl

theorem res_elu3 (V : Valuation τ sig (Elt Ideal)) :
    after ops_elu3 V (Proc.devRef .tc main_v133)
      = stElu64 (V (Proc.devRef .tc main_v132)) := by
  simp only [ops_elu3]
  after_results_simp
  rfl

theorem res_clin (V : Valuation τ sig (Elt Ideal)) :
    after ops_clin V (Proc.devRef .tc main_v138)
      = stCorrLin (V (Proc.devRef .tc main_v133)) (V (Proc.devRef .tc main_arg27)) (V (Proc.devRef .tc main_arg28)) := by
  simp only [ops_clin]
  after_results_simp
  rfl

theorem res_cat (V : Valuation τ sig (Elt Ideal)) :
    after ops_cat V (Proc.devRef .tc main_v139)
      = concatenate S65536x4 1 [⟨S65536x1, (V (Proc.devRef .tc main_v127))⟩, ⟨S65536x3, (V (Proc.devRef .tc main_v138))⟩] concatenates_S65536x1_S65536x3_S65536x4_d1 := by
  simp only [ops_cat]
  after_results_simp

end Cert.RefSide

end
-- ==== Proof.RefRun.lean ====
/-
  The reference's run. From any memory with zero counters every weakly fair execution of @main on the
  TensorCores terminates; its result buffer then holds the composition of the stage functions at the launch
  contents of the thirty arguments, and every argument buffer holds what it held at launch.

  The whole line is the stage lists one after the other, so the contents after it are the stages' folds
  composed. Each stage's result buffer holds its stage function of the buffers it reads; a buffer a later
  stage reads that the stages in between do not write (an argument; the hidden array, read by both heads; the
  scale head's result, kept through the correction head) is carried unchanged through them. No operation
  writes an argument buffer.
-/
import proofs.«107767_j18107582120224_2_alg».proof.Proof.RefMain
import proofs.«107767_j18107582120224_2_alg».proof.Proof.RefRunNorm
import proofs.«107767_j18107582120224_2_alg».proof.Proof.RefRunMlp
import proofs.«107767_j18107582120224_2_alg».proof.Proof.RefRunGru0
import proofs.«107767_j18107582120224_2_alg».proof.Proof.RefRunGru1
import proofs.«107767_j18107582120224_2_alg».proof.Proof.RefRunHeads

noncomputable section

namespace Cert.RefSide

open Cert.ReferenceIdeal Idealize.ShloMosaic Idealize.ShloMosaic.TcCoe Idealize.SL.Sem Idealize.ShloMosaic.StableHlo
open Cert.ReferenceIdeal.Facts₀ Cert.ReferenceIdeal.Facts

variable [Facts]

/-! The stages' carried buffers and results, stated for rewriting at any reference (the reference left
    un-indexed: a literal reference and a variable one index differently). -/

theorem kept_norm' {r : Ref sig .tc} (V : Valuation τ sig (Elt Ideal)) (hr : r ∉ W_norm) :
    after ops_norm V (no_index (Proc.devRef .tc r)) = V (Proc.devRef .tc r) := kept_norm hr V

theorem kept_lin1' {r : Ref sig .tc} (V : Valuation τ sig (Elt Ideal)) (hr : r ∉ W_lin1) :
    after ops_lin1 V (no_index (Proc.devRef .tc r)) = V (Proc.devRef .tc r) := kept_lin1 hr V

theorem kept_elu0' {r : Ref sig .tc} (V : Valuation τ sig (Elt Ideal)) (hr : r ∉ W_elu0) :
    after ops_elu0 V (no_index (Proc.devRef .tc r)) = V (Proc.devRef .tc r) := kept_elu0 hr V

theorem kept_lin2' {r : Ref sig .tc} (V : Valuation τ sig (Elt Ideal)) (hr : r ∉ W_lin2) :
    after ops_lin2 V (no_index (Proc.devRef .tc r)) = V (Proc.devRef .tc r) := kept_lin2 hr V

theorem kept_gru0a' {r : Ref sig .tc} (V : Valuation τ sig (Elt Ideal)) (hr : r ∉ W_gru0a) :
    after ops_gru0a V (no_index (Proc.devRef .tc r)) = V (Proc.devRef .tc r) := kept_gru0a hr V

theorem kept_gru0b' {r : Ref sig .tc} (V : Valuation τ sig (Elt Ideal)) (hr : r ∉ W_gru0b) :
    after ops_gru0b V (no_index (Proc.devRef .tc r)) = V (Proc.devRef .tc r) := kept_gru0b hr V

theorem kept_gru1a' {r : Ref sig .tc} (V : Valuation τ sig (Elt Ideal)) (hr : r ∉ W_gru1a) :
    after ops_gru1a V (no_index (Proc.devRef .tc r)) = V (Proc.devRef .tc r) := kept_gru1a hr V

theorem kept_gru1b' {r : Ref sig .tc} (V : Valuation τ sig (Elt Ideal)) (hr : r ∉ W_gru1b) :
    after ops_gru1b V (no_index (Proc.devRef .tc r)) = V (Proc.devRef .tc r) := kept_gru1b hr V

theorem kept_head_s' {r : Ref sig .tc} (V : Valuation τ sig (Elt Ideal)) (hr : r ∉ W_head_s) :
    after ops_head_s V (no_index (Proc.devRef .tc r)) = V (Proc.devRef .tc r) := kept_head_s hr V

theorem kept_elu1' {r : Ref sig .tc} (V : Valuation τ sig (Elt Ideal)) (hr : r ∉ W_elu1) :
    after ops_elu1 V (no_index (Proc.devRef .tc r)) = V (Proc.devRef .tc r) := kept_elu1 hr V

theorem kept_slin' {r : Ref sig .tc} (V : Valuation τ sig (Elt Ideal)) (hr : r ∉ W_slin) :
    after ops_slin V (no_index (Proc.devRef .tc r)) = V (Proc.devRef .tc r) := kept_slin hr V

theorem kept_softplus' {r : Ref sig .tc} (V : Valuation τ sig (Elt Ideal)) (hr : r ∉ W_softplus) :
    after ops_softplus V (no_index (Proc.devRef .tc r)) = V (Proc.devRef .tc r) := kept_softplus hr V

theorem kept_head_c' {r : Ref sig .tc} (V : Valuation τ sig (Elt Ideal)) (hr : r ∉ W_head_c) :
    after ops_head_c V (no_index (Proc.devRef .tc r)) = V (Proc.devRef .tc r) := kept_head_c hr V

theorem kept_elu3' {r : Ref sig .tc} (V : Valuation τ sig (Elt Ideal)) (hr : r ∉ W_elu3) :
    after ops_elu3 V (no_index (Proc.devRef .tc r)) = V (Proc.devRef .tc r) := kept_elu3 hr V

theorem kept_clin' {r : Ref sig .tc} (V : Valuation τ sig (Elt Ideal)) (hr : r ∉ W_clin) :
    after ops_clin V (no_index (Proc.devRef .tc r)) = V (Proc.devRef .tc r) := kept_clin hr V

theorem kept_cat' {r : Ref sig .tc} (V : Valuation τ sig (Elt Ideal)) (hr : r ∉ W_cat) :
    after ops_cat V (no_index (Proc.devRef .tc r)) = V (Proc.devRef .tc r) := kept_cat hr V

theorem res_norm' (V : Valuation τ sig (Elt Ideal)) :
    after ops_norm V (no_index (Proc.devRef .tc main_v24)) = stNorm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := res_norm V
theorem res_lin1' (V : Valuation τ sig (Elt Ideal)) :
    after ops_lin1 V (no_index (Proc.devRef .tc main_v29)) = stLin1 (V (Proc.devRef .tc main_v24)) (V (Proc.devRef .tc main_arg9)) (V (Proc.devRef .tc main_arg10)) := res_lin1 V
theorem res_elu0' (V : Valuation τ sig (Elt Ideal)) :
    after ops_elu0 V (no_index (Proc.devRef .tc main_v30)) = stElu128 (V (Proc.devRef .tc main_v29)) := res_elu0 V
theorem res_lin2' (V : Valuation τ sig (Elt Ideal)) :
    after ops_lin2 V (no_index (Proc.devRef .tc main_v35)) = stLin2 (V (Proc.devRef .tc main_v30)) (V (Proc.devRef .tc main_arg11)) (V (Proc.devRef .tc main_arg12)) := res_lin2 V
theorem res_head_s' (V : Valuation τ sig (Elt Ideal)) :
    after ops_head_s V (no_index (Proc.devRef .tc main_v120)) = stHead64 (V (Proc.devRef .tc main_v115)) (V (Proc.devRef .tc main_arg21)) (V (Proc.devRef .tc main_arg22)) := res_head_s V
theorem res_elu1' (V : Valuation τ sig (Elt Ideal)) :
    after ops_elu1 V (no_index (Proc.devRef .tc main_v121)) = stElu64 (V (Proc.devRef .tc main_v120)) := res_elu1 V
theorem res_slin' (V : Valuation τ sig (Elt Ideal)) :
    after ops_slin V (no_index (Proc.devRef .tc main_v126)) = stScaleLin (V (Proc.devRef .tc main_v121)) (V (Proc.devRef .tc main_arg23)) (V (Proc.devRef .tc main_arg24)) := res_slin V
theorem res_softplus' (V : Valuation τ sig (Elt Ideal)) :
    after ops_softplus V (no_index (Proc.devRef .tc main_v127)) = stSoftplus (V (Proc.devRef .tc main_v126)) := res_softplus V
theorem res_head_c' (V : Valuation τ sig (Elt Ideal)) :
    after ops_head_c V (no_index (Proc.devRef .tc main_v132)) = stHead64 (V (Proc.devRef .tc main_v115)) (V (Proc.devRef .tc main_arg25)) (V (Proc.devRef .tc main_arg26)) := res_head_c V
theorem res_elu3' (V : Valuation τ sig (Elt Ideal)) :
    after ops_elu3 V (no_index (Proc.devRef .tc main_v133)) = stElu64 (V (Proc.devRef .tc main_v132)) := res_elu3 V
theorem res_clin' (V : Valuation τ sig (Elt Ideal)) :
    after ops_clin V (no_index (Proc.devRef .tc main_v138)) = stCorrLin (V (Proc.devRef .tc main_v133)) (V (Proc.devRef .tc main_arg27)) (V (Proc.devRef .tc main_arg28)) := res_clin V
theorem res_cat' (V : Valuation τ sig (Elt Ideal)) :
    after ops_cat V (no_index (Proc.devRef .tc main_v139))
      = concatenate S65536x4 1 [⟨S65536x1, (V (Proc.devRef .tc main_v127))⟩, ⟨S65536x3, (V (Proc.devRef .tc main_v138))⟩] concatenates_S65536x1_S65536x3_S65536x4_d1 := res_cat V
theorem res_gru0' (V : Valuation τ sig (Elt Ideal)) :
    after ops_gru0b (after ops_gru0a V) (no_index (Proc.devRef .tc main_v75))
      = stGru0 (V (Proc.devRef .tc main_v35)) (V (Proc.devRef .tc main_arg29)) (V (Proc.devRef .tc main_arg13)) (V (Proc.devRef .tc main_arg14)) (V (Proc.devRef .tc main_arg15)) (V (Proc.devRef .tc main_arg16)) := res_gru0 V
theorem res_gru1' (V : Valuation τ sig (Elt Ideal)) :
    after ops_gru1b (after ops_gru1a V) (no_index (Proc.devRef .tc main_v115))
      = stGru1 (V (Proc.devRef .tc main_v75)) (V (Proc.devRef .tc main_arg29)) (V (Proc.devRef .tc main_arg17)) (V (Proc.devRef .tc main_arg18)) (V (Proc.devRef .tc main_arg19)) (V (Proc.devRef .tc main_arg20)) := res_gru1 V

/-- The scale head's result after every stage but the concatenation: the head's stage functions composed over
    the hidden array. -/
theorem scale_eq (V : Valuation τ sig (Elt Ideal)) :
    after ops_clin (after ops_elu3 (after ops_head_c (after ops_softplus (after ops_slin (after ops_elu1 (after ops_head_s (after ops_gru1b (after ops_gru1a (after ops_gru0b (after ops_gru0a (after ops_lin2 (after ops_elu0 (after ops_lin1 (after ops_norm V)))))))))))))) (Proc.devRef .tc main_v127)
      = stSoftplus (stScaleLin (stElu64 (stHead64 (refHidden (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29))) (V (Proc.devRef .tc main_arg21)) (V (Proc.devRef .tc main_arg22)))) (V (Proc.devRef .tc main_arg23)) (V (Proc.devRef .tc main_arg24))) := by
  simp (disch := decide) only [res_cat', res_clin', res_elu3', res_head_c', res_softplus', res_slin', res_elu1', res_head_s',
    res_gru1', res_gru0', res_lin2', res_elu0', res_lin1', res_norm',
    kept_norm', kept_lin1', kept_elu0', kept_lin2', kept_gru0a', kept_gru0b', kept_gru1a', kept_gru1b', kept_head_s', kept_elu1', kept_slin', kept_softplus', kept_head_c', kept_elu3', kept_clin', kept_cat']
  simp only [refHidden]

/-- The correction head's result after every stage but the concatenation. -/
theorem corr_eq (V : Valuation τ sig (Elt Ideal)) :
    after ops_clin (after ops_elu3 (after ops_head_c (after ops_softplus (after ops_slin (after ops_elu1 (after ops_head_s (after ops_gru1b (after ops_gru1a (after ops_gru0b (after ops_gru0a (after ops_lin2 (after ops_elu0 (after ops_lin1 (after ops_norm V)))))))))))))) (Proc.devRef .tc main_v138)
      = stCorrLin (stElu64 (stHead64 (refHidden (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29))) (V (Proc.devRef .tc main_arg25)) (V (Proc.devRef .tc main_arg26)))) (V (Proc.devRef .tc main_arg27)) (V (Proc.devRef .tc main_arg28)) := by
  simp (disch := decide) only [res_cat', res_clin', res_elu3', res_head_c', res_softplus', res_slin', res_elu1', res_head_s',
    res_gru1', res_gru0', res_lin2', res_elu0', res_lin1', res_norm',
    kept_norm', kept_lin1', kept_elu0', kept_lin2', kept_gru0a', kept_gru0b', kept_gru1a', kept_gru1b', kept_head_s', kept_elu1', kept_slin', kept_softplus', kept_head_c', kept_elu3', kept_clin', kept_cat']
  simp only [refHidden]

/-- The result buffer after the whole line: the stage functions composed, at the launch contents. -/
theorem out_eq (V : Valuation τ sig (Elt Ideal)) :
    after ops V (Proc.devRef .tc main_v139) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29)) := by
  simp only [ops, ops_p0, ops_p1, ops_p2, after_append]
  rw [res_cat, scale_eq, corr_eq]
  simp only [refOut]
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v139) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  (θ_run defs _ _).mono (fun _ h c => ⟨(h c main_v139).trans (out_eq _),
      (h c main_arg0).trans (kept_ops (by decide) _),
      (h c main_arg1).trans (kept_ops (by decide) _),
      (h c main_arg2).trans (kept_ops (by decide) _),
      (h c main_arg3).trans (kept_ops (by decide) _),
      (h c main_arg4).trans (kept_ops (by decide) _),
      (h c main_arg5).trans (kept_ops (by decide) _),
      (h c main_arg6).trans (kept_ops (by decide) _),
      (h c main_arg7).trans (kept_ops (by decide) _),
      (h c main_arg8).trans (kept_ops (by decide) _),
      (h c main_arg9).trans (kept_ops (by decide) _),
      (h c main_arg10).trans (kept_ops (by decide) _),
      (h c main_arg11).trans (kept_ops (by decide) _),
      (h c main_arg12).trans (kept_ops (by decide) _),
      (h c main_arg13).trans (kept_ops (by decide) _),
      (h c main_arg14).trans (kept_ops (by decide) _),
      (h c main_arg15).trans (kept_ops (by decide) _),
      (h c main_arg16).trans (kept_ops (by decide) _),
      (h c main_arg17).trans (kept_ops (by decide) _),
      (h c main_arg18).trans (kept_ops (by decide) _),
      (h c main_arg19).trans (kept_ops (by decide) _),
      (h c main_arg20).trans (kept_ops (by decide) _),
      (h c main_arg21).trans (kept_ops (by decide) _),
      (h c main_arg22).trans (kept_ops (by decide) _),
      (h c main_arg23).trans (kept_ops (by decide) _),
      (h c main_arg24).trans (kept_ops (by decide) _),
      (h c main_arg25).trans (kept_ops (by decide) _),
      (h c main_arg26).trans (kept_ops (by decide) _),
      (h c main_arg27).trans (kept_ops (by decide) _),
      (h c main_arg28).trans (kept_ops (by decide) _),
      (h c main_arg29).trans (kept_ops (by decide) _)⟩)
    (run_seq scopedRefs_eq scopedSems_eq defs main (fun _ => ops) main_eq (fun _ => ops_sub) m ρ
      (fun _ => List.forall_iff_forall_mem.mp ops_fresh))

end Cert.RefSide

end
-- ==== Proof.LibPlainDot.lean ====
/-
  The plain matrix product read at an entry, over the extended reals.

  For the dimension numbers of an ordinary product of an `M × K` matrix by a `K × N` matrix
  (`DotDims.plain M K N`: no batch axis, the left operand contracted on its columns, the right one on its rows),
  at the ideal values:

  * a `tpu.matmul` into the zero accumulator, at entry `(p, q)`, is `∑ k, lhs (p, k) * rhs (k, q)`
    (`matmul_zero_plain`);
  * the host's `dot_general`, at entry `(p, q)`, is the same sum, whatever its schedule key (`dotGeneral_plain`).

  Both are generic in the three extents and in the operands' float formats (a change of format is the identity
  at the ideal values). The contraction index of these dimension numbers has one axis, of extent `K`; the sum over
  it is re-indexed to a sum over `Fin K` through `ValueIdx.contrEquiv1`, and the operand indices at output index
  `(p, q)` and contraction coordinate `k` are `(p, k)` and `(k, q)`, coordinate by coordinate.
-/
import Idealize.ShloMosaic.Lib.ValueIdx
import Idealize.ShloMosaic.PureOps.Ideal.Laws

open Idealize.ShloMosaic Idealize.ShloMosaic.ValueIdx
open scoped BigOperators

noncomputable section

namespace Cert.LibPlainDot

variable {M K N : Nat}

/-- The left operand's index at output `(p, q)` and contraction coordinate `k` is `(p, k)`. -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ => exact contrEquiv1_symm_val (DotDims.plain M K N) K rfl rfl k)

/-- The right operand's index at output `(p, q)` and contraction coordinate `k` is `(k, q)`. -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact contrEquiv1_symm_val (DotDims.plain M K N) K rfl rfl k
    | ⟨1, _⟩ => rfl)

/-- A `tpu.matmul` of an `M × K` by a `K × N` operand into the zero accumulator, at entry `(p, q)`: the sum over
    `k` of `lhs (p, k) * rhs (k, q)`. -/
theorem matmul_zero_plain {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` of an `M × K` by a `K × N` operand, at entry `(p, q)`: the same sum. -/
theorem dotGeneral_plain {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.LibPlainDot

end
-- ==== Proof.RefReadOps.lean ====
/-
  Reading the reference's recurring operation patterns at an index, at the ideal values.

  * a scalar broadcast to any shape reads the scalar; a length-`a` vector broadcast to the column `[a, 1]` reads the
    vector at the row; a column `[a, 1]` broadcast along the rows of `[a, b]` reads the column at the row; a
    length-`n` vector broadcast to `[1, n]` and then to `[m, n]` reads the vector at the column;
  * the host's sum over axis 1 from the zero word is the finite sum over the row;
  * a linear layer `x · Wᵀ + b` (transpose, plain dot, bias broadcast, add) is the affine map of the specification.
-/
import proofs.«107767_j18107582120224_2_alg».proof.Proof.NetSpec
import proofs.«107767_j18107582120224_2_alg».proof.Proof.LibPlainDot
import Idealize.ShloMosaic.Lib.Pipeline.Value
import Idealize.ShloMosaic.PureOps.Ideal.Laws

noncomputable section

open scoped BigOperators

namespace Cert.RefSide

open Idealize.ShloMosaic Idealize.ShloMosaic.ValueIdx

section Broadcasts
variable {α : Type}

/-- A scalar broadcast to any shape reads the scalar. -/
theorem bcastScalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun a => a.elim0

/-- A length-`a` vector broadcast to the column `[a, 1]` reads, at `(p, u)`, the vector at `p`. -/
theorem bcastKeep_apply {a : ℕ} (h : (⟨1, ![a]⟩ : Shape).BroadcastsInDim ⟨2, ![a, 1]⟩ ![0])
    (v : (⟨1, ![a]⟩ : Shape).Idx → α) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · omega
    · rfl

/-- A column `[a, 1]` broadcast along the rows of `[a, b]` reads, at `(p, c)`, the column at `(p, 0)`. -/
theorem bcastCol_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · omega
    · rfl
  | ⟨1, _⟩ =>
    show (0 : ℕ) = if (1 : ℕ) = 1 then 0 else c.val
    rfl

/-- A length-`n` vector broadcast to `[1, n]` and then along the rows of `[m, n]` reads, at `(p, q)`, the vector at `q`. -/
theorem bcastRowVec_apply {m n : ℕ} (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (p : Fin m) (q : Fin n) :
    broadcastInDim ⟨2, ![m, n]⟩ ![0, 1] h2 (broadcastInDim ⟨2, ![1, n]⟩ ![1] h1 b) (ix2 p q) = b (ix1 q) := by
  refine (broadcastInDim_apply _ h2 _ (ix2 p q) (ix2 (0 : Fin 1) q) fun ax => ?_).trans ?_
  · match ax with
    | ⟨0, _⟩ =>
      show (0 : ℕ) = if (1 : ℕ) = 1 then 0 else p.val
      rfl
    | ⟨1, _⟩ =>
      show q.val = if n = 1 then 0 else q.val
      split
      · omega
      · rfl
  · refine broadcastInDim_apply _ h1 b (ix2 (0 : Fin 1) q) (ix1 q) fun ax => ?_
    match ax with
    | ⟨0, _⟩ =>
      show q.val = if n = 1 then 0 else q.val
      split
      · omega
      · rfl

end Broadcasts

/-- The host's sum over axis 1 of an `[a, b]` array from the zero word, at row `r`: the finite sum over the row. -/
theorem hostRowSum_apply {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd (F := Ideal) x (constant (F := Ideal) ⟨0, ![]⟩ .f32 0x00000000#32) h' hu (ix1 r)
      = ∑ k : Fin b, x (ix2 r k) := by
  show Ideal.hostReduceAdd h' x (Ideal.ofBits .f32 0x00000000#32) (ix1 r) = _
  rw [Ideal.hostReduceAdd_single h' h, Net.ofBits_zero, zero_add]
  exact Finset.sum_congr rfl fun k _ => congrArg x (funext fun d => Fin.ext (by
    match d with
    | ⟨0, _⟩ => rfl
    | ⟨1, _⟩ => rfl))

section HostOps
variable {s : Shape} {φ : FTy}

/-! The host's elementwise operations at an index, at the ideal values: each is its scalar function there. -/
theorem hostDivf_apply (a b : FVec Ideal s φ) (i : s.Idx) : Host.divf (F := Ideal) a b i = Ideal.div (a i) (b i) := rfl
theorem hostRsqrt_apply (a : FVec Ideal s φ) (i : s.Idx) : Host.rsqrt (F := Ideal) a i = Ideal.rsqrt (a i) := rfl
theorem hostExp_apply (a : FVec Ideal s φ) (i : s.Idx) : Host.exp (F := Ideal) a i = Ideal.exp (a i) := rfl
theorem hostExpm1_apply (a : FVec Ideal s φ) (i : s.Idx) : Host.expm1 (F := Ideal) a i = Ideal.exp (a i) - 1 := rfl
theorem hostLog1p_apply (a : FVec Ideal s φ) (i : s.Idx) : Host.log1p (F := Ideal) a i = Ideal.log1p (a i) := rfl
theorem hostTanh_apply (a : FVec Ideal s φ) (i : s.Idx) : Host.tanh (F := Ideal) a i = Ideal.tanh (a i) := rfl
theorem hostNegf_apply (a : FVec Ideal s φ) (i : s.Idx) : Host.negf (F := Ideal) a i = -(a i) := rfl
theorem hostAbsf_apply (a : FVec Ideal s φ) (i : s.Idx) : Host.absf (F := Ideal) a i = max (a i) (-(a i)) := rfl
theorem cmpf_ideal_apply (p : CmpFPredicate) (a b : FVec Ideal s φ) (i : s.Idx) :
    cmpf p a b i = Ideal.cmp p (a i) (b i) := rfl

end HostOps

/-- A linear layer of the reference — the weights transposed, the host's plain dot, the bias broadcast along the
    rows, the sum — at `(i, q)`: the inner product of row `i` of the input with row `q` of the weights, plus bias `q`. -/
theorem linear_apply {M K N : ℕ} (D : DotDims ⟨2, ![M, K]⟩ ⟨2, ![K, N]⟩ ⟨2, ![M, N]⟩) (hD : D = DotDims.plain M K N)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (x : FVec Ideal ⟨2, ![M, K]⟩ .f32) (W : FVec Ideal ⟨2, ![N, K]⟩ .f32) (b : FVec Ideal ⟨1, ![N]⟩ .f32)
    (i : Fin M) (q : Fin N) :
    addf (Host.dotGeneral (F := Ideal) D none x (transpose ⟨2, ![K, N]⟩ [1, 0] W ht))
        (broadcastInDim ⟨2, ![M, N]⟩ ![0, 1] h2 (broadcastInDim ⟨2, ![1, N]⟩ ![1] h1 b)) (ix2 i q)
      = Net.affine (fun i k => W (ix2 i k)) (fun i => b (ix1 i)) (fun k => x (ix2 i k)) q := by
  subst hD
  rw [addf_apply, bcastRowVec_apply]
  unfold Net.affine
  refine congrArg (· + b (ix1 q)) ?_
  refine (Cert.LibPlainDot.dotGeneral_plain none .single x _ i q).trans ?_
  refine Finset.sum_congr rfl fun k _ => congrArg (x (ix2 i k) * ·) ?_
  refine transpose_apply [1, 0] W ht (ix2 k q) (ix2 q k) fun ax => ?_
  match ax with
  | ⟨0, _⟩ => rfl
  | ⟨1, _⟩ => rfl

end Cert.RefSide

end
-- ==== Proof.RefReadNorm.lean ====
/-
  The layer-normalisation stage of the reference read at an index: entry `(i, k)` of its result is the
  specification's layer norm of row `i` of the concatenated observations, at `k`.
-/
import proofs.«107767_j18107582120224_2_alg».proof.Proof.RefStages
import proofs.«107767_j18107582120224_2_alg».proof.Proof.RefReadOps

noncomputable section

open scoped BigOperators

namespace Cert.RefSide

open Cert.ReferenceIdeal Idealize.ShloMosaic Idealize.ShloMosaic.ValueIdx
open Cert.ReferenceIdeal.Facts₀ Cert.ReferenceIdeal.Facts

variable [Facts]

/-- The seven pieces side by side, at `(i, k)`: the piece whose columns hold `k`, at `k` less the widths before it. -/
theorem obsCat_apply (A0 A1 : FVec Ideal S65536x3 .f32) (A2 : FVec Ideal S65536x1 .f32) (A3 A4 A5 : FVec Ideal S65536x3 .f32)
    (A6 : FVec Ideal S65536x4 .f32)
    (h : Shape.Concatenates [S65536x3, S65536x3, S65536x1, S65536x3, S65536x3, S65536x3, S65536x4] S65536x20 1)
    (i : Fin 65536) (k : Fin 20) :
    concatenate S65536x20 1 [⟨S65536x3, A0⟩, ⟨S65536x3, A1⟩, ⟨S65536x1, A2⟩, ⟨S65536x3, A3⟩, ⟨S65536x3, A4⟩, ⟨S65536x3, A5⟩, ⟨S65536x4, A6⟩] h (ix2 i k)
      = Net.obsRow (fun k => A0 (ix2 i k)) (fun k => A1 (ix2 i k)) (fun k => A2 (ix2 i k)) (fun k => A3 (ix2 i k))
          (fun k => A4 (ix2 i k)) (fun k => A5 (ix2 i k)) (fun k => A6 (ix2 i k)) k := by
  unfold Net.obsRow
  by_cases h0 : k.val < 3
  · rw [dif_pos h0]
    refine concatenate_apply_piece (t := S65536x20) 1 [⟨S65536x3, A0⟩, ⟨S65536x3, A1⟩, ⟨S65536x1, A2⟩, ⟨S65536x3, A3⟩, ⟨S65536x3, A4⟩, ⟨S65536x3, A5⟩, ⟨S65536x4, A6⟩] h (ix2 i k) 0 (by simp) S65536x3 A0 rfl rfl 0 rfl (ix2 i ⟨k.val, h0⟩) (fun b hb => ?_) ?_
    · match b with
      | ⟨0, _⟩ => rfl
      | ⟨1, _⟩ => exact absurd rfl hb
    · show 0 + k.val = k.val
      omega
  rw [dif_neg h0]
  by_cases h1 : k.val < 6
  · rw [dif_pos h1]
    refine concatenate_apply_piece (t := S65536x20) 1 [⟨S65536x3, A0⟩, ⟨S65536x3, A1⟩, ⟨S65536x1, A2⟩, ⟨S65536x3, A3⟩, ⟨S65536x3, A4⟩, ⟨S65536x3, A5⟩, ⟨S65536x4, A6⟩] h (ix2 i k) 1 (by simp) S65536x3 A1 rfl rfl 3 rfl (ix2 i ⟨k.val - 3, by omega⟩) (fun b hb => ?_) ?_
    · match b with
      | ⟨0, _⟩ => rfl
      | ⟨1, _⟩ => exact absurd rfl hb
    · show 3 + (k.val - 3) = k.val
      omega
  rw [dif_neg h1]
  by_cases h2 : k.val < 7
  · rw [dif_pos h2]
    refine concatenate_apply_piece (t := S65536x20) 1 [⟨S65536x3, A0⟩, ⟨S65536x3, A1⟩, ⟨S65536x1, A2⟩, ⟨S65536x3, A3⟩, ⟨S65536x3, A4⟩, ⟨S65536x3, A5⟩, ⟨S65536x4, A6⟩] h (ix2 i k) 2 (by simp) S65536x1 A2 rfl rfl 6 rfl (ix2 i ⟨k.val - 6, by omega⟩) (fun b hb => ?_) ?_
    · match b with
      | ⟨0, _⟩ => rfl
      | ⟨1, _⟩ => exact absurd rfl hb
    · show 6 + (k.val - 6) = k.val
      omega
  rw [dif_neg h2]
  by_cases h3 : k.val < 10
  · rw [dif_pos h3]
    refine concatenate_apply_piece (t := S65536x20) 1 [⟨S65536x3, A0⟩, ⟨S65536x3, A1⟩, ⟨S65536x1, A2⟩, ⟨S65536x3, A3⟩, ⟨S65536x3, A4⟩, ⟨S65536x3, A5⟩, ⟨S65536x4, A6⟩] h (ix2 i k) 3 (by simp) S65536x3 A3 rfl rfl 7 rfl (ix2 i ⟨k.val - 7, by omega⟩) (fun b hb => ?_) ?_
    · match b with
      | ⟨0, _⟩ => rfl
      | ⟨1, _⟩ => exact absurd rfl hb
    · show 7 + (k.val - 7) = k.val
      omega
  rw [dif_neg h3]
  by_cases h4 : k.val < 13
  · rw [dif_pos h4]
    refine concatenate_apply_piece (t := S65536x20) 1 [⟨S65536x3, A0⟩, ⟨S65536x3, A1⟩, ⟨S65536x1, A2⟩, ⟨S65536x3, A3⟩, ⟨S65536x3, A4⟩, ⟨S65536x3, A5⟩, ⟨S65536x4, A6⟩] h (ix2 i k) 4 (by simp) S65536x3 A4 rfl rfl 10 rfl (ix2 i ⟨k.val - 10, by omega⟩) (fun b hb => ?_) ?_
    · match b with
      | ⟨0, _⟩ => rfl
      | ⟨1, _⟩ => exact absurd rfl hb
    · show 10 + (k.val - 10) = k.val
      omega
  rw [dif_neg h4]
  by_cases h5 : k.val < 16
  · rw [dif_pos h5]
    refine concatenate_apply_piece (t := S65536x20) 1 [⟨S65536x3, A0⟩, ⟨S65536x3, A1⟩, ⟨S65536x1, A2⟩, ⟨S65536x3, A3⟩, ⟨S65536x3, A4⟩, ⟨S65536x3, A5⟩, ⟨S65536x4, A6⟩] h (ix2 i k) 5 (by simp) S65536x3 A5 rfl rfl 13 rfl (ix2 i ⟨k.val - 13, by omega⟩) (fun b hb => ?_) ?_
    · match b with
      | ⟨0, _⟩ => rfl
      | ⟨1, _⟩ => exact absurd rfl hb
    · show 13 + (k.val - 13) = k.val
      omega
  rw [dif_neg h5]
  refine concatenate_apply_piece (t := S65536x20) 1 [⟨S65536x3, A0⟩, ⟨S65536x3, A1⟩, ⟨S65536x1, A2⟩, ⟨S65536x3, A3⟩, ⟨S65536x3, A4⟩, ⟨S65536x3, A5⟩, ⟨S65536x4, A6⟩] h (ix2 i k) 6 (by simp) S65536x4 A6 rfl rfl 16 rfl (ix2 i ⟨k.val - 16, by omega⟩) (fun b hb => ?_) ?_
  · match b with
    | ⟨0, _⟩ => rfl
    | ⟨1, _⟩ => exact absurd rfl hb
  · show 16 + (k.val - 16) = k.val
    have := k.isLt
    omega

/-- The row mean as the reference takes it: the host's row sum kept as a column, divided by the word 20.0. -/
theorem normMean_apply (v0 : FVec Ideal S65536x20 .f32) (i : Fin 65536) (u : Fin 1) :
    Host.divf (F := Ideal)
        (broadcastInDim S65536x1 ![0] bcast_S65536_S65536x1_0 (Host.reduceAdd (F := Ideal) v0 (constant (F := Ideal) S_ .f32 0x00000000#32) reducesTo_S65536x20_S65536_d1 h_S_))
        (broadcastInDim S65536x1 ![] bcast_S_S65536x1 (constant (F := Ideal) S_ .f32 0x41A00000#32)) (ix2 i u)
      = Net.mean20 (fun k => v0 (ix2 i k)) := by
  rw [hostDivf_apply, bcastKeep_apply, bcastScalar_apply, hostRowSum_apply v0 _ (by decide)]
  rfl

/-- The mean squared deviation as the reference takes it, given the column of means. -/
theorem normVar_apply (v0 : FVec Ideal S65536x20 .f32) (v4 : FVec Ideal S65536x1 .f32) (i : Fin 65536) (u : Fin 1) :
    Host.divf (F := Ideal)
        (broadcastInDim S65536x1 ![0] bcast_S65536_S65536x1_0
          (Host.reduceAdd (F := Ideal) (mulf (subf v0 (broadcastInDim S65536x20 ![0, 1] bcast_S65536x1_S65536x20_0_1 v4)) (subf v0 (broadcastInDim S65536x20 ![0, 1] bcast_S65536x1_S65536x20_0_1 v4))) (constant (F := Ideal) S_ .f32 0x00000000#32) reducesTo_S65536x20_S65536_d1 h_S_))
        (broadcastInDim S65536x1 ![] bcast_S_S65536x1 (constant (F := Ideal) S_ .f32 0x41A00000#32)) (ix2 i u)
      = Ideal.div (∑ k : Fin 20, (v0 (ix2 i k) - v4 (ix2 i (0 : Fin 1))) * (v0 (ix2 i k) - v4 (ix2 i (0 : Fin 1)))) Net.w20 := by
  rw [hostDivf_apply, bcastKeep_apply, bcastScalar_apply, hostRowSum_apply _ _ (by decide)]
  refine congrArg (fun z => Ideal.div z Net.w20) (Finset.sum_congr rfl fun k _ => ?_)
  rw [mulf_apply, subf_apply, bcastCol_apply]

/-- The normalised, scaled and shifted entry, given the columns of means and of mean squared deviations. -/
theorem normOut_apply (v0 : FVec Ideal S65536x20 .f32) (v4 v11 : FVec Ideal S65536x1 .f32) (A7 A8 : FVec Ideal S20 .f32)
    (i : Fin 65536) (k : Fin 20) :
    addf (mulf (mulf (subf v0 (broadcastInDim S65536x20 ![0, 1] bcast_S65536x1_S65536x20_0_1 v4)) (broadcastInDim S65536x20 ![0, 1] bcast_S65536x1_S65536x20_0_1 (Host.rsqrt (F := Ideal) (addf v11 (broadcastInDim S65536x1 ![] bcast_S_S65536x1 (constant (F := Ideal) S_ .f32 0x3727C5AC#32)))))) (broadcastInDim S65536x20 ![0, 1] bcast_S1x20_S65536x20_0_1 (broadcastInDim S1x20 ![1] bcast_S20_S1x20_1 A7))) (broadcastInDim S65536x20 ![0, 1] bcast_S1x20_S65536x20_0_1 (broadcastInDim S1x20 ![1] bcast_S20_S1x20_1 A8)) (ix2 i k)
      = (v0 (ix2 i k) - v4 (ix2 i (0 : Fin 1))) * Ideal.rsqrt (v11 (ix2 i (0 : Fin 1)) + Net.wEps) * A7 (ix1 k) + A8 (ix1 k) := by
  rw [addf_apply, mulf_apply, mulf_apply, subf_apply, bcastCol_apply, bcastCol_apply, hostRsqrt_apply, addf_apply,
    bcastScalar_apply, bcastRowVec_apply, bcastRowVec_apply]
  rfl

/-- The layer-normalisation stage at `(i, k)`: the specification's layer norm of row `i` of the observations. -/
theorem stNorm_apply (A0 A1 : FVec Ideal S65536x3 .f32) (A2 : FVec Ideal S65536x1 .f32) (A3 A4 A5 : FVec Ideal S65536x3 .f32)
    (A6 : FVec Ideal S65536x4 .f32) (A7 A8 : FVec Ideal S20 .f32) (i : Fin 65536) (k : Fin 20) :
    stNorm A0 A1 A2 A3 A4 A5 A6 A7 A8 (ix2 i k)
      = Net.layerNorm (Net.obsRow (fun k => A0 (ix2 i k)) (fun k => A1 (ix2 i k)) (fun k => A2 (ix2 i k)) (fun k => A3 (ix2 i k))
          (fun k => A4 (ix2 i k)) (fun k => A5 (ix2 i k)) (fun k => A6 (ix2 i k))) (fun k => A7 (ix1 k)) (fun k => A8 (ix1 k)) k := by
  simp only [stNorm]
  rw [normOut_apply, normVar_apply, normMean_apply]
  simp only [obsCat_apply]
  rfl

end Cert.RefSide

end
-- ==== Proof.RefReadLin.lean ====
/-
  The reference's five linear layers read at an index: each is the specification's affine map of the input row
  with the weight array's rows and the bias.
-/
import proofs.«107767_j18107582120224_2_alg».proof.Proof.RefStages
import proofs.«107767_j18107582120224_2_alg».proof.Proof.RefReadOps

noncomputable section

open scoped BigOperators

namespace Cert.RefSide

open Cert.ReferenceIdeal Idealize.ShloMosaic Idealize.ShloMosaic.ValueIdx
open Cert.ReferenceIdeal.Facts₀ Cert.ReferenceIdeal.Facts

variable [Facts]

theorem stLin1_apply (x : FVec Ideal S65536x20 .f32) (A9 : FVec Ideal S128x20 .f32) (A10 : FVec Ideal S128 .f32)
    (i : Fin 65536) (q : Fin 128) :
    stLin1 x A9 A10 (ix2 i q)
      = Net.affine (fun i k => A9 (ix2 i k)) (fun i => A10 (ix1 i)) (fun k => x (ix2 i k)) q := by
  unfold stLin1
  exact linear_apply _ rfl _ _ _ x A9 A10 i q

theorem stLin2_apply (x : FVec Ideal S65536x128 .f32) (A11 : FVec Ideal S128x128 .f32) (A12 : FVec Ideal S128 .f32)
    (i : Fin 65536) (q : Fin 128) :
    stLin2 x A11 A12 (ix2 i q)
      = Net.affine (fun i k => A11 (ix2 i k)) (fun i => A12 (ix1 i)) (fun k => x (ix2 i k)) q := by
  unfold stLin2
  exact linear_apply _ rfl _ _ _ x A11 A12 i q

theorem stHead64_apply (x : FVec Ideal S65536x128 .f32) (W : FVec Ideal S64x128 .f32) (b : FVec Ideal S64 .f32)
    (i : Fin 65536) (q : Fin 64) :
    stHead64 x W b (ix2 i q)
      = Net.affine (fun i k => W (ix2 i k)) (fun i => b (ix1 i)) (fun k => x (ix2 i k)) q := by
  unfold stHead64
  exact linear_apply _ rfl _ _ _ x W b i q

theorem stScaleLin_apply (x : FVec Ideal S65536x64 .f32) (A23 : FVec Ideal S1x64 .f32) (A24 : FVec Ideal S1 .f32)
    (i : Fin 65536) (q : Fin 1) :
    stScaleLin x A23 A24 (ix2 i q)
      = Net.affine (fun i k => A23 (ix2 i k)) (fun i => A24 (ix1 i)) (fun k => x (ix2 i k)) q := by
  unfold stScaleLin
  exact linear_apply _ rfl _ _ _ x A23 A24 i q

theorem stCorrLin_apply (x : FVec Ideal S65536x64 .f32) (A27 : FVec Ideal S3x64 .f32) (A28 : FVec Ideal S3 .f32)
    (i : Fin 65536) (q : Fin 3) :
    stCorrLin x A27 A28 (ix2 i q)
      = Net.affine (fun i k => A27 (ix2 i k)) (fun i => A28 (ix1 i)) (fun k => x (ix2 i k)) q := by
  unfold stCorrLin
  exact linear_apply _ rfl _ _ _ x A27 A28 i q

end Cert.RefSide

end
-- ==== Proof.RefReadAct.lean ====
/-
  The reference's elementwise functions read at an index: its exponential linear unit (two widths) and its
  softplus are the specification's, entry by entry.
-/
import proofs.«107767_j18107582120224_2_alg».proof.Proof.RefStages
import proofs.«107767_j18107582120224_2_alg».proof.Proof.RefReadOps

noncomputable section

open scoped BigOperators

namespace Cert.RefSide

open Cert.ReferenceIdeal Idealize.ShloMosaic Idealize.ShloMosaic.ValueIdx
open Cert.ReferenceIdeal.Facts₀ Cert.ReferenceIdeal.Facts

variable [Facts]

theorem stElu128_apply (x : FVec Ideal S65536x128 .f32) (j : S65536x128.Idx) : stElu128 x j = Net.elu (x j) := by
  unfold stElu128
  rw [select_apply, cmpf_ideal_apply, bcastScalar_apply, constant_apply, Net.ofBits_zero, mulf_apply, bcastScalar_apply,
    constant_apply, Net.ofBits_one, hostExpm1_apply, select_apply, cmpf_ideal_apply, bcastScalar_apply, constant_apply,
    Net.ofBits_zero, bcastScalar_apply, id_eq, constant_apply, Net.ofBits_zero]
  exact Net.elu_guarded (x j)

theorem stElu64_apply (x : FVec Ideal S65536x64 .f32) (j : S65536x64.Idx) : stElu64 x j = Net.elu (x j) := by
  unfold stElu64
  rw [select_apply, cmpf_ideal_apply, bcastScalar_apply, constant_apply, Net.ofBits_zero, mulf_apply, bcastScalar_apply,
    constant_apply, Net.ofBits_one, hostExpm1_apply, select_apply, cmpf_ideal_apply, bcastScalar_apply, constant_apply,
    Net.ofBits_zero, bcastScalar_apply, id_eq, constant_apply, Net.ofBits_zero]
  exact Net.elu_guarded (x j)

theorem stSoftplus_apply (x : FVec Ideal S65536x1 .f32) (j : S65536x1.Idx) : stSoftplus x j = Net.softplus (x j) := by
  simp only [stSoftplus]
  rw [select_apply, cmpf_ideal_apply, Net.select_ne_self .une (Or.inr rfl), addf_apply, maximumf_apply, hostLog1p_apply,
    hostExp_apply, hostNegf_apply, hostAbsf_apply, subf_apply, bcastScalar_apply, constant_apply, Net.ofBits_zero]
  exact Net.softplus_neg (x j)

end Cert.RefSide

end
-- ==== Proof.RefReadGru.lean ====
/-
  The reference's two recurrent cells at an index. A cell reads one slab of the state array as its hidden block,
  forms the input and hidden products (width 384) as affine layers, takes the logistic function of the sums of their
  reset and update thirds, the hyperbolic tangent of the candidate third of the input product plus the reset gate
  times that of the hidden product, and mixes the candidate with the hidden block by the update gate. The two cells
  differ only in the slab, so one lemma over any hidden block serves both.
-/
import proofs.«107767_j18107582120224_2_alg».proof.Proof.RefStages
import proofs.«107767_j18107582120224_2_alg».proof.Proof.RefReadOps
import proofs.«107767_j18107582120224_2_alg».proof.Proof.NetSpec
import Idealize.ShloMosaic.Lib.ValueIdx
import Idealize.ShloMosaic.Lib.Pipeline.Value
import Idealize.ShloMosaic.Lib.ValueLayout

noncomputable section

open scoped BigOperators

namespace Cert.RefSide

open Cert.ReferenceIdeal Idealize.ShloMosaic Idealize.ShloMosaic.ValueIdx
open Cert.ReferenceIdeal.Facts₀ Cert.ReferenceIdeal.Facts

variable [Facts]

/-! ## The slab -/

/-- Slab c of the state array, cut out and viewed without its unit axis, reads at (i, k) the array at (c, i, k). -/
theorem slab_apply (o : ℕ) (A29 : FVec Ideal S2x65536x128 .f32) (hs : S2x65536x128.Slices ![o, 0, 0] S1x65536x128)
    (c : Fin 2) (hc : c.val = o) (i : Fin 65536) (k : Fin 128) :
    shapeCast S65536x128 (extractStridedSlice S1x65536x128 ![o, 0, 0] A29 hs) shapeCasts_S1x65536x128_S65536x128
        (ix2 i k) = A29 (ix3 c i k) := by
  refine (shapeCast_1ab_ab_apply (a := 65536) (b := 128) _ shapeCasts_S1x65536x128_S65536x128 i k).trans ?_
  refine extractStridedSlice_apply _ A29 hs (ix3 (0 : Fin 1) i k) (ix3 c i k) fun a => ?_
  match a with
  | ⟨0, _⟩ => show c.val = o + 0; omega
  | ⟨1, _⟩ => show i.val = 0 + i.val; omega
  | ⟨2, _⟩ => show k.val = 0 + k.val; omega

/-! ## The logistic function written out -/

/-- The block of ones. -/
def onesBlock : FVec Ideal S65536x128 .f32 :=
  broadcastInDim S65536x128 ![] bcast_S_S65536x128 (constant (F := Ideal) S_ .f32 0x3F800000#32)

theorem onesBlock_apply (j : S65536x128.Idx) : onesBlock j = 1 :=
  (bcastScalar_apply bcast_S_S65536x128 _ j).trans Net.ofBits_one

/-- One over one plus the exponential of the negation. -/
def sigmoidBlock (v : FVec Ideal S65536x128 .f32) : FVec Ideal S65536x128 .f32 :=
  Host.divf (F := Ideal) onesBlock (addf onesBlock (Host.exp (F := Ideal) (Host.negf (F := Ideal) v)))

theorem sigmoidBlock_apply (v : FVec Ideal S65536x128 .f32) (j : S65536x128.Idx) :
    sigmoidBlock v j = Ideal.logistic (v j) := by
  show Ideal.div (onesBlock j) (onesBlock j + Ideal.exp (-(v j))) = _
  rw [onesBlock_apply]
  exact Net.logistic_expanded (v j)

/-! ## The cell over any hidden block -/

/-- An affine layer of width 384 as the reference spells it. -/
def gates (x : FVec Ideal S65536x128 .f32) (W : FVec Ideal S384x128 .f32) (b : FVec Ideal S384 .f32) :
    FVec Ideal S65536x384 .f32 :=
  addf (Host.dotGeneral (F := Ideal) dot_S65536x128_S128x384_S65536x384_1_0_0_1_n_n none x
      (transpose S128x384 [1, 0] W transposes_S384x128_S128x384_1_0))
    (broadcastInDim S65536x384 ![0, 1] bcast_S1x384_S65536x384_0_1 (broadcastInDim S1x384 ![1] bcast_S384_S1x384_1 b))

theorem gates_apply (x : FVec Ideal S65536x128 .f32) (W : FVec Ideal S384x128 .f32) (b : FVec Ideal S384 .f32)
    (i : Fin 65536) (p : Fin 384) :
    gates x W b (ix2 i p) = Net.affine (fun i k => W (ix2 i k)) (fun i => b (ix1 i)) (fun k => x (ix2 i k)) p :=
  linear_apply (M := 65536) (K := 128) (N := 384) dot_S65536x128_S128x384_S65536x384_1_0_0_1_n_n rfl
    transposes_S384x128_S128x384_1_0 bcast_S384_S1x384_1 bcast_S1x384_S65536x384_0_1 x W b i p

/-- The cell on an input block x and a hidden block h. -/
def cell (x h : FVec Ideal S65536x128 .f32) (Wih Whh : FVec Ideal S384x128 .f32) (bih bhh : FVec Ideal S384 .f32) :
    FVec Ideal S65536x128 .f32 :=
  let gi := gates x Wih bih
  let gh := gates h Whh bhh
  let r := sigmoidBlock (addf (extractStridedSlice S65536x128 ![0, 0] gi slices_S65536x384_S65536x128_0_0)
    (extractStridedSlice S65536x128 ![0, 0] gh slices_S65536x384_S65536x128_0_0))
  let z := sigmoidBlock (addf (extractStridedSlice S65536x128 ![0, 128] gi slices_S65536x384_S65536x128_0_128)
    (extractStridedSlice S65536x128 ![0, 128] gh slices_S65536x384_S65536x128_0_128))
  let n := Host.tanh (F := Ideal) (addf (extractStridedSlice S65536x128 ![0, 256] gi slices_S65536x384_S65536x128_0_256)
    (mulf r (extractStridedSlice S65536x128 ![0, 256] gh slices_S65536x384_S65536x128_0_256)))
  addf (mulf (subf onesBlock z) n) (mulf z h)

theorem cell_apply (x h : FVec Ideal S65536x128 .f32) (Wih Whh : FVec Ideal S384x128 .f32)
    (bih bhh : FVec Ideal S384 .f32) (i : Fin 65536) (q : Fin 128) :
    cell x h Wih Whh bih bhh (ix2 i q)
      = Net.gru (fun i k => Wih (ix2 i k)) (fun i k => Whh (ix2 i k)) (fun i => bih (ix1 i)) (fun i => bhh (ix1 i))
          (fun k => x (ix2 i k)) (fun k => h (ix2 i k)) q := by
  have t0 : ∀ g : FVec Ideal S65536x384 .f32,
      extractStridedSlice S65536x128 ![0, 0] g slices_S65536x384_S65536x128_0_0 (ix2 i q)
        = g (ix2 i (⟨q.val, by omega⟩ : Fin 384)) :=
    fun g => slice2_axis1_apply 0 g slices_S65536x384_S65536x128_0_0 i q _ (Nat.zero_add _).symm
  have t1 : ∀ g : FVec Ideal S65536x384 .f32,
      extractStridedSlice S65536x128 ![0, 128] g slices_S65536x384_S65536x128_0_128 (ix2 i q)
        = g (ix2 i (⟨128 + q.val, by omega⟩ : Fin 384)) :=
    fun g => slice2_axis1_apply 128 g slices_S65536x384_S65536x128_0_128 i q _ rfl
  have t2 : ∀ g : FVec Ideal S65536x384 .f32,
      extractStridedSlice S65536x128 ![0, 256] g slices_S65536x384_S65536x128_0_256 (ix2 i q)
        = g (ix2 i (⟨256 + q.val, by omega⟩ : Fin 384)) :=
    fun g => slice2_axis1_apply 256 g slices_S65536x384_S65536x128_0_256 i q _ rfl
  unfold cell Net.gru
  dsimp only
  simp only [addf_apply, mulf_apply, subf_apply, hostTanh_apply, sigmoidBlock_apply, onesBlock_apply, t0, t1, t2,
    gates_apply]

/-! ## The two cells -/

theorem stGru0_eq (x : FVec Ideal S65536x128 .f32) (A29 : FVec Ideal S2x65536x128 .f32)
    (A13 A14 : FVec Ideal S384x128 .f32) (A15 A16 : FVec Ideal S384 .f32) :
    stGru0 x A29 A13 A14 A15 A16
      = cell x (shapeCast S65536x128 (extractStridedSlice S1x65536x128 ![0, 0, 0] A29
          slices_S2x65536x128_S1x65536x128_0_0_0) shapeCasts_S1x65536x128_S65536x128) A13 A14 A15 A16 := rfl

theorem stGru1_eq (x : FVec Ideal S65536x128 .f32) (A29 : FVec Ideal S2x65536x128 .f32)
    (A17 A18 : FVec Ideal S384x128 .f32) (A19 A20 : FVec Ideal S384 .f32) :
    stGru1 x A29 A17 A18 A19 A20
      = cell x (shapeCast S65536x128 (extractStridedSlice S1x65536x128 ![1, 0, 0] A29
          slices_S2x65536x128_S1x65536x128_1_0_0) shapeCasts_S1x65536x128_S65536x128) A17 A18 A19 A20 := rfl

/-- The first cell, on the first slab of the state array. -/
theorem stGru0_apply (x : FVec Ideal S65536x128 .f32) (A29 : FVec Ideal S2x65536x128 .f32)
    (A13 A14 : FVec Ideal S384x128 .f32) (A15 A16 : FVec Ideal S384 .f32) (i : Fin 65536) (q : Fin 128) :
    stGru0 x A29 A13 A14 A15 A16 (ix2 i q)
      = Net.gru (fun i k => A13 (ix2 i k)) (fun i k => A14 (ix2 i k)) (fun i => A15 (ix1 i)) (fun i => A16 (ix1 i))
          (fun k => x (ix2 i k)) (fun k => A29 (ix3 (0 : Fin 2) i k)) q := by
  rw [stGru0_eq]
  refine (cell_apply x _ A13 A14 A15 A16 i q).trans ?_
  refine congrArg (fun hrow => Net.gru (fun i k => A13 (ix2 i k)) (fun i k => A14 (ix2 i k)) (fun i => A15 (ix1 i))
    (fun i => A16 (ix1 i)) (fun k => x (ix2 i k)) hrow q) (funext fun k => ?_)
  exact slab_apply 0 A29 slices_S2x65536x128_S1x65536x128_0_0_0 (0 : Fin 2) rfl i k

/-- The second cell, on the second slab. -/
theorem stGru1_apply (x : FVec Ideal S65536x128 .f32) (A29 : FVec Ideal S2x65536x128 .f32)
    (A17 A18 : FVec Ideal S384x128 .f32) (A19 A20 : FVec Ideal S384 .f32) (i : Fin 65536) (q : Fin 128) :
    stGru1 x A29 A17 A18 A19 A20 (ix2 i q)
      = Net.gru (fun i k => A17 (ix2 i k)) (fun i k => A18 (ix2 i k)) (fun i => A19 (ix1 i)) (fun i => A20 (ix1 i))
          (fun k => x (ix2 i k)) (fun k => A29 (ix3 (1 : Fin 2) i k)) q := by
  rw [stGru1_eq]
  refine (cell_apply x _ A17 A18 A19 A20 i q).trans ?_
  refine congrArg (fun hrow => Net.gru (fun i k => A17 (ix2 i k)) (fun i k => A18 (ix2 i k)) (fun i => A19 (ix1 i))
    (fun i => A20 (ix1 i)) (fun k => x (ix2 i k)) hrow q) (funext fun k => ?_)
  exact slab_apply 1 A29 slices_S2x65536x128_S1x65536x128_1_0_0 (1 : Fin 2) rfl i k

end Cert.RefSide

end
-- ==== Proof.RefRead.lean ====
/-
  The reference's result read at an index: entry `(i, j)` of the array the reference returns is the specification's
  row function of row `i` of the inputs — the observations' seven pieces, the weights, the two slabs of the state
  array — at `j`. The stages are read one by one (the sibling modules) and composed here; the two-way concatenation
  at the end puts the scale in column 0 and the three corrections in columns 1 to 3.
-/
import proofs.«107767_j18107582120224_2_alg».proof.Proof.RefStages
import proofs.«107767_j18107582120224_2_alg».proof.Proof.RefReadOps
import proofs.«107767_j18107582120224_2_alg».proof.Proof.RefReadNorm
import proofs.«107767_j18107582120224_2_alg».proof.Proof.RefReadLin
import proofs.«107767_j18107582120224_2_alg».proof.Proof.RefReadAct
import proofs.«107767_j18107582120224_2_alg».proof.Proof.RefReadGru

noncomputable section

open scoped BigOperators

namespace Cert.RefSide

open Cert.ReferenceIdeal Idealize.ShloMosaic Idealize.ShloMosaic.ValueIdx
open Cert.ReferenceIdeal.Facts₀ Cert.ReferenceIdeal.Facts

variable [Facts]

/-- The hidden array at `(i, q)`: the specification's hidden row of row `i`, at `q`. -/
theorem refHidden_apply (A0 : FVec Ideal S65536x3 .f32) (A1 : FVec Ideal S65536x3 .f32) (A2 : FVec Ideal S65536x1 .f32) (A3 : FVec Ideal S65536x3 .f32) (A4 : FVec Ideal S65536x3 .f32) (A5 : FVec Ideal S65536x3 .f32) (A6 : FVec Ideal S65536x4 .f32) (A7 : FVec Ideal S20 .f32) (A8 : FVec Ideal S20 .f32) (A9 : FVec Ideal S128x20 .f32) (A10 : FVec Ideal S128 .f32) (A11 : FVec Ideal S128x128 .f32) (A12 : FVec Ideal S128 .f32) (A13 : FVec Ideal S384x128 .f32) (A14 : FVec Ideal S384x128 .f32) (A15 : FVec Ideal S384 .f32) (A16 : FVec Ideal S384 .f32) (A17 : FVec Ideal S384x128 .f32) (A18 : FVec Ideal S384x128 .f32) (A19 : FVec Ideal S384 .f32) (A20 : FVec Ideal S384 .f32) (A21 : FVec Ideal S64x128 .f32) (A22 : FVec Ideal S64 .f32) (A23 : FVec Ideal S1x64 .f32) (A24 : FVec Ideal S1 .f32) (A25 : FVec Ideal S64x128 .f32) (A26 : FVec Ideal S64 .f32) (A27 : FVec Ideal S3x64 .f32) (A28 : FVec Ideal S3 .f32) (A29 : FVec Ideal S2x65536x128 .f32) (i : Fin 65536) (q : Fin 128) :
    refHidden A0 A1 A2 A3 A4 A5 A6 A7 A8 A9 A10 A11 A12 A13 A14 A15 A16 A17 A18 A19 A20 A21 A22 A23 A24 A25 A26 A27 A28 A29 (ix2 i q)
      = Net.hidden (Net.paramsOf A7 A8 A9 A10 A11 A12 A13 A14 A15 A16 A17 A18 A19 A20 A21 A22 A23 A24 A25 A26 A27 A28) (Net.obsRow (fun k => A0 (ix2 i k)) (fun k => A1 (ix2 i k)) (fun k => A2 (ix2 i k)) (fun k => A3 (ix2 i k)) (fun k => A4 (ix2 i k)) (fun k => A5 (ix2 i k)) (fun k => A6 (ix2 i k)))
          (fun k => A29 (ix3 (0 : Fin 2) i k)) (fun k => A29 (ix3 (1 : Fin 2) i k)) q := by
  unfold refHidden Net.hidden
  rw [stGru1_apply]
  simp only [stGru0_apply, stLin2_apply, stElu128_apply, stLin1_apply, stNorm_apply]
  rfl

/-- The reference's result at `(i, j)`: the specification's row function of row `i`, at `j`. -/
theorem refOut_apply (A0 : FVec Ideal S65536x3 .f32) (A1 : FVec Ideal S65536x3 .f32) (A2 : FVec Ideal S65536x1 .f32) (A3 : FVec Ideal S65536x3 .f32) (A4 : FVec Ideal S65536x3 .f32) (A5 : FVec Ideal S65536x3 .f32) (A6 : FVec Ideal S65536x4 .f32) (A7 : FVec Ideal S20 .f32) (A8 : FVec Ideal S20 .f32) (A9 : FVec Ideal S128x20 .f32) (A10 : FVec Ideal S128 .f32) (A11 : FVec Ideal S128x128 .f32) (A12 : FVec Ideal S128 .f32) (A13 : FVec Ideal S384x128 .f32) (A14 : FVec Ideal S384x128 .f32) (A15 : FVec Ideal S384 .f32) (A16 : FVec Ideal S384 .f32) (A17 : FVec Ideal S384x128 .f32) (A18 : FVec Ideal S384x128 .f32) (A19 : FVec Ideal S384 .f32) (A20 : FVec Ideal S384 .f32) (A21 : FVec Ideal S64x128 .f32) (A22 : FVec Ideal S64 .f32) (A23 : FVec Ideal S1x64 .f32) (A24 : FVec Ideal S1 .f32) (A25 : FVec Ideal S64x128 .f32) (A26 : FVec Ideal S64 .f32) (A27 : FVec Ideal S3x64 .f32) (A28 : FVec Ideal S3 .f32) (A29 : FVec Ideal S2x65536x128 .f32) (i : Fin 65536) (j : Fin 4) :
    refOut A0 A1 A2 A3 A4 A5 A6 A7 A8 A9 A10 A11 A12 A13 A14 A15 A16 A17 A18 A19 A20 A21 A22 A23 A24 A25 A26 A27 A28 A29 (ix2 i j)
      = Net.rowNet (Net.paramsOf A7 A8 A9 A10 A11 A12 A13 A14 A15 A16 A17 A18 A19 A20 A21 A22 A23 A24 A25 A26 A27 A28) (Net.obsRow (fun k => A0 (ix2 i k)) (fun k => A1 (ix2 i k)) (fun k => A2 (ix2 i k)) (fun k => A3 (ix2 i k)) (fun k => A4 (ix2 i k)) (fun k => A5 (ix2 i k)) (fun k => A6 (ix2 i k)))
          (fun k => A29 (ix3 (0 : Fin 2) i k)) (fun k => A29 (ix3 (1 : Fin 2) i k)) j := by
  unfold refOut Net.rowNet
  by_cases hj : j.val < 1
  · rw [dif_pos hj]
    refine (concatenate_pair_apply_left (t := S65536x4) 1 _ _ concatenates_S65536x1_S65536x3_S65536x4_d1 (ix2 i j) rfl
      (ix2 i (0 : Fin 1)) (fun b => ?_)).trans ?_
    · match b with
      | ⟨0, _⟩ => rfl
      | ⟨1, _⟩ =>
        show (0 : ℕ) = j.val
        omega
    · rw [stSoftplus_apply, stScaleLin_apply]
      unfold Net.scaleHead
      simp only [stElu64_apply, stHead64_apply, refHidden_apply]
      rfl
  · rw [dif_neg hj]
    refine (concatenate_pair_apply_right (t := S65536x4) 1 _ _ concatenates_S65536x1_S65536x3_S65536x4_d1 (ix2 i j) rfl rfl
      (ix2 i ⟨j.val - 1, by omega⟩) (fun b hb => ?_) ?_).trans ?_
    · match b with
      | ⟨0, _⟩ => rfl
      | ⟨1, _⟩ => exact absurd rfl hb
    · show (j.val - 1) + 1 = j.val
      omega
    · rw [stCorrLin_apply]
      unfold Net.corrHead
      simp only [stElu64_apply, stHead64_apply, refHidden_apply]
      rfl

end Cert.RefSide

end
-- ==== Proof.lean ====
/-
  The certificate's five claims.

  Frames. The word-level kernel and its idealisation each run to the end with nothing faulting and leave the thirty
  argument arrays as they were; the reference, a host program, does the same.
  Idealisation. The ideal pass rewrote no operation of this kernel, so there is nothing to preserve.
  Values. Read on the extended reals, the kernel's result array and the reference's are the same function of the
  arguments: row i of the result is the row function of Proof/NetSpec.lean — layer norm, two affine layers with an
  exponential linear unit, two gated recurrent cells, a softplus scale head and a three-entry correction head — of
  row i of the seven observation arrays, row i of the two slabs of the stacked initial hidden states, and the weights.
  The kernel computes it on 128 blocks of 512 rows (Proof/KernelRow.lean: one block; Proof/KernelBlocks.lean and
  Proof/KernelArray.lean: the blocks tile the array), the reference on all rows at once (Proof/RefRun.lean: its run;
  Proof/RefRead.lean: its result at an index). Only the order of finite sums and three spellings (the unit with expm1
  under a guard, the logistic function expanded, the negation in the softplus) differ between the two, so no law
  that needs finite inputs is used and the precondition is never opened.
-/
import proofs.«107767_j18107582120224_2_alg».proof.Defs
import proofs.«107767_j18107582120224_2_alg».proof.Proof.Gen.Kernel
import proofs.«107767_j18107582120224_2_alg».proof.Proof.Gen.KernelIdeal
import proofs.«107767_j18107582120224_2_alg».proof.Proof.Gen.ReferenceIdeal
import proofs.«107767_j18107582120224_2_alg».proof.Proof.Gen.Pre_finite_inputs
import proofs.«107767_j18107582120224_2_alg».proof.Proof.FrameKernel
import proofs.«107767_j18107582120224_2_alg».proof.Proof.FrameKernelIdeal
import proofs.«107767_j18107582120224_2_alg».proof.Proof.KernelArray
import proofs.«107767_j18107582120224_2_alg».proof.Proof.RefRun
import proofs.«107767_j18107582120224_2_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.GenP.frame m ρ

theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.RefSide.run m ρ)

theorem preserves : Cert.preserves_Kernel_KernelIdeal := trivial

/-- Both runs end with the result array at the row function of the arguments, row by row; the arguments agree. -/
theorem algebraic : Cert.algebraic_KernelIdeal_ReferenceIdeal := by
  intro m ρ m' ρ' _ hagree
  refine ⟨fun c => Cert.KernelIdeal.ArrayValue.GM m c, Cert.KernelIdeal.ArrayValue.run m ρ, ?_⟩
  refine (θ_run Cert.ReferenceIdeal.defs _ _).mono (fun _ h c => ⟨(h c).1.trans ?_, (h c).2⟩)
    (Cert.RefSide.run m' ρ')
  obtain ⟨h0, h1, h2, h3, h4, h5, h6, h7, h8, h9, h10, h11, h12, h13, h14, h15, h16, h17, h18, h19, h20, h21, h22, h23, h24, h25, h26, h27, h28, h29⟩ := hagree c
  rw [h0, h1, h2, h3, h4, h5, h6, h7, h8, h9, h10, h11, h12, h13, h14, h15, h16, h17, h18, h19, h20, h21, h22, h23, h24, h25, h26, h27, h28, h29]
  funext i
  obtain ⟨p, q, rfl⟩ : ∃ (p : Fin 65536) (q : Fin 4), i = ix2 p q := ⟨i 0, i 1, eq_ix2 i⟩
  rw [Cert.RefSide.refOut_apply]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
